-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x100 : Shape := ⟨2, ![100000, 100]⟩
abbrev S1024x50 : Shape := ⟨2, ![1024, 50]⟩
abbrev S300x100 : Shape := ⟨2, ![300, 100]⟩
abbrev S300 : Shape := ⟨1, ![300]⟩
abbrev S3x100 : Shape := ⟨2, ![3, 100]⟩
abbrev S3 : Shape := ⟨1, ![3]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S300x100 : S_.BroadcastsInDim S300x100 (![] : Fin 0 → Fin S300x100.rank)
  reducesTo_S300x100_S_d0_1 : S300x100.ReducesTo [0, 1] S_
  bcast_S_S300 : S_.BroadcastsInDim S300 (![] : Fin 0 → Fin S300.rank)
  reducesTo_S300_S_d0 : S300.ReducesTo [0] S_
  bcast_S_S3x100 : S_.BroadcastsInDim S3x100 (![] : Fin 0 → Fin S3x100.rank)
  reducesTo_S3x100_S_d0_1 : S3x100.ReducesTo [0, 1] S_
  bcast_S_S3 : S_.BroadcastsInDim S3 (![] : Fin 0 → Fin S3.rank)
  reducesTo_S3_S_d0 : S3.ReducesTo [0] S_
  bcast_S_S1024x50 : S_.BroadcastsInDim S1024x50 (![] : Fin 0 → Fin S1024x50.rank)
  reducesTo_S1024x50_S_d0_1 : S1024x50.ReducesTo [0, 1] S_

variable [Facts]

def fn_part2 {F : FTy → Type} [FloatOps F] (main_arg1 : IVec S1024x50 32) (main_v33 : IVec S_ 1) : IVec S_ 1 :=
  let main_c_12 : IVec S_ 32 := constantI S_ 32 0#32
  let main_v34 : IVec S1024x50 32 := broadcastInDim S1024x50 ![] bcast_S_S1024x50 main_c_12
  let main_v35 : IVec S1024x50 1 := cmpi .sge main_arg1 main_v34
  let main_c_13 : IVec S_ 32 := constantI S_ 32 99999#32
  let main_v36 : IVec S1024x50 32 := broadcastInDim S1024x50 ![] bcast_S_S1024x50 main_c_13
  let main_v37 : IVec S1024x50 1 := cmpi .sle main_arg1 main_v36
  let main_v38 : IVec S1024x50 1 := andi main_v35 main_v37
  let main_c_14 : IVec S_ 1 := constantI S_ 1 1#1
  let main_v39 : IVec S_ 1 := (fun x v => Host.reduce IntOp.andi x v reducesTo_S1024x50_S_d0_1 h_S_) main_v38 main_c_14
  let main_v40 : IVec S_ 1 := andi main_v33 main_v39
  main_v40

def fn_part1 {F : FTy → Type} [FloatOps F] (main_arg1 : IVec S1024x50 32) (main_arg5 : FVec F S300 .f32) (main_arg6 : FVec F S3x100 .f32) (main_arg7 : FVec F S3 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S300 .f32 := Host.absf main_arg5
  let main_cst_6 : FVec F S_ .f32 := constant S_ .f32 0x7F800000#32
  let main_v20 : FVec F S300 .f32 := broadcastInDim S300 ![] bcast_S_S300 main_cst_6
  let main_v21 : IVec S300 1 := cmpf .olt main_v19 main_v20
  let main_c_7 : IVec S_ 1 := constantI S_ 1 1#1
  let main_v22 : IVec S_ 1 := (fun x v => Host.reduce IntOp.andi x v reducesTo_S300_S_d0 h_S_) main_v21 main_c_7
  let main_v23 : IVec S_ 1 := andi main_v18 main_v22
  let main_v24 : FVec F S3x100 .f32 := Host.absf main_arg6
  let main_cst_8 : FVec F S_ .f32 := constant S_ .f32 0x7F800000#32
  let main_v25 : FVec F S3x100 .f32 := broadcastInDim S3x100 ![] bcast_S_S3x100 main_cst_8
  let main_v26 : IVec S3x100 1 := cmpf .olt main_v24 main_v25
  let main_c_9 : IVec S_ 1 := constantI S_ 1 1#1
  let main_v27 : IVec S_ 1 := (fun x v => Host.reduce IntOp.andi x v reducesTo_S3x100_S_d0_1 h_S_) main_v26 main_c_9
  let main_v28 : IVec S_ 1 := andi main_v23 main_v27
  let main_v29 : FVec F S3 .f32 := Host.absf main_arg7
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  fn_part2 (F := F) main_arg1 main_v33

def fn {F : FTy → Type} [FloatOps F] (main_arg0 : FVec F S100000x100 .f32) (main_arg1 : IVec S1024x50 32) (main_arg2 : FVec F S300x100 .f32) (main_arg3 : FVec F S300x100 .f32) (main_arg4 : FVec F S300 .f32) (main_arg5 : FVec F S300 .f32) (main_arg6 : FVec F S3x100 .f32) (main_arg7 : FVec F S3 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S300x100 .f32 := Host.absf main_arg2
  let main_cst_0 : FVec F S_ .f32 := constant S_ .f32 0x7F800000#32
  let main_v5 : FVec F S300x100 .f32 := broadcastInDim S300x100 ![] bcast_S_S300x100 main_cst_0
  let main_v6 : IVec S300x100 1 := cmpf .olt main_v4 main_v5
  let main_c_1 : IVec S_ 1 := constantI S_ 1 1#1
  let main_v7 : IVec S_ 1 := (fun x v => Host.reduce IntOp.andi x v reducesTo_S300x100_S_d0_1 h_S_) main_v6 main_c_1
  let main_v8 : IVec S_ 1 := andi main_v3 main_v7
  let main_v9 : FVec F S300x100 .f32 := Host.absf main_arg3
  let main_cst_2 : FVec F S_ .f32 := constant S_ .f32 0x7F800000#32
  let main_v10 : FVec F S300x100 .f32 := broadcastInDim S300x100 ![] bcast_S_S300x100 main_cst_2
  let main_v11 : IVec S300x100 1 := cmpf .olt main_v9 main_v10
  let main_c_3 : IVec S_ 1 := constantI S_ 1 1#1
  let main_v12 : IVec S_ 1 := (fun x v => Host.reduce IntOp.andi x v reducesTo_S300x100_S_d0_1 h_S_) main_v11 main_c_3
  let main_v13 : IVec S_ 1 := andi main_v8 main_v12
  let main_v14 : FVec F S300 .f32 := Host.absf main_arg4
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg1 main_arg5 main_arg6 main_arg7 main_v13 main_v16
-- ==== Kernel.lean ====
abbrev S100000x100 : Shape := ⟨2, ![100000, 100]⟩
abbrev S1024x50 : Shape := ⟨2, ![1024, 50]⟩
abbrev S300x100 : Shape := ⟨2, ![300, 100]⟩
abbrev S300 : Shape := ⟨1, ![300]⟩
abbrev S3x100 : Shape := ⟨2, ![3, 100]⟩
abbrev S3 : Shape := ⟨1, ![3]⟩
abbrev S100000x128 : Shape := ⟨2, ![100000, 128]⟩
abbrev S4000x100 : Shape := ⟨2, ![4000, 100]⟩
abbrev S4000x128 : Shape := ⟨2, ![4000, 128]⟩
abbrev S4000x28 : Shape := ⟨2, ![4000, 28]⟩
abbrev S50x1024 : Shape := ⟨2, ![50, 1024]⟩
abbrev S51200 : Shape := ⟨1, ![51200]⟩
abbrev S51200x128 : Shape := ⟨2, ![51200, 128]⟩
abbrev S1600 : Shape := ⟨1, ![1600]⟩
abbrev S400x128 : Shape := ⟨2, ![400, 128]⟩
abbrev S_ : Shape := ⟨0, ![]⟩
abbrev S400 : Shape := ⟨1, ![400]⟩
abbrev S50x1024x128 : Shape := ⟨3, ![50, 1024, 128]⟩
abbrev S3x100x100 : Shape := ⟨3, ![3, 100, 100]⟩
abbrev S3x128x128 : Shape := ⟨3, ![3, 128, 128]⟩
abbrev S128x128 : Shape := ⟨2, ![128, 128]⟩
abbrev S1x128x128 : Shape := ⟨3, ![1, 128, 128]⟩
abbrev S128x512 : Shape := ⟨2, ![128, 512]⟩
abbrev S256x512 : Shape := ⟨2, ![256, 512]⟩
abbrev S3x128 : Shape := ⟨2, ![3, 128]⟩
abbrev S1x128 : Shape := ⟨2, ![1, 128]⟩
abbrev S128 : Shape := ⟨1, ![128]⟩
abbrev S512 : Shape := ⟨1, ![512]⟩
abbrev S1x512 : Shape := ⟨2, ![1, 512]⟩
abbrev S100x3 : Shape := ⟨2, ![100, 3]⟩
abbrev S128x3 : Shape := ⟨2, ![128, 3]⟩
abbrev S1x3 : Shape := ⟨2, ![1, 3]⟩
abbrev S1024x3 : Shape := ⟨2, ![1024, 3]⟩
abbrev S1x1024x128 : Shape := ⟨3, ![1, 1024, 128]⟩
abbrev S1024x256 : Shape := ⟨2, ![1024, 256]⟩
abbrev S1024x128 : Shape := ⟨2, ![1024, 128]⟩
abbrev S1024x512 : Shape := ⟨2, ![1024, 512]⟩

abbrev nBuf : Table → Nat
  | .hbm => 70
  | .local .tc .vmem => 12
  | .local .scVector .vmem => 2
  | _ => 0

abbrev bufTy : (tb : Table) → Fin (nBuf tb) → BufTy
  | .hbm, ⟨0, _⟩ => ⟨S100000x100, .f32⟩
  | .hbm, ⟨1, _⟩ => ⟨S1024x50, .i32⟩
  | .hbm, ⟨2, _⟩ => ⟨S300x100, .f32⟩
  | .hbm, ⟨3, _⟩ => ⟨S300x100, .f32⟩
  | .hbm, ⟨4, _⟩ => ⟨S300, .f32⟩
  | .hbm, ⟨5, _⟩ => ⟨S300, .f32⟩
  | .hbm, ⟨6, _⟩ => ⟨S3x100, .f32⟩
  | .hbm, ⟨7, _⟩ => ⟨S3, .f32⟩
  | .hbm, ⟨8, _⟩ => ⟨S100000x128, .f32⟩
  | .hbm, ⟨9, _⟩ => ⟨S50x1024, .i32⟩
  | .hbm, ⟨10, _⟩ => ⟨S51200, .i32⟩
  | .hbm, ⟨11, _⟩ => ⟨S51200x128, .f32⟩
  | .hbm, ⟨12, _⟩ => ⟨S50x1024x128, .f32⟩
  | .hbm, ⟨13, _⟩ => ⟨S3x100x100, .f32⟩
  | .hbm, ⟨14, _⟩ => ⟨S3x100x100, .f32⟩
  | .hbm, ⟨15, _⟩ => ⟨S_, .i32⟩
  | .hbm, ⟨16, _⟩ => ⟨S_, .f32⟩
  | .hbm, ⟨17, _⟩ => ⟨S3x128x128, .f32⟩
  | .hbm, ⟨18, _⟩ => ⟨S3x100x100, .f32⟩
  | .hbm, ⟨19, _⟩ => ⟨S3x100x100, .f32⟩
  | .hbm, ⟨20, _⟩ => ⟨S_, .i32⟩
  | .hbm, ⟨21, _⟩ => ⟨S_, .f32⟩
  | .hbm, ⟨22, _⟩ => ⟨S3x128x128, .f32⟩
  | .hbm, ⟨23, _⟩ => ⟨S_, .f32⟩
  | .hbm, ⟨24, _⟩ => ⟨S128x128, .f32⟩
  | .hbm, ⟨25, _⟩ => ⟨S1x128x128, .f32⟩
  | .hbm, ⟨26, _⟩ => ⟨S128x128, .f32⟩
  | .hbm, ⟨27, _⟩ => ⟨S1x128x128, .f32⟩
  | .hbm, ⟨28, _⟩ => ⟨S128x128, .f32⟩
  | .hbm, ⟨29, _⟩ => ⟨S1x128x128, .f32⟩
  | .hbm, ⟨30, _⟩ => ⟨S128x128, .f32⟩
  | .hbm, ⟨31, _⟩ => ⟨S128x512, .f32⟩
  | .hbm, ⟨32, _⟩ => ⟨S1x128x128, .f32⟩
  | .hbm, ⟨33, _⟩ => ⟨S128x128, .f32⟩
  | .hbm, ⟨34, _⟩ => ⟨S1x128x128, .f32⟩
  | .hbm, ⟨35, _⟩ => ⟨S128x128, .f32⟩
  | .hbm, ⟨36, _⟩ => ⟨S1x128x128, .f32⟩
  | .hbm, ⟨37, _⟩ => ⟨S128x128, .f32⟩
  | .hbm, ⟨38, _⟩ => ⟨S128x512, .f32⟩
  | .hbm, ⟨39, _⟩ => ⟨S256x512, .f32⟩
  | .hbm, ⟨40, _⟩ => ⟨S3x100, .f32⟩
  | .hbm, ⟨41, _⟩ => ⟨S_, .i32⟩
  | .hbm, ⟨42, _⟩ => ⟨S_, .f32⟩
  | .hbm, ⟨43, _⟩ => ⟨S3x128, .f32⟩
  | .hbm, ⟨44, _⟩ => ⟨S3x100, .f32⟩
  | .hbm, ⟨45, _⟩ => ⟨S_, .i32⟩
  | .hbm, ⟨46, _⟩ => ⟨S_, .f32⟩
  | .hbm, ⟨47, _⟩ => ⟨S3x128, .f32⟩
  | .hbm, ⟨48, _⟩ => ⟨S1x128, .f32⟩
  | .hbm, ⟨49, _⟩ => ⟨S128, .f32⟩
  | .hbm, ⟨50, _⟩ => ⟨S1x128, .f32⟩
  | .hbm, ⟨51, _⟩ => ⟨S128, .f32⟩
  | .hbm, ⟨52, _⟩ => ⟨S128, .f32⟩
  | .hbm, ⟨53, _⟩ => ⟨S1x128, .f32⟩
  | .hbm, ⟨54, _⟩ => ⟨S128, .f32⟩
  | .hbm, ⟨55, _⟩ => ⟨S1x128, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S128, .f32⟩
  | .hbm, ⟨60, _⟩ => ⟨S1x128, .f32⟩
  | .hbm, ⟨61, _⟩ => ⟨S128, .f32⟩
  | .hbm, ⟨62, _⟩ => ⟨S512, .f32⟩
  | .hbm, ⟨63, _⟩ => ⟨S1x512, .f32⟩
  | .hbm, ⟨64, _⟩ => ⟨S100x3, .f32⟩
  | .hbm, ⟨65, _⟩ => ⟨S_, .i32⟩
  | .hbm, ⟨66, _⟩ => ⟨S_, .f32⟩
  | .hbm, ⟨67, _⟩ => ⟨S128x3, .f32⟩
  | .hbm, ⟨68, _⟩ => ⟨S1x3, .f32⟩
  | .hbm, ⟨69, _⟩ => ⟨S1024x3, .f32⟩
  | .local .tc .vmem, ⟨0, _⟩ => ⟨S4000x100, .f32⟩
  | .local .tc .vmem, ⟨1, _⟩ => ⟨S4000x100, .f32⟩
  | .local .tc .vmem, ⟨2, _⟩ => ⟨S4000x128, .f32⟩
  | .local .tc .vmem, ⟨3, _⟩ => ⟨S4000x128, .f32⟩
  | .local .tc .vmem, ⟨4, _⟩ => ⟨S1x1024x128, .f32⟩
  | .local .tc .vmem, ⟨5, _⟩ => ⟨S1x1024x128, .f32⟩
  | .local .tc .vmem, ⟨6, _⟩ => ⟨S256x512, .f32⟩
  | .local .tc .vmem, ⟨7, _⟩ => ⟨S1x512, .f32⟩
  | .local .tc .vmem, ⟨8, _⟩ => ⟨S128x3, .f32⟩
  | .local .tc .vmem, ⟨9, _⟩ => ⟨S1x3, .f32⟩
  | .local .tc .vmem, ⟨10, _⟩ => ⟨S1024x3, .f32⟩
  | .local .tc .vmem, ⟨11, _⟩ => ⟨S1024x256, .f32⟩
  | .local .scVector .vmem, ⟨0, _⟩ => ⟨S1600, .i32⟩
  | .local .scVector .vmem, ⟨1, _⟩ => ⟨S400x128, .f32⟩
  | _, _ => ⟨S100000x100, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_call1_v0 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_1 : Ref sig .tc := ⟨.hbm, 41, rfl⟩
abbrev main_call2_v0 : Ref sig .tc := ⟨.hbm, 42, rfl⟩
abbrev main_v28 : Ref sig .tc := ⟨.hbm, 43, rfl⟩
abbrev main_v29 : Ref sig .tc := ⟨.hbm, 44, rfl⟩
abbrev main_c_2 : Ref sig .tc := ⟨.hbm, 45, rfl⟩
abbrev main_call3_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_3 : Ref sig .tc := ⟨.hbm, 65, rfl⟩
abbrev main_call4_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v2_scv : Ref sig .scVector := ⟨.hbm, 10, rfl⟩
abbrev main_v0_scv : Ref sig .scVector := ⟨.hbm, 8, rfl⟩
abbrev main_v3_scv : Ref sig .scVector := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg2_0 : Ref sig .tc := ⟨.vmem, 7, rfl⟩
abbrev cc2_stg3_0 : Ref sig .tc := ⟨.vmem, 8, rfl⟩
abbrev cc2_stg4_0 : Ref sig .tc := ⟨.vmem, 9, rfl⟩
abbrev cc2_stg5_0 : Ref sig .tc := ⟨.vmem, 10, rfl⟩
abbrev cc2_scratch0 : Ref sig .tc := ⟨.vmem, 11, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  ![v2.toNat]
def k1_off2 (i : grid1.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v7 : BitVec 32 := Scalar.addi v2 c0_i32_5
  let c0_i32_24_r1 : BitVec 32 := 0#32
  ![v7.toNat, 0]
abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v32 : BitVec 1 := Scalar.cmpi .eq arg0 c49_i32
  let v33 : BitVec 32 := Scalar.extui v32
  let c0_i32_14 : BitVec 32 := 0#32
  let v34 : BitVec 1 := Scalar.cmpi .ne v33 c0_i32_14
  v34

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x3 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x3 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S4000x100_S4000x100_0_0 : ∀ a, (![0, 0] : Fin 2 → Nat) a + S4000x100.size a ≤ S4000x100.size a
  h_S4000x100 : 0 < S4000x100.numel
  inb_S4000x128_S4000x100_0_0 : ∀ a, (![0, 0] : Fin 2 → Nat) a + S4000x100.size a ≤ S4000x128.size a
  inb_S4000x128_S4000x28_0_100 : ∀ a, (![0, 100] : Fin 2 → Nat) a + S4000x28.size a ≤ S4000x128.size a
  h_S4000x28 : 0 < S4000x28.numel
  transposes_S1024x50_S50x1024_1_0 : S1024x50.Transposes [1, 0] S50x1024
  shapeCasts_S50x1024_S51200 : S50x1024.ShapeCasts S51200
  inb_S1600_S400_0 : ∀ a, (![0] : Fin 1 → Nat) a + S400.size a ≤ S1600.size a
  inb_S100000x128_S100000x128_0_0 : ∀ a, (![0, 0] : Fin 2 → Nat) a + S100000x128.size a ≤ S100000x128.size a
  gathers_S100000x128_S400x128 : S100000x128.Gathers 0 S400x128
  inb_S1600_S400_400 : ∀ a, (![400] : Fin 1 → Nat) a + S400.size a ≤ S1600.size a
  inb_S1600_S400_800 : ∀ a, (![800] : Fin 1 → Nat) a + S400.size a ≤ S1600.size a
  inb_S1600_S400_1200 : ∀ a, (![1200] : Fin 1 → Nat) a + S400.size a ≤ S1600.size a
  shapeCasts_S51200x128_S50x1024x128 : S51200x128.ShapeCasts S50x1024x128
  shapeCasts_S300x100_S3x100x100 : S300x100.ShapeCasts S3x100x100
  transposes_S3x100x100_S3x100x100_0_2_1 : S3x100x100.Transposes [0, 2, 1] S3x100x100
  pads_S3x100x100_S3x128x128_000_0280_0280 : S3x100x100.Pads (![0, 0, 0] : Fin 3 → Nat) ![0, 28, 28] ![0, 0, 0] S3x128x128
  h_S_ : 0 < S_.numel
  bcast_S_S128x128 : S_.BroadcastsInDim S128x128 (![] : Fin 0 → Fin S128x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  concatenates_S128x128_S128x128_S128x128_S128x128_S128x512_d1 : Shape.Concatenates [S128x128, S128x128, S128x128, S128x128] S128x512 1
  concatenates_S128x512_S128x512_S256x512_d0 : Shape.Concatenates [S128x512, S128x512] S256x512 0
  shapeCasts_S300_S3x100 : S300.ShapeCasts S3x100
  pads_S3x100_S3x128_000_0280 : S3x100.Pads (![0, 0] : Fin 2 → Nat) ![0, 28] ![0, 0] S3x128
  slices_S3x128_S1x128_0_0 : S3x128.Slices ![0, 0] S1x128
  shapeCasts_S1x128_S128 : S1x128.ShapeCasts S128
  slices_S3x128_S1x128_1_0 : S3x128.Slices ![1, 0] S1x128
  slices_S3x128_S1x128_2_0 : S3x128.Slices ![2, 0] S1x128
  concatenates_S128_S128_S128_S128_S512_d0 : Shape.Concatenates [S128, S128, S128, S128] S512 0
  shapeCasts_S512_S1x512 : S512.ShapeCasts S1x512
  transposes_S3x100_S100x3_1_0 : S3x100.Transposes [1, 0] S100x3
  pads_S100x3_S128x3_0280_000 : S100x3.Pads (![0, 0] : Fin 2 → Nat) ![28, 0] ![0, 0] S128x3
  shapeCasts_S3_S1x3 : S3.ShapeCasts S1x3
  inb_S1024x256_S1024x128_0_128 : ∀ a, (![0, 128] : Fin 2 → Nat) a + S1024x128.size a ≤ S1024x256.size a
  h_S1024x128 : 0 < S1024x128.numel
  shapeCasts_S1024x128_S1024x128 : S1024x128.ShapeCasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1024x256_S1024x128_0_0 : ∀ a, (![0, 0] : Fin 2 → Nat) a + S1024x128.size a ≤ S1024x256.size a
  inb_S1024x256_S1024x256_0_0 : ∀ a, (![0, 0] : Fin 2 → Nat) a + S1024x256.size a ≤ S1024x256.size a
  h_S1024x256 : 0 < S1024x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  slices_S1024x512_o0_0_S1024x256 : S1024x512.Slices ![0, 0] S1024x256
  slices_S1024x256_o0_0_S1024x128 : S1024x256.Slices ![0, 0] S1024x128
  slices_S1024x256_o0_128_S1024x128 : S1024x256.Slices ![0, 128] S1024x128
  slices_S1024x512_o0_256_S1024x128 : S1024x512.Slices ![0, 256] S1024x128
  slices_S1024x512_o0_384_S1024x128 : S1024x512.Slices ![0, 384] S1024x128
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S1024x3 : S1x3.Broadcasts S1024x3
  inb_S1024x3_S1024x3_0_0 : ∀ a, (![0, 0] : Fin 2 → Nat) a + S1024x3.size a ≤ S1024x3.size a
  h_S1024x3 : 0 < S1024x3.numel
  dot_S1024x256_S256x512_S1024x512_1_0_0_1_n_n_wf : DotDims.WF S1024x256 S256x512 S1024x512 [1] [0] [0] [1] [] []
  dot_S1024x128_S128x3_S1024x3_1_0_0_1_n_n_wf : DotDims.WF S1024x128 S128x3 S1024x3 [1] [0] [0] [1] [] []
  hcc1_scratch2 : 4 + S_.numel ≤ 17
  hcc1_scoped0 : 5 + S_.numel ≤ 17
  hcc1_scoped1 : 6 + S_.numel ≤ 17
  hcc1_scoped2 : 7 + S_.numel ≤ 17
  hcc1_scoped3 : 8 + S_.numel ≤ 17
  hcc1_scoped4 : 9 + S_.numel ≤ 17
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x100.size a ≤ S100000x100.size a
  hwx0_0 : ∀ i : grid0.Coords, EltTy.bits .f32 = 32 ∨ (Rect.block (s := S100000x100) S4000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hcore1 : grid1.bound 0 ≤ τ.nSC
  hsub1 : grid1.bound 1 ≤ τ.nSub
  k1_off1_inb : ∀ i : grid1.Coords, ∀ a, (k1_off1 i) a + S1600.size a ≤ S51200.size a
  k1_off2_inb : ∀ i : grid1.Coords, ∀ (r : Fin 4), ∀ a, (k1_off2 i (BitVec.ofNat 32 (400 * r.val))) a + S400x128.size a ≤ S51200x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x128.size a ≤ S50x1024x128.size a
  hwx2_0 : ∀ i : grid2.Coords, EltTy.bits .f32 = 32 ∨ (Rect.block (s := S50x1024x128) S1x1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x512.size a ≤ S256x512.size a
  hwx2_1 : ∀ i : grid2.Coords, EltTy.bits .f32 = 32 ∨ (Rect.block (s := S256x512) S256x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x3.size a ≤ S128x3.size a
  hwx2_3 : ∀ i : grid2.Coords, EltTy.bits .f32 = 32 ∨ (Rect.block (s := S128x3) S128x3.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x3.size a ≤ S1x3.size a
  hwx2_4 : ∀ i : grid2.Coords, EltTy.bits .f32 = 32 ∨ (Rect.block (s := S1x3) S1x3.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x3.size a ≤ S1024x3.size a
  hwx2_5 : ∀ i : grid2.Coords, EltTy.bits .f32 = 32 ∨ (Rect.block (s := S1024x3) S1024x3.size (cc2_transform_5 i) (hinb2_5 i)).WholeWords (EltTy.packing .f32)

variable [Facts₀]

abbrev cc1_scratch2 : DmaSems sig S_ := SemArray.consecutive 4 S_ hcc1_scratch2
abbrev cc1_scoped0 : DmaSems sig S_ := SemArray.consecutive 5 S_ hcc1_scoped0
abbrev cc1_scoped1 : DmaSems sig S_ := SemArray.consecutive 6 S_ hcc1_scoped1
abbrev cc1_scoped2 : DmaSems sig S_ := SemArray.consecutive 7 S_ hcc1_scoped2
abbrev cc1_scoped3 : DmaSems sig S_ := SemArray.consecutive 8 S_ hcc1_scoped3
abbrev cc1_scoped4 : DmaSems sig S_ := SemArray.consecutive 9 S_ hcc1_scoped4
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x128_S128x3_S1024x3_1_0_0_1_n_n : DotDims S1024x128 S128x3 S1024x3 where
  lhsContracting := [1]
  rhsContracting := [0]
  lhsNonContracting := [0]
  rhsNonContracting := [1]
  lhsBatch := []
  rhsBatch := []
  wf := dot_S1024x128_S128x3_S1024x3_1_0_0_1_n_n_wf

abbrev win0_0 : Pipeline.Window sig grid0 :=
  Pipeline.Window.ofSpec (Memref.whole main_arg0) S4000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win2_0 : Pipeline.Window sig grid2 :=
  Pipeline.Window.ofSpec (Memref.whole main_v4) S1x1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S256x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S128x3.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x3.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S1024x3.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S100000x100 : Shape := ⟨2, ![100000, 100]⟩
abbrev S1024x50 : Shape := ⟨2, ![1024, 50]⟩
abbrev S300x100 : Shape := ⟨2, ![300, 100]⟩
abbrev S300 : Shape := ⟨1, ![300]⟩
abbrev S3x100 : Shape := ⟨2, ![3, 100]⟩
abbrev S3 : Shape := ⟨1, ![3]⟩
abbrev S_ : Shape := ⟨0, ![]⟩
abbrev S1024x50x1 : Shape := ⟨3, ![1024, 50, 1]⟩
abbrev S1 : Shape := ⟨1, ![1]⟩
abbrev S1x1x1 : Shape := ⟨3, ![1, 1, 1]⟩
abbrev S1024x50x100 : Shape := ⟨3, ![1024, 50, 100]⟩
abbrev S1024x100 : Shape := ⟨2, ![1024, 100]⟩
abbrev S50x1024x100 : Shape := ⟨3, ![50, 1024, 100]⟩
abbrev S1x1024x100 : Shape := ⟨3, ![1, 1024, 100]⟩
abbrev S100x300 : Shape := ⟨2, ![100, 300]⟩
abbrev S1024x300 : Shape := ⟨2, ![1024, 300]⟩
abbrev S1x300 : Shape := ⟨2, ![1, 300]⟩
abbrev S100x3 : Shape := ⟨2, ![100, 3]⟩
abbrev S1024x3 : Shape := ⟨2, ![1024, 3]⟩
abbrev S1x3 : Shape := ⟨2, ![1, 3]⟩

abbrev nBuf : Space → Nat
  | .hbm => 98
  | .vmem => 0
  | .smem => 0
  | _ => 0

abbrev bufTy : (tb : Table) → Fin (tcTables nBuf tb) → BufTy
  | .hbm, ⟨0, _⟩ => ⟨S100000x100, .f32⟩
  | .hbm, ⟨1, _⟩ => ⟨S1024x50, .i32⟩
  | .hbm, ⟨2, _⟩ => ⟨S300x100, .f32⟩
  | .hbm, ⟨3, _⟩ => ⟨S300x100, .f32⟩
  | .hbm, ⟨4, _⟩ => ⟨S300, .f32⟩
  | .hbm, ⟨5, _⟩ => ⟨S300, .f32⟩
  | .hbm, ⟨6, _⟩ => ⟨S3x100, .f32⟩
  | .hbm, ⟨7, _⟩ => ⟨S3, .f32⟩
  | .hbm, ⟨8, _⟩ => ⟨S_, .i32⟩
  | .hbm, ⟨9, _⟩ => ⟨S1024x50, .i32⟩
  | .hbm, ⟨10, _⟩ => ⟨S1024x50, .i1⟩
  | .hbm, ⟨11, _⟩ => ⟨S_, .i32⟩
  | .hbm, ⟨12, _⟩ => ⟨S1024x50, .i32⟩
  | .hbm, ⟨13, _⟩ => ⟨S1024x50, .i32⟩
  | .hbm, ⟨14, _⟩ => ⟨S1024x50, .i32⟩
  | .hbm, ⟨15, _⟩ => ⟨S1024x50x1, .i32⟩
  | .hbm, ⟨16, _⟩ => ⟨S1, .i32⟩
  | .hbm, ⟨17, _⟩ => ⟨S_, .i32⟩
  | .hbm, ⟨18, _⟩ => ⟨S1024x50x1, .i32⟩
  | .hbm, ⟨19, _⟩ => ⟨S1024x50x1, .i1⟩
  | .hbm, ⟨20, _⟩ => ⟨S1x1x1, .i32⟩
  | .hbm, ⟨21, _⟩ => ⟨S1024x50x1, .i32⟩
  | .hbm, ⟨22, _⟩ => ⟨S1024x50x1, .i1⟩
  | .hbm, ⟨23, _⟩ => ⟨S1024x50x1, .i1⟩
  | .hbm, ⟨24, _⟩ => ⟨S_, .i1⟩
  | .hbm, ⟨25, _⟩ => ⟨S1024x50, .i1⟩
  | .hbm, ⟨26, _⟩ => ⟨S1024x50x100, .f32⟩
  | .hbm, ⟨27, _⟩ => ⟨S1024x50x100, .i1⟩
  | .hbm, ⟨28, _⟩ => ⟨S_, .f32⟩
  | .hbm, ⟨29, _⟩ => ⟨S1024x50x100, .f32⟩
  | .hbm, ⟨30, _⟩ => ⟨S1024x50x100, .f32⟩
  | .hbm, ⟨31, _⟩ => ⟨S_, .f32⟩
  | .hbm, ⟨32, _⟩ => ⟨S1024x100, .f32⟩
  | .hbm, ⟨33, _⟩ => ⟨S50x1024x100, .f32⟩
  | .hbm, ⟨34, _⟩ => ⟨S_, .i32⟩
  | .hbm, ⟨35, _⟩ => ⟨S50x1024x100, .f32⟩
  | .hbm, ⟨36, _⟩ => ⟨S300x100, .f32⟩
  | .hbm, ⟨37, _⟩ => ⟨S300, .f32⟩
  | .hbm, ⟨38, _⟩ => ⟨S300x100, .f32⟩
  | .hbm, ⟨39, _⟩ => ⟨S300, .f32⟩
  | .hbm, ⟨40, _⟩ => ⟨S_, .i32⟩
  | .hbm, ⟨41, _⟩ => ⟨S1024x100, .f32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S1x1024x100, .f32⟩
  | .hbm, ⟨47, _⟩ => ⟨S1024x100, .f32⟩
  | .hbm, ⟨48, _⟩ => ⟨S100x300, .f32⟩
  | .hbm, ⟨49, _⟩ => ⟨S1024x300, .f32⟩
  | .hbm, ⟨50, _⟩ => ⟨S1x300, .f32⟩
  | .hbm, ⟨51, _⟩ => ⟨S1024x300, .f32⟩
  | .hbm, ⟨52, _⟩ => ⟨S1024x300, .f32⟩
  | .hbm, ⟨53, _⟩ => ⟨S100x300, .f32⟩
  | .hbm, ⟨54, _⟩ => ⟨S1024x300, .f32⟩
  | .hbm, ⟨55, _⟩ => ⟨S1x300, .f32⟩
  | .hbm, ⟨56, _⟩ => ⟨S1024x300, .f32⟩
  | .hbm, ⟨57, _⟩ => ⟨S1024x300, .f32⟩
  | .hbm, ⟨58, _⟩ => ⟨S1024x100, .f32⟩
  | .hbm, ⟨59, _⟩ => ⟨S1024x100, .f32⟩
  | .hbm, ⟨60, _⟩ => ⟨S1024x100, .f32⟩
  | .hbm, ⟨61, _⟩ => ⟨S1024x100, .f32⟩
  | .hbm, ⟨62, _⟩ => ⟨S1024x100, .f32⟩
  | .hbm, ⟨63, _⟩ => ⟨S1024x100, .f32⟩
  | .hbm, ⟨64, _⟩ => ⟨S1024x100, .f32⟩
  | .hbm, ⟨65, _⟩ => ⟨S1024x100, .f32⟩
  | .hbm, ⟨66, _⟩ => ⟨S1024x100, .f32⟩
  | .hbm, ⟨67, _⟩ => ⟨S_, .f32⟩
  | .hbm, ⟨68, _⟩ => ⟨S1024x100, .f32⟩
  | .hbm, ⟨69, _⟩ => ⟨S1024x100, .f32⟩
  | .hbm, ⟨70, _⟩ => ⟨S_, .f32⟩
  | .hbm, ⟨71, _⟩ => ⟨S1024x100, .f32⟩
  | .hbm, ⟨72, _⟩ => ⟨S1024x100, .f32⟩
  | .hbm, ⟨73, _⟩ => ⟨S1024x100, .f32⟩
  | .hbm, ⟨74, _⟩ => ⟨S1024x100, .f32⟩
  | .hbm, ⟨75, _⟩ => ⟨S1024x100, .f32⟩
  | .hbm, ⟨76, _⟩ => ⟨S_, .f32⟩
  | .hbm, ⟨77, _⟩ => ⟨S1024x100, .f32⟩
  | .hbm, ⟨78, _⟩ => ⟨S1024x100, .f32⟩
  | .hbm, ⟨79, _⟩ => ⟨S_, .f32⟩
  | .hbm, ⟨80, _⟩ => ⟨S1024x100, .f32⟩
  | .hbm, ⟨81, _⟩ => ⟨S1024x100, .f32⟩
  | .hbm, ⟨82, _⟩ => ⟨S1024x100, .f32⟩
  | .hbm, ⟨83, _⟩ => ⟨S1024x100, .f32⟩
  | .hbm, ⟨84, _⟩ => ⟨S1024x100, .f32⟩
  | .hbm, ⟨85, _⟩ => ⟨S_, .f32⟩
  | .hbm, ⟨86, _⟩ => ⟨S1024x100, .f32⟩
  | .hbm, ⟨87, _⟩ => ⟨S1024x100, .f32⟩
  | .hbm, ⟨88, _⟩ => ⟨S1024x100, .f32⟩
  | .hbm, ⟨89, _⟩ => ⟨S1024x100, .f32⟩
  | .hbm, ⟨90, _⟩ => ⟨S1024x100, .f32⟩
  | .hbm, ⟨91, _⟩ => ⟨S_, .i32⟩
  | .hbm, ⟨92, _⟩ => ⟨S_, .i32⟩
  | .hbm, ⟨93, _⟩ => ⟨S100x3, .f32⟩
  | .hbm, ⟨94, _⟩ => ⟨S1024x3, .f32⟩
  | .hbm, ⟨95, _⟩ => ⟨S1x3, .f32⟩
  | .hbm, ⟨96, _⟩ => ⟨S1024x3, .f32⟩
  | .hbm, ⟨97, _⟩ => ⟨S1024x3, .f32⟩
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_cst : Ref sig .tc := ⟨.hbm, 31, rfl⟩
abbrev main_v1 : Ref sig .tc := ⟨.hbm, 32, rfl⟩
abbrev main_v2 : Ref sig .tc := ⟨.hbm, 33, rfl⟩
abbrev main_c : Ref sig .tc := ⟨.hbm, 34, rfl⟩
abbrev main_v3_0 : Ref sig .tc := ⟨.hbm, 35, rfl⟩
abbrev main_v3_1 : Ref sig .tc := ⟨.hbm, 36, rfl⟩
abbrev main_v3_2 : Ref sig .tc := ⟨.hbm, 37, rfl⟩
abbrev main_v3_3 : Ref sig .tc := ⟨.hbm, 38, rfl⟩
abbrev main_v3_4 : Ref sig .tc := ⟨.hbm, 39, rfl⟩
abbrev main_v3_5 : Ref sig .tc := ⟨.hbm, 40, rfl⟩
abbrev main_v3_6 : Ref sig .tc := ⟨.hbm, 41, rfl⟩
abbrev main_while0c_c_6 : Ref sig .tc := ⟨.hbm, 42, rfl⟩
abbrev main_while0c_v9 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_v0 : Ref sig .tc := ⟨.hbm, 46, rfl⟩
abbrev main_while0b_v9 : Ref sig .tc := ⟨.hbm, 47, rfl⟩
abbrev main_while0b_call2_v0 : Ref sig .tc := ⟨.hbm, 48, rfl⟩
abbrev main_while0b_call2_v1 : Ref sig .tc := ⟨.hbm, 49, rfl⟩
abbrev main_while0b_call2_v2 : Ref sig .tc := ⟨.hbm, 50, rfl⟩
abbrev main_while0b_call2_v3 : Ref sig .tc := ⟨.hbm, 51, rfl⟩
abbrev main_while0b_call2_v4 : Ref sig .tc := ⟨.hbm, 52, rfl⟩
abbrev main_while0b_call2_v5 : Ref sig .tc := ⟨.hbm, 53, rfl⟩
abbrev main_while0b_call2_v6 : Ref sig .tc := ⟨.hbm, 54, rfl⟩
abbrev main_while0b_call2_v7 : Ref sig .tc := ⟨.hbm, 55, rfl⟩
abbrev main_while0b_call2_v8 : Ref sig .tc := ⟨.hbm, 56, rfl⟩
abbrev main_while0b_call2_v9 : Ref sig .tc := ⟨.hbm, 57, rfl⟩
abbrev main_while0b_call2_v10 : Ref sig .tc := ⟨.hbm, 58, rfl⟩
abbrev main_while0b_call2_v11 : Ref sig .tc := ⟨.hbm, 59, rfl⟩
abbrev main_while0b_call2_v12 : Ref sig .tc := ⟨.hbm, 60, rfl⟩
abbrev main_while0b_call2_v13 : Ref sig .tc := ⟨.hbm, 61, rfl⟩
abbrev main_while0b_call2_v14 : Ref sig .tc := ⟨.hbm, 62, rfl⟩
abbrev main_while0b_call2_v15 : Ref sig .tc := ⟨.hbm, 63, rfl⟩
abbrev main_while0b_call2_v16 : Ref sig .tc := ⟨.hbm, 64, rfl⟩
abbrev main_while0b_call2_v17 : Ref sig .tc := ⟨.hbm, 65, rfl⟩
abbrev main_while0b_call2_v18 : Ref sig .tc := ⟨.hbm, 66, rfl⟩
abbrev main_while0b_call2_cst : Ref sig .tc := ⟨.hbm, 67, rfl⟩
abbrev main_while0b_call2_v19 : Ref sig .tc := ⟨.hbm, 68, rfl⟩
abbrev main_while0b_call2_v20 : Ref sig .tc := ⟨.hbm, 69, rfl⟩
abbrev main_while0b_call2_cst_0 : Ref sig .tc := ⟨.hbm, 70, rfl⟩
abbrev main_while0b_call2_v21 : Ref sig .tc := ⟨.hbm, 71, rfl⟩
abbrev main_while0b_call2_v22 : Ref sig .tc := ⟨.hbm, 72, rfl⟩
abbrev main_while0b_call2_v23 : Ref sig .tc := ⟨.hbm, 73, rfl⟩
abbrev main_while0b_call2_v24 : Ref sig .tc := ⟨.hbm, 74, rfl⟩
abbrev main_while0b_call2_v25 : Ref sig .tc := ⟨.hbm, 75, rfl⟩
abbrev main_while0b_call2_cst_1 : Ref sig .tc := ⟨.hbm, 76, rfl⟩
abbrev main_while0b_call2_v26 : Ref sig .tc := ⟨.hbm, 77, rfl⟩
abbrev main_while0b_call2_v27 : Ref sig .tc := ⟨.hbm, 78, rfl⟩
abbrev main_while0b_call2_cst_2 : Ref sig .tc := ⟨.hbm, 79, rfl⟩
abbrev main_while0b_call2_v28 : Ref sig .tc := ⟨.hbm, 80, rfl⟩
abbrev main_while0b_call2_v29 : Ref sig .tc := ⟨.hbm, 81, rfl⟩
abbrev main_while0b_call2_v30 : Ref sig .tc := ⟨.hbm, 82, rfl⟩
abbrev main_while0b_call2_v31 : Ref sig .tc := ⟨.hbm, 83, rfl⟩
abbrev main_while0b_call2_v32 : Ref sig .tc := ⟨.hbm, 84, rfl⟩
abbrev main_while0b_call2_cst_3 : Ref sig .tc := ⟨.hbm, 85, rfl⟩
abbrev main_while0b_call2_v33 : Ref sig .tc := ⟨.hbm, 86, rfl⟩
abbrev main_while0b_call2_v34 : Ref sig .tc := ⟨.hbm, 87, rfl⟩
abbrev main_while0b_call2_v35 : Ref sig .tc := ⟨.hbm, 88, rfl⟩
abbrev main_while0b_call2_v36 : Ref sig .tc := ⟨.hbm, 89, rfl⟩
abbrev main_while0b_v10 : Ref sig .tc := ⟨.hbm, 90, rfl⟩
abbrev main_while0b_c_6 : Ref sig .tc := ⟨.hbm, 91, rfl⟩
abbrev main_while0b_v11 : Ref sig .tc := ⟨.hbm, 92, rfl⟩
abbrev main_v4 : Ref sig .tc := ⟨.hbm, 93, rfl⟩
abbrev main_v5 : Ref sig .tc := ⟨.hbm, 94, rfl⟩
abbrev main_v6 : Ref sig .tc := ⟨.hbm, 95, rfl⟩
abbrev main_v7 : Ref sig .tc := ⟨.hbm, 96, rfl⟩
abbrev main_v8 : Ref sig .tc := ⟨.hbm, 97, rfl⟩

abbrev nD : Nat := 1
abbrev τ : Topo := Topo.v7x

variable {F : FTy → Type} [FloatOps F]

abbrev main_while0_count : Scf.Loop 32 := ⟨0#32, 50#32, 1#32⟩

class Facts₀ : Prop where
  bcast_S_S1024x50 : S_.BroadcastsInDim S1024x50 (![] : Fin 0 → Fin S1024x50.rank)
  bcast_S1024x50_S1024x50x1_0_1 : S1024x50.BroadcastsInDim S1024x50x1 (![0, 1] : Fin 2 → Fin S1024x50x1.rank)
  bcast_S_S1024x50x1 : S_.BroadcastsInDim S1024x50x1 (![] : Fin 0 → Fin S1024x50x1.rank)
  bcast_S1_S1x1x1_2 : S1.BroadcastsInDim S1x1x1 (![2] : Fin 1 → Fin S1x1x1.rank)
  bcast_S1x1x1_S1024x50x1_0_1_2 : S1x1x1.BroadcastsInDim S1024x50x1 (![0, 1, 2] : Fin 3 → Fin S1024x50x1.rank)
  reducesTo_S1024x50x1_S1024x50_d2 : S1024x50x1.ReducesTo [2] S1024x50
  h_S_ : 0 < S_.numel
  bcast_S1024x50_S1024x50x100_0_1 : S1024x50.BroadcastsInDim S1024x50x100 (![0, 1] : Fin 2 → Fin S1024x50x100.rank)
  bcast_S_S1024x50x100 : S_.BroadcastsInDim S1024x50x100 (![] : Fin 0 → Fin S1024x50x100.rank)
  bcast_S_S1024x100 : S_.BroadcastsInDim S1024x100 (![] : Fin 0 → Fin S1024x100.rank)
  transposes_S1024x50x100_S50x1024x100_1_0_2 : S1024x50x100.Transposes [1, 0, 2] S50x1024x100
  sliceFits_S50x1024x100_S1x1024x100 : S50x1024x100.Slices (fun _ => 0) S1x1024x100
  shapeCasts_S1x1024x100_S1024x100 : S1x1024x100.ShapeCasts S1024x100
  transposes_S300x100_S100x300_1_0 : S300x100.Transposes [1, 0] S100x300
  bcast_S300_S1x300_1 : S300.BroadcastsInDim S1x300 (![1] : Fin 1 → Fin S1x300.rank)
  bcast_S1x300_S1024x300_0_1 : S1x300.BroadcastsInDim S1024x300 (![0, 1] : Fin 2 → Fin S1024x300.rank)
  slices_S1024x300_S1024x100_0_0 : S1024x300.Slices ![0, 0] S1024x100
  slices_S1024x300_S1024x100_0_100 : S1024x300.Slices ![0, 100] S1024x100
  slices_S1024x300_S1024x100_0_200 : S1024x300.Slices ![0, 200] S1024x100
  transposes_S3x100_S100x3_1_0 : S3x100.Transposes [1, 0] S100x3
  bcast_S3_S1x3_1 : S3.BroadcastsInDim S1x3 (![1] : Fin 1 → Fin S1x3.rank)
  bcast_S1x3_S1024x3_0_1 : S1x3.BroadcastsInDim S1024x3 (![0, 1] : Fin 2 → Fin S1024x3.rank)
  gather_S100000x100_S1024x50x1_S1024x50x100_2_0_n_n_0_2_1100_wf : GatherDims.WF S100000x100 S1024x50x1 S1024x50x100 [2] [0] [] [0] [] 2 ![1, 100]
  dot_S1024x100_S100x300_S1024x300_1_0_0_1_n_n_wf : DotDims.WF S1024x100 S100x300 S1024x300 [1] [0] [0] [1] [] []
  dot_S1024x100_S100x3_S1024x3_1_0_0_1_n_n_wf : DotDims.WF S1024x100 S100x3 S1024x3 [1] [0] [0] [1] [] []
  main_while0_ok : main_while0_count.OK

variable [Facts₀]

def gather_S100000x100_S1024x50x1_S1024x50x100_2_0_n_n_0_2_1100 : GatherDims S100000x100 S1024x50x1 S1024x50x100 where
  offsetDims := [2]
  collapsedSliceDims := [0]
  operandBatchingDims := []
  startIndicesBatchingDims := []
  startIndexMap := [0]
  indexVectorDim := 2
  sliceSizes := ![1, 100]
  wf := gather_S100000x100_S1024x50x1_S1024x50x100_2_0_n_n_0_2_1100_wf
def dot_S1024x100_S100x300_S1024x300_1_0_0_1_n_n : DotDims S1024x100 S100x300 S1024x300 where
  lhsContracting := [1]
  rhsContracting := [0]
  lhsNonContracting := [0]
  rhsNonContracting := [1]
  lhsBatch := []
  rhsBatch := []
  wf := dot_S1024x100_S100x300_S1024x300_1_0_0_1_n_n_wf
def dot_S1024x100_S100x3_S1024x3_1_0_0_1_n_n : DotDims S1024x100 S100x3 S1024x3 where
  lhsContracting := [1]
  rhsContracting := [0]
  lhsNonContracting := [0]
  rhsNonContracting := [1]
  lhsBatch := []
  rhsBatch := []
  wf := dot_S1024x100_S100x3_S1024x3_1_0_0_1_n_n_wf

class Facts : Prop extends Facts₀ where

variable [Facts]
-- ==== Proof.KISetup.lean ====
/-
  Shared set-up for the idealized kernel program's run: the program as the SparseCore launch theorem reads it
  (its label signature, the SparseCore configuration, the body table beneath it), the variants, and the ghost
  state — the launch handshakes' rounds, the TensorCore pipelines' staging cells' rounds, and the counters of
  local transfers — with the embeddings of each factor.
-/
import proofs.«204407_g76768245448983_cont_9to1_m_970_19_alg».proof.Defs
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import proofs.«204407_g76768245448983_cont_9to1_m_970_19_alg».proof.Proof.Gen.KernelIdeal
import proofs.«204407_g76768245448983_cont_9to1_m_970_19_alg».proof.Proof.Gen.KernelIdeal.Skeleton
import proofs.«204407_g76768245448983_cont_9to1_m_970_19_alg».proof.Proof.Gen.KernelIdeal.Launch
import proofs.«204407_g76768245448983_cont_9to1_m_970_19_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The prefetched tables' admissible contents: no pipeline has a table. -/
abbrev adm : (p : Fin 2) → (pcfgs (F := F) p).Adm := fun p => (cfgs p).toPCfg_adm

/-! ## The resource algebra: the handshakes' rounds, the pipelines' staging cells' rounds, the transfers' counters -/

abbrev UH : Type := URounds (GSem nD τ sig) ℕ
abbrev UP : Type := URounds (GSem nD τ sig) Unit
abbrev UU : Type := UH × (UP × Counters)

/-- The handshakes' rounds: the left factor. -/
abbrev EH : Emb UH (MT nD τ sig (HIx 1) (Elt F) ℕ UU ℕ) := embL

/-- The staging cells' rounds: the left factor of the right factor. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP (MT nD τ sig (HIx 1) (Elt F) ℕ UU ℕ)).LandsIn (upEmb : UEmb _ (MT nD τ sig (HIx 1) (Elt F) ℕ UU ℕ)) := by
  unfold EP embR; infer_instance

end Cert.Proof.KI

end
-- ==== Proof.KIMain.lean ====
/-
  @main of the idealized kernel program as five pieces in order: the first TensorCore region (the table padded to 128
  lanes), a stretch of two host operations (the indices transposed and flattened), the SparseCore call (the gather),
  a stretch of host operations (the recurrent weights and biases re-laid into one [256, 512] matrix and one [1, 512]
  row, the output weights padded and transposed), and the second TensorCore region (the recurrence and the output layer).
-/
import proofs.«204407_g76768245448983_cont_9to1_m_970_19_alg».proof.Proof.KISetup

noncomputable section

namespace Cert.Proof.KI

open Cert.KernelIdeal Cert.KernelIdeal.Gen
open Idealize.ShloMosaic
open Idealize.SL.Sem

variable {F : FTy → Type} [FloatOps F]

/-- The host operations between the first region and the SparseCore call. -/
def opsA : List (HloOp τ sig (Elt F)) :=
  [StableHlo.unary main_arg1 main_v1 ((transpose S50x1024 [1, 0] · transposes_S1024x50_S50x1024_1_0) : (⟨S1024x50, .i32⟩ : BufTy).Contents (Elt F) → (⟨S50x1024, .i32⟩ : BufTy).Contents (Elt F)),
   StableHlo.reshape main_v1 main_v2 rfl shapeCasts_S50x1024_S51200]

/-- The host operations between the SparseCore call and the second region. -/
def opsB : List (HloOp τ sig (Elt F)) :=
  [StableHlo.reshape main_v3 main_v4 rfl shapeCasts_S51200x128_S50x1024x128,
   StableHlo.reshape main_arg2 main_v5 rfl shapeCasts_S300x100_S3x100x100,
   StableHlo.unary main_v5 main_v6 ((transpose S3x100x100 [0, 2, 1] · transposes_S3x100x100_S3x100x100_0_2_1) : (⟨S3x100x100, .f32⟩ : BufTy).Contents (Elt F) → (⟨S3x100x100, .f32⟩ : BufTy).Contents (Elt F)),
   StableHlo.nullary main_c (constantI S_ 32 0#32),
   StableHlo.TRef.unary (.of main_c : StableHlo.TRef sig ⟨S_, .i32⟩) main_call0.v0 (sitofp .f32),
   StableHlo.TRef.binary (.of main_v6 : StableHlo.TRef sig ⟨S3x100x100, .f32⟩) main_call0.v0 main_call0.v1 (fun x v => pad S3x128x128 ![0, 0, 0] ![0, 28, 28] ![0, 0, 0] x v pads_S3x100x100_S3x128x128_000_0280_0280 h_S_),
   StableHlo.reshape main_arg3 main_v8 rfl shapeCasts_S300x100_S3x100x100,
   StableHlo.unary main_v8 main_v9 ((transpose S3x100x100 [0, 2, 1] · transposes_S3x100x100_S3x100x100_0_2_1) : (⟨S3x100x100, .f32⟩ : BufTy).Contents (Elt F) → (⟨S3x100x100, .f32⟩ : BufTy).Contents (Elt F)),
   StableHlo.nullary main_c_0 (constantI S_ 32 0#32),
   StableHlo.TRef.unary (.of main_c_0 : StableHlo.TRef sig ⟨S_, .i32⟩) main_call1.v0 (sitofp .f32),
   StableHlo.TRef.binary (.of main_v9 : StableHlo.TRef sig ⟨S3x100x100, .f32⟩) main_call1.v0 main_call1.v1 (fun x v => pad S3x128x128 ![0, 0, 0] ![0, 28, 28] ![0, 0, 0] x v pads_S3x100x100_S3x128x128_000_0280_0280 h_S_),
   StableHlo.nullary main_cst (constant S_ .f32 0x00000000#32),
   StableHlo.unary main_cst main_v11 (broadcastInDim S128x128 ![] bcast_S_S128x128 : (⟨S_, .f32⟩ : BufTy).Contents (Elt F) → (⟨S128x128, .f32⟩ : BufTy).Contents (Elt F)),
   StableHlo.unary main_v7 main_v12 ((extractStridedSlice S1x128x128 ![0, 0, 0] · slices_S3x128x128_S1x128x128_0_0_0) : (⟨S3x128x128, .f32⟩ : BufTy).Contents (Elt F) → (⟨S1x128x128, .f32⟩ : BufTy).Contents (Elt F)),
   StableHlo.reshape main_v12 main_v13 rfl shapeCasts_S1x128x128_S128x128,
   StableHlo.unary main_v7 main_v14 ((extractStridedSlice S1x128x128 ![1, 0, 0] · slices_S3x128x128_S1x128x128_1_0_0) : (⟨S3x128x128, .f32⟩ : BufTy).Contents (Elt F) → (⟨S1x128x128, .f32⟩ : BufTy).Contents (Elt F)),
   StableHlo.reshape main_v14 main_v15 rfl shapeCasts_S1x128x128_S128x128,
   StableHlo.unary main_v7 main_v16 ((extractStridedSlice S1x128x128 ![2, 0, 0] · slices_S3x128x128_S1x128x128_2_0_0) : (⟨S3x128x128, .f32⟩ : BufTy).Contents (Elt F) → (⟨S1x128x128, .f32⟩ : BufTy).Contents (Elt F)),
   StableHlo.reshape main_v16 main_v17 rfl shapeCasts_S1x128x128_S128x128,
   StableHlo.nary ![main_v13, main_v15, main_v17, main_v11] main_v18 (fun u => concatenate S128x512 1 [⟨S128x128, u 0⟩, ⟨S128x128, u 1⟩, ⟨S128x128, u 2⟩, ⟨S128x128, u 3⟩] concatenates_S128x128_S128x128_S128x128_S128x128_S128x512_d1),
   StableHlo.unary main_v10 main_v19 ((extractStridedSlice S1x128x128 ![0, 0, 0] · slices_S3x128x128_S1x128x128_0_0_0) : (⟨S3x128x128, .f32⟩ : BufTy).Contents (Elt F) → (⟨S1x128x128, .f32⟩ : BufTy).Contents (Elt F)),
   StableHlo.reshape main_v19 main_v20 rfl shapeCasts_S1x128x128_S128x128,
   StableHlo.unary main_v10 main_v21 ((extractStridedSlice S1x128x128 ![1, 0, 0] · slices_S3x128x128_S1x128x128_1_0_0) : (⟨S3x128x128, .f32⟩ : BufTy).Contents (Elt F) → (⟨S1x128x128, .f32⟩ : BufTy).Contents (Elt F)),
   StableHlo.reshape main_v21 main_v22 rfl shapeCasts_S1x128x128_S128x128,
   StableHlo.unary main_v10 main_v23 ((extractStridedSlice S1x128x128 ![2, 0, 0] · slices_S3x128x128_S1x128x128_2_0_0) : (⟨S3x128x128, .f32⟩ : BufTy).Contents (Elt F) → (⟨S1x128x128, .f32⟩ : BufTy).Contents (Elt F)),
   StableHlo.reshape main_v23 main_v24 rfl shapeCasts_S1x128x128_S128x128,
   StableHlo.nary ![main_v20, main_v22, main_v11, main_v24] main_v25 (fun u => concatenate S128x512 1 [⟨S128x128, u 0⟩, ⟨S128x128, u 1⟩, ⟨S128x128, u 2⟩, ⟨S128x128, u 3⟩] concatenates_S128x128_S128x128_S128x128_S128x128_S128x512_d1),
   StableHlo.binary main_v18 main_v25 main_v26 ((fun a b => concatenate S256x512 0 [⟨S128x512, a⟩, ⟨S128x512, b⟩] concatenates_S128x512_S128x512_S256x512_d0) : (⟨S128x512, .f32⟩ : BufTy).Contents (Elt F) → (⟨S128x512, .f32⟩ : BufTy).Contents (Elt F) → (⟨S256x512, .f32⟩ : BufTy).Contents (Elt F)),
   StableHlo.reshape main_arg4 main_v27 rfl shapeCasts_S300_S3x100,
   StableHlo.nullary main_c_1 (constantI S_ 32 0#32),
   StableHlo.TRef.unary (.of main_c_1 : StableHlo.TRef sig ⟨S_, .i32⟩) main_call2.v0 (sitofp .f32),
   StableHlo.TRef.binary (.of main_v27 : StableHlo.TRef sig ⟨S3x100, .f32⟩) main_call2.v0 main_call2.v1 (fun x v => pad S3x128 ![0, 0] ![0, 28] ![0, 0] x v pads_S3x100_S3x128_000_0280 h_S_),
   StableHlo.reshape main_arg5 main_v29 rfl shapeCasts_S300_S3x100,
   StableHlo.nullary main_c_2 (constantI S_ 32 0#32),
   StableHlo.TRef.unary (.of main_c_2 : StableHlo.TRef sig ⟨S_, .i32⟩) main_call3.v0 (sitofp .f32),
   StableHlo.TRef.binary (.of main_v29 : StableHlo.TRef sig ⟨S3x100, .f32⟩) main_call3.v0 main_call3.v1 (fun x v => pad S3x128 ![0, 0] ![0, 28] ![0, 0] x v pads_S3x100_S3x128_000_0280 h_S_),
   StableHlo.unary main_v28 main_v31 ((extractStridedSlice S1x128 ![0, 0] · slices_S3x128_S1x128_0_0) : (⟨S3x128, .f32⟩ : BufTy).Contents (Elt F) → (⟨S1x128, .f32⟩ : BufTy).Contents (Elt F)),
   StableHlo.reshape main_v31 main_v32 rfl shapeCasts_S1x128_S128,
   StableHlo.unary main_v30 main_v33 ((extractStridedSlice S1x128 ![0, 0] · slices_S3x128_S1x128_0_0) : (⟨S3x128, .f32⟩ : BufTy).Contents (Elt F) → (⟨S1x128, .f32⟩ : BufTy).Contents (Elt F)),
   StableHlo.reshape main_v33 main_v34 rfl shapeCasts_S1x128_S128,
   StableHlo.binary main_v32 main_v34 main_v35 (addf : (⟨S128, .f32⟩ : BufTy).Contents (Elt F) → (⟨S128, .f32⟩ : BufTy).Contents (Elt F) → (⟨S128, .f32⟩ : BufTy).Contents (Elt F)),
   StableHlo.unary main_v28 main_v36 ((extractStridedSlice S1x128 ![1, 0] · slices_S3x128_S1x128_1_0) : (⟨S3x128, .f32⟩ : BufTy).Contents (Elt F) → (⟨S1x128, .f32⟩ : BufTy).Contents (Elt F)),
   StableHlo.reshape main_v36 main_v37 rfl shapeCasts_S1x128_S128,
   StableHlo.unary main_v30 main_v38 ((extractStridedSlice S1x128 ![1, 0] · slices_S3x128_S1x128_1_0) : (⟨S3x128, .f32⟩ : BufTy).Contents (Elt F) → (⟨S1x128, .f32⟩ : BufTy).Contents (Elt F)),
   StableHlo.reshape main_v38 main_v39 rfl shapeCasts_S1x128_S128,
   StableHlo.binary main_v37 main_v39 main_v40 (addf : (⟨S128, .f32⟩ : BufTy).Contents (Elt F) → (⟨S128, .f32⟩ : BufTy).Contents (Elt F) → (⟨S128, .f32⟩ : BufTy).Contents (Elt F)),
   StableHlo.unary main_v28 main_v41 ((extractStridedSlice S1x128 ![2, 0] · slices_S3x128_S1x128_2_0) : (⟨S3x128, .f32⟩ : BufTy).Contents (Elt F) → (⟨S1x128, .f32⟩ : BufTy).Contents (Elt F)),
   StableHlo.reshape main_v41 main_v42 rfl shapeCasts_S1x128_S128,
   StableHlo.unary main_v30 main_v43 ((extractStridedSlice S1x128 ![2, 0] · slices_S3x128_S1x128_2_0) : (⟨S3x128, .f32⟩ : BufTy).Contents (Elt F) → (⟨S1x128, .f32⟩ : BufTy).Contents (Elt F)),
   StableHlo.reshape main_v43 main_v44 rfl shapeCasts_S1x128_S128,
   StableHlo.nary ![main_v35, main_v40, main_v42, main_v44] main_v45 (fun u => concatenate S512 0 [⟨S128, u 0⟩, ⟨S128, u 1⟩, ⟨S128, u 2⟩, ⟨S128, u 3⟩] concatenates_S128_S128_S128_S128_S512_d0),
   StableHlo.reshape main_v45 main_v46 rfl shapeCasts_S512_S1x512,
   StableHlo.unary main_arg6 main_v47 ((transpose S100x3 [1, 0] · transposes_S3x100_S100x3_1_0) : (⟨S3x100, .f32⟩ : BufTy).Contents (Elt F) → (⟨S100x3, .f32⟩ : BufTy).Contents (Elt F)),
   StableHlo.nullary main_c_3 (constantI S_ 32 0#32),
   StableHlo.TRef.unary (.of main_c_3 : StableHlo.TRef sig ⟨S_, .i32⟩) main_call4.v0 (sitofp .f32),
   StableHlo.TRef.binary (.of main_v47 : StableHlo.TRef sig ⟨S100x3, .f32⟩) main_call4.v0 main_call4.v1 (fun x v => pad S128x3 ![0, 0] ![28, 0] ![0, 0] x v pads_S100x3_S128x3_0280_000 h_S_),
   StableHlo.reshape main_arg7 main_v49 rfl shapeCasts_S3_S1x3]

set_option maxRecDepth 4096 in
theorem main_eq (d : Dev nD) :
    main (F := F) d =
      (Prog.lift (.customCall (SparseCore.inner (Pipeline.entry 0)) ()) >>= fun _ =>
        (StableHlo.seq (opsA (F := F)) >>= fun _ =>
          (sc.run d 0 >>= fun _ =>
            (StableHlo.seq (opsB (F := F)) >>= fun _ =>
              (Prog.lift (.customCall (SparseCore.inner (Pipeline.entry 1)) ()) >>= fun _ => pure ⟨⟩))))) := by
  simp only [main, fn_pad.body, fn_pad_0.body, fn_pad_1.body, opsA, opsB, StableHlo.seq, bind_assoc, pure_bind]

end Cert.Proof.KI

end
-- ==== Proof.KILaunch.lean ====
/-
  The launch of the idealized kernel program: the launch element split among the handshakes' rounds, the two TensorCore
  pipelines' staging cells and the transfers' counters; what each device's TensorCore is dealt for the two regions.
-/
import proofs.«204407_g76768245448983_cont_9to1_m_970_19_alg».proof.Proof.KISetup
import proofs.«204407_g76768245448983_cont_9to1_m_970_19_alg».proof.Proof.KIMain
import Idealize.ShloMosaic.Lib.Pipeline.Frame
import Idealize.ShloMosaic.Lib.Pipeline.RegionsLoop
import Idealize.ShloMosaic.Lib.Pipeline.FrameSuffix

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- What the launch deals device `d`'s TensorCore for the two regions: each pipeline's staging cells' launch ghost state
    and the duty tokens of its transfers. -/
def G (d : Dev nD) : sProp 𝕄 :=
  iprop((bigSep Finset.univ fun p : Fin 2 => Pipeline.cellsGhost cfgs (EP (F := F)) p d)
    ∗ bigSep Finset.univ fun p : Fin 2 => (Pipeline.toksInit cfgs (EP (F := F)) p d : sProp 𝕄))

/-- The launch element: the handshakes' rounds at their cells and tokens, the pipelines' at theirs, the counters' unit. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

omit [FloatOps F] in
theorem bigSep_emp' {I : Type} (s : Finset I) : (bigSep s fun _ => iprop(emp)) = (iprop(emp) : sProp 𝕄) := bigSep_emp_const s

theorem hu₀ (X : sProp 𝕄) : iprop((ownU (u₀ (F := F)) : sProp 𝕄) ∗ X)
    ⊢ |={Set.univ}=> iprop(BI.own (EH (initOf (K (F := F)).hsCells (K (F := F)).hsToks)) ∗ (bigSep Finset.univ fun d : Dev nD => G (F := F) d)
        ∗ bigSep Finset.univ fun _ : Thread nD τ => bigSep Finset.univ fun _ : Fin 1 => (iprop(emp) : sProp 𝕄)) := by
  have hfund : (BI.own (((Emb.inl : Emb UP (UP × Counters)).trans (embR : Emb (UP × Counters) 𝕄))
        (initOf (Pipeline.cells (nD := nD) (τ := τ) cfgs cellOf_inj) (Pipeline.launchToks (nD := nD) (τ := τ) cfgs cellOf_inj))) : sProp 𝕄)
      ⊢ iprop(|==> ((bigSep Finset.univ fun c : Dev nD => bigSep Finset.univ fun p : Fin 2 => Pipeline.cellsGhost cfgs (EP (F := F)) p c)
          ∗ (bigSep Finset.univ fun c : Dev nD => bigSep Finset.univ fun p : Fin 2 => (Pipeline.toksInit cfgs (EP (F := F)) p c : sProp 𝕄)))) :=
    Pipeline.fund_ghost (nD := nD) (τ := τ) cfgs (EP (F := F)) cellOf_inj
  unfold u₀
  iintro ⟨Hu, -⟩
  ihave H := (ownU_pair _ _) $$ Hu
  icases H with ⟨HH, HR⟩
  ihave H2 := (own_pair_emb (embR : Emb (UP × Counters) 𝕄) _ _) $$ HR
  icases H2 with ⟨HP, -⟩
  imod (hfund) $$ HP with ⟨Hg, Ht⟩
  imodintro
  isplitl [HH]; · iexact HH
  isplitl [Hg Ht]
  · unfold G
    rw [bigSep_sep']
    isplitl [Hg] <;> iassumption
  · rw [show (bigSep Finset.univ fun _ : Thread nD τ => bigSep Finset.univ fun _ : Fin 1 => (iprop(emp) : sProp 𝕄)) = iprop(emp) from by
      rw [bigSep_congr fun _ _ => bigSep_emp' _, bigSep_emp']]
    iempintro

/-! ## Entering a TensorCore region from inside the SparseCore program's @main -/

section Region

variable (pdats : (p : Fin 2) → (c : Dev nD) → Pipeline.Dat τ (Elt F) (HIx 1) ℕ UU ℕ (Pipeline.pin (pcfgs (F := F)) adm p) c)

set_option backward.isDefEq.respectTransparency.types false in
/-- One TensorCore region of @main, entered as the lifted call of the pipeline's entry label: from the boundary, the
    region's entry state, the level facts and the pipeline's staging cells' ghost state and tokens, to the boundary and the
    region's exit state. -/
theorem region_step (p : Fin 2) (R : Pipeline.RegionSeg (pcfgs (F := F)) adm pdats (none : HIx 1) defs₀ 𝒱₀ (K (F := F)).L (K (F := F)).lev p)
    (d : Dev nD) (Φ : PUnit → sProp 𝕄) :
    iprop((iprop(boundary (SparseCore.T d) ∗ R.post d) -∗ Φ ⟨⟩) ∗ boundary (SparseCore.T d) ∗ R.pre d ∗ levAts (K (F := F)).L (K (F := F)).lev
        ∗ Pipeline.cellsGhost cfgs (EP (F := F)) p d ∗ Pipeline.toksInit cfgs (EP (F := F)) p d)
      ⊢ wp frame (wpE ((K (F := F)).defs (D (F := F))) 𝒱 (SparseCore.T d) none) Set.univ
          (SparseCore.liftProg (Q := 1) (Prog.op (.customCall (Pipeline.entry p) ()) fun _ => Prog.ret PUnit.unit)) Φ := by
  refine BI.Entails.trans ?_ ((K (F := F)).wp_liftProg (D (F := F)) 𝒱 (SparseCore.T d) Set.univ none _ Φ)
  refine BI.Entails.trans ?_ (Pipeline.RegionSeg.wp (pcfgs (F := F)) adm pdats (none : HIx 1) cellOf_inj (EP (F := F)) defs₀ 𝒱₀
    (K (F := F)).L (K (F := F)).lev R d none (fun u hu => nomatch hu) (fun _ => Prog.ret PUnit.unit) Φ)
  show (_ : sProp 𝕄) ⊢ _
  iintro ⟨Hk, Hrest⟩
  isplitl [Hk]
  · iintro Hb; rw [wp_ret]; imodintro; iapply Hk; iexact Hb
  · iexact Hrest

/-- The printed statement of a region IS that lifted call. -/
theorem entry_lift (p : Fin 2) :
    (Prog.lift (.customCall (SparseCore.inner (Pipeline.entry p)) ()) : Prog (TpuEff nD τ sig (Elt F) (SparseCore.Sig (ΛP (F := F)) 1) .tc) PUnit)
      = SparseCore.liftProg (Q := 1) (Prog.op (.customCall (Pipeline.entry p) ()) fun _ => Prog.ret PUnit.unit) := rfl

/-- The recorded pairs a TensorCore may hold before call `n`: those at levels up to `8 n`. -/
def BB (n : ℕ) (d : Dev nD) : Set (SemLoc sig × HIx 1) := {x | (K (F := F)).lev (T d, x.1) x.2 ≤ 8 * n}

theorem Otc_none (d : Dev nD) (n : ℕ) (g : GSem nD τ sig) : (K (F := F)).Otc d n g none = 0 := by
  by_contra h
  have h1 := SparseCore.Cfg.lev_of_Otc_pos (K := K (F := F)) (d := d) (n := n) (g := g) (ι := none) (Nat.pos_of_ne_zero h)
  rw [SparseCore.Cfg.lev_none] at h1
  omega

set_option backward.isDefEq.respectTransparency.types false in
/-- A region between two SparseCore-call stages: the TensorCore's handshake state before call `n` rides through it,
    its `owes` lent to the region and taken back with every newly recorded pair at the kernel's own index. -/
theorem region_stage (p : Fin 2) (n : ℕ) (R : Pipeline.RegionSeg (pcfgs (F := F)) adm pdats (none : HIx 1) defs₀ 𝒱₀ (K (F := F)).L (K (F := F)).lev p)
    (Wa Wb : Dev nD → Valuation τ sig (Elt F)) (wps : Set (SemLoc sig × HIx 1)) (hwps : ∀ x ∈ wps, x.2 = none)
    (hpre : ∀ d, R.pre d = iprop(StableHlo.held (SparseCore.T d) (Pipeline.ucRefs τ sig) (Wa d) ∗ Pipeline.owesWithin d ((K (F := F)).Otc d n) (BB (F := F) n d ∪ wps)))
    (hpost : ∀ d, R.post d = iprop(StableHlo.held (SparseCore.T d) (Pipeline.ucRefs τ sig) (Wb d) ∗ Pipeline.owesWithin d ((K (F := F)).Otc d n) (BB (F := F) n d ∪ wps)))
    (d : Dev nD) (Φ : PUnit → sProp 𝕄) :
    iprop((iprop(boundary (SparseCore.T d) ∗ StableHlo.held (SparseCore.T d) (Pipeline.ucRefs τ sig) (Wb d) ∗ (K (F := F)).tcSt EH d n) -∗ Φ ⟨⟩)
        ∗ boundary (SparseCore.T d) ∗ StableHlo.held (SparseCore.T d) (Pipeline.ucRefs τ sig) (Wa d) ∗ (K (F := F)).tcSt EH d n
        ∗ levAts (K (F := F)).L (K (F := F)).lev ∗ Pipeline.cellsGhost cfgs (EP (F := F)) p d ∗ Pipeline.toksInit cfgs (EP (F := F)) p d)
      ⊢ wp frame (wpE ((K (F := F)).defs (D (F := F))) 𝒱 (SparseCore.T d) none) Set.univ
          (SparseCore.liftProg (Q := 1) (Prog.op (.customCall (Pipeline.entry p) ()) fun _ => Prog.ret PUnit.unit)) Φ := by
  unfold SparseCore.Cfg.tcSt
  iintro ⟨Hk, Hb, Hheld, ⟨⟨%W, %hW, HO⟩, Hst⟩, Hlev, Hg, Ht⟩
  iapply (region_step pdats p R d Φ)
  isplitl [Hk Hst]
  · rw [hpost]
    iintro ⟨Hb, Hheld, %W', %hW', HO⟩
    iapply Hk
    isplitl [Hb]; · iexact Hb
    isplitl [Hheld]; · iexact Hheld
    isplitl [HO]
    · iexists W'; isplitr
      · ipureintro
        intro x hx
        rcases hW' (Finset.mem_coe.mpr hx) with h | h
        · exact h
        · rw [hwps x h, SparseCore.Cfg.lev_none]; exact Nat.zero_le _
      · iexact HO
    · iexact Hst
  isplitl [Hb]; · iexact Hb
  isplitl [Hheld HO]
  · rw [hpre]
    isplitl [Hheld]; · iexact Hheld
    iexists W; isplitr
    · ipureintro; exact fun x hx => Or.inl (hW x (Finset.mem_coe.mp hx))
    · iexact HO
  isplitl [Hlev]; · iexact Hlev
  isplitl [Hg] <;> iassumption

end Region

/-! ## The host stretches -/

theorem opsA_sub : ∀ op ∈ (opsA (F := F)), op.bufs ⊆ Pipeline.ucRefs τ sig := fun op h =>
  Pipeline.sub_ucRefs op ((List.forall_iff_forall_mem.mp (show (opsA (F := F)).Forall fun op => op.bufs ⊆ StableHlo.tcRefs τ sig from by
    simp only [opsA, List.Forall, StableHlo.unary_bufs_sub, StableHlo.reshape_bufs_sub, and_self])) op h)
theorem opsA_fresh : ∀ op ∈ (opsA (F := F)), op.fresh = ∅ := fun op h =>
  (List.forall_iff_forall_mem.mp (show (opsA (F := F)).Forall fun op => op.fresh = ∅ from by
    simp only [opsA, List.Forall]; repeat' constructor)) op h
theorem opsB_sub : ∀ op ∈ (opsB (F := F)), op.bufs ⊆ Pipeline.ucRefs τ sig := fun op h =>
  Pipeline.sub_ucRefs op ((List.forall_iff_forall_mem.mp (show (opsB (F := F)).Forall fun op => op.bufs ⊆ StableHlo.tcRefs τ sig from by
    simp only [opsB, List.Forall, StableHlo.unary_bufs_sub, StableHlo.reshape_bufs_sub, StableHlo.nullary_bufs_sub, StableHlo.binary_bufs_sub,
      StableHlo.nary_bufs_sub, and_self])) op h)
theorem opsB_fresh : ∀ op ∈ (opsB (F := F)), op.fresh = ∅ := fun op h =>
  (List.forall_iff_forall_mem.mp (show (opsB (F := F)).Forall fun op => op.fresh = ∅ from by
    simp only [opsB, List.Forall]; repeat' constructor)) op h

/-! ## The SparseCore call -/

abbrev v0' : DevRef τ sig := Proc.devRef .tc (main_v0 : Ref sig .tc)
abbrev v2' : DevRef τ sig := Proc.devRef .tc (main_v2 : Ref sig .tc)
abbrev v3' : DevRef τ sig := Proc.devRef .tc (main_v3 : Ref sig .tc)
/-- The three arrays the SparseCore call takes: the flattened indices, the padded table, the gathered rows. -/
abbrev S3 : Finset (DevRef τ sig) := {v2', v0', v3'}
theorem S3_sub : S3 ⊆ Pipeline.ucRefs τ sig := by decide

omit [FloatOps F] in
theorem held_S3 (d : Dev nD) (W : Valuation τ sig (Elt F)) :
    (StableHlo.held (SparseCore.T d) S3 W : sProp 𝕄)
      = iprop(((SparseCore.T d).loc main_v2 ↦{fullShare} W v2') ∗ ((SparseCore.T d).loc main_v0 ↦{fullShare} W v0') ∗ (SparseCore.T d).loc main_v3 ↦{fullShare} W v3') := by
  unfold StableHlo.held S3
  rw [SparseCore.bigSep_insert' (by decide), SparseCore.bigSep_insert' (by decide), bigSep_singleton]

section Call

variable (P : (K (F := F)).Pay (nD := nD) (Val := Elt F) (Name := ℕ) (U := UU))

/-- The SparseCore call between the two host stretches: the three arrays lent to the SparseCores and taken back, the gathered
    rows at `g`; every other unscoped buffer rides along. -/
theorem sc_stage (κ : GSem nD τ sig → ℕ) (d : Dev nD) (W : Valuation τ sig (Elt F)) (g : Buf (Elt F) ((SparseCore.T d).loc main_v3))
    (hst : iprop(((SparseCore.T d).loc main_v2 ↦{fullShare} W v2') ∗ ((SparseCore.T d).loc main_v0 ↦{fullShare} W v0') ∗ ∃ f, (SparseCore.T d).loc main_v3 ↦{fullShare} f)
      ⊢ |={Set.univ}=> (bigSep Finset.univ fun c : Fin ((K (F := F)).nCore 0) => P.st 0 d c : sProp 𝕄))
    (hdn : (bigSep Finset.univ fun c : Fin ((K (F := F)).nCore 0) => P.dn 0 d c : sProp 𝕄)
      ⊢ |={Set.univ}=> iprop(((SparseCore.T d).loc main_v2 ↦{fullShare} W v2') ∗ ((SparseCore.T d).loc main_v0 ↦{fullShare} W v0') ∗ (SparseCore.T d).loc main_v3 ↦{fullShare} g))
    {β : Type} (k : Prog (TpuEff nD τ sig (Elt F) (SparseCore.Sig (ΛP (F := F)) 1) .tc) β) (Ψ : β → sProp 𝕄) :
    iprop((K (F := F)).ctx EH P κ ∗ (K (F := F)).tcSt EH d 0 ∗ StableHlo.held (SparseCore.T d) (Pipeline.ucRefs τ sig) W
        ∗ (iprop((K (F := F)).tcSt EH d 1 ∗ StableHlo.held (SparseCore.T d) (Pipeline.ucRefs τ sig) (Function.update W v3' g))
            -∗ wp frame (wpE ((K (F := F)).defs (D (F := F))) 𝒱 (SparseCore.T d) none) Set.univ k Ψ))
      ⊢ wp frame (wpE ((K (F := F)).defs (D (F := F))) 𝒱 (SparseCore.T d) none) Set.univ (sc.run d 0)
          (fun _ => wp frame (wpE ((K (F := F)).defs (D (F := F))) 𝒱 (SparseCore.T d) none) Set.univ k Ψ) := by
  rw [StableHlo.held_sub_split (SparseCore.T d) S3_sub W, held_S3]
  iintro ⟨#Hctx, Hst, ⟨⟨H2, H0, H3⟩, Hrest⟩, Hk⟩
  imod hst $$ [H2 H0 H3] with Hst0
  · isplitl [H2]; · iexact H2
    isplitl [H0]; · iexact H0
    iexists _; iexact H3
  iapply ((K (F := F)).wp_run (D (F := F)) 𝒱 (EH := EH) (P := P) κ d 0)
  isplitr; · iexact Hctx
  isplitl [Hst]; · iexact Hst
  isplitl [Hst0]; · iexact Hst0
  iintro ⟨Hst, Hdn⟩
  imod hdn $$ Hdn with ⟨H2, H0, H3⟩
  iapply Hk
  isplitl [Hst]; · iexact Hst
  rw [StableHlo.held_sub_split (SparseCore.T d) S3_sub (Function.update W v3' g), held_S3,
    Function.update_of_ne (show v2' ≠ v3' by decide), Function.update_of_ne (show v0' ≠ v3' by decide), Function.update_self,
    StableHlo.held_congr (SparseCore.T d) (V := Function.update W v3' g) (V' := W) (S := Pipeline.ucRefs τ sig \ S3)
      (fun b hb => Function.update_of_ne (fun e => (Finset.mem_sdiff.mp hb).2 (by rw [e]; decide)) _ _)]
  isplitl [H2 H0 H3]
  · isplitl [H2]; · iexact H2
    isplitl [H0] <;> iassumption
  · iexact Hrest

end Call

/-! ## @main on the TensorCore -/

section Main

variable (m : (ℓ : Loc nD τ sig) → Buf (Elt F) ℓ) (ρ : Dev nD → PrngReg)

/-- The launch contents. -/
def W0 (d : Dev nD) : Valuation τ sig (Elt F) := fun b => m (d, b)

theorem unscoped_held0 (d : Dev nD) :
    (unscopedBufs d (fun b => m ((SparseCore.T d).loc b)) : sProp 𝕄) = StableHlo.held (SparseCore.T d) (Pipeline.ucRefs τ sig) (W0 m d) :=
  Pipeline.unscopedBufs_held d (W0 m d)

omit [FloatOps F] in
theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

variable (P : (K (F := F)).Pay (nD := nD) (Val := Elt F) (Name := ℕ) (U := UU))
variable (pdats : (p : Fin 2) → (c : Dev nD) → Pipeline.Dat τ (Elt F) (HIx 1) ℕ UU ℕ (Pipeline.pin (pcfgs (F := F)) adm p) c)
variable (R0 : Pipeline.RegionSeg (pcfgs (F := F)) adm pdats (none : HIx 1) defs₀ 𝒱₀ (K (F := F)).L (K (F := F)).lev 0)
variable (R1 : Pipeline.RegionSeg (pcfgs (F := F)) adm pdats (none : HIx 1) defs₀ 𝒱₀ (K (F := F)).L (K (F := F)).lev 1)
-- the contents the first region leaves, the gathered rows, the contents the second region leaves
variable (W1 W5 : Dev nD → Valuation τ sig (Elt F)) (g : (d : Dev nD) → Buf (Elt F) ((SparseCore.T d).loc main_v3))

/-- After the first host stretch; after the SparseCore call; after the second host stretch. -/
def W2 (d : Dev nD) : Valuation τ sig (Elt F) := StableHlo.after (opsA (F := F)) (W1 d)
def W3 (d : Dev nD) : Valuation τ sig (Elt F) := Function.update (W2 W1 d) v3' (g d)
def W4 (d : Dev nD) : Valuation τ sig (Elt F) := StableHlo.after (opsB (F := F)) (W3 W1 g d)

/-- What @main leaves the claim: every unscoped buffer at the last region's exit contents. -/
def FIN (d : Dev nD) : sProp 𝕄 := StableHlo.held (SparseCore.T d) (Pipeline.ucRefs τ sig) (W5 d)

set_option backward.isDefEq.respectTransparency.types false in
/-- @main on device `d`'s TensorCore: the first region, the first host stretch, the SparseCore call, the second host
    stretch, the second region; the handshake state rides along and the unscoped buffers go from contents to contents. -/
theorem hmain
    (wps0 wps1 : Set (SemLoc sig × HIx 1)) (hwps0 : ∀ x ∈ wps0, x.2 = none) (hwps1 : ∀ x ∈ wps1, x.2 = none)
    (hpre0 : ∀ d, R0.pre d = iprop(StableHlo.held (SparseCore.T d) (Pipeline.ucRefs τ sig) (W0 m d) ∗ Pipeline.owesWithin d ((K (F := F)).Otc d 0) (BB (F := F) 0 d ∪ wps0)))
    (hpost0 : ∀ d, R0.post d = iprop(StableHlo.held (SparseCore.T d) (Pipeline.ucRefs τ sig) (W1 d) ∗ Pipeline.owesWithin d ((K (F := F)).Otc d 0) (BB (F := F) 0 d ∪ wps0)))
    (hpre1 : ∀ d, R1.pre d = iprop(StableHlo.held (SparseCore.T d) (Pipeline.ucRefs τ sig) (W4 W1 g d) ∗ Pipeline.owesWithin d ((K (F := F)).Otc d 1) (BB (F := F) 1 d ∪ wps1)))
    (hpost1 : ∀ d, R1.post d = iprop(StableHlo.held (SparseCore.T d) (Pipeline.ucRefs τ sig) (W5 d) ∗ Pipeline.owesWithin d ((K (F := F)).Otc d 1) (BB (F := F) 1 d ∪ wps1)))
    (hst : ∀ d, iprop(((SparseCore.T d).loc main_v2 ↦{fullShare} W2 W1 d v2') ∗ ((SparseCore.T d).loc main_v0 ↦{fullShare} W2 W1 d v0') ∗ ∃ f, (SparseCore.T d).loc main_v3 ↦{fullShare} f)
        ⊢ |={Set.univ}=> (bigSep Finset.univ fun c : Fin ((K (F := F)).nCore 0) => P.st 0 d c : sProp (MT nD τ sig (HIx 1) (Elt F) ℕ UU ℕ)))
    (hdn : ∀ d, (bigSep Finset.univ fun c : Fin ((K (F := F)).nCore 0) => P.dn 0 d c : sProp 𝕄)
        ⊢ |={Set.univ}=> iprop(((SparseCore.T d).loc main_v2 ↦{fullShare} W2 W1 d v2') ∗ ((SparseCore.T d).loc main_v0 ↦{fullShare} W2 W1 d v0') ∗ (SparseCore.T d).loc main_v3 ↦{fullShare} g d))
    (κ : GSem nD τ sig → ℕ) (d : Dev nD) :
    iprop((K (F := F)).ctx EH P κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN (F := F) W5 d) := by
  unfold SparseCore.Cfg.tcRes G
  rw [unscoped_held0, main_eq, bigSep_fin2, bigSep_fin2]
  iintro ⟨#Hctx, Hst, ⟨Hb, Hheld, -, -⟩, ⟨Hg0, Hg1⟩, ⟨Ht0, Ht1⟩⟩
  ihave #Hlev := (SparseCore.Cfg.ctx_levAts κ) $$ Hctx
  -- the first region
  rw [wp_bind, entry_lift]
  iapply (region_stage pdats 0 0 R0 (W0 m) W1 wps0 hwps0 hpre0 hpost0 d)
  isplitr [Hb Hheld Hst Hg0 Ht0]
  swap
  · isplitl [Hb]; · iexact Hb
    isplitl [Hheld]; · iexact Hheld
    isplitl [Hst]; · iexact Hst
    isplitr; · iexact Hlev
    isplitl [Hg0] <;> iassumption
  iintro ⟨Hb, Hheld, Hst⟩
  -- the first host stretch
  iapply (StableHlo.wp_seq (defs := (K (F := F)).defs (D (F := F))) 𝒱 none Set.univ d (Pipeline.ucRefs τ sig) _ (opsA (F := F)) opsA_sub opsA_fresh (W1 d)) $$ [Hb Hheld]
  · isplitl [Hb] <;> iassumption
  iintro ⟨Hb, Hheld⟩
  -- the SparseCore call
  rw [wp_bind]
  iapply (sc_stage P κ d (W2 W1 d) (g d) (hst d) (hdn d))
  isplitr; · iexact Hctx
  isplitl [Hst]; · iexact Hst
  isplitl [Hheld]; · iexact Hheld
  iintro ⟨Hst, Hheld⟩
  -- the second host stretch
  iapply (StableHlo.wp_seq (defs := (K (F := F)).defs (D (F := F))) 𝒱 none Set.univ d (Pipeline.ucRefs τ sig) _ (opsB (F := F)) opsB_sub opsB_fresh (W3 W1 g d)) $$ [Hb Hheld]
  · isplitl [Hb]; · iexact Hb
    iexact Hheld
  iintro ⟨Hb, Hheld⟩
  -- the second region
  rw [wp_bind, entry_lift]
  iapply (region_stage pdats 1 1 R1 (W4 W1 g) W5 wps1 hwps1 hpre1 hpost1 d)
  isplitr [Hb Hheld Hst Hg1 Ht1]
  swap
  · isplitl [Hb]; · iexact Hb
    isplitl [Hheld]; · iexact Hheld
    isplitl [Hst]; · iexact Hst
    isplitr; · iexact Hlev
    isplitl [Hg1] <;> iassumption
  iintro ⟨Hb, Hheld, Hst⟩
  rw [wp_pure]
  imodintro
  isplitl [Hst]; · iexact Hst
  unfold FIN
  iexact Hheld

/-- What the final memory is read for: every unscoped buffer of device `d` at the last contents. -/
def fq (d : Dev nD) (s' : Phys nD τ sig (Elt F)) : Prop := ∀ b ∈ Pipeline.ucRefs τ sig, s'.mem.mem (d, b) = W5 d b

omit [FloatOps F] in
theorem hfin (d : Dev nD) (s' : Phys nD τ sig (Elt F)) : iprop(FIN (F := F) W5 d ∗ SI s') ⊢ (⌜fq (F := F) W5 d s'⌝ : sProp 𝕄) := by
  unfold FIN StableHlo.held
  iintro H
  ihave H' := (pointsTo_read_all (Pipeline.ucRefs τ sig) (fun b => ((d, b) : Loc nD τ sig)) (fun b => W5 d b) s') $$ H
  icases H' with ⟨%h, -⟩
  ipureintro; exact h

/-- The program's post: on every device every unscoped buffer holds the last contents. -/
def QC : PUnit × MemSt nD τ sig (Elt F) → Prop := fun r => ∀ (c : Dev nD), ∀ b ∈ Pipeline.ucRefs τ sig, r.2.mem (c, b) = W5 c b

/-- The whole program's run from the launch theorem: the tile obligation and the split of the call's operands are the
    SparseCore kernel's; @main is `hmain`; the final memory is read through the last contents. -/
theorem run_main [∀ e, Nonempty (Elt F e)] [P.IsStorable]
    (wps0 wps1 : Set (SemLoc sig × HIx 1)) (hwps0 : ∀ x ∈ wps0, x.2 = none) (hwps1 : ∀ x ∈ wps1, x.2 = none)
    (hpre0 : ∀ d, R0.pre d = iprop(StableHlo.held (SparseCore.T d) (Pipeline.ucRefs τ sig) (W0 m d) ∗ Pipeline.owesWithin d ((K (F := F)).Otc d 0) (BB (F := F) 0 d ∪ wps0)))
    (hpost0 : ∀ d, R0.post d = iprop(StableHlo.held (SparseCore.T d) (Pipeline.ucRefs τ sig) (W1 d) ∗ Pipeline.owesWithin d ((K (F := F)).Otc d 0) (BB (F := F) 0 d ∪ wps0)))
    (hpre1 : ∀ d, R1.pre d = iprop(StableHlo.held (SparseCore.T d) (Pipeline.ucRefs τ sig) (W4 W1 g d) ∗ Pipeline.owesWithin d ((K (F := F)).Otc d 1) (BB (F := F) 1 d ∪ wps1)))
    (hpost1 : ∀ d, R1.post d = iprop(StableHlo.held (SparseCore.T d) (Pipeline.ucRefs τ sig) (W5 d) ∗ Pipeline.owesWithin d ((K (F := F)).Otc d 1) (BB (F := F) 1 d ∪ wps1)))
    (hst : ∀ d, iprop(((SparseCore.T d).loc main_v2 ↦{fullShare} W2 W1 d v2') ∗ ((SparseCore.T d).loc main_v0 ↦{fullShare} W2 W1 d v0') ∗ ∃ f, (SparseCore.T d).loc main_v3 ↦{fullShare} f)
        ⊢ |={Set.univ}=> (bigSep Finset.univ fun c : Fin ((K (F := F)).nCore 0) => P.st 0 d c : sProp (MT nD τ sig (HIx 1) (Elt F) ℕ UU ℕ)))
    (hdn : ∀ d, (bigSep Finset.univ fun c : Fin ((K (F := F)).nCore 0) => P.dn 0 d c : sProp 𝕄)
        ⊢ |={Set.univ}=> iprop(((SparseCore.T d).loc main_v2 ↦{fullShare} W2 W1 d v2') ∗ ((SparseCore.T d).loc main_v0 ↦{fullShare} W2 W1 d v0') ∗ (SparseCore.T d).loc main_v3 ↦{fullShare} g d))
    (hx : ∀ q thr, P.x q thr = (iprop(emp) : sProp 𝕄)) (hheld : P.held = ∅)
    (htile : (K (F := F)).TileObl (D (F := F)) 𝒱 P v₀ 0) (hvec : (K (F := F)).VecSplit P 0) :
    θ_run (Cert.KernelIdeal.defs (F := F)) (Cert.KernelIdeal.threads (F := F)) ⟨m, fun _ => 0, ρ⟩ (QC (F := F) W5) :=
  SparseCore.Cfg.θ_run_sc (K := K (F := F)) (D := D (F := F)) (𝒱 := 𝒱) (EH := EH) (P := P) facts v₀
    (fun q hq => match q with | 0 => nomatch hq)
    (fun q _ => match q with | 0 => htile)
    (fun q _ => match q with | 0 => hvec)
    m ρ main (G (F := F)) (FIN (F := F) W5) (u₀ (F := F))
    (by
      have h := hu₀ (F := F) (iprop(P.oxCred ∗ (K (F := F)).freeSems0))
      rw [show (fun thr : Thread nD τ => bigSep Finset.univ fun q : Fin 1 => P.x q thr)
          = fun _ : Thread nD τ => bigSep Finset.univ fun _ : Fin 1 => (iprop(emp) : sProp 𝕄) from
        funext fun thr => bigSep_congr fun q _ => hx q thr]
      exact h)
    (hmain m ρ P pdats R0 R1 W1 W5 g wps0 wps1 hwps0 hwps1 hpre0 hpost0 hpre1 hpost1 hst hdn)
    (fq (F := F) W5) (hfin (F := F) W5) (QC (F := F) W5) (fun _ h => h) hheld

end Main

end Cert.Proof.KI

end
-- ==== Proof.KIScTile.lean ====
/-
  The SparseCore gather kernel's task obligation in the idealized kernel program: what the one vector-subcore call
  hands each SparseCore and each tile and takes back (the record of payloads), how a SparseCore's operands split among
  its sixteen tiles, and one tile's body at a symbolic place. A tile holds a read share of the whole index array and of
  the whole padded table and, outright, the four blocks of 400 rows of the result it writes; it copies its 1600 indices
  into its scratch, and four times gathers 400 rows of the table into its row scratch and copies them out to one block.
  One transfer is outstanding on each semaphore at any time.
-/
import proofs.«204407_g76768245448983_cont_9to1_m_970_19_alg».proof.Proof.KISetup
import Idealize.ShloMosaic.Lib.SparseCore.Stream

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays -/

/-- The padded table, the indices and the gathered rows, as locations of device d. -/
abbrev tLoc (d : Dev nD) : Loc nD τ sig := (SparseCore.T d).loc main_v0
abbrev iLoc (d : Dev nD) : Loc nD τ sig := (SparseCore.T d).loc main_v2
abbrev oLoc (d : Dev nD) : Loc nD τ sig := (SparseCore.T d).loc main_v3

/-- The kernel's memrefs, as the body table passes them. -/
abbrev iV : Memref sig .scVector .hbm S51200 .i32 := Memref.whole main_v2_scv
abbrev tV : Memref sig .scVector .hbm S100000x128 .f32 := Memref.whole main_v0_scv
abbrev oV : Memref sig .scVector .hbm S51200x128 .f32 := Memref.whole main_v3_scv
abbrev sI : Memref sig .scVector .vmem S1600 .i32 := Memref.whole cc1_scratch0
abbrev sR : Memref sig .scVector .vmem S400x128 .f32 := Memref.whole cc1_scratch1

/-! ## The blocks of the result

128 blocks of 400 rows: block 8 s + 4 c + j is written by tile s of SparseCore c in its trip j. -/

/-- Which SparseCore, which tile and which trip write a row of the result. -/
def kc (x : S51200x128.Idx) : ℕ := ((x 0).val / 1600) % 2
def ks (x : S51200x128.Idx) : ℕ := (x 0).val / 3200
def kj (x : S51200x128.Idx) : ℕ := ((x 0).val / 400) % 4

def coreSet (cn : ℕ) : Finset S51200x128.Idx := Finset.univ.filter fun x => kc x = cn
def tileSet (cn sn : ℕ) : Finset S51200x128.Idx := (coreSet cn).filter fun x => ks x = sn
def chunkSet (cn sn jn : ℕ) : Finset S51200x128.Idx := (tileSet cn sn).filter fun x => kj x = jn

theorem mem_chunkSet {cn sn jn : ℕ} {x : S51200x128.Idx} :
    x ∈ chunkSet cn sn jn ↔ ((x 0).val / 1600) % 2 = cn ∧ (x 0).val / 3200 = sn ∧ ((x 0).val / 400) % 4 = jn := by
  unfold chunkSet tileSet coreSet kc ks kj
  rw [Finset.mem_filter, Finset.mem_filter, Finset.mem_filter]
  simp only [Finset.mem_univ, true_and, and_assoc]

/-! ## A tile's place and its slices, in the program's spelling -/

abbrev cV (L : grid1.Coords) : Fin τ.nSC := (L 0).castLE hcore1
abbrev jV (L : grid1.Coords) : Fin τ.nSub := (L 1).castLE hsub1

/-- The tile's 1600 indices. -/
abbrev iSl (L : grid1.Coords) : Memref sig .scVector .hbm S1600 .i32 :=
  iV.slice (Rect.unit (s := S51200) (k1_off1 L) S1600.size (k1_off1_inb L)) (fun _ => rfl)
/-- The block of the result the tile writes in trip r. -/
abbrev oCh (L : grid1.Coords) (r : Fin 4) : Memref sig .scVector .hbm S400x128 .f32 :=
  oV.slice (Rect.unit (s := S51200x128) (k1_off2 L (BitVec.ofNat 32 (400 * r.val))) S400x128.size (k1_off2_inb L r)) (fun _ => rfl)
abbrev oCh0 (L : grid1.Coords) : Memref sig .scVector .hbm S400x128 .f32 :=
  oV.slice (Rect.unit (s := S51200x128) (k1_off2 L 0#32) S400x128.size (k1_off2_inb L 0)) (fun _ => rfl)
abbrev oCh1 (L : grid1.Coords) : Memref sig .scVector .hbm S400x128 .f32 :=
  oV.slice (Rect.unit (s := S51200x128) (k1_off2 L 400#32) S400x128.size (k1_off2_inb L 1)) (fun _ => rfl)
abbrev oCh2 (L : grid1.Coords) : Memref sig .scVector .hbm S400x128 .f32 :=
  oV.slice (Rect.unit (s := S51200x128) (k1_off2 L 800#32) S400x128.size (k1_off2_inb L 2)) (fun _ => rfl)
abbrev oCh3 (L : grid1.Coords) : Memref sig .scVector .hbm S400x128 .f32 :=
  oV.slice (Rect.unit (s := S51200x128) (k1_off2 L 1200#32) S400x128.size (k1_off2_inb L 3)) (fun _ => rfl)

theorem set_oCh (L : grid1.Coords) (r : Fin 4) : (oCh L r).view.set = chunkSet (L 0).val (L 1).val r.val := by
  show ((View.whole (main_v3_scv : Ref sig .scVector)).slice (Rect.unit (s := S51200x128) (k1_off2 L (BitVec.ofNat 32 (400 * r.val))) S400x128.size (k1_off2_inb L r))).set = _
  rw [View.set_slice]
  refine Finset.map_refl.trans ?_
  ext x
  rw [Rect.mem_set_unit, mem_chunkSet, k1_off2_eq]
  show (∀ a : Fin 2, _) ↔ _
  rw [Fin.forall_fin_two]
  have hc : (L 0).val < 2 := (L 0).isLt
  have hs : (L 1).val < 16 := (L 1).isLt
  have hr : r.val < 4 := r.isLt
  have hx1 : (x 1).val < 128 := (x 1).isLt
  have e0 : S400x128.size 0 = 400 := rfl
  have e1 : S400x128.size 1 = 128 := rfl
  simp only [Matrix.cons_val_zero, Matrix.cons_val_one, Matrix.head_cons, e0, e1]
  omega

/-! ## A tile's scoped storage: its two scratch buffers and its six DMA semaphores -/

section Tile

variable (d : Dev nD) (L : grid1.Coords)

/-- The kernel's DMA semaphores: the gather's and the five plain copies'. -/
def mySems : Finset (SemLoc sig) :=
  {.dma cc1_scratch2.sem, .dma cc1_scoped0.sem, .dma cc1_scoped1.sem, .dma cc1_scoped2.sem, .dma cc1_scoped3.sem, .dma cc1_scoped4.sem}

def cellsOf (thr : Thread nD τ) : Finset (GSem nD τ sig) := mySems.map ⟨fun sm => (thr, sm), fun _ _ e => (Prod.mk.inj e).2⟩

theorem cellsOf_sub : cellsOf (V d (cV L) (jV L)) ⊆ ownCells (V d (cV L) (jV L)) := by
  intro g hg
  obtain ⟨sm, hsm, rfl⟩ := Finset.mem_map.mp hg
  have hall : ∀ sm ∈ (mySems : Finset (SemLoc sig)), sm.isScoped .scVector = true := by decide
  exact mem_ownCells.mpr ⟨rfl, hall sm hsm⟩

theorem ownSems0_V :
    (ownSems0 (V d (cV L) (jV L)) : sProp 𝕄)
      = iprop((semVal (V d (cV L) (jV L), SemLoc.dma cc1_scratch2.sem) 0 ∗ semVal (V d (cV L) (jV L), SemLoc.dma cc1_scoped0.sem) 0
          ∗ semVal (V d (cV L) (jV L), SemLoc.dma cc1_scoped1.sem) 0 ∗ semVal (V d (cV L) (jV L), SemLoc.dma cc1_scoped2.sem) 0
          ∗ semVal (V d (cV L) (jV L), SemLoc.dma cc1_scoped3.sem) 0 ∗ semVal (V d (cV L) (jV L), SemLoc.dma cc1_scoped4.sem) 0)
          ∗ bigSep (ownCells (V d (cV L) (jV L)) \ cellsOf (V d (cV L) (jV L))) fun g => semVal g 0) := by
  unfold SparseCore.Cfg.ownSems0
  rw [SparseCore.bigSep_sdiff_split' (cellsOf_sub d L), cellsOf, BI.bigSep_map]
  unfold mySems
  rw [SparseCore.bigSep_insert' (by decide), SparseCore.bigSep_insert' (by decide), SparseCore.bigSep_insert' (by decide),
    SparseCore.bigSep_insert' (by decide), SparseCore.bigSep_insert' (by decide), bigSep_singleton]
  rfl

/-- The two scratch buffers are among the tile's own: they, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

end Tile

/-! ## What the handshakes carry -/

/-- The read share of a SparseCore, and of one of its tiles. -/
def shareC (cn : ℕ) : PosShare TreeShare := if h : cn < 2 then pieceOf fullShare 2 (by decide) ⟨cn, h⟩ else fullShare
def shareT (cn sn : ℕ) : PosShare TreeShare := if h : sn < 16 then pieceOf (shareC cn) 16 (by decide) ⟨sn, h⟩ else fullShare

/-- The four blocks a tile writes, at whatever they hold. -/
def outGo (d : Dev nD) (cn sn : ℕ) : sProp 𝕄 :=
  bigSep Finset.univ fun j : Fin 4 => iprop(∃ f, oLoc d ↦[chunkSet cn sn j.val]{fullShare} f)

theorem outGo_eq (d : Dev nD) (cn sn : ℕ) :
    (outGo d cn sn : sProp 𝕄) = iprop((∃ f, oLoc d ↦[chunkSet cn sn 0]{fullShare} f) ∗ (∃ f, oLoc d ↦[chunkSet cn sn 1]{fullShare} f)
      ∗ (∃ f, oLoc d ↦[chunkSet cn sn 2]{fullShare} f) ∗ ∃ f, oLoc d ↦[chunkSet cn sn 3]{fullShare} f) := by
  unfold outGo
  rw [show (Finset.univ : Finset (Fin 4)) = {0, 1, 2, 3} by decide, SparseCore.bigSep_insert' (by decide), SparseCore.bigSep_insert' (by decide),
    SparseCore.bigSep_insert' (by decide), bigSep_singleton]
  rfl

variable (tp : (d : Dev nD) → Buf (Elt F) (tLoc d)) (ix : (d : Dev nD) → Buf (Elt F) (iLoc d))

/-- What a tile is handed and hands back: a read share of the indices and of the padded table, its four blocks of the
    result. What a SparseCore is handed and hands back: the same for its sixteen tiles. -/
def forTile (d : Dev nD) (cn sn : ℕ) : sProp 𝕄 :=
  iprop((iLoc d ↦{shareT cn sn} ix d) ∗ (tLoc d ↦{shareT cn sn} tp d) ∗ outGo d cn sn)
def forCore (d : Dev nD) (cn : ℕ) : sProp 𝕄 :=
  iprop((iLoc d ↦{shareC cn} ix d) ∗ (tLoc d ↦{shareC cn} tp d) ∗ bigSep Finset.univ fun i : Fin 16 => outGo d cn i.val)

instance forTile_storable (d : Dev nD) (cn sn : ℕ) : BI.Storable (upEmb : UEmb _ 𝕄) (forTile tp ix d cn sn) := by
  unfold forTile outGo; infer_instance
instance forCore_storable (d : Dev nD) (cn : ℕ) : BI.Storable (upEmb : UEmb _ 𝕄) (forCore tp ix d cn) := by
  unfold forCore outGo; infer_instance

def P : (K (F := F)).Pay (nD := nD) (Val := Elt F) (Name := ℕ) (U := UU) where
  st := fun _ d c => forCore tp ix d c.val
  dn := fun _ d c => forCore tp ix d c.val
  go := fun _ d c i => forTile tp ix d c.val i.val
  td := fun _ d c i => forTile tp ix d c.val i.val
  x := fun _ _ => iprop(emp)

instance P_storable : (P (F := F) tp ix).IsStorable where
  st _ d c := by unfold P; infer_instance
  dn _ d c := by unfold P; infer_instance
  go _ _ _ _ := by unfold P; infer_instance
  td _ _ _ _ := by unfold P; infer_instance

/-! ## One tile's body -/

section Body

variable (d : Dev nD) (L : grid1.Coords)

theorem pts_iV (q : PosShare TreeShare) (f : Buf (Elt F) (iLoc d)) :
    ((iV).view.loc (V d (cV L) (jV L)) ↦{q} f : sProp 𝕄) = iLoc d ↦{q} f := by
  simp only [Memref.view_whole, View.set_whole]
theorem pts_tV (q : PosShare TreeShare) (f : Buf (Elt F) (tLoc d)) :
    ((tV).view.loc (V d (cV L) (jV L)) ↦{q} f : sProp 𝕄) = tLoc d ↦{q} f := by
  simp only [Memref.view_whole, View.set_whole]
theorem pts_oCh (r : Fin 4) (f : Buf (Elt F) (oLoc d)) :
    ((oCh L r).view.loc (V d (cV L) (jV L)) ↦[(oCh L r).view.set]{fullShare} f : sProp 𝕄)
      = oLoc d ↦[chunkSet (L 0).val (L 1).val r.val]{fullShare} f := by
  rw [set_oCh]
theorem pts_oCh0 (f : Buf (Elt F) (oLoc d)) :
    ((oCh0 L).view.loc (V d (cV L) (jV L)) ↦[(oCh0 L).view.set]{fullShare} f : sProp 𝕄)
      = oLoc d ↦[chunkSet (L 0).val (L 1).val 0]{fullShare} f := pts_oCh d L 0 f
theorem pts_oCh1 (f : Buf (Elt F) (oLoc d)) :
    ((oCh1 L).view.loc (V d (cV L) (jV L)) ↦[(oCh1 L).view.set]{fullShare} f : sProp 𝕄)
      = oLoc d ↦[chunkSet (L 0).val (L 1).val 1]{fullShare} f := pts_oCh d L 1 f
theorem pts_oCh2 (f : Buf (Elt F) (oLoc d)) :
    ((oCh2 L).view.loc (V d (cV L) (jV L)) ↦[(oCh2 L).view.set]{fullShare} f : sProp 𝕄)
      = oLoc d ↦[chunkSet (L 0).val (L 1).val 2]{fullShare} f := pts_oCh d L 2 f
theorem pts_oCh3 (f : Buf (Elt F) (oLoc d)) :
    ((oCh3 L).view.loc (V d (cV L) (jV L)) ↦[(oCh3 L).view.set]{fullShare} f : sProp 𝕄)
      = oLoc d ↦[chunkSet (L 0).val (L 1).val 3]{fullShare} f := pts_oCh d L 3 f
theorem pts_sI (f : Buf (Elt F) ((V d (cV L) (jV L)).loc cc1_scratch0)) :
    ((sI).view.loc (V d (cV L) (jV L)) ↦{fullShare} f : sProp 𝕄) = (V d (cV L) (jV L)).loc cc1_scratch0 ↦{fullShare} f := rfl
theorem pts_sR (f : Buf (Elt F) ((V d (cV L) (jV L)).loc cc1_scratch1)) :
    ((sR).view.loc (V d (cV L) (jV L)) ↦{fullShare} f : sProp 𝕄) = (V d (cV L) (jV L)).loc cc1_scratch1 ↦{fullShare} f := rfl

/-- Every index a tile's index scratch holds after its fetch names a row of the table: what each gather's stream asks
    of the 400 entries it reads, whatever the scratch held before. -/
theorem idx_inb (hix : ∀ j, (ix d j).toNat < 100000) (g : Buf (Elt F) ((sI).view.loc (V d (cV L) (jV L)))) (off : Fin 1 → ℕ)
    (inb : ∀ a, off a + S400.size a ≤ S1600.size a) (x : S400.Idx) :
    ((sI.slice (Rect.unit (s := S1600) off S400.size inb) (fun _ => rfl)).view.read (Elt F)
      ((sI).view.write (Elt F) g (ReadAs.same.apply ((iSl L).view.read (Elt F) (ix d))) Finset.univ) x).toNat < 100000 := by
  have e1 : (sI.slice (Rect.unit (s := S1600) off S400.size inb) (fun _ => rfl)).view.read (Elt F)
      ((sI).view.write (Elt F) g (ReadAs.same.apply ((iSl L).view.read (Elt F) (ix d))) Finset.univ) x
      = (sI).view.read (Elt F) ((sI).view.write (Elt F) g (ReadAs.same.apply ((iSl L).view.read (Elt F) (ix d))) Finset.univ)
          ((Rect.unit (s := S1600) off S400.size inb).emb x) := rfl
  rw [e1, View.read_write_of_mem _ _ (Finset.mem_univ _)]
  show ((iSl L).view.read (Elt F) (ix d) ((Rect.unit (s := S1600) off S400.size inb).emb x)).toNat < 100000
  rw [View.read_apply, cast_eq]
  exact hix _

/-- A wait recorded at the kernel's own index keeps the record within what the obligation allows. -/
theorem waits_ins {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

variable [FloatOps F]

set_option maxHeartbeats 1600000 in
theorem tile_body (hF : (K (F := F)).Facts) (hix : ∀ j, (ix d j).toNat < 100000) (q : PosShare TreeShare)
    (O : CellTallies nD τ sig (HIx 1)) (W : Waits sig (HIx 1)) (hO : ∀ g, O g none = 0) :
    iprop(levAts (K (F := F)).L (K (F := F)).lev ∗ emp
        ∗ ((iLoc d ↦{q} ix d) ∗ (tLoc d ↦{q} tp d) ∗ outGo d (L 0).val (L 1).val)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L iV (Memref.isWhole_whole _) tV (Memref.isWhole_whole _) oV (Memref.isWhole_whole _)
            sI (Memref.isWhole_whole _) sR (Memref.isWhole_whole _) cc1_scratch2 cc1_scoped0 cc1_scoped1 cc1_scoped2 cc1_scoped3 cc1_scoped4)
          fun _ => iprop(((iLoc d ↦{q} ix d) ∗ (tLoc d ↦{q} tp d) ∗ outGo d (L 0).val (L 1).val)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V, outGo_eq]
  iintro ⟨#Hlv, -, ⟨Hi, Ht, ⟨%f0, Ho0⟩, ⟨%f1, Ho1⟩, ⟨%f2, Ho2⟩, ⟨%f3, Ho3⟩⟩, ⟨⟨%fs0, Hs0⟩, ⟨%fs1, Hs1⟩, Hbufs⟩, ⟨⟨Hg, Hc0, Hc1, Hc2, Hc3, Hc4⟩, Hsems⟩, HO⟩
  ihave Hmw := ((K (F := F)).mayWaits_none (thr := V d (cV L) (jV L)) hO) $$ Hlv
  ihave Hi' := (Entails.of_eq (pts_iV (F := F) d L q _).symm) $$ Hi
  ihave Ht' := (Entails.of_eq (pts_tV (F := F) d L q _).symm) $$ Ht
  ihave Ho0' := (Entails.of_eq (pts_oCh0 (F := F) d L _).symm) $$ Ho0
  ihave Ho1' := (Entails.of_eq (pts_oCh1 (F := F) d L _).symm) $$ Ho1
  ihave Ho2' := (Entails.of_eq (pts_oCh2 (F := F) d L _).symm) $$ Ho2
  ihave Ho3' := (Entails.of_eq (pts_oCh3 (F := F) d L _).symm) $$ Ho3
  ihave Hs0' := (Entails.of_eq (pts_sI (F := F) d L _).symm) $$ Hs0
  ihave Hs1' := (Entails.of_eq (pts_sR (F := F) d L _).symm) $$ Hs1
  have hin := idx_inb (F := F) ix d L hix
  sl_unfold [cc1__sc_gather_body]
  sl_exec
  sl_step
  isplitl [Hi' Ht' Ho0' Ho1' Ho2' Ho3']
  · isplitl [Hi']; · iapply (Entails.of_eq (pts_iV (F := F) d L q _)); iexact Hi'
    isplitl [Ht']; · iapply (Entails.of_eq (pts_tV (F := F) d L q _)); iexact Ht'
    isplitl [Ho0']; · iexists _; iapply (Entails.of_eq (pts_oCh0 (F := F) d L _)); iexact Ho0'
    isplitl [Ho1']; · iexists _; iapply (Entails.of_eq (pts_oCh1 (F := F) d L _)); iexact Ho1'
    isplitl [Ho2']; · iexists _; iapply (Entails.of_eq (pts_oCh2 (F := F) d L _)); iexact Ho2'
    iexists _; iapply (Entails.of_eq (pts_oCh3 (F := F) d L _)); iexact Ho3'
  isplitl [Hs0' Hs1' Hbufs]
  · isplitl [Hs0']; · iexists _; iexact Hs0'
    isplitl [Hs1']; · iexists _; iexact Hs1'
    iexact Hbufs
  isplitl [Hg Hc0 Hc1 Hc2 Hc3 Hc4 Hsems]
  · isplitr [Hsems]
    · isplitl [Hg]; · iexact Hg
      isplitl [Hc0]; · iexact Hc0
      isplitl [Hc1]; · iexact Hc1
      isplitl [Hc2]; · iexact Hc2
      isplitl [Hc3]; · iexact Hc3
      iexact Hc4
    · iexact Hsems
  iexists _; isplitr
  swap
  · iexact HO
  · ipureintro
    exact waits_ins (waits_ins (waits_ins (waits_ins (waits_ins (waits_ins (waits_ins (waits_ins (waits_ins fun p hp => .inl hp))))))))

end Body

/-! ## Splitting an array's elements by a key, and a share into pieces -/

section Fibers

variable {ℓ : Loc nD τ sig}

theorem fibers_disjoint (I : Finset (Idx ℓ)) (n : ℕ) (ψ : Idx ℓ → ℕ) :
    ∀ t ∈ (Finset.univ : Finset (Fin n)), ∀ t' ∈ (Finset.univ : Finset (Fin n)), t ≠ t' →
      Disjoint (I.filter fun x => ψ x = t.val) (I.filter fun x => ψ x = t'.val) := fun t _ t' _ h =>
  Finset.disjoint_filter.mpr fun x _ h1 h2 => h (Fin.ext (h1.symm.trans h2))

theorem fibers_cover (I : Finset (Idx ℓ)) (n : ℕ) (ψ : Idx ℓ → ℕ) (hψ : ∀ x ∈ I, ψ x < n) :
    (Finset.univ : Finset (Fin n)).biUnion (fun t => I.filter fun x => ψ x = t.val) = I := by
  ext x
  simp only [Finset.mem_biUnion, Finset.mem_univ, true_and, Finset.mem_filter]
  exact ⟨fun ⟨_, hx, _⟩ => hx, fun hx => ⟨⟨ψ x, hψ x hx⟩, hx, rfl⟩⟩

/-- Elements held at one contents are held key by key. -/
theorem pointsTo_fibers (I : Finset (Idx ℓ)) (n : ℕ) (ψ : Idx ℓ → ℕ) (hψ : ∀ x ∈ I, ψ x < n) (q : PosShare TreeShare) (f : Buf (Elt F) ℓ) :
    (ℓ ↦[I]{q} f : sProp 𝕄) = bigSep Finset.univ fun t : Fin n => ℓ ↦[I.filter fun x => ψ x = t.val]{q} f :=
  (congrArg (fun J => (ℓ ↦[J]{q} f : sProp 𝕄)) (fibers_cover I n ψ hψ).symm).trans
    (pointsTo_biUnion Finset.univ (fun t : Fin n => I.filter fun x => ψ x = t.val) (fibers_disjoint I n ψ))

/-- Held key by key at whatever contents, they are held at some contents. -/
theorem pointsTo_fibers_join [Nonempty (Buf (Elt F) ℓ)] (I : Finset (Idx ℓ)) (n : ℕ) (ψ : Idx ℓ → ℕ) (hψ : ∀ x ∈ I, ψ x < n) (q : PosShare TreeShare) :
    (bigSep Finset.univ fun t : Fin n => iprop(∃ f : Buf (Elt F) ℓ, ℓ ↦[I.filter fun x => ψ x = t.val]{q} f))
      ⊢ (iprop(∃ f : Buf (Elt F) ℓ, ℓ ↦[I]{q} f) : sProp 𝕄) := by
  refine (bigSep_exists_pi Finset.univ (fun (t : Fin n) (f : Buf (Elt F) ℓ) => (ℓ ↦[I.filter fun x => ψ x = t.val]{q} f : sProp 𝕄))).trans ?_
  iintro ⟨%fs, H⟩
  ihave H' := (pointsTo_biUnion_join Finset.univ (fun t : Fin n => I.filter fun x => ψ x = t.val) fs (Classical.choice inferInstance)
    (fibers_disjoint I n ψ)) $$ H
  icases H' with ⟨%g, -, Hg⟩
  rw [fibers_cover I n ψ hψ]
  iexists g; iexact Hg

/-- A SparseCore's read share is its sixteen tiles', and the whole is the two SparseCores'. -/
theorem share_tiles (cn : ℕ) (f : Buf (Elt F) ℓ) :
    (ℓ ↦{shareC cn} f : sProp 𝕄) = bigSep Finset.univ fun i : Fin 16 => ℓ ↦{shareT cn i.val} f := by
  rw [pointsTo_piecesOf Finset.univ f (o := 16) (by decide) (shareC cn)]
  exact bigSep_congr fun i _ => by rw [shareT, dif_pos i.isLt]
theorem share_cores (f : Buf (Elt F) ℓ) :
    (ℓ ↦{fullShare} f : sProp 𝕄) = bigSep Finset.univ fun c : Fin 2 => ℓ ↦{shareC c.val} f := by
  rw [pointsTo_piecesOf Finset.univ f (o := 2) (by decide) fullShare]
  exact bigSep_congr fun c _ => by rw [shareC, dif_pos c.isLt]

end Fibers

/-! ## The launch theorem's obligations -/

section Obligations

variable [FloatOps F]

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ⟨⟩
      = SparseCore.onTile hcore1 hsub1 (fun c s => cc1__sc_gather_body (coordsV c s)
          iV (Memref.isWhole_whole _) tV (Memref.isWhole_whole _) oV (Memref.isWhole_whole _)
          sI (Memref.isWhole_whole _) sR (Memref.isWhole_whole _) cc1_scratch2 cc1_scoped0 cc1_scoped1 cc1_scoped2 cc1_scoped3 cc1_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task obligation of the gather kernel: every tile runs the body at its place. -/
theorem tileObl (hix : ∀ d j, (ix d j).toNat < 100000) : (K (F := F)).TileObl (D (F := F)) 𝒱 (P tp ix) v₀ 0 := by
  intro d c i O W hO _ _
  simp only [show (P tp ix).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body tp ix d (coordsV ⟨_, hc.1⟩ ⟨_, hc.2⟩) facts (hix d) _ O W hO).trans (wp_mono frame _ _ fun _ => obl_post)

/-! ## How a SparseCore's operands split among its tiles, and the call's among the SparseCores -/

omit [FloatOps F] in
theorem forCore_eq (d : Dev nD) (cn : ℕ) :
    (forCore tp ix d cn : sProp 𝕄) = bigSep Finset.univ fun i : Fin 16 => forTile tp ix d cn i.val := by
  unfold forCore forTile
  rw [bigSep_sep', bigSep_sep', ← share_tiles, ← share_tiles]

omit [FloatOps F] in
theorem vecSplit : (K (F := F)).VecSplit' (P tp ix) 0 := by
  intro d c
  show forCore tp ix d c.val ⊢ |={Set.univ}=> iprop((bigSep (Finset.univ : Finset (Fin 16)) fun i => forTile tp ix d c.val i.val)
      ∗ ((bigSep (Finset.univ : Finset (Fin 16)) fun i => forTile tp ix d c.val i.val) -∗ forCore tp ix d c.val))
  rw [← forCore_eq]
  iintro H; imodintro
  isplitl [H]; · iexact H
  iintro H; iexact H

omit [FloatOps F] in
theorem ks_lt (x : S51200x128.Idx) : ks x < 16 := by
  have h : (x 0).val < 51200 := (x 0).isLt
  unfold ks; omega

omit [FloatOps F] in
theorem ex_intro_pt {ℓ : Loc nD τ sig} (I : Finset (Idx ℓ)) (f : Buf (Elt F) ℓ) :
    (ℓ ↦[I]{fullShare} f : sProp 𝕄) ⊢ iprop(∃ f, ℓ ↦[I]{fullShare} f) := by
  iintro H; iexists f; iexact H

omit [FloatOps F] in
/-- The result held whole is its 128 blocks, each at that contents. -/
theorem out_split (d : Dev nD) (f : Buf (Elt F) (oLoc d)) :
    (oLoc d ↦{fullShare} f : sProp 𝕄) ⊢ bigSep Finset.univ fun c : Fin 2 => bigSep Finset.univ fun i : Fin 16 => outGo d c.val i.val := by
  rw [pointsTo_fibers (ℓ := oLoc d) Finset.univ 2 kc (fun x _ => Nat.mod_lt _ (by decide)) fullShare f]
  refine bigSep_mono fun c _ => ?_
  show (oLoc d ↦[coreSet c.val]{fullShare} f : sProp 𝕄) ⊢ _
  rw [pointsTo_fibers (ℓ := oLoc d) (coreSet c.val) 16 ks (fun x _ => ks_lt x) fullShare f]
  refine bigSep_mono fun i _ => ?_
  show (oLoc d ↦[tileSet c.val i.val]{fullShare} f : sProp 𝕄) ⊢ _
  rw [pointsTo_fibers (ℓ := oLoc d) (tileSet c.val i.val) 4 kj (fun x _ => Nat.mod_lt _ (by decide)) fullShare f]
  unfold outGo
  exact bigSep_mono fun j _ => ex_intro_pt (ℓ := oLoc d) (chunkSet c.val i.val j.val) f

omit [FloatOps F] in
/-- The 128 blocks, each at whatever it holds, are the result at some contents. -/
theorem out_join [∀ e, Nonempty (Elt F e)] (d : Dev nD) :
    (bigSep Finset.univ fun c : Fin 2 => bigSep Finset.univ fun i : Fin 16 => outGo d c.val i.val) ⊢ (iprop(∃ f, oLoc d ↦{fullShare} f) : sProp 𝕄) := by
  haveI : Nonempty (Buf (Elt F) (oLoc d)) := ⟨fun _ => Classical.choice inferInstance⟩
  have h1 : ∀ c i : ℕ, (outGo d c i : sProp 𝕄) ⊢ iprop(∃ f, oLoc d ↦[tileSet c i]{fullShare} f) := fun c i =>
    pointsTo_fibers_join (ℓ := oLoc d) (tileSet c i) 4 kj (fun x _ => Nat.mod_lt _ (by decide)) fullShare
  have h2 : ∀ c : ℕ, (bigSep Finset.univ fun i : Fin 16 => iprop(∃ f, oLoc d ↦[tileSet c i.val]{fullShare} f))
      ⊢ (iprop(∃ f, oLoc d ↦[coreSet c]{fullShare} f) : sProp 𝕄) := fun c =>
    pointsTo_fibers_join (ℓ := oLoc d) (coreSet c) 16 ks (fun x _ => ks_lt x) fullShare
  have h3 : (bigSep Finset.univ fun c : Fin 2 => iprop(∃ f, oLoc d ↦[coreSet c.val]{fullShare} f))
      ⊢ (iprop(∃ f, oLoc d ↦{fullShare} f) : sProp 𝕄) :=
    pointsTo_fibers_join (ℓ := oLoc d) Finset.univ 2 kc (fun x _ => Nat.mod_lt _ (by decide)) fullShare
  exact (bigSep_mono fun c _ => (bigSep_mono fun i _ => h1 c.val i.val).trans (h2 c.val)).trans h3

omit [FloatOps F] in
theorem st_cores (d : Dev nD) :
    (bigSep Finset.univ fun c : Fin ((K (F := F)).nCore 0) => (P tp ix).st 0 d c)
      = iprop((iLoc d ↦{fullShare} ix d) ∗ (tLoc d ↦{fullShare} tp d) ∗ bigSep Finset.univ fun c : Fin 2 => bigSep Finset.univ fun i : Fin 16 => outGo d c.val i.val) := by
  show (bigSep (Finset.univ : Finset (Fin 2)) fun c => forCore tp ix d c.val) = _
  unfold forCore
  rw [bigSep_sep', bigSep_sep', ← share_cores, ← share_cores]

omit [FloatOps F] in
/-- What the call takes for the two SparseCores: the indices, the padded table and the result, whole. -/
theorem st0_join (d : Dev nD) :
    iprop((iLoc d ↦{fullShare} ix d) ∗ (tLoc d ↦{fullShare} tp d) ∗ ∃ f, oLoc d ↦{fullShare} f)
      ⊢ |={Set.univ}=> bigSep Finset.univ fun c : Fin ((K (F := F)).nCore 0) => (P tp ix).st 0 d c := by
  rw [st_cores]
  iintro ⟨Hi, Ht, %f, Ho⟩
  imodintro
  isplitl [Hi]; · iexact Hi
  isplitl [Ht]; · iexact Ht
  iapply (out_split d f); iexact Ho

omit [FloatOps F] in
/-- What the call hands back. -/
theorem dn0_split [∀ e, Nonempty (Elt F e)] (d : Dev nD) :
    (bigSep Finset.univ fun c : Fin ((K (F := F)).nCore 0) => (P tp ix).dn 0 d c)
      ⊢ |={Set.univ}=> iprop((iLoc d ↦{fullShare} ix d) ∗ (tLoc d ↦{fullShare} tp d) ∗ ∃ f, oLoc d ↦{fullShare} f) := by
  rw [show (bigSep Finset.univ fun c : Fin ((K (F := F)).nCore 0) => (P tp ix).dn 0 d c)
    = bigSep Finset.univ fun c : Fin ((K (F := F)).nCore 0) => (P tp ix).st 0 d c from rfl, st_cores]
  iintro ⟨Hi, Ht, Ho⟩
  imodintro
  isplitl [Hi]; · iexact Hi
  isplitl [Ht]; · iexact Ht
  iapply (out_join d); iexact Ho

end Obligations

end Cert.Proof.KI

end
-- ==== Proof.KIScTile2.lean ====
/-
  The gather kernel's task obligation with the VALUE of the result: after the call, row r of the result is the row of the
  padded table that index r names.
-/
import proofs.«204407_g76768245448983_cont_9to1_m_970_19_alg».proof.Proof.KIScTile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The gathered rows -/

theorem size_S51200 : ∀ a : Fin S51200.rank, 51200 = S51200.size a := by decide
theorem size0_S100000x128 : ∀ a : Fin S100000x128.rank, a.val = 0 → 100000 = S100000x128.size a := by decide
theorem size1_S100000x128 : ∀ a : Fin S100000x128.rank, ¬ a.val = 0 → S51200x128.size 1 = S100000x128.size a := by decide

/-- Position r of the index array. -/
def idx1 (r : Fin 51200) : S51200.Idx := fun a => r.cast (size_S51200 a)

variable (tp : (d : Dev nD) → Buf (Elt F) (tLoc d)) (ix : (d : Dev nD) → Buf (Elt F) (iLoc d))

/-- The element of the padded table that element x of the result is a copy of: in the row that index x 0 names (read
    modulo the table's height, which is no restriction where every index names a row), at x's own column. -/
def srcIdx (d : Dev nD) (x : S51200x128.Idx) : S100000x128.Idx := fun a =>
  if h : a.val = 0 then (⟨(ix d (idx1 (x 0))).toNat % 100000, Nat.mod_lt _ (by decide)⟩ : Fin 100000).cast (size0_S100000x128 a h)
  else (x 1).cast (size1_S100000x128 a h)

/-- The result of the gather: row r is the row of the padded table that index r names. -/
def gath (d : Dev nD) : Buf (Elt F) (oLoc d) := fun x => tp d (srcIdx ix d x)

theorem srcIdx_val0 (d : Dev nD) (x : S51200x128.Idx) (a : Fin S100000x128.rank) (h : a.val = 0) :
    (srcIdx ix d x a).val = (ix d (idx1 (x 0))).toNat % 100000 := by
  unfold srcIdx; rw [dif_pos h]; rfl
theorem srcIdx_val1 (d : Dev nD) (x : S51200x128.Idx) (a : Fin S100000x128.rank) (h : ¬ a.val = 0) :
    (srcIdx ix d x a).val = (x 1).val := by
  unfold srcIdx; rw [dif_neg h]; rfl

/-! ## What a block of the result holds after its trip -/

section Value

variable (d : Dev nD) (L : grid1.Coords)

/-- Reading under a write of the whole shape gives the payload, whatever was written before. -/
theorem read_writes_whole {κ : Kind} {sp : Space} {s : Shape} {e : EltTy} (v : View sig κ sp s e) (f : v.ty.Contents (Elt F))
    (w : s.Idx → Elt F e) (Lr : List (View.Piece (Elt F) s e)) (y : s.Idx) :
    v.read (Elt F) (v.writes (Elt F) f (⟨Rect.whole s, w⟩ :: Lr)) y = w y := by
  have h := View.read_writes_cons_emb v f (Rect.whole s) w Lr y
  rwa [Rect.emb_whole_apply] at h

/-- Entry u of a trip's offset list, after the fetch: the index at the tile's base plus the trip's offset plus u. -/
theorem list_read (g : Buf (Elt F) ((sI).view.loc (V d (cV L) (jV L)))) (off : Fin 1 → ℕ)
    (inb : ∀ a, off a + S400.size a ≤ S1600.size a) (u : S400.Idx) :
    (sI.slice (Rect.unit (s := S1600) off S400.size inb) (fun _ => rfl)).view.read (Elt F)
      ((sI).view.write (Elt F) g (ReadAs.same.apply ((iSl L).view.read (Elt F) (ix d))) Finset.univ) u
      = ix d ((iSl L).view.emb ((Rect.unit (s := S1600) off S400.size inb).emb u)) := by
  have e1 : (sI.slice (Rect.unit (s := S1600) off S400.size inb) (fun _ => rfl)).view.read (Elt F)
      ((sI).view.write (Elt F) g (ReadAs.same.apply ((iSl L).view.read (Elt F) (ix d))) Finset.univ) u
      = (sI).view.read (Elt F) ((sI).view.write (Elt F) g (ReadAs.same.apply ((iSl L).view.read (Elt F) (ix d))) Finset.univ)
          ((Rect.unit (s := S1600) off S400.size inb).emb u) := rfl
  rw [e1, View.read_write_of_mem _ _ (Finset.mem_univ _)]
  show (iSl L).view.read (Elt F) (ix d) ((Rect.unit (s := S1600) off S400.size inb).emb u) = _
  rw [View.read_apply, cast_eq]

/-- The position a rank-one index names is its coordinate. -/
theorem rm1 (k : Fin S400.numel) : ((S400.rowMajor.symm k) 0).val = k.val := by
  have h := Shape.rowMajor_val_one (d := ![400]) (S400.rowMajor.symm k)
  rw [← h]
  exact congrArg Fin.val (S400.rowMajor.apply_symm_apply k)

end Value

section Value2

variable (d : Dev nD) (L : grid1.Coords)

theorem hnS : S400.numel = S400x128.size (gathers_S100000x128_S400x128).axis' := by decide

theorem chunk_val (hix : ∀ j, (ix d j).toNat < 100000) (r : Fin 4) (off : Fin 1 → ℕ) (inb : ∀ a, off a + S400.size a ≤ S1600.size a)
    (hoff : off 0 = 400 * r.val)
    (f : Buf (Elt F) (oLoc d)) (fs0 : Buf (Elt F) ((sI).view.loc (V d (cV L) (jV L)))) (fs1 : Buf (Elt F) ((sR).view.loc (V d (cV L) (jV L))))
    (Lr : List (View.Piece (Elt F) S400x128 .f32))
    (hin : ∀ x, ((sI.slice (Rect.unit (s := S1600) off S400.size inb) (fun _ => rfl)).view.read (Elt F)
      ((sI).view.write (Elt F) fs0 (ReadAs.same.apply ((iSl L).view.read (Elt F) (ix d))) Finset.univ) x).toNat
        < S100000x128.size (gathers_S100000x128_S400x128).axis) :
    ∀ i ∈ (oCh L r).view.set,
      (oCh L r).view.writes (Elt F) f [⟨Rect.whole S400x128, ReadAs.same.apply ((sR).view.read (Elt F) ((sR).view.writes (Elt F) fs1
        (⟨Rect.whole S400x128, SparseCore.gatherPayload gathers_S100000x128_S400x128
            ((tV.slice (Rect.unit (s := S100000x128) ![0, 0] S100000x128.size inb_S100000x128_S100000x128_0_0) (fun _ => rfl)).view.read (Elt F) (tp d))
            (SparseCore.rows ((sI.slice (Rect.unit (s := S1600) off S400.size inb) (fun _ => rfl)).view.read (Elt F)
              ((sI).view.write (Elt F) fs0 (ReadAs.same.apply ((iSl L).view.read (Elt F) (ix d))) Finset.univ)) hnS hin)⟩ :: Lr)))⟩] i
        = gath tp ix d i := by
  intro i hi
  obtain ⟨y, -, rfl⟩ := Finset.mem_map.mp hi
  have e1 : ∀ (g : Buf (Elt F) (oLoc d)), g ((oCh L r).view.emb y) = (oCh L r).view.read (Elt F) g y := fun g => by
    rw [View.read_apply, cast_eq]
  refine (e1 _).trans ?_
  rw [read_writes_whole]
  show (sR).view.read (Elt F) ((sR).view.writes (Elt F) fs1 (_ :: Lr)) y = _
  rw [read_writes_whole]
  unfold SparseCore.gatherPayload gath
  rw [View.read_apply, cast_eq]
  congr 1
  funext a
  apply Fin.ext
  show ((Rect.unit (s := S100000x128) ![0, 0] S100000x128.size inb_S100000x128_S100000x128_0_0).emb _ a : ℕ) = _
  rw [Rect.emb_apply]
  simp only [Rect.off_unit, Rect.stride_unit, Nat.one_mul]
  by_cases ha : a.val = 0
  · have haa : a = (gathers_S100000x128_S400x128).axis := Fin.ext ha
    rw [srcIdx_val0 _ _ _ _ ha, haa, Shape.Gathers.idx_axis]
    show _ + BitVec.toNat ((sI.slice (Rect.unit (s := S1600) off S400.size inb) (fun _ => rfl)).view.read (Elt F)
      ((sI).view.write (Elt F) fs0 (ReadAs.same.apply ((iSl L).view.read (Elt F) (ix d))) Finset.univ)
      (S400.rowMajor.symm ((y (gathers_S100000x128_S400x128).axis').cast hnS.symm))) = _
    rw [list_read]
    have hA : (iSl L).view.emb ((Rect.unit (s := S1600) off S400.size inb).emb (S400.rowMajor.symm ((y (gathers_S100000x128_S400x128).axis').cast hnS.symm)))
        = idx1 (((oCh L r).view.emb y) 0) := by
      refine funext fun (b : Fin 1) => ?_
      have hb : b = 0 := Subsingleton.elim _ _
      subst hb
      apply Fin.ext
      show ((Rect.unit (s := S51200) (k1_off1 L) S1600.size (k1_off1_inb L)).emb ((Rect.unit (s := S1600) off S400.size inb).emb _) 0 : ℕ)
        = ((Rect.unit (s := S51200x128) (k1_off2 L (BitVec.ofNat 32 (400 * r.val))) S400x128.size (k1_off2_inb L r)).emb y 0 : ℕ)
      rw [Rect.emb_apply, Rect.emb_apply, Rect.emb_apply]
      simp only [Rect.off_unit, Rect.stride_unit, Nat.one_mul]
      have h20 : k1_off2 L (BitVec.ofNat 32 (400 * r.val)) 0 = 3200 * (L 1).val + 1600 * (L 0).val + 400 * r.val := by
        rw [k1_off2_eq]; rfl
      rw [k1_off1_eq, h20, hoff, rm1]
      show (3200 * (L 1).val + 1600 * (L 0).val) + (400 * r.val + (y 0).val) = (3200 * (L 1).val + 1600 * (L 0).val + 400 * r.val) + (y 0).val
      omega
    rw [hA, Nat.mod_eq_of_lt (hix _)]
    exact Nat.zero_add _
  · rw [srcIdx_val1 _ _ _ _ ha, Shape.Gathers.idx_of_ne _ _ _ a ha]
    have ha1 : a.val = 1 := by have := a.isLt; change a.val < 2 at this; omega
    obtain ⟨av, hav⟩ := a
    simp only at ha1
    subst ha1
    show 0 + (y 1).val = ((Rect.unit (s := S51200x128) (k1_off2 L (BitVec.ofNat 32 (400 * r.val))) S400x128.size (k1_off2_inb L r)).emb y 1 : ℕ)
    have h21 : k1_off2 L (BitVec.ofNat 32 (400 * r.val)) 1 = 0 := by rw [k1_off2_eq]; rfl
    rw [Rect.emb_apply, Rect.off_unit, Rect.stride_unit, h21]
    omega

end Value2

/-! ## The payloads with the value -/

/-- The four blocks a tile has written: each at the gathered rows. -/
def outDone (d : Dev nD) (cn sn : ℕ) : sProp 𝕄 :=
  bigSep Finset.univ fun j : Fin 4 => oLoc d ↦[chunkSet cn sn j.val]{fullShare} gath tp ix d

theorem outDone_eq (d : Dev nD) (cn sn : ℕ) :
    (outDone tp ix d cn sn : sProp 𝕄) = iprop((oLoc d ↦[chunkSet cn sn 0]{fullShare} gath tp ix d) ∗ (oLoc d ↦[chunkSet cn sn 1]{fullShare} gath tp ix d)
      ∗ (oLoc d ↦[chunkSet cn sn 2]{fullShare} gath tp ix d) ∗ oLoc d ↦[chunkSet cn sn 3]{fullShare} gath tp ix d) := by
  unfold outDone
  rw [show (Finset.univ : Finset (Fin 4)) = {0, 1, 2, 3} by decide, SparseCore.bigSep_insert' (by decide), SparseCore.bigSep_insert' (by decide),
    SparseCore.bigSep_insert' (by decide), bigSep_singleton]
  rfl

def forTileD (d : Dev nD) (cn sn : ℕ) : sProp 𝕄 :=
  iprop((iLoc d ↦{shareT cn sn} ix d) ∗ (tLoc d ↦{shareT cn sn} tp d) ∗ outDone tp ix d cn sn)
def forCoreD (d : Dev nD) (cn : ℕ) : sProp 𝕄 :=
  iprop((iLoc d ↦{shareC cn} ix d) ∗ (tLoc d ↦{shareC cn} tp d) ∗ bigSep Finset.univ fun i : Fin 16 => outDone tp ix d cn i.val)

instance forTileD_storable (d : Dev nD) (cn sn : ℕ) : BI.Storable (upEmb : UEmb _ 𝕄) (forTileD tp ix d cn sn) := by
  unfold forTileD outDone; infer_instance
instance forCoreD_storable (d : Dev nD) (cn : ℕ) : BI.Storable (upEmb : UEmb _ 𝕄) (forCoreD tp ix d cn) := by
  unfold forCoreD outDone; infer_instance

/-- The call's payloads, the result named on the way back. -/
def P2 : (K (F := F)).Pay (nD := nD) (Val := Elt F) (Name := ℕ) (U := UU) where
  st := fun _ d c => forCore tp ix d c.val
  dn := fun _ d c => forCoreD tp ix d c.val
  go := fun _ d c i => forTile tp ix d c.val i.val
  td := fun _ d c i => forTileD tp ix d c.val i.val
  x := fun _ _ => iprop(emp)

instance P2_storable : (P2 (F := F) tp ix).IsStorable where
  st _ d c := by unfold P2; infer_instance
  dn _ d c := by unfold P2; infer_instance
  go _ _ _ _ := by unfold P2; infer_instance
  td _ _ _ _ := by unfold P2; infer_instance

section Body2

variable (d : Dev nD) (L : grid1.Coords)
variable [FloatOps F]

set_option maxHeartbeats 1600000 in
theorem tile_body2 (hF : (K (F := F)).Facts) (hix : ∀ j, (ix d j).toNat < 100000) (q : PosShare TreeShare)
    (O : CellTallies nD τ sig (HIx 1)) (W : Waits sig (HIx 1)) (hO : ∀ g, O g none = 0) :
    iprop(levAts (K (F := F)).L (K (F := F)).lev ∗ emp
        ∗ ((iLoc d ↦{q} ix d) ∗ (tLoc d ↦{q} tp d) ∗ outGo d (L 0).val (L 1).val)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L iV (Memref.isWhole_whole _) tV (Memref.isWhole_whole _) oV (Memref.isWhole_whole _)
            sI (Memref.isWhole_whole _) sR (Memref.isWhole_whole _) cc1_scratch2 cc1_scoped0 cc1_scoped1 cc1_scoped2 cc1_scoped3 cc1_scoped4)
          fun _ => iprop(((iLoc d ↦{q} ix d) ∗ (tLoc d ↦{q} tp d) ∗ outDone tp ix d (L 0).val (L 1).val)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V, outGo_eq, outDone_eq]
  iintro ⟨#Hlv, -, ⟨Hi, Ht, ⟨%f0, Ho0⟩, ⟨%f1, Ho1⟩, ⟨%f2, Ho2⟩, ⟨%f3, Ho3⟩⟩, ⟨⟨%fs0, Hs0⟩, ⟨%fs1, Hs1⟩, Hbufs⟩, ⟨⟨Hg, Hc0, Hc1, Hc2, Hc3, Hc4⟩, Hsems⟩, HO⟩
  ihave Hmw := ((K (F := F)).mayWaits_none (thr := V d (cV L) (jV L)) hO) $$ Hlv
  ihave Hi' := (Entails.of_eq (pts_iV (F := F) d L q _).symm) $$ Hi
  ihave Ht' := (Entails.of_eq (pts_tV (F := F) d L q _).symm) $$ Ht
  ihave Ho0' := (Entails.of_eq (pts_oCh0 (F := F) d L _).symm) $$ Ho0
  ihave Ho1' := (Entails.of_eq (pts_oCh1 (F := F) d L _).symm) $$ Ho1
  ihave Ho2' := (Entails.of_eq (pts_oCh2 (F := F) d L _).symm) $$ Ho2
  ihave Ho3' := (Entails.of_eq (pts_oCh3 (F := F) d L _).symm) $$ Ho3
  ihave Hs0' := (Entails.of_eq (pts_sI (F := F) d L _).symm) $$ Hs0
  ihave Hs1' := (Entails.of_eq (pts_sR (F := F) d L _).symm) $$ Hs1
  have hin := idx_inb (F := F) ix d L hix
  sl_unfold [cc1__sc_gather_body]
  sl_exec
  sl_step
  sl_unfold_run_names
  ihave Ho0'' := (Entails.of_eq (pointsTo_congr (chunk_val tp ix d L hix 0 ![0] inb_S1600_S400_0 rfl _ _ _ _ _))) $$ Ho0'
  ihave Ho1'' := (Entails.of_eq (pointsTo_congr (chunk_val tp ix d L hix 1 ![400] inb_S1600_S400_400 rfl _ _ _ _ _))) $$ Ho1'
  ihave Ho2'' := (Entails.of_eq (pointsTo_congr (chunk_val tp ix d L hix 2 ![800] inb_S1600_S400_800 rfl _ _ _ _ _))) $$ Ho2'
  ihave Ho3'' := (Entails.of_eq (pointsTo_congr (chunk_val tp ix d L hix 3 ![1200] inb_S1600_S400_1200 rfl _ _ _ _ _))) $$ Ho3'
  isplitl [Hi' Ht' Ho0'' Ho1'' Ho2'' Ho3'']
  · isplitl [Hi']; · iapply (Entails.of_eq (pts_iV (F := F) d L q _)); iexact Hi'
    isplitl [Ht']; · iapply (Entails.of_eq (pts_tV (F := F) d L q _)); iexact Ht'
    isplitl [Ho0'']; · iapply (Entails.of_eq (pts_oCh0 (F := F) d L _)); iexact Ho0''
    isplitl [Ho1'']; · iapply (Entails.of_eq (pts_oCh1 (F := F) d L _)); iexact Ho1''
    isplitl [Ho2'']; · iapply (Entails.of_eq (pts_oCh2 (F := F) d L _)); iexact Ho2''
    iapply (Entails.of_eq (pts_oCh3 (F := F) d L _)); iexact Ho3''
  isplitl [Hs0' Hs1' Hbufs]
  · isplitl [Hs0']; · iexists _; iexact Hs0'
    isplitl [Hs1']; · iexists _; iexact Hs1'
    iexact Hbufs
  isplitl [Hg Hc0 Hc1 Hc2 Hc3 Hc4 Hsems]
  · isplitr [Hsems]
    · isplitl [Hg]; · iexact Hg
      isplitl [Hc0]; · iexact Hc0
      isplitl [Hc1]; · iexact Hc1
      isplitl [Hc2]; · iexact Hc2
      isplitl [Hc3]; · iexact Hc3
      iexact Hc4
    · iexact Hsems
  iexists _; isplitr
  swap
  · iexact HO
  · ipureintro
    exact waits_ins (waits_ins (waits_ins (waits_ins (waits_ins (waits_ins (waits_ins (waits_ins (waits_ins fun p hp => .inl hp))))))))

end Body2

/-! ## The launch theorem's obligations, with the value -/

section Obligations2

variable [FloatOps F]

/-- The task obligation of the gather kernel, each tile's four blocks left at the gathered rows. -/
theorem tileObl2 (hix : ∀ d j, (ix d j).toNat < 100000) : (K (F := F)).TileObl (D (F := F)) 𝒱 (P2 tp ix) v₀ 0 := by
  intro d c i O W hO _ _
  simp only [show (P2 tp ix).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body2 tp ix d (coordsV ⟨_, hc.1⟩ ⟨_, hc.2⟩) facts (hix d) _ O W hO).trans (wp_mono frame _ _ fun _ => obl_post)

omit [FloatOps F] in
theorem forCoreD_eq (d : Dev nD) (cn : ℕ) :
    (forCoreD tp ix d cn : sProp 𝕄) = bigSep Finset.univ fun i : Fin 16 => forTileD tp ix d cn i.val := by
  unfold forCoreD forTileD
  rw [bigSep_sep', bigSep_sep', ← share_tiles, ← share_tiles]

omit [FloatOps F] in
theorem vecSplit2 : (K (F := F)).VecSplit' (P2 tp ix) 0 := by
  intro d c
  show forCore tp ix d c.val ⊢ |={Set.univ}=> iprop((bigSep (Finset.univ : Finset (Fin 16)) fun i => forTile tp ix d c.val i.val)
      ∗ ((bigSep (Finset.univ : Finset (Fin 16)) fun i => forTileD tp ix d c.val i.val) -∗ forCoreD tp ix d c.val))
  rw [← forCore_eq, ← forCoreD_eq]
  iintro H; imodintro
  isplitl [H]; · iexact H
  iintro H; iexact H

omit [FloatOps F] in
/-- What the call takes for the two SparseCores: the indices, the padded table and the result, whole. -/
theorem st0_join2 (d : Dev nD) :
    iprop((iLoc d ↦{fullShare} ix d) ∗ (tLoc d ↦{fullShare} tp d) ∗ ∃ f, oLoc d ↦{fullShare} f)
      ⊢ |={Set.univ}=> bigSep Finset.univ fun c : Fin ((K (F := F)).nCore 0) => (P2 tp ix).st 0 d c :=
  st0_join tp ix d

omit [FloatOps F] in
/-- The result at the gathered rows is its 128 blocks at them. -/
theorem out_done_eq (d : Dev nD) :
    (oLoc d ↦{fullShare} gath tp ix d : sProp 𝕄)
      = bigSep Finset.univ fun c : Fin 2 => bigSep Finset.univ fun i : Fin 16 => outDone tp ix d c.val i.val := by
  rw [pointsTo_fibers (ℓ := oLoc d) Finset.univ 2 kc (fun x _ => Nat.mod_lt _ (by decide)) fullShare (gath tp ix d)]
  refine bigSep_congr fun c _ => ?_
  show (oLoc d ↦[coreSet c.val]{fullShare} gath tp ix d : sProp 𝕄) = _
  rw [pointsTo_fibers (ℓ := oLoc d) (coreSet c.val) 16 ks (fun x _ => ks_lt x) fullShare (gath tp ix d)]
  refine bigSep_congr fun i _ => ?_
  show (oLoc d ↦[tileSet c.val i.val]{fullShare} gath tp ix d : sProp 𝕄) = _
  rw [pointsTo_fibers (ℓ := oLoc d) (tileSet c.val i.val) 4 kj (fun x _ => Nat.mod_lt _ (by decide)) fullShare (gath tp ix d)]
  rfl

omit [FloatOps F] in
theorem dn_cores2 (d : Dev nD) :
    (bigSep Finset.univ fun c : Fin ((K (F := F)).nCore 0) => (P2 tp ix).dn 0 d c)
      = iprop((iLoc d ↦{fullShare} ix d) ∗ (tLoc d ↦{fullShare} tp d) ∗ oLoc d ↦{fullShare} gath tp ix d) := by
  show (bigSep (Finset.univ : Finset (Fin 2)) fun c => forCoreD tp ix d c.val) = _
  unfold forCoreD
  rw [bigSep_sep', bigSep_sep', ← share_cores, ← share_cores, ← out_done_eq]

omit [FloatOps F] in
/-- What the call hands back: the indices and the padded table as they were, the result at the gathered rows. -/
theorem dn0_split2 (d : Dev nD) :
    (bigSep Finset.univ fun c : Fin ((K (F := F)).nCore 0) => (P2 tp ix).dn 0 d c)
      ⊢ |={Set.univ}=> iprop((iLoc d ↦{fullShare} ix d) ∗ (tLoc d ↦{fullShare} tp d) ∗ oLoc d ↦{fullShare} gath tp ix d) := by
  rw [dn_cores2]
  iintro H; imodintro; iexact H

end Obligations2

end Cert.Proof.KI

end
-- ==== Proof.KITcPad.lean ====
/-
  The first TensorCore region of the idealized program: the padding kernel. Over a grid of 25 points it reads a
  block of 4000 rows of the table (100 columns) and writes the block of 4000 rows of the padded table (128
  columns): the first 100 columns the rows read, the last 28 zero. Here: what the body leaves in the output
  block, the body's triple, the pipeline's proof data at given entry contents, owed tallies and recorded
  bound, and the body obligation at every point.
-/
import proofs.«204407_g76768245448983_cont_9to1_m_970_19_alg».proof.Proof.KISetup
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type}

local notation "𝕄" => MT nD τ sig Ix (Elt F) Name U Lvl

/-! ## The entry contents, the tallies and the bound: parameters -/

section Pad

variable (Vt : (c : Dev nD) → (b : Ref sig .tc) → Buf (Elt F) ((c : Thread nD τ).loc b))
  (O : Dev nD → CellTallies nD τ sig Ix) (B : Dev nD → Set (SemLoc sig × Ix))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (Vt c (Pipeline.arrRef spec0 w))

/-- The input window's current staging buffer holds its block at every point, for any proof data whose array is
    the entry contents and whose body leaves the block in place: the window is fetched at every point, uncut and
    never idle. -/
theorem before0_0_of {c : Dev nD} (dat : Dat τ (Elt F) Ix Name U Lvl cfg0 c) (hA : dat.A 0 = Vt c (Pipeline.arrRef spec0 0))
    (hafter : ∀ t, dat.after 0 t = iblk0 Vt c 0 t) (t : Fin cfg0.N) (d) : dat.before 0 t d = iblk0 Vt c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole input block. -/
abbrev rI0 : Rect S4000x100 := Rect.unit (s := S4000x100) ![0, 0] S4000x100.size inb_S4000x100_S4000x100_0_0
/-- The first 100 columns of the output block, -/
abbrev rL0 : Rect S4000x128 := Rect.unit (s := S4000x128) ![0, 0] S4000x100.size inb_S4000x128_S4000x100_0_0
/-- and its last 28. -/
abbrev rR0 : Rect S4000x128 := Rect.unit (s := S4000x128) ![0, 100] S4000x28.size inb_S4000x128_S4000x28_0_100

/-! ## What the body leaves in the output block -/

/-- The output block after the body, from the input block: its two stores as pieces, last first — zeros in the
    last 28 columns, the input block in the first 100. -/
def out0_1 (x0 : Vec F S4000x100 .f32) : Vec F S4000x128 .f32 :=
  View.canon [⟨rR0, k0_pay1 (F := F)⟩, ⟨rL0, View.ld x0 rI0⟩]

/-- The two stores cover the block: a column is below 100 or not. -/
theorem cover0_1 (p0 : Vec F S4000x28 .f32) (p1 : Vec F S4000x100 .f32) (y : S4000x128.Idx) :
    ∃ pc ∈ ([⟨rR0, p0⟩, ⟨rL0, p1⟩] : List (View.Piece (Elt F) S4000x128 .f32)), y ∈ pc.1.set :=
  View.cover_of_tiledBy [⟨rR0, p0⟩, ⟨rL0, p1⟩] ![4000, 4] (by sl_kernel_rfl) y

/-! ## The body's triple -/

variable [Preorder Lvl]

set_option maxHeartbeats 1000000 in
/-- The body on whole staging memrefs, the input's at contents `x0` and the output's at anything, runs to the
    continuation holding the input's as it was and the output's at `out0_1 x0`. -/
theorem sound_kernel0 (c : Dev nD) (E : Set Name) (i : grid0.Coords) (arg0 : Memref sig .tc .vmem S4000x100 .f32) (harg0 : arg0.IsWhole)
    (arg1 : Memref sig .tc .vmem S4000x128 .f32) (harg1 : arg1.IsWhole) (x0 : Vec F S4000x100 .f32) (Kk : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ Kk ⟨⟩))
      ⊢ wp frame (wpE (defs₀ (F := F)) Variants.none c none) E (cc0__tc_pad_body i arg0 harg0 arg1 harg1) Kk := by
  simp only [cc0__tc_pad_body_eq_skeleton]; unfold cc0__tc_pad_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _ _)

/-! ## The pipeline's proof data -/

/-- The proof data of the padding pipeline on core `c`: the arrays as the region finds them; after the body at
    point `t` the input's buffer at its block and the output's at `out0_1` of it; the invariant the core's
    scoped buffers that are no staging buffer of this pipeline, each at some contents, untouched; the tallies owed
    and the recorded bound those given, the same at every point; full shares. -/
def dat0 (c : Dev nD) : Dat τ (Elt F) Ix Name U Lvl cfg0 c where
  A w := Vt c (Pipeline.arrRef spec0 w)
  after w t := match w with
    | ⟨0, _⟩ => iblk0 Vt c 0 t
    | ⟨1, _⟩ => out0_1 (iblk0 Vt c 0 t)
  Φ _ := Pipeline.scopedRest spec0 c
  q _ := fullShare
  owed _ := O c
  recorded _ := B c

local notation "𝔡₀" => dat0 (Ix := Ix) (Name := Name) (U := U) (Lvl := Lvl) Vt O B

theorem A_eq0 (c : Dev nD) (w : Fin cfg0.W) : (𝔡₀ c).A w = Vt c (Pipeline.arrRef spec0 w) := by
  dsimp only [dat0]

theorem after0_0 (c : Dev nD) (t : Fin cfg0.N) : (𝔡₀ c).after 0 t = iblk0 Vt c 0 t := by dsimp only [dat0]
theorem after0_1 (c : Dev nD) (t : Fin cfg0.N) : (𝔡₀ c).after 1 t = out0_1 (iblk0 Vt c 0 t) := by dsimp only [dat0]

theorem before0_0 (c : Dev nD) (t : Fin cfg0.N) (d) : (𝔡₀ c).before 0 t d = iblk0 Vt c 0 t :=
  before0_0_of Vt (𝔡₀ c) (A_eq0 Vt O B c 0) (after0_0 Vt O B c) t d

/-! ## The body obligation -/

variable (ι : Ix)

/-- What the body is called with at point `t`, the windows one by one, -/
def bodyPre0 (c : Dev nD) (t : Fin cfg0.N) : sProp 𝕄 :=
  iprop((𝔡₀ c).Φ t.castSucc ∗ (𝔡₀ c).owesAt ι t.castSucc
    ∗ (∃ d, owns (c : Thread nD τ) (st0_0 t) fullShare ((𝔡₀ c).before 0 t d))
    ∗ (∃ d, owns (c : Thread nD τ) (st0_1 t) fullShare ((𝔡₀ c).before 1 t d)))

/-- and what it returns. -/
def bodyPost0 (c : Dev nD) (t : Fin cfg0.N) : sProp 𝕄 :=
  iprop((𝔡₀ c).Φ t.succ ∗ (𝔡₀ c).owesAt ι t.succ
    ∗ owns (c : Thread nD τ) (st0_0 t) fullShare ((𝔡₀ c).after 0 t)
    ∗ owns (c : Thread nD τ) (st0_1 t) fullShare ((𝔡₀ c).after 1 t))

/-- The body at any point: the input's memref holds its block, so the body's triple applies; the invariant and the
    core's owed tallies pass through unread. -/
theorem sound_body0 (c : Dev nD) (t : Fin cfg0.N) :
    (bodyPre0 (Name := Name) (U := U) (Lvl := Lvl) Vt O B ι c t : sProp 𝕄) ⊢ wp frame (wpE (defs₀ (F := F)) Variants.none c none) Set.univ (bodyAt0 t) (fun _ => bodyPost0 (Name := Name) (U := U) (Lvl := Lvl) Vt O B ι c t) := by
  unfold bodyPre0 bodyPost0 bodyAt0
  simp only [before0_0]
  rw [show (𝔡₀ c).Φ t.succ = (𝔡₀ c).Φ t.castSucc from rfl,
    show (𝔡₀ c).owesAt ι t.succ = (𝔡₀ c).owesAt ι t.castSucc from rfl,
    after0_0, after0_1]
  iintro ⟨HΦ, Ho, ⟨%d0, H0⟩, ⟨%d1, H1⟩⟩
  iapply (sound_kernel0 c Set.univ _ _ _ _ _ (iblk0 Vt c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (𝔡₀ c) (defs₀ (F := F)) Variants.none ι Set.univ := fun t => by
  rw [bigSep_W0, bigSep_W0]
  exact sound_body0 (Name := Name) (U := U) (Lvl := Lvl) Vt O B ι c t

end Pad

end Cert.Proof.KI

end
-- ==== Proof.KITcGruRuns.lean ====
/-
  The second TensorCore region of the idealized program: the recurrent kernel. Over a grid of 50 points it reads
  one step's block of the embedded sequence and the packed weights, carries a scratch buffer of 1024 rows by 256
  columns from point to point (zeroed in its right half at the first point; at every point its left half is set to
  the step's block and its right half to the new state), and stores the output block at the last point only.
  Here: the body's triple in each of the three cases of its two conditionals, what the scratch and the output
  block hold after each point, the pipeline's proof data at given entry contents, owed tallies and recorded
  bound — the carried scratch in the invariant —, and the body obligation at every point.
-/
import proofs.«204407_g76768245448983_cont_9to1_m_970_19_alg».proof.Proof.KISetup
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type}

local notation "𝕄" => MT nD τ sig Ix (Elt F) Name U Lvl

/-! ## The body's branch conditions -/

/-- The condition of the body's first conditional (the scratch's right half is zeroed), from the grid coordinates. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val = 0 :=
  (by decide +kernel : ∀ t : Fin grid2.N, cond2_0 (grid2.coords t) ↔ t.val = 0)

/-- The condition of the second conditional (the output block is stored). -/
abbrev cond2_1 (i : grid2.Coords) : Prop := k2_cond2 i = 1#1
/-- It holds at the last point only — decided over the grid. -/
theorem hcond2_1 : ∀ t : Fin cfg2.N, cond2_1 (grid2.coords t) ↔ t.val = 49 :=
  (by decide +kernel : ∀ t : Fin grid2.N, cond2_1 (grid2.coords t) ↔ t.val = 49)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
/-- Where the output block is not stored the configuration calls its window idle, -/
theorem idleAt2_5 : ∀ t : Fin cfg2.N, ¬cond2_1 (grid2.coords t) → cfg2.idle 5 (grid2.coords t) = true := by decide +kernel
/-- and the pipeline does not write it back there; -/
theorem noFlush2_5 : ∀ t : Fin cfg2.N, ¬cond2_1 (grid2.coords t) → (cfg2.win 5).flush t = false := by decide +kernel
/-- where it is stored the window is live. -/
theorem liveAt2_5 : ∀ t : Fin cfg2.N, cond2_1 (grid2.coords t) → cfg2.idle 5 (grid2.coords t) = false := by decide +kernel

/-! ## The memrefs the body is called with -/

abbrev ms2_0 (t : Fin cfg2.N) : Memref sig .tc .vmem S1x1024x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x3 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x3 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x3 .f32 := win2_5.stage (cfg2.slots t 5)
abbrev hs2_5 (t : Fin cfg2.N) : (ms2_5 t).IsWhole := hstage2_5 ((cfg2.slots t 5).cast nbuf2_5)
/-- The scratch operand: a whole scoped buffer of the kernel's own. -/
abbrev scM2 : Memref sig .tc .vmem S1024x256 .f32 := Memref.whole cc2_scratch0
/-- The scratch as a view: what it holds is stated through it. -/
abbrev VS2 : View sig .tc .vmem S1024x256 .f32 := scM2.view
/-- One staging buffer of the output window, through which its contents are stated. -/
abbrev VO2_5 : View sig .tc .vmem S1024x3 .f32 := (Memref.whole cc2_stg5_0 : Memref sig .tc .vmem S1024x3 .f32).view

/-! ## The body's triple, case by case: the stores' pieces are the witness the run finds -/

section Runs

variable [Preorder Lvl]

set_option maxHeartbeats 4000000 in
/-- FIRST POINT (the first conditional taken, the second not). On whole memrefs — the inputs' at their contents, the
    output's at contents handed back untouched, the scratch at anything — the body runs to the continuation holding the
    inputs' and the output's as they were and the scratch with the pieces `LS` written, last first. -/
noncomputable def kernelRun2_A (c : Dev nD) (i : grid2.Coords) (arg1 : Memref sig .tc .vmem S1x1024x128 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S1024x3 .f32) (harg6 : arg6.IsWhole) (arg7 : Memref sig .tc .vmem S1024x256 .f32) (harg7 : arg7.IsWhole) (hc0 : cond2_0 i) (hc1 : ¬cond2_1 i)
    (x0 : Vec F S1x1024x128 .f32) (x1 : Vec F S256x512 .f32) (x2 : Vec F S1x512 .f32) (x3 : Vec F S128x3 .f32) (x4 : Vec F S1x3 .f32) :
    { LS : List (View.Piece (Elt F) S1024x256 .f32) //
      ∀ (xi5 : Vec F S1024x3 .f32) (E : Set Name) (Kk : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS)) -∗ Kk ⟨⟩))
          ⊢ wp frame (wpE (defs₀ (F := F)) Variants.none c none) E (cc2__tc_gru_body i arg1 harg1 arg2 harg2 arg3 harg3 arg4 harg4 arg5 harg5 arg6 harg6 arg7 harg7) Kk } := by
  refine ⟨?_, fun xi5 E Kk => ?run⟩
  case run =>
    simp only [cc2__tc_gru_body_eq_skeleton]; unfold cc2__tc_gru_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS

set_option maxHeartbeats 4000000 in
/-- A MIDDLE POINT (neither conditional taken): as at the first, the scratch entered at the contents `xs` the point
    before left. -/
noncomputable def kernelRun2_B (c : Dev nD) (i : grid2.Coords) (arg1 : Memref sig .tc .vmem S1x1024x128 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S1024x3 .f32) (harg6 : arg6.IsWhole) (arg7 : Memref sig .tc .vmem S1024x256 .f32) (harg7 : arg7.IsWhole) (hc0 : ¬cond2_0 i) (hc1 : ¬cond2_1 i)
    (x0 : Vec F S1x1024x128 .f32) (x1 : Vec F S256x512 .f32) (x2 : Vec F S1x512 .f32) (x3 : Vec F S128x3 .f32) (x4 : Vec F S1x3 .f32) (xs : Vec F S1024x256 .f32) :
    { LS : List (View.Piece (Elt F) S1024x256 .f32) //
      ∀ (xi5 : Vec F S1024x3 .f32) (E : Set Name) (Kk : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS)) -∗ Kk ⟨⟩))
          ⊢ wp frame (wpE (defs₀ (F := F)) Variants.none c none) E (cc2__tc_gru_body i arg1 harg1 arg2 harg2 arg3 harg3 arg4 harg4 arg5 harg5 arg6 harg6 arg7 harg7) Kk } := by
  refine ⟨?_, fun xi5 E Kk => ?run⟩
  case run =>
    simp only [cc2__tc_gru_body_eq_skeleton]; unfold cc2__tc_gru_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4
    obtain rfl := harg6.eq_unread hf5; obtain rfl := harg7.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS

set_option maxHeartbeats 4000000 in
/-- THE LAST POINT (the second conditional taken): the output's memref at anything, left with the pieces `L5` written. -/
noncomputable def kernelRun2_C (c : Dev nD) (i : grid2.Coords) (arg1 : Memref sig .tc .vmem S1x1024x128 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S1024x3 .f32) (harg6 : arg6.IsWhole) (arg7 : Memref sig .tc .vmem S1024x256 .f32) (harg7 : arg7.IsWhole) (hc0 : ¬cond2_0 i) (hc1 : cond2_1 i)
    (x0 : Vec F S1x1024x128 .f32) (x1 : Vec F S256x512 .f32) (x2 : Vec F S1x512 .f32) (x3 : Vec F S128x3 .f32) (x4 : Vec F S1x3 .f32) (xs : Vec F S1024x256 .f32) :
    Σ' (L5 : List (View.Piece (Elt F) S1024x3 .f32)), { LS : List (View.Piece (Elt F) S1024x256 .f32) //
      ∀ (E : Set Name) (Kk : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS)) -∗ Kk ⟨⟩))
          ⊢ wp frame (wpE (defs₀ (F := F)) Variants.none c none) E (cc2__tc_gru_body i arg1 harg1 arg2 harg2 arg3 harg3 arg4 harg4 arg5 harg5 arg6 harg6 arg7 harg7) Kk } := by
  refine ⟨?_, ?_, fun E Kk => ?run⟩
  case run =>
    simp only [cc2__tc_gru_body_eq_skeleton]; unfold cc2__tc_gru_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS

end Runs

end Cert.Proof.KI

end
-- ==== Proof.KITcGru.lean ====
/-
  The second TensorCore region of the idealized program, continued: what the carried scratch and the output block
  hold after each point (from the body's triples, case by case), the pipeline's proof data at given entry contents,
  owed tallies and recorded bound — the carried scratch in the invariant —, and the body obligation at every point.
-/
import proofs.«204407_g76768245448983_cont_9to1_m_970_19_alg».proof.Proof.KITcGruRuns

-- membership in a rectangle of full extents recurses once per coordinate of the long axes
set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type}

local notation "𝕄" => MT nD τ sig Ix (Elt F) Name U Lvl

section Gru

variable (Vt : (c : Dev nD) → (b : Ref sig .tc) → Buf (Elt F) ((c : Thread nD τ).loc b))
  (O : Dev nD → CellTallies nD τ sig Ix) (B : Dev nD → Set (SemLoc sig × Ix))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (Vt c (Pipeline.arrRef spec2 w))

/-- Input window 0's current staging buffer holds its block at every point, fetched there or not, for any proof data whose
    array is the entry contents and whose body leaves the block in place. -/
theorem before2_0_of {c : Dev nD} (dat : Dat τ (Elt F) Ix Name U Lvl cfg2 c) (hA : dat.A 0 = Vt c (Pipeline.arrRef spec2 0))
    (hafter : ∀ t, dat.after 0 t = iblk2 Vt c 0 t) (t : Fin cfg2.N) (d) : dat.before 0 t d = iblk2 Vt c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data whose
    array is the entry contents and whose body leaves the block in place. -/
theorem before2_1_of {c : Dev nD} (dat : Dat τ (Elt F) Ix Name U Lvl cfg2 c) (hA : dat.A 1 = Vt c (Pipeline.arrRef spec2 1))
    (hafter : ∀ t, dat.after 1 t = iblk2 Vt c 1 t) (t : Fin cfg2.N) (d) : dat.before 1 t d = iblk2 Vt c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data whose
    array is the entry contents and whose body leaves the block in place. -/
theorem before2_2_of {c : Dev nD} (dat : Dat τ (Elt F) Ix Name U Lvl cfg2 c) (hA : dat.A 2 = Vt c (Pipeline.arrRef spec2 2))
    (hafter : ∀ t, dat.after 2 t = iblk2 Vt c 2 t) (t : Fin cfg2.N) (d) : dat.before 2 t d = iblk2 Vt c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data whose
    array is the entry contents and whose body leaves the block in place. -/
theorem before2_3_of {c : Dev nD} (dat : Dat τ (Elt F) Ix Name U Lvl cfg2 c) (hA : dat.A 3 = Vt c (Pipeline.arrRef spec2 3))
    (hafter : ∀ t, dat.after 3 t = iblk2 Vt c 3 t) (t : Fin cfg2.N) (d) : dat.before 3 t d = iblk2 Vt c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data whose
    array is the entry contents and whose body leaves the block in place. -/
theorem before2_4_of {c : Dev nD} (dat : Dat τ (Elt F) Ix Name U Lvl cfg2 c) (hA : dat.A 4 = Vt c (Pipeline.arrRef spec2 4))
    (hafter : ∀ t, dat.after 4 t = iblk2 Vt c 4 t) (t : Fin cfg2.N) (d) : dat.before 4 t d = iblk2 Vt c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

variable [Preorder Lvl]

/-! ## What the scratch and the output block hold, case by case -/

/-- The scratch's pieces in this case tile it in halves of 1024 rows by 128 columns, so they cover it. -/
theorem scover2_A (c : Dev nD) (i : grid2.Coords) (arg1 : Memref sig .tc .vmem S1x1024x128 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S1024x3 .f32) (harg6 : arg6.IsWhole) (arg7 : Memref sig .tc .vmem S1024x256 .f32) (harg7 : arg7.IsWhole) (hc0 : cond2_0 i) (hc1 : ¬cond2_1 i)
    (x0 : Vec F S1x1024x128 .f32) (x1 : Vec F S256x512 .f32) (x2 : Vec F S1x512 .f32) (x3 : Vec F S128x3 .f32) (x4 : Vec F S1x3 .f32) (y : S1024x256.Idx) :
    ∃ pc ∈ (kernelRun2_A (Ix := Ix) (Name := Name) (U := U) (Lvl := Lvl) c i arg1 harg1 arg2 harg2 arg3 harg3 arg4 harg4 arg5 harg5 arg6 harg6 arg7 harg7 hc0 hc1 x0 x1 x2 x3 x4).1, y ∈ pc.1.set :=
  View.cover_of_tiledL (kernelRun2_A (Ix := Ix) (Name := Name) (U := U) (Lvl := Lvl) c i arg1 harg1 arg2 harg2 arg3 harg3 arg4 harg4 arg5 harg5 arg6 harg6 arg7 harg7 hc0 hc1 x0 x1 x2 x3 x4).1 S1024x128.size (by sl_kernel_rfl) y

/-- What this case leaves in the scratch: its pieces read back. -/
def sout2_A (c : Dev nD) (i : grid2.Coords) (arg1 : Memref sig .tc .vmem S1x1024x128 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S1024x3 .f32) (harg6 : arg6.IsWhole) (arg7 : Memref sig .tc .vmem S1024x256 .f32) (harg7 : arg7.IsWhole) (hc0 : cond2_0 i) (hc1 : ¬cond2_1 i)
    (x0 : Vec F S1x1024x128 .f32) (x1 : Vec F S256x512 .f32) (x2 : Vec F S1x512 .f32) (x3 : Vec F S128x3 .f32) (x4 : Vec F S1x3 .f32) : Vec F S1024x256 .f32 :=
  VS2.read (Elt F) (VS2.writes (Elt F) VS2.junk (kernelRun2_A (Ix := Ix) (Name := Name) (U := U) (Lvl := Lvl) c i arg1 harg1 arg2 harg2 arg3 harg3 arg4 harg4 arg5 harg5 arg6 harg6 arg7 harg7 hc0 hc1 x0 x1 x2 x3 x4).1)

/-- The scratch's pieces in this case tile it in halves of 1024 rows by 128 columns, so they cover it. -/
theorem scover2_B (c : Dev nD) (i : grid2.Coords) (arg1 : Memref sig .tc .vmem S1x1024x128 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S1024x3 .f32) (harg6 : arg6.IsWhole) (arg7 : Memref sig .tc .vmem S1024x256 .f32) (harg7 : arg7.IsWhole) (hc0 : ¬cond2_0 i) (hc1 : ¬cond2_1 i)
    (x0 : Vec F S1x1024x128 .f32) (x1 : Vec F S256x512 .f32) (x2 : Vec F S1x512 .f32) (x3 : Vec F S128x3 .f32) (x4 : Vec F S1x3 .f32) (xs : Vec F S1024x256 .f32) (y : S1024x256.Idx) :
    ∃ pc ∈ (kernelRun2_B (Ix := Ix) (Name := Name) (U := U) (Lvl := Lvl) c i arg1 harg1 arg2 harg2 arg3 harg3 arg4 harg4 arg5 harg5 arg6 harg6 arg7 harg7 hc0 hc1 x0 x1 x2 x3 x4 xs).1, y ∈ pc.1.set :=
  View.cover_of_tiledL (kernelRun2_B (Ix := Ix) (Name := Name) (U := U) (Lvl := Lvl) c i arg1 harg1 arg2 harg2 arg3 harg3 arg4 harg4 arg5 harg5 arg6 harg6 arg7 harg7 hc0 hc1 x0 x1 x2 x3 x4 xs).1 S1024x128.size (by sl_kernel_rfl) y

/-- What this case leaves in the scratch: its pieces read back. -/
def sout2_B (c : Dev nD) (i : grid2.Coords) (arg1 : Memref sig .tc .vmem S1x1024x128 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S1024x3 .f32) (harg6 : arg6.IsWhole) (arg7 : Memref sig .tc .vmem S1024x256 .f32) (harg7 : arg7.IsWhole) (hc0 : ¬cond2_0 i) (hc1 : ¬cond2_1 i)
    (x0 : Vec F S1x1024x128 .f32) (x1 : Vec F S256x512 .f32) (x2 : Vec F S1x512 .f32) (x3 : Vec F S128x3 .f32) (x4 : Vec F S1x3 .f32) (xs : Vec F S1024x256 .f32) : Vec F S1024x256 .f32 :=
  VS2.read (Elt F) (VS2.writes (Elt F) VS2.junk (kernelRun2_B (Ix := Ix) (Name := Name) (U := U) (Lvl := Lvl) c i arg1 harg1 arg2 harg2 arg3 harg3 arg4 harg4 arg5 harg5 arg6 harg6 arg7 harg7 hc0 hc1 x0 x1 x2 x3 x4 xs).1)

/-- The scratch's pieces in this case tile it in halves of 1024 rows by 128 columns, so they cover it. -/
theorem scover2_C (c : Dev nD) (i : grid2.Coords) (arg1 : Memref sig .tc .vmem S1x1024x128 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S1024x3 .f32) (harg6 : arg6.IsWhole) (arg7 : Memref sig .tc .vmem S1024x256 .f32) (harg7 : arg7.IsWhole) (hc0 : ¬cond2_0 i) (hc1 : cond2_1 i)
    (x0 : Vec F S1x1024x128 .f32) (x1 : Vec F S256x512 .f32) (x2 : Vec F S1x512 .f32) (x3 : Vec F S128x3 .f32) (x4 : Vec F S1x3 .f32) (xs : Vec F S1024x256 .f32) (y : S1024x256.Idx) :
    ∃ pc ∈ (kernelRun2_C (Ix := Ix) (Name := Name) (U := U) (Lvl := Lvl) c i arg1 harg1 arg2 harg2 arg3 harg3 arg4 harg4 arg5 harg5 arg6 harg6 arg7 harg7 hc0 hc1 x0 x1 x2 x3 x4 xs).2.1, y ∈ pc.1.set :=
  View.cover_of_tiledL (kernelRun2_C (Ix := Ix) (Name := Name) (U := U) (Lvl := Lvl) c i arg1 harg1 arg2 harg2 arg3 harg3 arg4 harg4 arg5 harg5 arg6 harg6 arg7 harg7 hc0 hc1 x0 x1 x2 x3 x4 xs).2.1 S1024x128.size (by sl_kernel_rfl) y

/-- What this case leaves in the scratch: its pieces read back. -/
def sout2_C (c : Dev nD) (i : grid2.Coords) (arg1 : Memref sig .tc .vmem S1x1024x128 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S1024x3 .f32) (harg6 : arg6.IsWhole) (arg7 : Memref sig .tc .vmem S1024x256 .f32) (harg7 : arg7.IsWhole) (hc0 : ¬cond2_0 i) (hc1 : cond2_1 i)
    (x0 : Vec F S1x1024x128 .f32) (x1 : Vec F S256x512 .f32) (x2 : Vec F S1x512 .f32) (x3 : Vec F S128x3 .f32) (x4 : Vec F S1x3 .f32) (xs : Vec F S1024x256 .f32) : Vec F S1024x256 .f32 :=
  VS2.read (Elt F) (VS2.writes (Elt F) VS2.junk (kernelRun2_C (Ix := Ix) (Name := Name) (U := U) (Lvl := Lvl) c i arg1 harg1 arg2 harg2 arg3 harg3 arg4 harg4 arg5 harg5 arg6 harg6 arg7 harg7 hc0 hc1 x0 x1 x2 x3 x4 xs).2.1)

/-- The output block's pieces at the last point: one store of the whole block. -/
theorem cover2_C (c : Dev nD) (i : grid2.Coords) (arg1 : Memref sig .tc .vmem S1x1024x128 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S1024x3 .f32) (harg6 : arg6.IsWhole) (arg7 : Memref sig .tc .vmem S1024x256 .f32) (harg7 : arg7.IsWhole) (hc0 : ¬cond2_0 i) (hc1 : cond2_1 i)
    (x0 : Vec F S1x1024x128 .f32) (x1 : Vec F S256x512 .f32) (x2 : Vec F S1x512 .f32) (x3 : Vec F S128x3 .f32) (x4 : Vec F S1x3 .f32) (xs : Vec F S1024x256 .f32) (y : S1024x3.Idx) :
    ∃ pc ∈ (kernelRun2_C (Ix := Ix) (Name := Name) (U := U) (Lvl := Lvl) c i arg1 harg1 arg2 harg2 arg3 harg3 arg4 harg4 arg5 harg5 arg6 harg6 arg7 harg7 hc0 hc1 x0 x1 x2 x3 x4 xs).1, y ∈ pc.1.set :=
  View.cover_of_tiledL (kernelRun2_C (Ix := Ix) (Name := Name) (U := U) (Lvl := Lvl) c i arg1 harg1 arg2 harg2 arg3 harg3 arg4 harg4 arg5 harg5 arg6 harg6 arg7 harg7 hc0 hc1 x0 x1 x2 x3 x4 xs).1 S1024x3.size (by sl_kernel_rfl) y

/-- What the last point leaves in the output block: its pieces read back. -/
def out2_C (c : Dev nD) (i : grid2.Coords) (arg1 : Memref sig .tc .vmem S1x1024x128 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S1024x3 .f32) (harg6 : arg6.IsWhole) (arg7 : Memref sig .tc .vmem S1024x256 .f32) (harg7 : arg7.IsWhole) (hc0 : ¬cond2_0 i) (hc1 : cond2_1 i)
    (x0 : Vec F S1x1024x128 .f32) (x1 : Vec F S256x512 .f32) (x2 : Vec F S1x512 .f32) (x3 : Vec F S128x3 .f32) (x4 : Vec F S1x3 .f32) (xs : Vec F S1024x256 .f32) : Vec F S1024x3 .f32 :=
  VO2_5.read (Elt F) (VO2_5.writes (Elt F) VO2_5.junk (kernelRun2_C (Ix := Ix) (Name := Name) (U := U) (Lvl := Lvl) c i arg1 harg1 arg2 harg2 arg3 harg3 arg4 harg4 arg5 harg5 arg6 harg6 arg7 harg7 hc0 hc1 x0 x1 x2 x3 x4 xs).1)

/-! ## What they hold after each point -/

/-- What the output's staging buffer and the carried scratch hold after the body at position `n` (a pair: the output
    block, then the scratch): the case of the point, run at the point's memrefs and input blocks, the scratch entered
    at what this leaves at `n - 1`. The output block is stored at the last point only; elsewhere its component is
    not consulted (the window is idle there and not written back). -/
def outsAt2 (c : Dev nD) : (n : ℕ) → n < cfg2.N → Vec F S1024x3 .f32 × Vec F S1024x256 .f32
  | 0, hn => ((VO2_5.read (Elt F) VO2_5.junk), sout2_A (Ix := Ix) (Name := Name) (U := U) (Lvl := Lvl) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr rfl) (fun h => absurd ((hcond2_1 ⟨0, hn⟩).mp h) (by simp)) (iblk2 Vt c 0 ⟨0, hn⟩) (iblk2 Vt c 1 ⟨0, hn⟩) (iblk2 Vt c 2 ⟨0, hn⟩) (iblk2 Vt c 3 ⟨0, hn⟩) (iblk2 Vt c 4 ⟨0, hn⟩))
  | n + 1, hn =>
    if h1 : n + 1 = 49 then
      (out2_C (Ix := Ix) (Name := Name) (U := U) (Lvl := Lvl) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => absurd ((hcond2_0 ⟨n + 1, hn⟩).mp h) (Nat.succ_ne_zero n)) ((hcond2_1 ⟨n + 1, hn⟩).mpr h1) (iblk2 Vt c 0 ⟨n + 1, hn⟩) (iblk2 Vt c 1 ⟨n + 1, hn⟩) (iblk2 Vt c 2 ⟨n + 1, hn⟩) (iblk2 Vt c 3 ⟨n + 1, hn⟩) (iblk2 Vt c 4 ⟨n + 1, hn⟩) (outsAt2 c n (Nat.lt_of_succ_lt hn)).2,
       sout2_C (Ix := Ix) (Name := Name) (U := U) (Lvl := Lvl) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => absurd ((hcond2_0 ⟨n + 1, hn⟩).mp h) (Nat.succ_ne_zero n)) ((hcond2_1 ⟨n + 1, hn⟩).mpr h1) (iblk2 Vt c 0 ⟨n + 1, hn⟩) (iblk2 Vt c 1 ⟨n + 1, hn⟩) (iblk2 Vt c 2 ⟨n + 1, hn⟩) (iblk2 Vt c 3 ⟨n + 1, hn⟩) (iblk2 Vt c 4 ⟨n + 1, hn⟩) (outsAt2 c n (Nat.lt_of_succ_lt hn)).2)
    else
      ((VO2_5.read (Elt F) VO2_5.junk), sout2_B (Ix := Ix) (Name := Name) (U := U) (Lvl := Lvl) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => absurd ((hcond2_0 ⟨n + 1, hn⟩).mp h) (Nat.succ_ne_zero n)) (fun h => h1 ((hcond2_1 ⟨n + 1, hn⟩).mp h)) (iblk2 Vt c 0 ⟨n + 1, hn⟩) (iblk2 Vt c 1 ⟨n + 1, hn⟩) (iblk2 Vt c 2 ⟨n + 1, hn⟩) (iblk2 Vt c 3 ⟨n + 1, hn⟩) (iblk2 Vt c 4 ⟨n + 1, hn⟩) (outsAt2 c n (Nat.lt_of_succ_lt hn)).2)

local notation "𝔬" => outsAt2 (Ix := Ix) (Name := Name) (U := U) (Lvl := Lvl) Vt

/-- At the first point. -/
theorem outsAt2_A (c : Dev nD) (t : Fin cfg2.N) (h0 : t.val = 0) (h1 : ¬t.val = 49) :
    𝔬 c t.val t.isLt = ((VO2_5.read (Elt F) VO2_5.junk), sout2_A (Ix := Ix) (Name := Name) (U := U) (Lvl := Lvl) c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 Vt c 0 t) (iblk2 Vt c 1 t) (iblk2 Vt c 2 t) (iblk2 Vt c 3 t) (iblk2 Vt c 4 t)) := by
  obtain ⟨n, hn⟩ := t
  cases n with
  | zero => exact rfl
  | succ n => exact absurd h0 (Nat.succ_ne_zero n)

/-- At a middle point: over what the point before left. -/
theorem outsAt2_B (c : Dev nD) (t : Fin cfg2.N) (h0 : ¬t.val = 0) (h1 : ¬t.val = 49) :
    𝔬 c t.val t.isLt = ((VO2_5.read (Elt F) VO2_5.junk), sout2_B (Ix := Ix) (Name := Name) (U := U) (Lvl := Lvl) c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 Vt c 0 t) (iblk2 Vt c 1 t) (iblk2 Vt c 2 t) (iblk2 Vt c 3 t) (iblk2 Vt c 4 t) (𝔬 c (t.val - 1) (Nat.lt_of_le_of_lt (Nat.sub_le _ _) t.isLt)).2) := by
  obtain ⟨n, hn⟩ := t
  cases n with
  | zero => exact absurd rfl h0
  | succ n => exact (dif_neg h1).trans rfl

/-- At the last point: over what the point before left. -/
theorem outsAt2_C (c : Dev nD) (t : Fin cfg2.N) (h0 : ¬t.val = 0) (h1 : t.val = 49) :
    𝔬 c t.val t.isLt = (out2_C (Ix := Ix) (Name := Name) (U := U) (Lvl := Lvl) c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 Vt c 0 t) (iblk2 Vt c 1 t) (iblk2 Vt c 2 t) (iblk2 Vt c 3 t) (iblk2 Vt c 4 t) (𝔬 c (t.val - 1) (Nat.lt_of_le_of_lt (Nat.sub_le _ _) t.isLt)).2,
      sout2_C (Ix := Ix) (Name := Name) (U := U) (Lvl := Lvl) c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 Vt c 0 t) (iblk2 Vt c 1 t) (iblk2 Vt c 2 t) (iblk2 Vt c 3 t) (iblk2 Vt c 4 t) (𝔬 c (t.val - 1) (Nat.lt_of_le_of_lt (Nat.sub_le _ _) t.isLt)).2) := by
  obtain ⟨n, hn⟩ := t
  cases n with
  | zero => exact absurd rfl h0
  | succ n => exact (dif_pos h1).trans rfl

/-! ## The invariant: the carried scratch -/

/-- The region invariant before position `n`: before the first point the core's scoped buffers that are no staging
    buffer of this pipeline, each at some contents; afterwards the same with the carried scratch at what the point
    before left in it. -/
def PhiS2 (c : Dev nD) : (n : ℕ) → n ≤ cfg2.N → sProp 𝕄
  | 0, _ => Pipeline.scopedRest spec2 c
  | n + 1, hn => iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM2 fullShare ((𝔬 c n hn).2))

local notation "𝔓" => PhiS2 (Ix := Ix) (Name := Name) (U := U) (Lvl := Lvl) Vt

theorem PhiS2_zero (c : Dev nD) (n : ℕ) (h : n ≤ cfg2.N) (hz : n = 0) : 𝔓 c n h = Pipeline.scopedRest spec2 c := by
  subst hz; rfl

theorem PhiS2_succ (c : Dev nD) (n : ℕ) (hn : n < cfg2.N) :
    𝔓 c (n + 1) hn = iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM2 fullShare ((𝔬 c n hn).2)) := rfl

theorem PhiS2_pos (c : Dev nD) (n : ℕ) (h : n ≤ cfg2.N) (hz : n ≠ 0) :
    𝔓 c n h = iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM2 fullShare ((𝔬 c (n - 1) (by omega)).2)) := by
  cases n with
  | zero => exact absurd rfl hz
  | succ n => rfl

/-- The scoped rest with the scratch as a memref owned at some contents. -/
theorem PhiA2_eq (c : Dev nD) :
    (Pipeline.scopedRest spec2 c : sProp 𝕄) = iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM2 fullShare d)) := by
  rw [scopedRest2_eq]; simp only [scM2, owns_whole]; try rfl

/-! ## The pipeline's proof data -/

/-- The proof data of the recurrent pipeline on core `c`: the arrays as the region finds them; after the body at
    point `t` each input's buffer at its block and the output's at `outsAt2`'s first component; the invariant
    `PhiS2`; the tallies owed and the recorded bound those given, the same at every point; full shares. -/
def dat2 (c : Dev nD) : Dat τ (Elt F) Ix Name U Lvl cfg2 c where
  A w := Vt c (Pipeline.arrRef spec2 w)
  after w t := match w with
    | ⟨0, _⟩ => iblk2 Vt c 0 t
    | ⟨1, _⟩ => iblk2 Vt c 1 t
    | ⟨2, _⟩ => iblk2 Vt c 2 t
    | ⟨3, _⟩ => iblk2 Vt c 3 t
    | ⟨4, _⟩ => iblk2 Vt c 4 t
    | ⟨5, _⟩ => (𝔬 c t.val t.isLt).1
  Φ t := 𝔓 c t.val (Nat.le_of_lt_succ t.isLt)
  q _ := fullShare
  owed _ := O c
  recorded _ := B c

local notation "𝔡₂" => dat2 (Ix := Ix) (Name := Name) (U := U) (Lvl := Lvl) Vt O B

theorem A_eq2 (c : Dev nD) (w : Fin cfg2.W) : (𝔡₂ c).A w = Vt c (Pipeline.arrRef spec2 w) := by
  dsimp only [dat2]

theorem PhiS2_castSucc (c : Dev nD) (t : Fin cfg2.N) :
    (𝔡₂ c).Φ t.castSucc = 𝔓 c t.val (Nat.le_of_lt t.isLt) := by
  dsimp only [dat2]; simp only [Fin.coe_castSucc]

theorem after2_0 (c : Dev nD) (t : Fin cfg2.N) : (𝔡₂ c).after 0 t = iblk2 Vt c 0 t := by dsimp only [dat2]
theorem after2_1 (c : Dev nD) (t : Fin cfg2.N) : (𝔡₂ c).after 1 t = iblk2 Vt c 1 t := by dsimp only [dat2]
theorem after2_2 (c : Dev nD) (t : Fin cfg2.N) : (𝔡₂ c).after 2 t = iblk2 Vt c 2 t := by dsimp only [dat2]
theorem after2_3 (c : Dev nD) (t : Fin cfg2.N) : (𝔡₂ c).after 3 t = iblk2 Vt c 3 t := by dsimp only [dat2]
theorem after2_4 (c : Dev nD) (t : Fin cfg2.N) : (𝔡₂ c).after 4 t = iblk2 Vt c 4 t := by dsimp only [dat2]
theorem after2_5 (c : Dev nD) (t : Fin cfg2.N) : (𝔡₂ c).after 5 t = (𝔬 c t.val t.isLt).1 := by dsimp only [dat2]

theorem before2_0 (c : Dev nD) (t : Fin cfg2.N) (d) : (𝔡₂ c).before 0 t d = iblk2 Vt c 0 t :=
  before2_0_of Vt (𝔡₂ c) (A_eq2 Vt O B c 0) (after2_0 Vt O B c) t d
theorem before2_1 (c : Dev nD) (t : Fin cfg2.N) (d) : (𝔡₂ c).before 1 t d = iblk2 Vt c 1 t :=
  before2_1_of Vt (𝔡₂ c) (A_eq2 Vt O B c 1) (after2_1 Vt O B c) t d
theorem before2_2 (c : Dev nD) (t : Fin cfg2.N) (d) : (𝔡₂ c).before 2 t d = iblk2 Vt c 2 t :=
  before2_2_of Vt (𝔡₂ c) (A_eq2 Vt O B c 2) (after2_2 Vt O B c) t d
theorem before2_3 (c : Dev nD) (t : Fin cfg2.N) (d) : (𝔡₂ c).before 3 t d = iblk2 Vt c 3 t :=
  before2_3_of Vt (𝔡₂ c) (A_eq2 Vt O B c 3) (after2_3 Vt O B c) t d
theorem before2_4 (c : Dev nD) (t : Fin cfg2.N) (d) : (𝔡₂ c).before 4 t d = iblk2 Vt c 4 t :=
  before2_4_of Vt (𝔡₂ c) (A_eq2 Vt O B c 4) (after2_4 Vt O B c) t d

/-! ## The body obligation -/

variable (ι : Ix)

/-- What the body is called with at point `t`, the windows one by one, -/
def bodyPre2 (c : Dev nD) (t : Fin cfg2.N) : sProp 𝕄 :=
  iprop((𝔡₂ c).Φ t.castSucc ∗ (𝔡₂ c).owesAt ι t.castSucc
    ∗ (∃ d, owns (c : Thread nD τ) (ms2_0 t) fullShare ((𝔡₂ c).before 0 t d))
    ∗ (∃ d, owns (c : Thread nD τ) (ms2_1 t) fullShare ((𝔡₂ c).before 1 t d))
    ∗ (∃ d, owns (c : Thread nD τ) (ms2_2 t) fullShare ((𝔡₂ c).before 2 t d))
    ∗ (∃ d, owns (c : Thread nD τ) (ms2_3 t) fullShare ((𝔡₂ c).before 3 t d))
    ∗ (∃ d, owns (c : Thread nD τ) (ms2_4 t) fullShare ((𝔡₂ c).before 4 t d))
    ∗ (∃ d, owns (c : Thread nD τ) (ms2_5 t) fullShare ((𝔡₂ c).before 5 t d)))

/-- and what it returns. -/
def bodyPost2 (c : Dev nD) (t : Fin cfg2.N) : sProp 𝕄 :=
  iprop((𝔡₂ c).Φ t.succ ∗ (𝔡₂ c).owesAt ι t.succ
    ∗ (𝔡₂ c).leavesExact 0 t
    ∗ (𝔡₂ c).leavesExact 1 t
    ∗ (𝔡₂ c).leavesExact 2 t
    ∗ (𝔡₂ c).leavesExact 3 t
    ∗ (𝔡₂ c).leavesExact 4 t
    ∗ (𝔡₂ c).leavesExact 5 t)

set_option maxHeartbeats 4800000 in
/-- The body at any point: the inputs' memrefs hold their blocks; the closed forms say which case the point is in; the
    invariant hands the body the carried scratch at what the point before left (at anything at the first point) and
    takes it back at this point's contents; the output's memref is handed back untouched except at the last point,
    where it is left at its pieces; the other scoped buffers and the core's owed tallies pass through unread. -/
theorem sound_body2 (c : Dev nD) (t : Fin cfg2.N) :
    (bodyPre2 (Ix := Ix) (Name := Name) (U := U) (Lvl := Lvl) Vt O B ι c t : sProp 𝕄) ⊢ wp frame (wpE (defs₀ (F := F)) Variants.none c none) Set.univ (bodyAt2 t) (fun _ => bodyPost2 (Ix := Ix) (Name := Name) (U := U) (Lvl := Lvl) Vt O B ι c t) := by
  unfold bodyPre2 bodyPost2 bodyAt2
  simp only [before2_0, before2_1, before2_2, before2_3, before2_4]
  rw [show (𝔡₂ c).owesAt ι t.succ = (𝔡₂ c).owesAt ι t.castSucc from rfl]
  rw [show (𝔡₂ c).Φ t.succ = 𝔓 c (t.val + 1) t.isLt from rfl, PhiS2_succ]
  have hN : t.val < 50 := lt_of_lt_of_eq t.isLt (show cfg2.N = 50 from N_2)
  rw [show (𝔡₂ c).leavesExact 0 t = owns (c : Thread nD τ) (ms2_0 t) fullShare ((𝔡₂ c).after 0 t) from by
    unfold Dat.leavesExact; rw [liveAt2_0 t], after2_0]
  rw [show (𝔡₂ c).leavesExact 1 t = owns (c : Thread nD τ) (ms2_1 t) fullShare ((𝔡₂ c).after 1 t) from by
    unfold Dat.leavesExact; rw [liveAt2_1 t], after2_1]
  rw [show (𝔡₂ c).leavesExact 2 t = owns (c : Thread nD τ) (ms2_2 t) fullShare ((𝔡₂ c).after 2 t) from by
    unfold Dat.leavesExact; rw [liveAt2_2 t], after2_2]
  rw [show (𝔡₂ c).leavesExact 3 t = owns (c : Thread nD τ) (ms2_3 t) fullShare ((𝔡₂ c).after 3 t) from by
    unfold Dat.leavesExact; rw [liveAt2_3 t], after2_3]
  rw [show (𝔡₂ c).leavesExact 4 t = owns (c : Thread nD τ) (ms2_4 t) fullShare ((𝔡₂ c).after 4 t) from by
    unfold Dat.leavesExact; rw [liveAt2_4 t], after2_4]
  by_cases hz : t.val = 0
  · have h1 : ¬t.val = 49 := by omega
    have hc0 : cond2_0 (grid2.coords t) := (hcond2_0 t).mpr hz
    have hc1 : ¬cond2_1 (grid2.coords t) := fun h => h1 ((hcond2_1 t).mp h)
    rw [Dat.leavesExact_idle (𝔡₂ c) 5 t (idleAt2_5 t hc1) (noFlush2_5 t hc1)]
    rw [outsAt2_A Vt c t hz h1]
    unfold sout2_A; (try dsimp only)
    rw [PhiS2_castSucc Vt O B c t, PhiS2_zero Vt c _ _ hz, PhiA2_eq]
    iintro ⟨⟨Ha, Hb, Hc, Hd, HS⟩, Ho, ⟨%d0, H0⟩, ⟨%d1, H1⟩, ⟨%d2, H2⟩, ⟨%d3, H3⟩, ⟨%d4, H4⟩, ⟨%d5, H5⟩⟩
    iapply ((kernelRun2_A (Ix := Ix) (Name := Name) (U := U) (Lvl := Lvl) c (grid2.coords t) _ _ _ _ _ _ _ _ _ _ _ _ _ _ hc0 hc1 (iblk2 Vt c 0 t) (iblk2 Vt c 1 t) (iblk2 Vt c 2 t) (iblk2 Vt c 3 t) (iblk2 Vt c 4 t)).2 _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, ⟨%es, HS⟩⟩
    isplitl [Ha Hb Hc Hd HS]
    ·
      isplitl [Ha]; · iexact Ha
      isplitl [Hb]; · iexact Hb
      isplitl [Hc]; · iexact Hc
      isplitl [Hd]; · iexact Hd
      unfold owns; iexists _; isplitr
      swap; · iexact HS
      ipureintro; exact View.read_writes_of_cover _ _ _ _ _ (scover2_A (Ix := Ix) (Name := Name) (U := U) (Lvl := Lvl) c _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val = 49
    · have hc0 : ¬cond2_0 (grid2.coords t) := fun h => hz ((hcond2_0 t).mp h)
      have hc1 : cond2_1 (grid2.coords t) := (hcond2_1 t).mpr h1
      rw [show (𝔡₂ c).leavesExact 5 t = owns (c : Thread nD τ) (ms2_5 t) fullShare ((𝔡₂ c).after 5 t) from by
        unfold Dat.leavesExact; rw [liveAt2_5 t hc1], after2_5]
      rw [outsAt2_C Vt c t hz h1]
      unfold out2_C sout2_C; (try dsimp only)
      rw [PhiS2_castSucc Vt O B c t, PhiS2_pos Vt c _ _ hz]
      iintro ⟨⟨Ha, Hb, Hc, Hd, HS⟩, Ho, ⟨%d0, H0⟩, ⟨%d1, H1⟩, ⟨%d2, H2⟩, ⟨%d3, H3⟩, ⟨%d4, H4⟩, ⟨%d5, H5⟩⟩
      iapply ((kernelRun2_C (Ix := Ix) (Name := Name) (U := U) (Lvl := Lvl) c (grid2.coords t) _ _ _ _ _ _ _ _ _ _ _ _ _ _ hc0 hc1 (iblk2 Vt c 0 t) (iblk2 Vt c 1 t) (iblk2 Vt c 2 t) (iblk2 Vt c 3 t) (iblk2 Vt c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [Ha Hb Hc Hd HS]
      ·
        isplitl [Ha]; · iexact Ha
        isplitl [Hb]; · iexact Hb
        isplitl [Hc]; · iexact Hc
        isplitl [Hd]; · iexact Hd
        unfold owns; iexists _; isplitr
        swap; · iexact HS
        ipureintro; exact View.read_writes_of_cover _ _ _ _ _ (scover2_C (Ix := Ix) (Name := Name) (U := U) (Lvl := Lvl) c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C (Ix := Ix) (Name := Name) (U := U) (Lvl := Lvl) c _ _ _ _ _ _ _ _ _ _ _ _ _ _ _ _ _ _ _ _ _ _ _)
    · have hc0 : ¬cond2_0 (grid2.coords t) := fun h => hz ((hcond2_0 t).mp h)
      have hc1 : ¬cond2_1 (grid2.coords t) := fun h => h1 ((hcond2_1 t).mp h)
      rw [Dat.leavesExact_idle (𝔡₂ c) 5 t (idleAt2_5 t hc1) (noFlush2_5 t hc1)]
      rw [outsAt2_B Vt c t hz h1]
      unfold sout2_B; (try dsimp only)
      rw [PhiS2_castSucc Vt O B c t, PhiS2_pos Vt c _ _ hz]
      iintro ⟨⟨Ha, Hb, Hc, Hd, HS⟩, Ho, ⟨%d0, H0⟩, ⟨%d1, H1⟩, ⟨%d2, H2⟩, ⟨%d3, H3⟩, ⟨%d4, H4⟩, ⟨%d5, H5⟩⟩
      iapply ((kernelRun2_B (Ix := Ix) (Name := Name) (U := U) (Lvl := Lvl) c (grid2.coords t) _ _ _ _ _ _ _ _ _ _ _ _ _ _ hc0 hc1 (iblk2 Vt c 0 t) (iblk2 Vt c 1 t) (iblk2 Vt c 2 t) (iblk2 Vt c 3 t) (iblk2 Vt c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [Ha Hb Hc Hd HS]
      ·
        isplitl [Ha]; · iexact Ha
        isplitl [Hb]; · iexact Hb
        isplitl [Hc]; · iexact Hc
        isplitl [Hd]; · iexact Hd
        unfold owns; iexists _; isplitr
        swap; · iexact HS
        ipureintro; exact View.read_writes_of_cover _ _ _ _ _ (scover2_B (Ix := Ix) (Name := Name) (U := U) (Lvl := Lvl) c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (𝔡₂ c) (defs₀ (F := F)) Variants.none ι Set.univ := fun t => by
  rw [bigSep_W2, bigSep_W2]
  exact sound_body2 (Ix := Ix) (Name := Name) (U := U) (Lvl := Lvl) Vt O B ι c t

/-- The scoped buffers that are no staging buffer of the pipeline are the invariant before the first point. -/
theorem hin2 (c : Dev nD) : (Pipeline.scopedRest spec2 c : sProp 𝕄) ⊢ (𝔡₂ c).Φ 0 := by
  rw [show (𝔡₂ c).Φ 0 = 𝔓 c 0 (Nat.zero_le _) from rfl, PhiS2_zero Vt c 0 _ rfl]
  try exact Idealize.SL.BI.Entails.refl _

/-- After the last point the invariant gives them back: the carried scratch's named contents are forgotten. -/
theorem hout2 (c : Dev nD) : (𝔡₂ c).Φ (Fin.last cfg2.N) ⊢ (Pipeline.scopedRest spec2 c : sProp 𝕄) := by
  rw [show (𝔡₂ c).Φ (Fin.last cfg2.N) = 𝔓 c (Fin.last cfg2.N).val (Nat.le_of_lt_succ (Fin.last cfg2.N).isLt) from rfl,
    PhiS2_pos Vt c _ _ (by rw [Fin.val_last]; have : cfg2.N = 50 := N_2; omega), PhiA2_eq]
  iintro ⟨Ha, Hb, Hc, Hd, HS⟩
  isplitl [Ha]; · iexact Ha
  isplitl [Hb]; · iexact Hb
  isplitl [Hc]; · iexact Hc
  isplitl [Hd]; · iexact Hd
  iexists _; iexact HS

end Gru

end Cert.Proof.KI

end
-- ==== Proof.KITcRegions.lean ====
/-
  The two TensorCore regions of the idealized program assembled: the proof data of both pipelines as one family,
  the body obligations, and each region as a segment of the main thread's program — entered from every unscoped
  buffer of the core held at a valuation beside the core's owed tallies, left with those buffers at the valuation
  updated at the region's arrays: the inputs unchanged, the output array at what the pipeline's write-backs leave.
-/
import proofs.«204407_g76768245448983_cont_9to1_m_970_19_alg».proof.Proof.KITcPad
import proofs.«204407_g76768245448983_cont_9to1_m_970_19_alg».proof.Proof.KITcGru

-- membership in a rectangle of full extents recurses once per coordinate of the long axes
set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type}

local notation "𝕄" => MT nD τ sig Ix (Elt F) Name U Lvl

section Regions

/-- A valuation of the core's buffers read at the TensorCore's references: the entry contents the proof data take. -/
abbrev Vof (W : Dev nD → Valuation τ sig (Elt F)) : (c : Dev nD) → (b : Ref sig .tc) → Buf (Elt F) ((c : Thread nD τ).loc b) :=
  fun c b => W c b

variable (V0 V1 : (c : Dev nD) → (b : Ref sig .tc) → Buf (Elt F) ((c : Thread nD τ).loc b))
  (O : (p : Fin 2) → Dev nD → CellTallies nD τ sig Ix) (B : (p : Fin 2) → Dev nD → Set (SemLoc sig × Ix))

variable [Preorder Lvl]

/-- Both pipelines' proof data, each at its region's entry contents, owed tallies and recorded bound: a literal
    match on the pipeline, so that the pinned configuration at a numeral reduces to the printed one. -/
def pdats : (p : Fin 2) → (c : Dev nD) → Dat τ (Elt F) Ix Name U Lvl (Pipeline.pin (pcfgs (F := F)) adm p) c
  | ⟨0, _⟩ => fun c => dat0 V0 (O 0) (B 0) c
  | ⟨1, _⟩ => fun c => dat2 V1 (O 1) (B 1) c

variable (ι : Ix) (L : GSem nD τ sig → Finset Ix) (lv : GSem nD τ sig → Ix → Lvl)

set_option backward.isDefEq.respectTransparency.types false in
/-- The padding kernel's body obligation, on every core. -/
theorem body0 (c : Dev nD) : Pipeline.BodyObligationLoose (pdats (Ix := Ix) (Name := Name) (U := U) (Lvl := Lvl) V0 V1 O B 0 c) defs₀ 𝒱₀ ι Set.univ :=
  (body_obligation0 V0 (O 0) (B 0) ι c).loose

set_option backward.isDefEq.respectTransparency.types false in
/-- The recurrent kernel's body obligation, on every core. -/
theorem body2 (c : Dev nD) : Pipeline.BodyObligationLoose (pdats (Ix := Ix) (Name := Name) (U := U) (Lvl := Lvl) V0 V1 O B 1 c) defs₀ 𝒱₀ ι Set.univ :=
  (body_obligation2 V1 (O 1) (B 1) ι c).loose

/-! ## The buffer contents at the regions' boundaries -/

variable (Wa0 Wa1 : Dev nD → Valuation τ sig (Elt F))

local notation "𝔭" => pdats (Ix := Ix) (Name := Name) (U := U) (Lvl := Lvl) (Vof Wa0) (Vof Wa1) O B

/-- At region 0's exit: its arrays at what the pipeline leaves (the table as entered, the padded table's write-backs
    folded), every other buffer as entered. -/
def Wout0 (c : Dev nD) : Valuation τ sig (Elt F) :=
  Pipeline.withArrays spec0 c (Wa0 c) fun w => (dat0 (Ix := Ix) (Name := Name) (U := U) (Lvl := Lvl) (Vof Wa0) (O 0) (B 0) c).arrAt w cfg0.N

local notation "𝔴₀" => Wout0 (Ix := Ix) (Name := Name) (U := U) (Lvl := Lvl) O B Wa0

theorem Wout0_arr (c : Dev nD) (w : Fin cfg0.W) :
    𝔴₀ c (Proc.devRef .tc (Pipeline.arrRef spec0 w)) = (dat0 (Ix := Ix) (Name := Name) (U := U) (Lvl := Lvl) (Vof Wa0) (O 0) (B 0) c).arrAt w cfg0.N := by
  unfold Wout0; exact Pipeline.withArrays_arr spec0 launch0.win.arr_inj c _ _ w
theorem Wout0_of_ne (c : Dev nD) (b : Ref sig .tc) (hb : ∀ w, Pipeline.arrRef spec0 w ≠ b) :
    𝔴₀ c (Proc.devRef .tc b) = Wa0 c (Proc.devRef .tc b) := by
  unfold Wout0; exact Pipeline.withArrays_of_ne spec0 c _ _ b hb
/-- At region 0's exit each of its arrays holds what the pipeline leaves, and every other buffer what it held at entry. -/
theorem hF0 (c : Dev nD) (w : Fin cfg0.W) : (dat0 (Ix := Ix) (Name := Name) (U := U) (Lvl := Lvl) (Vof Wa0) (O 0) (B 0) c).arrAt w cfg0.N = Vof 𝔴₀ c (Pipeline.arrRef spec0 w) :=
  (Wout0_arr O B Wa0 c w).symm
theorem hrest0 (c : Dev nD) : ∀ b, b ∉ Finset.univ.image (Pipeline.arrRef spec0) → Vof 𝔴₀ c b = Vof Wa0 c b :=
  fun b hb => Wout0_of_ne O B Wa0 c b fun w e => hb (Finset.mem_image.mpr ⟨w, Finset.mem_univ _, e⟩)

/-! ## Region 0 as a segment -/

set_option backward.isDefEq.respectTransparency.types false in
/-- REGION 0 as a segment: entered from every unscoped buffer at `Wa0` beside the core's owed tallies (its recorded
    pairs within the bound and the pipeline's own), left at `Wout0` beside the same. Its arrays split out of the
    unscoped buffers and put back at the exit contents; the invariant the scoped buffers that are no staging buffer
    of the pipeline; no semaphore of the kernel's own; the wait evidence supplied. -/
def seg0 (hw : ∀ c, (levAts L lv : sProp 𝕄) ⊢ Pipeline.cellsWaits (Pipeline.pin (pcfgs (F := F)) adm) 𝔭 ι 0 c) :
    Pipeline.RegionSeg (pcfgs (F := F)) adm 𝔭 ι defs₀ 𝒱₀ L lv 0 where
  win := launch0.win.to₀
  block_pos := launch0.block_pos
  stage_whole := launch0.stage_whole
  K := PEmpty
  osem k := k.elim
  ho := Pipeline.OwnSemFacts.none _
  hbody c := body0 (Vof Wa0) (Vof Wa1) O B ι c
  hwaits := hw
  pre c := iprop(StableHlo.held (c : Thread nD τ) (Pipeline.ucRefs τ sig) (Wa0 c) ∗ Pipeline.owesWithin c (O 0 c) (B 0 c ∪ cfg0.waitPairs ι))
  post c := iprop(StableHlo.held (c : Thread nD τ) (Pipeline.ucRefs τ sig) (𝔴₀ c) ∗ Pipeline.owesWithin c (O 0 c) (B 0 c ∪ cfg0.waitPairs ι))
  X _ := iprop(emp)
  Y _ := iprop(emp)
  Z c := Pipeline.unscopedRest (Ix := Ix) (Name := Name) (U := U) (Lvl := Lvl) spec0 c (Vof Wa0 c)
  hentry c := by
    rw [Pipeline.ownSems0_none]
    have hsplit := Pipeline.arrays_of_unscopedBufs (p := 0) (pcfgs (F := F)) adm 𝔭 launch0.win launch0.arr_whole c
      ((𝔭 0 c).share_full fun _ => rfl) (Vof Wa0 c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iexact HO
    isplitr; · iempintro
    iexact Hrest
  hin c := by
    rw [show (𝔭 0 c).Φ 0 = Pipeline.scopedRest spec0 c from rfl]
    iintro ⟨-, -, Hr⟩
    iexact Hr
  hout c := by
    rw [Pipeline.ownSems0_none, show (𝔭 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := Ix) (Name := Name) (U := U) (Lvl := Lvl)
      launch0.win launch0.arr_whole c 𝔭 ((𝔭 0 c).share_full fun _ => rfl)
      (Vof Wa0 c) (Vof 𝔴₀ c) ((𝔭 0 c).arrAt · cfg0.N) (hF0 O B Wa0 c) (hrest0 O B Wa0 c)
    rw [Pipeline.unscopedBufs_held] at hjoin
    iintro ⟨Ha, HO, -, Hrest⟩
    imodintro
    isplitl [Ha Hrest]
    · iapply hjoin; isplitl [Ha] <;> iassumption
    iexact HO

/-- At region 1's exit: its arrays at what the pipeline leaves (the five inputs as entered, the output array's one
    write-back folded), every other buffer as entered. -/
def Wout1 (c : Dev nD) : Valuation τ sig (Elt F) :=
  Pipeline.withArrays spec2 c (Wa1 c) fun w => (dat2 (Ix := Ix) (Name := Name) (U := U) (Lvl := Lvl) (Vof Wa1) (O 1) (B 1) c).arrAt w cfg2.N

local notation "𝔴₁" => Wout1 (Ix := Ix) (Name := Name) (U := U) (Lvl := Lvl) O B Wa1

theorem Wout1_arr (c : Dev nD) (w : Fin cfg2.W) :
    𝔴₁ c (Proc.devRef .tc (Pipeline.arrRef spec2 w)) = (dat2 (Ix := Ix) (Name := Name) (U := U) (Lvl := Lvl) (Vof Wa1) (O 1) (B 1) c).arrAt w cfg2.N := by
  unfold Wout1; exact Pipeline.withArrays_arr spec2 launch2.win.arr_inj c _ _ w
theorem Wout1_of_ne (c : Dev nD) (b : Ref sig .tc) (hb : ∀ w, Pipeline.arrRef spec2 w ≠ b) :
    𝔴₁ c (Proc.devRef .tc b) = Wa1 c (Proc.devRef .tc b) := by
  unfold Wout1; exact Pipeline.withArrays_of_ne spec2 c _ _ b hb
theorem hF1 (c : Dev nD) (w : Fin cfg2.W) : (dat2 (Ix := Ix) (Name := Name) (U := U) (Lvl := Lvl) (Vof Wa1) (O 1) (B 1) c).arrAt w cfg2.N = Vof 𝔴₁ c (Pipeline.arrRef spec2 w) :=
  (Wout1_arr O B Wa1 c w).symm
theorem hrest1 (c : Dev nD) : ∀ b, b ∉ Finset.univ.image (Pipeline.arrRef spec2) → Vof 𝔴₁ c b = Vof Wa1 c b :=
  fun b hb => Wout1_of_ne O B Wa1 c b fun w e => hb (Finset.mem_image.mpr ⟨w, Finset.mem_univ _, e⟩)

/-! ## Region 1 as a segment -/

set_option backward.isDefEq.respectTransparency.types false in
/-- REGION 1 as a segment: entered from every unscoped buffer at `Wa1` beside the core's owed tallies, left at
    `Wout1` beside the same. The invariant starts as the scoped buffers that are no staging buffer of the pipeline
    (the scratch among them, at anything) and gives them back after the last point; no semaphore of the kernel's
    own; the wait evidence supplied. -/
def seg1 (hw : ∀ c, (levAts L lv : sProp 𝕄) ⊢ Pipeline.cellsWaits (Pipeline.pin (pcfgs (F := F)) adm) 𝔭 ι 1 c) :
    Pipeline.RegionSeg (pcfgs (F := F)) adm 𝔭 ι defs₀ 𝒱₀ L lv 1 where
  win := launch2.win.to₀
  block_pos := launch2.block_pos
  stage_whole := launch2.stage_whole
  K := PEmpty
  osem k := k.elim
  ho := Pipeline.OwnSemFacts.none _
  hbody c := body2 (Vof Wa0) (Vof Wa1) O B ι c
  hwaits := hw
  pre c := iprop(StableHlo.held (c : Thread nD τ) (Pipeline.ucRefs τ sig) (Wa1 c) ∗ Pipeline.owesWithin c (O 1 c) (B 1 c ∪ cfg2.waitPairs ι))
  post c := iprop(StableHlo.held (c : Thread nD τ) (Pipeline.ucRefs τ sig) (𝔴₁ c) ∗ Pipeline.owesWithin c (O 1 c) (B 1 c ∪ cfg2.waitPairs ι))
  X _ := iprop(emp)
  Y _ := iprop(emp)
  Z c := Pipeline.unscopedRest (Ix := Ix) (Name := Name) (U := U) (Lvl := Lvl) spec2 c (Vof Wa1 c)
  hentry c := by
    rw [Pipeline.ownSems0_none]
    have hsplit := Pipeline.arrays_of_unscopedBufs (p := 1) (pcfgs (F := F)) adm 𝔭 launch2.win launch2.arr_whole c
      ((𝔭 1 c).share_full fun _ => rfl) (Vof Wa1 c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iexact HO
    isplitr; · iempintro
    iexact Hrest
  hin c := by
    rw [show (𝔭 1 c).Φ 0 = (dat2 (Ix := Ix) (Name := Name) (U := U) (Lvl := Lvl) (Vof Wa1) (O 1) (B 1) c).Φ 0 from rfl]
    iintro ⟨-, -, Hr⟩
    iapply (hin2 (Vof Wa1) (O 1) (B 1) c)
    iexact Hr
  hout c := by
    rw [Pipeline.ownSems0_none, show (𝔭 1 c).Φ (Fin.last _) = (dat2 (Ix := Ix) (Name := Name) (U := U) (Lvl := Lvl) (Vof Wa1) (O 1) (B 1) c).Φ (Fin.last cfg2.N) from rfl]
    iintro H
    isplitr; · iempintro
    isplitr; · iempintro
    iapply (hout2 (Vof Wa1) (O 1) (B 1) c)
    iexact H
  hexit c := by
    have hjoin := Pipeline.unscopedBufs_of_arrays (p := 1) (pcfgs (F := F)) adm (Ix := Ix) (Name := Name) (U := U) (Lvl := Lvl)
      launch2.win launch2.arr_whole c 𝔭 ((𝔭 1 c).share_full fun _ => rfl)
      (Vof Wa1 c) (Vof 𝔴₁ c) ((𝔭 1 c).arrAt · cfg2.N) (hF1 O B Wa1 c) (hrest1 O B Wa1 c)
    rw [Pipeline.unscopedBufs_held] at hjoin
    iintro ⟨Ha, HO, -, Hrest⟩
    imodintro
    isplitl [Ha Hrest]
    · iapply hjoin; isplitl [Ha] <;> iassumption
    iexact HO

end Regions

end Cert.Proof.KI

end
-- ==== Proof.KIHostA.lean ====
/-
  What the two host operations before the gather compute: the sentence indices, an array [1024, 50], transposed to
  [50, 1024] and flattened to [51200]. Entry t * 1024 + b of the flat array is the index of batch row b at step t.
  No other buffer is written.
-/
import proofs.«204407_g76768245448983_cont_9to1_m_970_19_alg».proof.Proof.KIMain
import Idealize.ShloMosaic.Lib.ValueLayout
import Idealize.ShloMosaic.Lib.Pipeline.Value
import Idealize.ShloMosaic.Lib.KernelVsHost
import Idealize.ShloMosaic.Lib.IdealHost

noncomputable section

namespace Cert.Proof.KI

open Cert.KernelIdeal Cert.KernelIdeal.Gen
open Idealize.ShloMosaic Idealize.ShloMosaic.ValueIdx
open Idealize.SL.Sem

variable {F : FTy → Type} [FloatOps F]

/-- The references the first stretch of host operations writes. -/
abbrev opsA_W : List (Ref sig .tc) := [main_v1, main_v2]

theorem opsA_writes :
    (opsA (F := F)).Forall fun op => op.writes ⊆ (opsA_W.map (Proc.devRef (τ := τ) .tc)).toFinset := by
  simp only [opsA, List.Forall]
  refine ⟨?_, ?_⟩ <;>
    (simp only [StableHlo.unary_writes, StableHlo.reshape_writes, Finset.singleton_subset_iff, List.mem_toFinset]
     exact List.mem_map_of_mem (by decide))

/-- A buffer other than the transposed and the flattened indices keeps its contents. -/
theorem opsA_frame (V : Valuation τ sig (Elt F)) (r : Ref sig .tc) (h : r ∉ opsA_W) :
    StableHlo.after (opsA (F := F)) V (Proc.devRef .tc r) = V (Proc.devRef .tc r) :=
  StableHlo.after_of_writes_sub opsA V opsA_writes h

theorem opsA_arg0 (V : Valuation τ sig (Elt F)) :
    StableHlo.after (opsA (F := F)) V (Proc.devRef .tc main_arg0) = V (Proc.devRef .tc main_arg0) := opsA_frame V _ (by decide)
theorem opsA_arg1 (V : Valuation τ sig (Elt F)) :
    StableHlo.after (opsA (F := F)) V (Proc.devRef .tc main_arg1) = V (Proc.devRef .tc main_arg1) := opsA_frame V _ (by decide)
theorem opsA_arg2 (V : Valuation τ sig (Elt F)) :
    StableHlo.after (opsA (F := F)) V (Proc.devRef .tc main_arg2) = V (Proc.devRef .tc main_arg2) := opsA_frame V _ (by decide)
theorem opsA_arg3 (V : Valuation τ sig (Elt F)) :
    StableHlo.after (opsA (F := F)) V (Proc.devRef .tc main_arg3) = V (Proc.devRef .tc main_arg3) := opsA_frame V _ (by decide)
theorem opsA_arg4 (V : Valuation τ sig (Elt F)) :
    StableHlo.after (opsA (F := F)) V (Proc.devRef .tc main_arg4) = V (Proc.devRef .tc main_arg4) := opsA_frame V _ (by decide)
theorem opsA_arg5 (V : Valuation τ sig (Elt F)) :
    StableHlo.after (opsA (F := F)) V (Proc.devRef .tc main_arg5) = V (Proc.devRef .tc main_arg5) := opsA_frame V _ (by decide)
theorem opsA_arg6 (V : Valuation τ sig (Elt F)) :
    StableHlo.after (opsA (F := F)) V (Proc.devRef .tc main_arg6) = V (Proc.devRef .tc main_arg6) := opsA_frame V _ (by decide)
theorem opsA_arg7 (V : Valuation τ sig (Elt F)) :
    StableHlo.after (opsA (F := F)) V (Proc.devRef .tc main_arg7) = V (Proc.devRef .tc main_arg7) := opsA_frame V _ (by decide)
theorem opsA_v0 (V : Valuation τ sig (Elt F)) :
    StableHlo.after (opsA (F := F)) V (Proc.devRef .tc main_v0) = V (Proc.devRef .tc main_v0) := opsA_frame V _ (by decide)

/-- The flattened indices as one term over the sentence array. -/
theorem idx_term (V : Valuation τ sig (Elt F)) :
    StableHlo.after (opsA (F := F)) V (Proc.devRef .tc main_v2)
      = (fun i => shapeCast S51200 (transpose S50x1024 [1, 0] (V (Proc.devRef .tc main_arg1)) transposes_S1024x50_S50x1024_1_0)
          shapeCasts_S50x1024_S51200 i) := by
  simp only [opsA]
  after_results
  rfl

/-- Entry t * 1024 + b of the flattened indices is the sentence array at (b, t). -/
theorem idx_apply (V : Valuation τ sig (Elt F)) (t : Fin 50) (b : Fin 1024) :
    StableHlo.after (opsA (F := F)) V (Proc.devRef .tc main_v2) (ix1 ⟨t.val * 1024 + b.val, by omega⟩)
      = V (Proc.devRef .tc main_arg1) (ix2 b t) := by
  rw [idx_term]
  show shapeCast S51200 _ _ _ = _
  rw [shapeCast_apply _ _ _ (ix2 t b) (by rw [Shape.rowMajor_val_two, Shape.rowMajor_val_one]; rfl)]
  exact transpose_ix2_apply _ _ t b

end Cert.Proof.KI

end
-- ==== Proof.KIHostB.lean ====
/-
  What the host operations between the gather and the recurrence leave alone, and three of the arrays they write, index by
  index: the gathered rows [51200, 128] viewed as [50, 1024, 128] (entry (t, b, k) is row t * 1024 + b, lane k); the output
  layer's weights [3, 100] transposed and padded with zero rows to [128, 3]; the output layer's bias [3] viewed as [1, 3].
-/
import proofs.«204407_g76768245448983_cont_9to1_m_970_19_alg».proof.Proof.KIMain
import Idealize.ShloMosaic.Lib.ValueLayout
import Idealize.ShloMosaic.Lib.Pipeline.Value
import Idealize.ShloMosaic.Lib.KernelVsHost
import Idealize.ShloMosaic.Lib.IdealHost

noncomputable section

namespace Cert.Proof.KI

open Cert.KernelIdeal Cert.KernelIdeal.Gen
open Idealize.ShloMosaic Idealize.ShloMosaic.ValueIdx
open Idealize.SL.Sem

variable {F : FTy → Type} [FloatOps F]

/-- The references the second stretch of host operations writes. -/
abbrev opsB_W : List (Ref sig .tc) :=
  [main_v4, main_v5, main_v6, main_c, main_call0_v0, main_v7, main_v8, main_v9, main_c_0, main_call1_v0, main_v10, main_cst, main_v11, main_v12, main_v13, main_v14, main_v15, main_v16, main_v17, main_v18, main_v19, main_v20, main_v21, main_v22, main_v23, main_v24, main_v25, main_v26, main_v27, main_c_1, main_call2_v0, main_v28, main_v29, main_c_2, main_call3_v0, main_v30, main_v31, main_v32, main_v33, main_v34, main_v35, main_v36, main_v37, main_v38, main_v39, main_v40, main_v41, main_v42, main_v43, main_v44, main_v45, main_v46, main_v47, main_c_3, main_call4_v0, main_v48, main_v49]

theorem opsB_writes :
    (opsB (F := F)).Forall fun op => op.writes ⊆ (opsB_W.map (Proc.devRef (τ := τ) .tc)).toFinset := by
  simp only [opsB, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.reshape_writes,
       StableHlo.nary_writes, Finset.singleton_subset_iff, List.mem_toFinset]
     exact List.mem_map_of_mem (by decide))

/-- A buffer none of these operations writes keeps its contents. -/
theorem opsB_frame (V : Valuation τ sig (Elt F)) (r : Ref sig .tc) (h : r ∉ opsB_W) :
    StableHlo.after (opsB (F := F)) V (Proc.devRef .tc r) = V (Proc.devRef .tc r) :=
  StableHlo.after_of_writes_sub opsB V opsB_writes h

theorem opsB_arg0 (V : Valuation τ sig (Elt F)) :
    StableHlo.after (opsB (F := F)) V (Proc.devRef .tc main_arg0) = V (Proc.devRef .tc main_arg0) := opsB_frame V _ (by decide)
theorem opsB_arg1 (V : Valuation τ sig (Elt F)) :
    StableHlo.after (opsB (F := F)) V (Proc.devRef .tc main_arg1) = V (Proc.devRef .tc main_arg1) := opsB_frame V _ (by decide)
theorem opsB_arg2 (V : Valuation τ sig (Elt F)) :
    StableHlo.after (opsB (F := F)) V (Proc.devRef .tc main_arg2) = V (Proc.devRef .tc main_arg2) := opsB_frame V _ (by decide)
theorem opsB_arg3 (V : Valuation τ sig (Elt F)) :
    StableHlo.after (opsB (F := F)) V (Proc.devRef .tc main_arg3) = V (Proc.devRef .tc main_arg3) := opsB_frame V _ (by decide)
theorem opsB_arg4 (V : Valuation τ sig (Elt F)) :
    StableHlo.after (opsB (F := F)) V (Proc.devRef .tc main_arg4) = V (Proc.devRef .tc main_arg4) := opsB_frame V _ (by decide)
theorem opsB_arg5 (V : Valuation τ sig (Elt F)) :
    StableHlo.after (opsB (F := F)) V (Proc.devRef .tc main_arg5) = V (Proc.devRef .tc main_arg5) := opsB_frame V _ (by decide)
theorem opsB_arg6 (V : Valuation τ sig (Elt F)) :
    StableHlo.after (opsB (F := F)) V (Proc.devRef .tc main_arg6) = V (Proc.devRef .tc main_arg6) := opsB_frame V _ (by decide)
theorem opsB_arg7 (V : Valuation τ sig (Elt F)) :
    StableHlo.after (opsB (F := F)) V (Proc.devRef .tc main_arg7) = V (Proc.devRef .tc main_arg7) := opsB_frame V _ (by decide)
theorem opsB_v0 (V : Valuation τ sig (Elt F)) :
    StableHlo.after (opsB (F := F)) V (Proc.devRef .tc main_v0) = V (Proc.devRef .tc main_v0) := opsB_frame V _ (by decide)
theorem opsB_v2 (V : Valuation τ sig (Elt F)) :
    StableHlo.after (opsB (F := F)) V (Proc.devRef .tc main_v2) = V (Proc.devRef .tc main_v2) := opsB_frame V _ (by decide)
theorem opsB_v3 (V : Valuation τ sig (Elt F)) :
    StableHlo.after (opsB (F := F)) V (Proc.devRef .tc main_v3) = V (Proc.devRef .tc main_v3) := opsB_frame V _ (by decide)

/-! ## The gathered rows, viewed by step and batch row -/

theorem emb_term (V : Valuation τ sig (Elt F)) :
    StableHlo.after (opsB (F := F)) V (Proc.devRef .tc main_v4)
      = (fun i => shapeCast S50x1024x128 (V (Proc.devRef .tc main_v3)) shapeCasts_S51200x128_S50x1024x128 i) := by
  simp only [opsB]
  after_results_simp
  rfl

/-- Entry (t, b, k) of the view is lane k of gathered row t * 1024 + b. -/
theorem emb_apply (V : Valuation τ sig (Elt F)) (t : Fin 50) (b : Fin 1024) (k : Fin 128) :
    StableHlo.after (opsB (F := F)) V (Proc.devRef .tc main_v4) (ix3 t b k)
      = V (Proc.devRef .tc main_v3) (ix2 ⟨t.val * 1024 + b.val, by omega⟩ k) := by
  rw [emb_term]
  show shapeCast S50x1024x128 _ _ _ = _
  refine shapeCast_apply (s := S51200x128) (t := S50x1024x128) _ _ _ _ ?_
  rw [Shape.rowMajor_val_two, Shape.rowMajor_val_three]
  rfl

/-! ## The output layer's weights and bias -/

/-- The value the padded rows hold: the integer zero converted. -/
abbrev padZero : FVec F S_ .f32 := sitofp .f32 (constantI S_ 32 0#32)

theorem wlin_term (V : Valuation τ sig (Elt F)) :
    StableHlo.after (opsB (F := F)) V (Proc.devRef .tc main_v48)
      = pad S128x3 ![0, 0] ![28, 0] ![0, 0]
          (transpose S100x3 [1, 0] (V (Proc.devRef .tc main_arg6)) transposes_S3x100_S100x3_1_0) (padZero (F := F))
          pads_S100x3_S128x3_0280_000 h_S_ := by
  simp only [opsB]
  after_results_simp
  rfl

/-- Row k < 100 of the padded weights is column k of the output layer's weights. -/
theorem wlin_apply (V : Valuation τ sig (Elt F)) (k : Fin 100) (c : Fin 3) :
    StableHlo.after (opsB (F := F)) V (Proc.devRef .tc main_v48) (ix2 ⟨k.val, by omega⟩ c)
      = V (Proc.devRef .tc main_arg6) (ix2 c k) := by
  rw [wlin_term]
  rw [pad_apply_of_inside _ _ _ _ _ _ _ _ (ix2 k c) (fun a => match a with
    | ⟨0, _⟩ => by show k.val = 0 + k.val * (0 + 1); omega
    | ⟨1, _⟩ => by show c.val = 0 + c.val * (0 + 1); omega)]
  exact transpose_ix2_apply _ _ k c

/-- Rows 100 to 127 of the padded weights hold the padding value. -/
theorem wlin_pad_any (V : Valuation τ sig (Elt F)) (k : Fin 28) (c : Fin 3) :
    StableHlo.after (opsB (F := F)) V (Proc.devRef .tc main_v48) (ix2 ⟨100 + k.val, by omega⟩ c)
      = padZero (F := F) (Shape.Idx.first h_S_) := by
  rw [wlin_term]
  exact pad_apply_of_not_inside _ _ _ _ _ _ _ _ (0 : Fin 2) (by
    show ¬(0 ≤ 100 + k.val ∧ (100 + k.val - 0) % (0 + 1) = 0 ∧ (100 + k.val - 0) / (0 + 1) < 100)
    omega)

/-- Over the extended reals the padding value is zero. -/
theorem padZero_ideal (i : S_.Idx) : padZero (F := Ideal) i = 0 := by
  show (((0#32 : BitVec 32).toInt : ℝ) : EReal) = 0
  rw [show (0#32 : BitVec 32).toInt = 0 from by decide, Int.cast_zero, EReal.coe_zero]

/-- Over the extended reals rows 100 to 127 of the padded weights are zero. -/
theorem wlin_pad (V : Valuation τ sig (Elt Ideal)) (k : Fin 28) (c : Fin 3) :
    StableHlo.after (opsB (F := Ideal)) V (Proc.devRef .tc main_v48) (ix2 ⟨100 + k.val, by omega⟩ c) = (0 : EReal) := by
  rw [wlin_pad_any, padZero_ideal]

theorem blin_term (V : Valuation τ sig (Elt F)) :
    StableHlo.after (opsB (F := F)) V (Proc.devRef .tc main_v49)
      = (fun i => shapeCast S1x3 (V (Proc.devRef .tc main_arg7)) shapeCasts_S3_S1x3 i) := by
  simp only [opsB]
  after_results_simp
  rfl

/-- The bias viewed as one row. -/
theorem blin_apply (V : Valuation τ sig (Elt F)) (c : Fin 3) :
    StableHlo.after (opsB (F := F)) V (Proc.devRef .tc main_v49) (ix2 (0 : Fin 1) c)
      = V (Proc.devRef .tc main_arg7) (ix1 c) := by
  rw [blin_term]
  show shapeCast S1x3 _ _ _ = _
  exact shapeCast_a_1a_apply _ _ 0 c

end Cert.Proof.KI

end
-- ==== Proof.KIHostRange.lean ====
/-
  Every entry of the flattened, transposed sentence indices is an entry of the sentence array: a bound on all entries
  of the array is a bound on all entries of the flat one.
-/
import proofs.«204407_g76768245448983_cont_9to1_m_970_19_alg».proof.Proof.KIHostA

noncomputable section

namespace Cert.Proof.KI

open Cert.KernelIdeal Cert.KernelIdeal.Gen
open Idealize.ShloMosaic Idealize.ShloMosaic.ValueIdx
open Idealize.SL.Sem

variable {F : FTy → Type} [FloatOps F]

/-- Each entry of the flat indices is the sentence array at some index: a transpose and a reshape only move entries. -/
theorem idx_mem (V : Valuation τ sig (Elt F)) (j : S51200.Idx) :
    ∃ i : S1024x50.Idx, StableHlo.after (opsA (F := F)) V (Proc.devRef .tc main_v2) j = V (Proc.devRef .tc main_arg1) i := by
  rw [idx_term]
  exact ⟨_, rfl⟩

/-- A bound on every sentence index bounds every entry of the flat indices. -/
theorem idx_range (V : Valuation τ sig (Elt F)) (h : ∀ i, BitVec.toNat (V (Proc.devRef .tc main_arg1) i) < 100000)
    (j : S51200.Idx) : BitVec.toNat (StableHlo.after (opsA (F := F)) V (Proc.devRef .tc main_v2) j) < 100000 := by
  obtain ⟨i, hi⟩ := idx_mem V j
  rw [hi]
  exact h i

end Cert.Proof.KI

end
-- ==== Proof.KIFinal.lean ====
/-
  The idealized kernel program's run with every piece named: the two TensorCore regions' proof data at the contents they
  are entered from, the SparseCore call's handshake payloads at the padded table and the flattened indices, and the
  contents of every unscoped buffer from the launch memory to the end — so that the run's post states each argument
  array unchanged and the result array as one function of the launch memory.
-/
import proofs.«204407_g76768245448983_cont_9to1_m_970_19_alg».proof.Proof.KILaunch
import proofs.«204407_g76768245448983_cont_9to1_m_970_19_alg».proof.Proof.KIScTile2
import proofs.«204407_g76768245448983_cont_9to1_m_970_19_alg».proof.Proof.KITcRegions
import proofs.«204407_g76768245448983_cont_9to1_m_970_19_alg».proof.Proof.KIHostA
import proofs.«204407_g76768245448983_cont_9to1_m_970_19_alg».proof.Proof.KIHostB
import proofs.«204407_g76768245448983_cont_9to1_m_970_19_alg».proof.Proof.KIHostRange

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Inst

variable (m : (ℓ : Loc nD τ sig) → Buf (Elt F) ℓ) (ρ : Dev nD → PrngReg)

/-- What the TensorCore owes before call `p`, and the bound on its recorded pairs there. -/
abbrev Op : (p : Fin 2) → Dev nD → CellTallies nD τ sig (HIx 1) := fun p d => (K (F := F)).Otc d p.val
abbrev Bp : (p : Fin 2) → Dev nD → Set (SemLoc sig × HIx 1) := fun p d => BB (F := F) p.val d

/-- The contents the first region leaves: the launch contents with the padded table written. -/
def Wr1 (d : Dev nD) : Valuation τ sig (Elt F) :=
  Wout0 (Ix := HIx 1) (Name := ℕ) (U := UU) (Lvl := ℕ) (Op (F := F)) (Bp (F := F)) (W0 m) d
/-- The padded table and the flattened indices as the SparseCore call finds them. -/
def tpv (d : Dev nD) : Buf (Elt F) (tLoc d) := W2 (Wr1 m) d v0'
def ixv (d : Dev nD) : Buf (Elt F) (iLoc d) := W2 (Wr1 m) d v2'
/-- The gathered rows. -/
def gv (d : Dev nD) : Buf (Elt F) (oLoc d) := gath (tpv m) (ixv m) d
/-- The contents the second region is entered from, and those it leaves. -/
def Wr4 (d : Dev nD) : Valuation τ sig (Elt F) := W4 (Wr1 m) (gv m) d
def Wr5 (d : Dev nD) : Valuation τ sig (Elt F) :=
  Wout1 (Ix := HIx 1) (Name := ℕ) (U := UU) (Lvl := ℕ) (Op (F := F)) (Bp (F := F)) (Wr4 m) d

/-- Both regions' proof data. -/
abbrev pd : (p : Fin 2) → (c : Dev nD) → Pipeline.Dat τ (Elt F) (HIx 1) ℕ UU ℕ (Pipeline.pin (pcfgs (F := F)) adm p) c :=
  pdats (Ix := HIx 1) (Name := ℕ) (U := UU) (Lvl := ℕ) (Vof (W0 m)) (Vof (Wr4 m)) (Op (F := F)) (Bp (F := F))

/-- The TensorCore may wait on a region's staging cells at the kernel's own index whatever start signals it owes. -/
theorem hw (p : Fin 2) (c : Dev nD) :
    (levAts (K (F := F)).L (K (F := F)).lev : sProp 𝕄) ⊢ Pipeline.cellsWaits (Pipeline.pin (pcfgs (F := F)) adm) (pd m) (none : HIx 1) p c :=
  Pipeline.cellsWaits_intro (Pipeline.pin (pcfgs (F := F)) adm) (pd m) (none : HIx 1) p c fun w s t => by
    have h : ((pd m) p c).owed t = (K (F := F)).Otc c p.val := by
      match p with
      | ⟨0, _⟩ => rfl
      | ⟨1, _⟩ => rfl
    rw [h]
    exact (K (F := F)).mayWait_none _ (Otc_none c p.val)

def R0 : Pipeline.RegionSeg (pcfgs (F := F)) adm (pd m) (none : HIx 1) defs₀ 𝒱₀ (K (F := F)).L (K (F := F)).lev 0 :=
  seg0 (Ix := HIx 1) (Name := ℕ) (U := UU) (Lvl := ℕ) (Op (F := F)) (Bp (F := F)) (none : HIx 1) (K (F := F)).L (K (F := F)).lev (W0 m) (Wr4 m) (hw m 0)
def R1 : Pipeline.RegionSeg (pcfgs (F := F)) adm (pd m) (none : HIx 1) defs₀ 𝒱₀ (K (F := F)).L (K (F := F)).lev 1 :=
  seg1 (Ix := HIx 1) (Name := ℕ) (U := UU) (Lvl := ℕ) (Op (F := F)) (Bp (F := F)) (none : HIx 1) (K (F := F)).L (K (F := F)).lev (W0 m) (Wr4 m) (hw m 1)

omit [FloatOps F] in
theorem waitPairs_none (cfg : Pipeline.Cfg sig Λ₀) : ∀ x ∈ cfg.waitPairs (none : HIx 1), x.2 = none := by
  rintro x ⟨w, s, rfl⟩; rfl

/-- The program's run: every unscoped buffer ends at the last contents. -/
theorem run_named [∀ e, Nonempty (Elt F e)] (hix : ∀ d j, (ixv m d j).toNat < 100000) :
    θ_run (Cert.KernelIdeal.defs (F := F)) (Cert.KernelIdeal.threads (F := F)) ⟨m, fun _ => 0, ρ⟩ (QC (F := F) (Wr5 m)) :=
  run_main m ρ (P2 (tpv m) (ixv m)) (pd m) (R0 m) (R1 m) (Wr1 m) (Wr5 m) (gv m)
    (cfg0.waitPairs (none : HIx 1)) (cfg2.waitPairs (none : HIx 1)) (waitPairs_none cfg0) (waitPairs_none cfg2)
    (fun _ => rfl) (fun _ => rfl) (fun _ => rfl) (fun _ => rfl)
    (fun d => st0_join2 (tpv m) (ixv m) d) (fun d => dn0_split2 (tpv m) (ixv m) d)
    (fun _ _ => rfl) rfl (tileObl2 (tpv m) (ixv m) hix) (SparseCore.Cfg.VecSplit.of_plain (vecSplit2 (tpv m) (ixv m)))

end Inst

/-! ## The argument arrays end unchanged -/

section Keep

variable (m : (ℓ : Loc nD τ sig) → Buf (Elt F) ℓ)

/-- A buffer neither region writes, no host operation writes and the SparseCore call does not write keeps the contents the
    first region left. -/
theorem Wr5_keep (c : Dev nD) (b : Ref sig .tc) (h2 : ∀ w, Pipeline.arrRef spec2 w ≠ b) (hB : b ∉ opsB_W)
    (h3 : (Proc.devRef .tc b : DevRef τ sig) ≠ v3') (hA : b ∉ opsA_W) :
    Wr5 m c (Proc.devRef .tc b) = Wr1 m c (Proc.devRef .tc b) := by
  unfold Wr5
  rw [Wout1_of_ne _ _ _ c b h2]
  unfold Wr4 W4
  rw [opsB_frame _ b hB]
  unfold W3
  rw [Function.update_of_ne h3]
  unfold W2
  exact opsA_frame _ b hA

/-- An argument array other than the table. -/
theorem Wr5_arg (c : Dev nD) (b : Ref sig .tc) (h0 : ∀ w, Pipeline.arrRef spec0 w ≠ b) (h2 : ∀ w, Pipeline.arrRef spec2 w ≠ b) (hB : b ∉ opsB_W)
    (h3 : (Proc.devRef .tc b : DevRef τ sig) ≠ v3') (hA : b ∉ opsA_W) :
    Wr5 m c (Proc.devRef .tc b) = m ((c.tc : Thread nD τ).loc b) := by
  rw [Wr5_keep m c b h2 hB h3 hA]
  unfold Wr1
  rw [Wout0_of_ne _ _ _ c b h0]
  rfl

/-- The table: the first region's input window, which the pipeline leaves as it found it. -/
theorem Wr5_arg0 (c : Dev nD) : Wr5 m c (Proc.devRef .tc main_arg0) = m ((c.tc : Thread nD τ).loc main_arg0) := by
  rw [Wr5_keep m c main_arg0 (by decide) (by decide) (by decide) (by decide)]
  unfold Wr1
  refine (Wout0_arr (Ix := HIx 1) (Name := ℕ) (U := UU) (Lvl := ℕ) (Op (F := F)) (Bp (F := F)) (W0 m) c 0).trans ?_
  exact Pipeline.Dat.arrAt_in _ 0 rfl _

/-- The indices the SparseCore call reads are the argument's, re-laid: each names a row when the argument's do. -/
theorem hix_of_range (h : ∀ (d : Dev nD) i, BitVec.toNat (m ((d.tc : Thread nD τ).loc main_arg1) i) < 100000) (d : Dev nD) (j : S51200.Idx) :
    BitVec.toNat (ixv m d j) < 100000 := by
  unfold ixv W2
  refine idx_range (Wr1 m d) (fun i => ?_) j
  have e : Wr1 m d (Proc.devRef .tc main_arg1) = m ((d.tc : Thread nD τ).loc main_arg1) := by
    unfold Wr1
    rw [Wout0_of_ne _ _ _ d main_arg1 (by decide)]
    rfl
  rw [e]; exact h d i

end Keep

/-! ## The run with the result named and the arguments unchanged -/

section Strong

variable (m : (ℓ : Loc nD τ sig) → Buf (Elt F) ℓ) (ρ : Dev nD → PrngReg)

/-- The result array's last contents on device `c`. -/
def resultOf (c : Dev nD) : Buf (Elt F) ((c.tc : Thread nD τ).loc main_v50) := Wr5 m c (Proc.devRef .tc main_v50)

theorem run_strong [∀ e, Nonempty (Elt F e)] (h : ∀ (d : Dev nD) i, BitVec.toNat (m ((d.tc : Thread nD τ).loc main_arg1) i) < 100000) :
    θ_run (Cert.KernelIdeal.defs (F := F)) (Cert.KernelIdeal.threads (F := F)) ⟨m, fun _ => 0, ρ⟩ (fun r => ∀ c : Dev nD,
      r.2.mem ((c.tc : Thread nD τ).loc main_v50) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (Cert.KernelIdeal.defs (F := F)) _ _).mono (fun r hr c =>
    ⟨hr c (Proc.devRef .tc main_v50) (by decide),
     (hr c (Proc.devRef .tc main_arg0) (by decide)).trans (Wr5_arg0 m c),
     (hr c (Proc.devRef .tc main_arg1) (by decide)).trans (Wr5_arg m c main_arg1 (by decide) (by decide) (by decide) (by decide) (by decide)),
     (hr c (Proc.devRef .tc main_arg2) (by decide)).trans (Wr5_arg m c main_arg2 (by decide) (by decide) (by decide) (by decide) (by decide)),
     (hr c (Proc.devRef .tc main_arg3) (by decide)).trans (Wr5_arg m c main_arg3 (by decide) (by decide) (by decide) (by decide) (by decide)),
     (hr c (Proc.devRef .tc main_arg4) (by decide)).trans (Wr5_arg m c main_arg4 (by decide) (by decide) (by decide) (by decide) (by decide)),
     (hr c (Proc.devRef .tc main_arg5) (by decide)).trans (Wr5_arg m c main_arg5 (by decide) (by decide) (by decide) (by decide) (by decide)),
     (hr c (Proc.devRef .tc main_arg6) (by decide)).trans (Wr5_arg m c main_arg6 (by decide) (by decide) (by decide) (by decide) (by decide)),
     (hr c (Proc.devRef .tc main_arg7) (by decide)).trans (Wr5_arg m c main_arg7 (by decide) (by decide) (by decide) (by decide) (by decide))⟩)
    (run_named m ρ (hix_of_range m h))

end Strong

end Cert.Proof.KI

end
-- ==== Proof.KBSetup.lean ====
/-
  Shared set-up for the idealized kernel program's run: the program as the SparseCore launch theorem reads it
  (its label signature, the SparseCore configuration, the body table beneath it), the variants, and the ghost
  state — the launch handshakes' rounds, the TensorCore pipelines' staging cells' rounds, and the counters of
  local transfers — with the embeddings of each factor.
-/
import proofs.«204407_g76768245448983_cont_9to1_m_970_19_alg».proof.Defs
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import proofs.«204407_g76768245448983_cont_9to1_m_970_19_alg».proof.Proof.Gen.Kernel
import proofs.«204407_g76768245448983_cont_9to1_m_970_19_alg».proof.Proof.Gen.Kernel.Skeleton
import proofs.«204407_g76768245448983_cont_9to1_m_970_19_alg».proof.Proof.Gen.Kernel.Launch
import proofs.«204407_g76768245448983_cont_9to1_m_970_19_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The prefetched tables' admissible contents: no pipeline has a table. -/
abbrev adm : (p : Fin 2) → (pcfgs (F := F) p).Adm := fun p => (cfgs p).toPCfg_adm

/-! ## The resource algebra: the handshakes' rounds, the pipelines' staging cells' rounds, the transfers' counters -/

abbrev UH : Type := URounds (GSem nD τ sig) ℕ
abbrev UP : Type := URounds (GSem nD τ sig) Unit
abbrev UU : Type := UH × (UP × Counters)

/-- The handshakes' rounds: the left factor. -/
abbrev EH : Emb UH (MT nD τ sig (HIx 1) (Elt F) ℕ UU ℕ) := embL

/-- The staging cells' rounds: the left factor of the right factor. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP (MT nD τ sig (HIx 1) (Elt F) ℕ UU ℕ)).LandsIn (upEmb : UEmb _ (MT nD τ sig (HIx 1) (Elt F) ℕ UU ℕ)) := by
  unfold EP embR; infer_instance

end Cert.Proof.KB

end
-- ==== Proof.KBMain.lean ====
/-
  @main of the idealized kernel program as five pieces in order: the first TensorCore region (the table padded to 128
  lanes), a stretch of two host operations (the indices transposed and flattened), the SparseCore call (the gather),
  a stretch of host operations (the recurrent weights and biases re-laid into one [256, 512] matrix and one [1, 512]
  row, the output weights padded and transposed), and the second TensorCore region (the recurrence and the output layer).
-/
import proofs.«204407_g76768245448983_cont_9to1_m_970_19_alg».proof.Proof.KBSetup

noncomputable section

namespace Cert.Proof.KB

open Cert.Kernel Cert.Kernel.Gen
open Idealize.ShloMosaic
open Idealize.SL.Sem

variable {F : FTy → Type} [FloatOps F]

/-- The host operations between the first region and the SparseCore call. -/
def opsA : List (HloOp τ sig (Elt F)) :=
  [StableHlo.unary main_arg1 main_v1 ((transpose S50x1024 [1, 0] · transposes_S1024x50_S50x1024_1_0) : (⟨S1024x50, .i32⟩ : BufTy).Contents (Elt F) → (⟨S50x1024, .i32⟩ : BufTy).Contents (Elt F)),
   StableHlo.reshape main_v1 main_v2 rfl shapeCasts_S50x1024_S51200]

/-- The host operations between the SparseCore call and the second region. -/
def opsB : List (HloOp τ sig (Elt F)) :=
  [StableHlo.reshape main_v3 main_v4 rfl shapeCasts_S51200x128_S50x1024x128,
   StableHlo.reshape main_arg2 main_v5 rfl shapeCasts_S300x100_S3x100x100,
   StableHlo.unary main_v5 main_v6 ((transpose S3x100x100 [0, 2, 1] · transposes_S3x100x100_S3x100x100_0_2_1) : (⟨S3x100x100, .f32⟩ : BufTy).Contents (Elt F) → (⟨S3x100x100, .f32⟩ : BufTy).Contents (Elt F)),
   StableHlo.nullary main_c (constantI S_ 32 0#32),
   StableHlo.TRef.unary (.of main_c : StableHlo.TRef sig ⟨S_, .i32⟩) main_call0.v0 (sitofp .f32),
   StableHlo.TRef.binary (.of main_v6 : StableHlo.TRef sig ⟨S3x100x100, .f32⟩) main_call0.v0 main_call0.v1 (fun x v => pad S3x128x128 ![0, 0, 0] ![0, 28, 28] ![0, 0, 0] x v pads_S3x100x100_S3x128x128_000_0280_0280 h_S_),
   StableHlo.reshape main_arg3 main_v8 rfl shapeCasts_S300x100_S3x100x100,
   StableHlo.unary main_v8 main_v9 ((transpose S3x100x100 [0, 2, 1] · transposes_S3x100x100_S3x100x100_0_2_1) : (⟨S3x100x100, .f32⟩ : BufTy).Contents (Elt F) → (⟨S3x100x100, .f32⟩ : BufTy).Contents (Elt F)),
   StableHlo.nullary main_c_0 (constantI S_ 32 0#32),
   StableHlo.TRef.unary (.of main_c_0 : StableHlo.TRef sig ⟨S_, .i32⟩) main_call1.v0 (sitofp .f32),
   StableHlo.TRef.binary (.of main_v9 : StableHlo.TRef sig ⟨S3x100x100, .f32⟩) main_call1.v0 main_call1.v1 (fun x v => pad S3x128x128 ![0, 0, 0] ![0, 28, 28] ![0, 0, 0] x v pads_S3x100x100_S3x128x128_000_0280_0280 h_S_),
   StableHlo.nullary main_cst (constant S_ .f32 0x00000000#32),
   StableHlo.unary main_cst main_v11 (broadcastInDim S128x128 ![] bcast_S_S128x128 : (⟨S_, .f32⟩ : BufTy).Contents (Elt F) → (⟨S128x128, .f32⟩ : BufTy).Contents (Elt F)),
   StableHlo.unary main_v7 main_v12 ((extractStridedSlice S1x128x128 ![0, 0, 0] · slices_S3x128x128_S1x128x128_0_0_0) : (⟨S3x128x128, .f32⟩ : BufTy).Contents (Elt F) → (⟨S1x128x128, .f32⟩ : BufTy).Contents (Elt F)),
   StableHlo.reshape main_v12 main_v13 rfl shapeCasts_S1x128x128_S128x128,
   StableHlo.unary main_v7 main_v14 ((extractStridedSlice S1x128x128 ![1, 0, 0] · slices_S3x128x128_S1x128x128_1_0_0) : (⟨S3x128x128, .f32⟩ : BufTy).Contents (Elt F) → (⟨S1x128x128, .f32⟩ : BufTy).Contents (Elt F)),
   StableHlo.reshape main_v14 main_v15 rfl shapeCasts_S1x128x128_S128x128,
   StableHlo.unary main_v7 main_v16 ((extractStridedSlice S1x128x128 ![2, 0, 0] · slices_S3x128x128_S1x128x128_2_0_0) : (⟨S3x128x128, .f32⟩ : BufTy).Contents (Elt F) → (⟨S1x128x128, .f32⟩ : BufTy).Contents (Elt F)),
   StableHlo.reshape main_v16 main_v17 rfl shapeCasts_S1x128x128_S128x128,
   StableHlo.nary ![main_v13, main_v15, main_v17, main_v11] main_v18 (fun u => concatenate S128x512 1 [⟨S128x128, u 0⟩, ⟨S128x128, u 1⟩, ⟨S128x128, u 2⟩, ⟨S128x128, u 3⟩] concatenates_S128x128_S128x128_S128x128_S128x128_S128x512_d1),
   StableHlo.unary main_v10 main_v19 ((extractStridedSlice S1x128x128 ![0, 0, 0] · slices_S3x128x128_S1x128x128_0_0_0) : (⟨S3x128x128, .f32⟩ : BufTy).Contents (Elt F) → (⟨S1x128x128, .f32⟩ : BufTy).Contents (Elt F)),
   StableHlo.reshape main_v19 main_v20 rfl shapeCasts_S1x128x128_S128x128,
   StableHlo.unary main_v10 main_v21 ((extractStridedSlice S1x128x128 ![1, 0, 0] · slices_S3x128x128_S1x128x128_1_0_0) : (⟨S3x128x128, .f32⟩ : BufTy).Contents (Elt F) → (⟨S1x128x128, .f32⟩ : BufTy).Contents (Elt F)),
   StableHlo.reshape main_v21 main_v22 rfl shapeCasts_S1x128x128_S128x128,
   StableHlo.unary main_v10 main_v23 ((extractStridedSlice S1x128x128 ![2, 0, 0] · slices_S3x128x128_S1x128x128_2_0_0) : (⟨S3x128x128, .f32⟩ : BufTy).Contents (Elt F) → (⟨S1x128x128, .f32⟩ : BufTy).Contents (Elt F)),
   StableHlo.reshape main_v23 main_v24 rfl shapeCasts_S1x128x128_S128x128,
   StableHlo.nary ![main_v20, main_v22, main_v11, main_v24] main_v25 (fun u => concatenate S128x512 1 [⟨S128x128, u 0⟩, ⟨S128x128, u 1⟩, ⟨S128x128, u 2⟩, ⟨S128x128, u 3⟩] concatenates_S128x128_S128x128_S128x128_S128x128_S128x512_d1),
   StableHlo.binary main_v18 main_v25 main_v26 ((fun a b => concatenate S256x512 0 [⟨S128x512, a⟩, ⟨S128x512, b⟩] concatenates_S128x512_S128x512_S256x512_d0) : (⟨S128x512, .f32⟩ : BufTy).Contents (Elt F) → (⟨S128x512, .f32⟩ : BufTy).Contents (Elt F) → (⟨S256x512, .f32⟩ : BufTy).Contents (Elt F)),
   StableHlo.reshape main_arg4 main_v27 rfl shapeCasts_S300_S3x100,
   StableHlo.nullary main_c_1 (constantI S_ 32 0#32),
   StableHlo.TRef.unary (.of main_c_1 : StableHlo.TRef sig ⟨S_, .i32⟩) main_call2.v0 (sitofp .f32),
   StableHlo.TRef.binary (.of main_v27 : StableHlo.TRef sig ⟨S3x100, .f32⟩) main_call2.v0 main_call2.v1 (fun x v => pad S3x128 ![0, 0] ![0, 28] ![0, 0] x v pads_S3x100_S3x128_000_0280 h_S_),
   StableHlo.reshape main_arg5 main_v29 rfl shapeCasts_S300_S3x100,
   StableHlo.nullary main_c_2 (constantI S_ 32 0#32),
   StableHlo.TRef.unary (.of main_c_2 : StableHlo.TRef sig ⟨S_, .i32⟩) main_call3.v0 (sitofp .f32),
   StableHlo.TRef.binary (.of main_v29 : StableHlo.TRef sig ⟨S3x100, .f32⟩) main_call3.v0 main_call3.v1 (fun x v => pad S3x128 ![0, 0] ![0, 28] ![0, 0] x v pads_S3x100_S3x128_000_0280 h_S_),
   StableHlo.unary main_v28 main_v31 ((extractStridedSlice S1x128 ![0, 0] · slices_S3x128_S1x128_0_0) : (⟨S3x128, .f32⟩ : BufTy).Contents (Elt F) → (⟨S1x128, .f32⟩ : BufTy).Contents (Elt F)),
   StableHlo.reshape main_v31 main_v32 rfl shapeCasts_S1x128_S128,
   StableHlo.unary main_v30 main_v33 ((extractStridedSlice S1x128 ![0, 0] · slices_S3x128_S1x128_0_0) : (⟨S3x128, .f32⟩ : BufTy).Contents (Elt F) → (⟨S1x128, .f32⟩ : BufTy).Contents (Elt F)),
   StableHlo.reshape main_v33 main_v34 rfl shapeCasts_S1x128_S128,
   StableHlo.binary main_v32 main_v34 main_v35 (addf : (⟨S128, .f32⟩ : BufTy).Contents (Elt F) → (⟨S128, .f32⟩ : BufTy).Contents (Elt F) → (⟨S128, .f32⟩ : BufTy).Contents (Elt F)),
   StableHlo.unary main_v28 main_v36 ((extractStridedSlice S1x128 ![1, 0] · slices_S3x128_S1x128_1_0) : (⟨S3x128, .f32⟩ : BufTy).Contents (Elt F) → (⟨S1x128, .f32⟩ : BufTy).Contents (Elt F)),
   StableHlo.reshape main_v36 main_v37 rfl shapeCasts_S1x128_S128,
   StableHlo.unary main_v30 main_v38 ((extractStridedSlice S1x128 ![1, 0] · slices_S3x128_S1x128_1_0) : (⟨S3x128, .f32⟩ : BufTy).Contents (Elt F) → (⟨S1x128, .f32⟩ : BufTy).Contents (Elt F)),
   StableHlo.reshape main_v38 main_v39 rfl shapeCasts_S1x128_S128,
   StableHlo.binary main_v37 main_v39 main_v40 (addf : (⟨S128, .f32⟩ : BufTy).Contents (Elt F) → (⟨S128, .f32⟩ : BufTy).Contents (Elt F) → (⟨S128, .f32⟩ : BufTy).Contents (Elt F)),
   StableHlo.unary main_v28 main_v41 ((extractStridedSlice S1x128 ![2, 0] · slices_S3x128_S1x128_2_0) : (⟨S3x128, .f32⟩ : BufTy).Contents (Elt F) → (⟨S1x128, .f32⟩ : BufTy).Contents (Elt F)),
   StableHlo.reshape main_v41 main_v42 rfl shapeCasts_S1x128_S128,
   StableHlo.unary main_v30 main_v43 ((extractStridedSlice S1x128 ![2, 0] · slices_S3x128_S1x128_2_0) : (⟨S3x128, .f32⟩ : BufTy).Contents (Elt F) → (⟨S1x128, .f32⟩ : BufTy).Contents (Elt F)),
   StableHlo.reshape main_v43 main_v44 rfl shapeCasts_S1x128_S128,
   StableHlo.nary ![main_v35, main_v40, main_v42, main_v44] main_v45 (fun u => concatenate S512 0 [⟨S128, u 0⟩, ⟨S128, u 1⟩, ⟨S128, u 2⟩, ⟨S128, u 3⟩] concatenates_S128_S128_S128_S128_S512_d0),
   StableHlo.reshape main_v45 main_v46 rfl shapeCasts_S512_S1x512,
   StableHlo.unary main_arg6 main_v47 ((transpose S100x3 [1, 0] · transposes_S3x100_S100x3_1_0) : (⟨S3x100, .f32⟩ : BufTy).Contents (Elt F) → (⟨S100x3, .f32⟩ : BufTy).Contents (Elt F)),
   StableHlo.nullary main_c_3 (constantI S_ 32 0#32),
   StableHlo.TRef.unary (.of main_c_3 : StableHlo.TRef sig ⟨S_, .i32⟩) main_call4.v0 (sitofp .f32),
   StableHlo.TRef.binary (.of main_v47 : StableHlo.TRef sig ⟨S100x3, .f32⟩) main_call4.v0 main_call4.v1 (fun x v => pad S128x3 ![0, 0] ![28, 0] ![0, 0] x v pads_S100x3_S128x3_0280_000 h_S_),
   StableHlo.reshape main_arg7 main_v49 rfl shapeCasts_S3_S1x3]

set_option maxRecDepth 4096 in
theorem main_eq (d : Dev nD) :
    main (F := F) d =
      (Prog.lift (.customCall (SparseCore.inner (Pipeline.entry 0)) ()) >>= fun _ =>
        (StableHlo.seq (opsA (F := F)) >>= fun _ =>
          (sc.run d 0 >>= fun _ =>
            (StableHlo.seq (opsB (F := F)) >>= fun _ =>
              (Prog.lift (.customCall (SparseCore.inner (Pipeline.entry 1)) ()) >>= fun _ => pure ⟨⟩))))) := by
  simp only [main, fn_pad.body, fn_pad_0.body, fn_pad_1.body, opsA, opsB, StableHlo.seq, bind_assoc, pure_bind]

end Cert.Proof.KB

end
-- ==== Proof.KBLaunch.lean ====
/-
  The launch of the idealized kernel program: the launch element split among the handshakes' rounds, the two TensorCore
  pipelines' staging cells and the transfers' counters; what each device's TensorCore is dealt for the two regions.
-/
import proofs.«204407_g76768245448983_cont_9to1_m_970_19_alg».proof.Proof.KBSetup
import proofs.«204407_g76768245448983_cont_9to1_m_970_19_alg».proof.Proof.KBMain
import Idealize.ShloMosaic.Lib.Pipeline.Frame
import Idealize.ShloMosaic.Lib.Pipeline.RegionsLoop
import Idealize.ShloMosaic.Lib.Pipeline.FrameSuffix

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- What the launch deals device `d`'s TensorCore for the two regions: each pipeline's staging cells' launch ghost state
    and the duty tokens of its transfers. -/
def G (d : Dev nD) : sProp 𝕄 :=
  iprop((bigSep Finset.univ fun p : Fin 2 => Pipeline.cellsGhost cfgs (EP (F := F)) p d)
    ∗ bigSep Finset.univ fun p : Fin 2 => (Pipeline.toksInit cfgs (EP (F := F)) p d : sProp 𝕄))

/-- The launch element: the handshakes' rounds at their cells and tokens, the pipelines' at theirs, the counters' unit. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

omit [FloatOps F] in
theorem bigSep_emp' {I : Type} (s : Finset I) : (bigSep s fun _ => iprop(emp)) = (iprop(emp) : sProp 𝕄) := bigSep_emp_const s

theorem hu₀ (X : sProp 𝕄) : iprop((ownU (u₀ (F := F)) : sProp 𝕄) ∗ X)
    ⊢ |={Set.univ}=> iprop(BI.own (EH (initOf (K (F := F)).hsCells (K (F := F)).hsToks)) ∗ (bigSep Finset.univ fun d : Dev nD => G (F := F) d)
        ∗ bigSep Finset.univ fun _ : Thread nD τ => bigSep Finset.univ fun _ : Fin 1 => (iprop(emp) : sProp 𝕄)) := by
  have hfund : (BI.own (((Emb.inl : Emb UP (UP × Counters)).trans (embR : Emb (UP × Counters) 𝕄))
        (initOf (Pipeline.cells (nD := nD) (τ := τ) cfgs cellOf_inj) (Pipeline.launchToks (nD := nD) (τ := τ) cfgs cellOf_inj))) : sProp 𝕄)
      ⊢ iprop(|==> ((bigSep Finset.univ fun c : Dev nD => bigSep Finset.univ fun p : Fin 2 => Pipeline.cellsGhost cfgs (EP (F := F)) p c)
          ∗ (bigSep Finset.univ fun c : Dev nD => bigSep Finset.univ fun p : Fin 2 => (Pipeline.toksInit cfgs (EP (F := F)) p c : sProp 𝕄)))) :=
    Pipeline.fund_ghost (nD := nD) (τ := τ) cfgs (EP (F := F)) cellOf_inj
  unfold u₀
  iintro ⟨Hu, -⟩
  ihave H := (ownU_pair _ _) $$ Hu
  icases H with ⟨HH, HR⟩
  ihave H2 := (own_pair_emb (embR : Emb (UP × Counters) 𝕄) _ _) $$ HR
  icases H2 with ⟨HP, -⟩
  imod (hfund) $$ HP with ⟨Hg, Ht⟩
  imodintro
  isplitl [HH]; · iexact HH
  isplitl [Hg Ht]
  · unfold G
    rw [bigSep_sep']
    isplitl [Hg] <;> iassumption
  · rw [show (bigSep Finset.univ fun _ : Thread nD τ => bigSep Finset.univ fun _ : Fin 1 => (iprop(emp) : sProp 𝕄)) = iprop(emp) from by
      rw [bigSep_congr fun _ _ => bigSep_emp' _, bigSep_emp']]
    iempintro

/-! ## Entering a TensorCore region from inside the SparseCore program's @main -/

section Region

variable (pdats : (p : Fin 2) → (c : Dev nD) → Pipeline.Dat τ (Elt F) (HIx 1) ℕ UU ℕ (Pipeline.pin (pcfgs (F := F)) adm p) c)

set_option backward.isDefEq.respectTransparency.types false in
/-- One TensorCore region of @main, entered as the lifted call of the pipeline's entry label: from the boundary, the
    region's entry state, the level facts and the pipeline's staging cells' ghost state and tokens, to the boundary and the
    region's exit state. -/
theorem region_step (p : Fin 2) (R : Pipeline.RegionSeg (pcfgs (F := F)) adm pdats (none : HIx 1) defs₀ 𝒱₀ (K (F := F)).L (K (F := F)).lev p)
    (d : Dev nD) (Φ : PUnit → sProp 𝕄) :
    iprop((iprop(boundary (SparseCore.T d) ∗ R.post d) -∗ Φ ⟨⟩) ∗ boundary (SparseCore.T d) ∗ R.pre d ∗ levAts (K (F := F)).L (K (F := F)).lev
        ∗ Pipeline.cellsGhost cfgs (EP (F := F)) p d ∗ Pipeline.toksInit cfgs (EP (F := F)) p d)
      ⊢ wp frame (wpE ((K (F := F)).defs (D (F := F))) 𝒱 (SparseCore.T d) none) Set.univ
          (SparseCore.liftProg (Q := 1) (Prog.op (.customCall (Pipeline.entry p) ()) fun _ => Prog.ret PUnit.unit)) Φ := by
  refine BI.Entails.trans ?_ ((K (F := F)).wp_liftProg (D (F := F)) 𝒱 (SparseCore.T d) Set.univ none _ Φ)
  refine BI.Entails.trans ?_ (Pipeline.RegionSeg.wp (pcfgs (F := F)) adm pdats (none : HIx 1) cellOf_inj (EP (F := F)) defs₀ 𝒱₀
    (K (F := F)).L (K (F := F)).lev R d none (fun u hu => nomatch hu) (fun _ => Prog.ret PUnit.unit) Φ)
  show (_ : sProp 𝕄) ⊢ _
  iintro ⟨Hk, Hrest⟩
  isplitl [Hk]
  · iintro Hb; rw [wp_ret]; imodintro; iapply Hk; iexact Hb
  · iexact Hrest

/-- The printed statement of a region IS that lifted call. -/
theorem entry_lift (p : Fin 2) :
    (Prog.lift (.customCall (SparseCore.inner (Pipeline.entry p)) ()) : Prog (TpuEff nD τ sig (Elt F) (SparseCore.Sig (ΛP (F := F)) 1) .tc) PUnit)
      = SparseCore.liftProg (Q := 1) (Prog.op (.customCall (Pipeline.entry p) ()) fun _ => Prog.ret PUnit.unit) := rfl

/-- The recorded pairs a TensorCore may hold before call `n`: those at levels up to `8 n`. -/
def BB (n : ℕ) (d : Dev nD) : Set (SemLoc sig × HIx 1) := {x | (K (F := F)).lev (T d, x.1) x.2 ≤ 8 * n}

theorem Otc_none (d : Dev nD) (n : ℕ) (g : GSem nD τ sig) : (K (F := F)).Otc d n g none = 0 := by
  by_contra h
  have h1 := SparseCore.Cfg.lev_of_Otc_pos (K := K (F := F)) (d := d) (n := n) (g := g) (ι := none) (Nat.pos_of_ne_zero h)
  rw [SparseCore.Cfg.lev_none] at h1
  omega

set_option backward.isDefEq.respectTransparency.types false in
/-- A region between two SparseCore-call stages: the TensorCore's handshake state before call `n` rides through it,
    its `owes` lent to the region and taken back with every newly recorded pair at the kernel's own index. -/
theorem region_stage (p : Fin 2) (n : ℕ) (R : Pipeline.RegionSeg (pcfgs (F := F)) adm pdats (none : HIx 1) defs₀ 𝒱₀ (K (F := F)).L (K (F := F)).lev p)
    (Wa Wb : Dev nD → Valuation τ sig (Elt F)) (wps : Set (SemLoc sig × HIx 1)) (hwps : ∀ x ∈ wps, x.2 = none)
    (hpre : ∀ d, R.pre d = iprop(StableHlo.held (SparseCore.T d) (Pipeline.ucRefs τ sig) (Wa d) ∗ Pipeline.owesWithin d ((K (F := F)).Otc d n) (BB (F := F) n d ∪ wps)))
    (hpost : ∀ d, R.post d = iprop(StableHlo.held (SparseCore.T d) (Pipeline.ucRefs τ sig) (Wb d) ∗ Pipeline.owesWithin d ((K (F := F)).Otc d n) (BB (F := F) n d ∪ wps)))
    (d : Dev nD) (Φ : PUnit → sProp 𝕄) :
    iprop((iprop(boundary (SparseCore.T d) ∗ StableHlo.held (SparseCore.T d) (Pipeline.ucRefs τ sig) (Wb d) ∗ (K (F := F)).tcSt EH d n) -∗ Φ ⟨⟩)
        ∗ boundary (SparseCore.T d) ∗ StableHlo.held (SparseCore.T d) (Pipeline.ucRefs τ sig) (Wa d) ∗ (K (F := F)).tcSt EH d n
        ∗ levAts (K (F := F)).L (K (F := F)).lev ∗ Pipeline.cellsGhost cfgs (EP (F := F)) p d ∗ Pipeline.toksInit cfgs (EP (F := F)) p d)
      ⊢ wp frame (wpE ((K (F := F)).defs (D (F := F))) 𝒱 (SparseCore.T d) none) Set.univ
          (SparseCore.liftProg (Q := 1) (Prog.op (.customCall (Pipeline.entry p) ()) fun _ => Prog.ret PUnit.unit)) Φ := by
  unfold SparseCore.Cfg.tcSt
  iintro ⟨Hk, Hb, Hheld, ⟨⟨%W, %hW, HO⟩, Hst⟩, Hlev, Hg, Ht⟩
  iapply (region_step pdats p R d Φ)
  isplitl [Hk Hst]
  · rw [hpost]
    iintro ⟨Hb, Hheld, %W', %hW', HO⟩
    iapply Hk
    isplitl [Hb]; · iexact Hb
    isplitl [Hheld]; · iexact Hheld
    isplitl [HO]
    · iexists W'; isplitr
      · ipureintro
        intro x hx
        rcases hW' (Finset.mem_coe.mpr hx) with h | h
        · exact h
        · rw [hwps x h, SparseCore.Cfg.lev_none]; exact Nat.zero_le _
      · iexact HO
    · iexact Hst
  isplitl [Hb]; · iexact Hb
  isplitl [Hheld HO]
  · rw [hpre]
    isplitl [Hheld]; · iexact Hheld
    iexists W; isplitr
    · ipureintro; exact fun x hx => Or.inl (hW x (Finset.mem_coe.mp hx))
    · iexact HO
  isplitl [Hlev]; · iexact Hlev
  isplitl [Hg] <;> iassumption

end Region

/-! ## The host stretches -/

theorem opsA_sub : ∀ op ∈ (opsA (F := F)), op.bufs ⊆ Pipeline.ucRefs τ sig := fun op h =>
  Pipeline.sub_ucRefs op ((List.forall_iff_forall_mem.mp (show (opsA (F := F)).Forall fun op => op.bufs ⊆ StableHlo.tcRefs τ sig from by
    simp only [opsA, List.Forall, StableHlo.unary_bufs_sub, StableHlo.reshape_bufs_sub, and_self])) op h)
theorem opsA_fresh : ∀ op ∈ (opsA (F := F)), op.fresh = ∅ := fun op h =>
  (List.forall_iff_forall_mem.mp (show (opsA (F := F)).Forall fun op => op.fresh = ∅ from by
    simp only [opsA, List.Forall]; repeat' constructor)) op h
theorem opsB_sub : ∀ op ∈ (opsB (F := F)), op.bufs ⊆ Pipeline.ucRefs τ sig := fun op h =>
  Pipeline.sub_ucRefs op ((List.forall_iff_forall_mem.mp (show (opsB (F := F)).Forall fun op => op.bufs ⊆ StableHlo.tcRefs τ sig from by
    simp only [opsB, List.Forall, StableHlo.unary_bufs_sub, StableHlo.reshape_bufs_sub, StableHlo.nullary_bufs_sub, StableHlo.binary_bufs_sub,
      StableHlo.nary_bufs_sub, and_self])) op h)
theorem opsB_fresh : ∀ op ∈ (opsB (F := F)), op.fresh = ∅ := fun op h =>
  (List.forall_iff_forall_mem.mp (show (opsB (F := F)).Forall fun op => op.fresh = ∅ from by
    simp only [opsB, List.Forall]; repeat' constructor)) op h

/-! ## The SparseCore call -/

abbrev v0' : DevRef τ sig := Proc.devRef .tc (main_v0 : Ref sig .tc)
abbrev v2' : DevRef τ sig := Proc.devRef .tc (main_v2 : Ref sig .tc)
abbrev v3' : DevRef τ sig := Proc.devRef .tc (main_v3 : Ref sig .tc)
/-- The three arrays the SparseCore call takes: the flattened indices, the padded table, the gathered rows. -/
abbrev S3 : Finset (DevRef τ sig) := {v2', v0', v3'}
theorem S3_sub : S3 ⊆ Pipeline.ucRefs τ sig := by decide

omit [FloatOps F] in
theorem held_S3 (d : Dev nD) (W : Valuation τ sig (Elt F)) :
    (StableHlo.held (SparseCore.T d) S3 W : sProp 𝕄)
      = iprop(((SparseCore.T d).loc main_v2 ↦{fullShare} W v2') ∗ ((SparseCore.T d).loc main_v0 ↦{fullShare} W v0') ∗ (SparseCore.T d).loc main_v3 ↦{fullShare} W v3') := by
  unfold StableHlo.held S3
  rw [SparseCore.bigSep_insert' (by decide), SparseCore.bigSep_insert' (by decide), bigSep_singleton]

section Call

variable (P : (K (F := F)).Pay (nD := nD) (Val := Elt F) (Name := ℕ) (U := UU))

/-- The SparseCore call between the two host stretches: the three arrays lent to the SparseCores and taken back, the gathered
    rows at `g`; every other unscoped buffer rides along. -/
theorem sc_stage (κ : GSem nD τ sig → ℕ) (d : Dev nD) (W : Valuation τ sig (Elt F)) (g : Buf (Elt F) ((SparseCore.T d).loc main_v3))
    (hst : iprop(((SparseCore.T d).loc main_v2 ↦{fullShare} W v2') ∗ ((SparseCore.T d).loc main_v0 ↦{fullShare} W v0') ∗ ∃ f, (SparseCore.T d).loc main_v3 ↦{fullShare} f)
      ⊢ |={Set.univ}=> (bigSep Finset.univ fun c : Fin ((K (F := F)).nCore 0) => P.st 0 d c : sProp 𝕄))
    (hdn : (bigSep Finset.univ fun c : Fin ((K (F := F)).nCore 0) => P.dn 0 d c : sProp 𝕄)
      ⊢ |={Set.univ}=> iprop(((SparseCore.T d).loc main_v2 ↦{fullShare} W v2') ∗ ((SparseCore.T d).loc main_v0 ↦{fullShare} W v0') ∗ (SparseCore.T d).loc main_v3 ↦{fullShare} g))
    {β : Type} (k : Prog (TpuEff nD τ sig (Elt F) (SparseCore.Sig (ΛP (F := F)) 1) .tc) β) (Ψ : β → sProp 𝕄) :
    iprop((K (F := F)).ctx EH P κ ∗ (K (F := F)).tcSt EH d 0 ∗ StableHlo.held (SparseCore.T d) (Pipeline.ucRefs τ sig) W
        ∗ (iprop((K (F := F)).tcSt EH d 1 ∗ StableHlo.held (SparseCore.T d) (Pipeline.ucRefs τ sig) (Function.update W v3' g))
            -∗ wp frame (wpE ((K (F := F)).defs (D (F := F))) 𝒱 (SparseCore.T d) none) Set.univ k Ψ))
      ⊢ wp frame (wpE ((K (F := F)).defs (D (F := F))) 𝒱 (SparseCore.T d) none) Set.univ (sc.run d 0)
          (fun _ => wp frame (wpE ((K (F := F)).defs (D (F := F))) 𝒱 (SparseCore.T d) none) Set.univ k Ψ) := by
  rw [StableHlo.held_sub_split (SparseCore.T d) S3_sub W, held_S3]
  iintro ⟨#Hctx, Hst, ⟨⟨H2, H0, H3⟩, Hrest⟩, Hk⟩
  imod hst $$ [H2 H0 H3] with Hst0
  · isplitl [H2]; · iexact H2
    isplitl [H0]; · iexact H0
    iexists _; iexact H3
  iapply ((K (F := F)).wp_run (D (F := F)) 𝒱 (EH := EH) (P := P) κ d 0)
  isplitr; · iexact Hctx
  isplitl [Hst]; · iexact Hst
  isplitl [Hst0]; · iexact Hst0
  iintro ⟨Hst, Hdn⟩
  imod hdn $$ Hdn with ⟨H2, H0, H3⟩
  iapply Hk
  isplitl [Hst]; · iexact Hst
  rw [StableHlo.held_sub_split (SparseCore.T d) S3_sub (Function.update W v3' g), held_S3,
    Function.update_of_ne (show v2' ≠ v3' by decide), Function.update_of_ne (show v0' ≠ v3' by decide), Function.update_self,
    StableHlo.held_congr (SparseCore.T d) (V := Function.update W v3' g) (V' := W) (S := Pipeline.ucRefs τ sig \ S3)
      (fun b hb => Function.update_of_ne (fun e => (Finset.mem_sdiff.mp hb).2 (by rw [e]; decide)) _ _)]
  isplitl [H2 H0 H3]
  · isplitl [H2]; · iexact H2
    isplitl [H0] <;> iassumption
  · iexact Hrest

end Call

/-! ## @main on the TensorCore -/

section Main

variable (m : (ℓ : Loc nD τ sig) → Buf (Elt F) ℓ) (ρ : Dev nD → PrngReg)

/-- The launch contents. -/
def W0 (d : Dev nD) : Valuation τ sig (Elt F) := fun b => m (d, b)

theorem unscoped_held0 (d : Dev nD) :
    (unscopedBufs d (fun b => m ((SparseCore.T d).loc b)) : sProp 𝕄) = StableHlo.held (SparseCore.T d) (Pipeline.ucRefs τ sig) (W0 m d) :=
  Pipeline.unscopedBufs_held d (W0 m d)

omit [FloatOps F] in
theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

variable (P : (K (F := F)).Pay (nD := nD) (Val := Elt F) (Name := ℕ) (U := UU))
variable (pdats : (p : Fin 2) → (c : Dev nD) → Pipeline.Dat τ (Elt F) (HIx 1) ℕ UU ℕ (Pipeline.pin (pcfgs (F := F)) adm p) c)
variable (R0 : Pipeline.RegionSeg (pcfgs (F := F)) adm pdats (none : HIx 1) defs₀ 𝒱₀ (K (F := F)).L (K (F := F)).lev 0)
variable (R1 : Pipeline.RegionSeg (pcfgs (F := F)) adm pdats (none : HIx 1) defs₀ 𝒱₀ (K (F := F)).L (K (F := F)).lev 1)
-- the contents the first region leaves, the gathered rows, the contents the second region leaves
variable (W1 W5 : Dev nD → Valuation τ sig (Elt F)) (g : (d : Dev nD) → Buf (Elt F) ((SparseCore.T d).loc main_v3))

/-- After the first host stretch; after the SparseCore call; after the second host stretch. -/
def W2 (d : Dev nD) : Valuation τ sig (Elt F) := StableHlo.after (opsA (F := F)) (W1 d)
def W3 (d : Dev nD) : Valuation τ sig (Elt F) := Function.update (W2 W1 d) v3' (g d)
def W4 (d : Dev nD) : Valuation τ sig (Elt F) := StableHlo.after (opsB (F := F)) (W3 W1 g d)

/-- What @main leaves the claim: every unscoped buffer at the last region's exit contents. -/
def FIN (d : Dev nD) : sProp 𝕄 := StableHlo.held (SparseCore.T d) (Pipeline.ucRefs τ sig) (W5 d)

set_option backward.isDefEq.respectTransparency.types false in
/-- @main on device `d`'s TensorCore: the first region, the first host stretch, the SparseCore call, the second host
    stretch, the second region; the handshake state rides along and the unscoped buffers go from contents to contents. -/
theorem hmain
    (wps0 wps1 : Set (SemLoc sig × HIx 1)) (hwps0 : ∀ x ∈ wps0, x.2 = none) (hwps1 : ∀ x ∈ wps1, x.2 = none)
    (hpre0 : ∀ d, R0.pre d = iprop(StableHlo.held (SparseCore.T d) (Pipeline.ucRefs τ sig) (W0 m d) ∗ Pipeline.owesWithin d ((K (F := F)).Otc d 0) (BB (F := F) 0 d ∪ wps0)))
    (hpost0 : ∀ d, R0.post d = iprop(StableHlo.held (SparseCore.T d) (Pipeline.ucRefs τ sig) (W1 d) ∗ Pipeline.owesWithin d ((K (F := F)).Otc d 0) (BB (F := F) 0 d ∪ wps0)))
    (hpre1 : ∀ d, R1.pre d = iprop(StableHlo.held (SparseCore.T d) (Pipeline.ucRefs τ sig) (W4 W1 g d) ∗ Pipeline.owesWithin d ((K (F := F)).Otc d 1) (BB (F := F) 1 d ∪ wps1)))
    (hpost1 : ∀ d, R1.post d = iprop(StableHlo.held (SparseCore.T d) (Pipeline.ucRefs τ sig) (W5 d) ∗ Pipeline.owesWithin d ((K (F := F)).Otc d 1) (BB (F := F) 1 d ∪ wps1)))
    (hst : ∀ d, iprop(((SparseCore.T d).loc main_v2 ↦{fullShare} W2 W1 d v2') ∗ ((SparseCore.T d).loc main_v0 ↦{fullShare} W2 W1 d v0') ∗ ∃ f, (SparseCore.T d).loc main_v3 ↦{fullShare} f)
        ⊢ |={Set.univ}=> (bigSep Finset.univ fun c : Fin ((K (F := F)).nCore 0) => P.st 0 d c : sProp (MT nD τ sig (HIx 1) (Elt F) ℕ UU ℕ)))
    (hdn : ∀ d, (bigSep Finset.univ fun c : Fin ((K (F := F)).nCore 0) => P.dn 0 d c : sProp 𝕄)
        ⊢ |={Set.univ}=> iprop(((SparseCore.T d).loc main_v2 ↦{fullShare} W2 W1 d v2') ∗ ((SparseCore.T d).loc main_v0 ↦{fullShare} W2 W1 d v0') ∗ (SparseCore.T d).loc main_v3 ↦{fullShare} g d))
    (κ : GSem nD τ sig → ℕ) (d : Dev nD) :
    iprop((K (F := F)).ctx EH P κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN (F := F) W5 d) := by
  unfold SparseCore.Cfg.tcRes G
  rw [unscoped_held0, main_eq, bigSep_fin2, bigSep_fin2]
  iintro ⟨#Hctx, Hst, ⟨Hb, Hheld, -, -⟩, ⟨Hg0, Hg1⟩, ⟨Ht0, Ht1⟩⟩
  ihave #Hlev := (SparseCore.Cfg.ctx_levAts κ) $$ Hctx
  -- the first region
  rw [wp_bind, entry_lift]
  iapply (region_stage pdats 0 0 R0 (W0 m) W1 wps0 hwps0 hpre0 hpost0 d)
  isplitr [Hb Hheld Hst Hg0 Ht0]
  swap
  · isplitl [Hb]; · iexact Hb
    isplitl [Hheld]; · iexact Hheld
    isplitl [Hst]; · iexact Hst
    isplitr; · iexact Hlev
    isplitl [Hg0] <;> iassumption
  iintro ⟨Hb, Hheld, Hst⟩
  -- the first host stretch
  iapply (StableHlo.wp_seq (defs := (K (F := F)).defs (D (F := F))) 𝒱 none Set.univ d (Pipeline.ucRefs τ sig) _ (opsA (F := F)) opsA_sub opsA_fresh (W1 d)) $$ [Hb Hheld]
  · isplitl [Hb] <;> iassumption
  iintro ⟨Hb, Hheld⟩
  -- the SparseCore call
  rw [wp_bind]
  iapply (sc_stage P κ d (W2 W1 d) (g d) (hst d) (hdn d))
  isplitr; · iexact Hctx
  isplitl [Hst]; · iexact Hst
  isplitl [Hheld]; · iexact Hheld
  iintro ⟨Hst, Hheld⟩
  -- the second host stretch
  iapply (StableHlo.wp_seq (defs := (K (F := F)).defs (D (F := F))) 𝒱 none Set.univ d (Pipeline.ucRefs τ sig) _ (opsB (F := F)) opsB_sub opsB_fresh (W3 W1 g d)) $$ [Hb Hheld]
  · isplitl [Hb]; · iexact Hb
    iexact Hheld
  iintro ⟨Hb, Hheld⟩
  -- the second region
  rw [wp_bind, entry_lift]
  iapply (region_stage pdats 1 1 R1 (W4 W1 g) W5 wps1 hwps1 hpre1 hpost1 d)
  isplitr [Hb Hheld Hst Hg1 Ht1]
  swap
  · isplitl [Hb]; · iexact Hb
    isplitl [Hheld]; · iexact Hheld
    isplitl [Hst]; · iexact Hst
    isplitr; · iexact Hlev
    isplitl [Hg1] <;> iassumption
  iintro ⟨Hb, Hheld, Hst⟩
  rw [wp_pure]
  imodintro
  isplitl [Hst]; · iexact Hst
  unfold FIN
  iexact Hheld

/-- What the final memory is read for: every unscoped buffer of device `d` at the last contents. -/
def fq (d : Dev nD) (s' : Phys nD τ sig (Elt F)) : Prop := ∀ b ∈ Pipeline.ucRefs τ sig, s'.mem.mem (d, b) = W5 d b

omit [FloatOps F] in
theorem hfin (d : Dev nD) (s' : Phys nD τ sig (Elt F)) : iprop(FIN (F := F) W5 d ∗ SI s') ⊢ (⌜fq (F := F) W5 d s'⌝ : sProp 𝕄) := by
  unfold FIN StableHlo.held
  iintro H
  ihave H' := (pointsTo_read_all (Pipeline.ucRefs τ sig) (fun b => ((d, b) : Loc nD τ sig)) (fun b => W5 d b) s') $$ H
  icases H' with ⟨%h, -⟩
  ipureintro; exact h

/-- The program's post: on every device every unscoped buffer holds the last contents. -/
def QC : PUnit × MemSt nD τ sig (Elt F) → Prop := fun r => ∀ (c : Dev nD), ∀ b ∈ Pipeline.ucRefs τ sig, r.2.mem (c, b) = W5 c b

/-- The whole program's run from the launch theorem: the tile obligation and the split of the call's operands are the
    SparseCore kernel's; @main is `hmain`; the final memory is read through the last contents. -/
theorem run_main [∀ e, Nonempty (Elt F e)] [P.IsStorable]
    (wps0 wps1 : Set (SemLoc sig × HIx 1)) (hwps0 : ∀ x ∈ wps0, x.2 = none) (hwps1 : ∀ x ∈ wps1, x.2 = none)
    (hpre0 : ∀ d, R0.pre d = iprop(StableHlo.held (SparseCore.T d) (Pipeline.ucRefs τ sig) (W0 m d) ∗ Pipeline.owesWithin d ((K (F := F)).Otc d 0) (BB (F := F) 0 d ∪ wps0)))
    (hpost0 : ∀ d, R0.post d = iprop(StableHlo.held (SparseCore.T d) (Pipeline.ucRefs τ sig) (W1 d) ∗ Pipeline.owesWithin d ((K (F := F)).Otc d 0) (BB (F := F) 0 d ∪ wps0)))
    (hpre1 : ∀ d, R1.pre d = iprop(StableHlo.held (SparseCore.T d) (Pipeline.ucRefs τ sig) (W4 W1 g d) ∗ Pipeline.owesWithin d ((K (F := F)).Otc d 1) (BB (F := F) 1 d ∪ wps1)))
    (hpost1 : ∀ d, R1.post d = iprop(StableHlo.held (SparseCore.T d) (Pipeline.ucRefs τ sig) (W5 d) ∗ Pipeline.owesWithin d ((K (F := F)).Otc d 1) (BB (F := F) 1 d ∪ wps1)))
    (hst : ∀ d, iprop(((SparseCore.T d).loc main_v2 ↦{fullShare} W2 W1 d v2') ∗ ((SparseCore.T d).loc main_v0 ↦{fullShare} W2 W1 d v0') ∗ ∃ f, (SparseCore.T d).loc main_v3 ↦{fullShare} f)
        ⊢ |={Set.univ}=> (bigSep Finset.univ fun c : Fin ((K (F := F)).nCore 0) => P.st 0 d c : sProp (MT nD τ sig (HIx 1) (Elt F) ℕ UU ℕ)))
    (hdn : ∀ d, (bigSep Finset.univ fun c : Fin ((K (F := F)).nCore 0) => P.dn 0 d c : sProp 𝕄)
        ⊢ |={Set.univ}=> iprop(((SparseCore.T d).loc main_v2 ↦{fullShare} W2 W1 d v2') ∗ ((SparseCore.T d).loc main_v0 ↦{fullShare} W2 W1 d v0') ∗ (SparseCore.T d).loc main_v3 ↦{fullShare} g d))
    (hx : ∀ q thr, P.x q thr = (iprop(emp) : sProp 𝕄)) (hheld : P.held = ∅)
    (htile : (K (F := F)).TileObl (D (F := F)) 𝒱 P v₀ 0) (hvec : (K (F := F)).VecSplit P 0) :
    θ_run (Cert.Kernel.defs (F := F)) (Cert.Kernel.threads (F := F)) ⟨m, fun _ => 0, ρ⟩ (QC (F := F) W5) :=
  SparseCore.Cfg.θ_run_sc (K := K (F := F)) (D := D (F := F)) (𝒱 := 𝒱) (EH := EH) (P := P) facts v₀
    (fun q hq => match q with | 0 => nomatch hq)
    (fun q _ => match q with | 0 => htile)
    (fun q _ => match q with | 0 => hvec)
    m ρ main (G (F := F)) (FIN (F := F) W5) (u₀ (F := F))
    (by
      have h := hu₀ (F := F) (iprop(P.oxCred ∗ (K (F := F)).freeSems0))
      rw [show (fun thr : Thread nD τ => bigSep Finset.univ fun q : Fin 1 => P.x q thr)
          = fun _ : Thread nD τ => bigSep Finset.univ fun _ : Fin 1 => (iprop(emp) : sProp 𝕄) from
        funext fun thr => bigSep_congr fun q _ => hx q thr]
      exact h)
    (hmain m ρ P pdats R0 R1 W1 W5 g wps0 wps1 hwps0 hwps1 hpre0 hpost0 hpre1 hpost1 hst hdn)
    (fq (F := F) W5) (hfin (F := F) W5) (QC (F := F) W5) (fun _ h => h) hheld

end Main

end Cert.Proof.KB

end
-- ==== Proof.KBScTile.lean ====
/-
  The SparseCore gather kernel's task obligation in the idealized kernel program: what the one vector-subcore call
  hands each SparseCore and each tile and takes back (the record of payloads), how a SparseCore's operands split among
  its sixteen tiles, and one tile's body at a symbolic place. A tile holds a read share of the whole index array and of
  the whole padded table and, outright, the four blocks of 400 rows of the result it writes; it copies its 1600 indices
  into its scratch, and four times gathers 400 rows of the table into its row scratch and copies them out to one block.
  One transfer is outstanding on each semaphore at any time.
-/
import proofs.«204407_g76768245448983_cont_9to1_m_970_19_alg».proof.Proof.KBSetup
import Idealize.ShloMosaic.Lib.SparseCore.Stream

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays -/

/-- The padded table, the indices and the gathered rows, as locations of device d. -/
abbrev tLoc (d : Dev nD) : Loc nD τ sig := (SparseCore.T d).loc main_v0
abbrev iLoc (d : Dev nD) : Loc nD τ sig := (SparseCore.T d).loc main_v2
abbrev oLoc (d : Dev nD) : Loc nD τ sig := (SparseCore.T d).loc main_v3

/-- The kernel's memrefs, as the body table passes them. -/
abbrev iV : Memref sig .scVector .hbm S51200 .i32 := Memref.whole main_v2_scv
abbrev tV : Memref sig .scVector .hbm S100000x128 .f32 := Memref.whole main_v0_scv
abbrev oV : Memref sig .scVector .hbm S51200x128 .f32 := Memref.whole main_v3_scv
abbrev sI : Memref sig .scVector .vmem S1600 .i32 := Memref.whole cc1_scratch0
abbrev sR : Memref sig .scVector .vmem S400x128 .f32 := Memref.whole cc1_scratch1

/-! ## The blocks of the result

128 blocks of 400 rows: block 8 s + 4 c + j is written by tile s of SparseCore c in its trip j. -/

/-- Which SparseCore, which tile and which trip write a row of the result. -/
def kc (x : S51200x128.Idx) : ℕ := ((x 0).val / 1600) % 2
def ks (x : S51200x128.Idx) : ℕ := (x 0).val / 3200
def kj (x : S51200x128.Idx) : ℕ := ((x 0).val / 400) % 4

def coreSet (cn : ℕ) : Finset S51200x128.Idx := Finset.univ.filter fun x => kc x = cn
def tileSet (cn sn : ℕ) : Finset S51200x128.Idx := (coreSet cn).filter fun x => ks x = sn
def chunkSet (cn sn jn : ℕ) : Finset S51200x128.Idx := (tileSet cn sn).filter fun x => kj x = jn

theorem mem_chunkSet {cn sn jn : ℕ} {x : S51200x128.Idx} :
    x ∈ chunkSet cn sn jn ↔ ((x 0).val / 1600) % 2 = cn ∧ (x 0).val / 3200 = sn ∧ ((x 0).val / 400) % 4 = jn := by
  unfold chunkSet tileSet coreSet kc ks kj
  rw [Finset.mem_filter, Finset.mem_filter, Finset.mem_filter]
  simp only [Finset.mem_univ, true_and, and_assoc]

/-! ## A tile's place and its slices, in the program's spelling -/

abbrev cV (L : grid1.Coords) : Fin τ.nSC := (L 0).castLE hcore1
abbrev jV (L : grid1.Coords) : Fin τ.nSub := (L 1).castLE hsub1

/-- The tile's 1600 indices. -/
abbrev iSl (L : grid1.Coords) : Memref sig .scVector .hbm S1600 .i32 :=
  iV.slice (Rect.unit (s := S51200) (k1_off1 L) S1600.size (k1_off1_inb L)) (fun _ => rfl)
/-- The block of the result the tile writes in trip r. -/
abbrev oCh (L : grid1.Coords) (r : Fin 4) : Memref sig .scVector .hbm S400x128 .f32 :=
  oV.slice (Rect.unit (s := S51200x128) (k1_off2 L (BitVec.ofNat 32 (400 * r.val))) S400x128.size (k1_off2_inb L r)) (fun _ => rfl)
abbrev oCh0 (L : grid1.Coords) : Memref sig .scVector .hbm S400x128 .f32 :=
  oV.slice (Rect.unit (s := S51200x128) (k1_off2 L 0#32) S400x128.size (k1_off2_inb L 0)) (fun _ => rfl)
abbrev oCh1 (L : grid1.Coords) : Memref sig .scVector .hbm S400x128 .f32 :=
  oV.slice (Rect.unit (s := S51200x128) (k1_off2 L 400#32) S400x128.size (k1_off2_inb L 1)) (fun _ => rfl)
abbrev oCh2 (L : grid1.Coords) : Memref sig .scVector .hbm S400x128 .f32 :=
  oV.slice (Rect.unit (s := S51200x128) (k1_off2 L 800#32) S400x128.size (k1_off2_inb L 2)) (fun _ => rfl)
abbrev oCh3 (L : grid1.Coords) : Memref sig .scVector .hbm S400x128 .f32 :=
  oV.slice (Rect.unit (s := S51200x128) (k1_off2 L 1200#32) S400x128.size (k1_off2_inb L 3)) (fun _ => rfl)

theorem set_oCh (L : grid1.Coords) (r : Fin 4) : (oCh L r).view.set = chunkSet (L 0).val (L 1).val r.val := by
  show ((View.whole (main_v3_scv : Ref sig .scVector)).slice (Rect.unit (s := S51200x128) (k1_off2 L (BitVec.ofNat 32 (400 * r.val))) S400x128.size (k1_off2_inb L r))).set = _
  rw [View.set_slice]
  refine Finset.map_refl.trans ?_
  ext x
  rw [Rect.mem_set_unit, mem_chunkSet, k1_off2_eq]
  show (∀ a : Fin 2, _) ↔ _
  rw [Fin.forall_fin_two]
  have hc : (L 0).val < 2 := (L 0).isLt
  have hs : (L 1).val < 16 := (L 1).isLt
  have hr : r.val < 4 := r.isLt
  have hx1 : (x 1).val < 128 := (x 1).isLt
  have e0 : S400x128.size 0 = 400 := rfl
  have e1 : S400x128.size 1 = 128 := rfl
  simp only [Matrix.cons_val_zero, Matrix.cons_val_one, Matrix.head_cons, e0, e1]
  omega

/-! ## A tile's scoped storage: its two scratch buffers and its six DMA semaphores -/

section Tile

variable (d : Dev nD) (L : grid1.Coords)

/-- The kernel's DMA semaphores: the gather's and the five plain copies'. -/
def mySems : Finset (SemLoc sig) :=
  {.dma cc1_scratch2.sem, .dma cc1_scoped0.sem, .dma cc1_scoped1.sem, .dma cc1_scoped2.sem, .dma cc1_scoped3.sem, .dma cc1_scoped4.sem}

def cellsOf (thr : Thread nD τ) : Finset (GSem nD τ sig) := mySems.map ⟨fun sm => (thr, sm), fun _ _ e => (Prod.mk.inj e).2⟩

theorem cellsOf_sub : cellsOf (V d (cV L) (jV L)) ⊆ ownCells (V d (cV L) (jV L)) := by
  intro g hg
  obtain ⟨sm, hsm, rfl⟩ := Finset.mem_map.mp hg
  have hall : ∀ sm ∈ (mySems : Finset (SemLoc sig)), sm.isScoped .scVector = true := by decide
  exact mem_ownCells.mpr ⟨rfl, hall sm hsm⟩

theorem ownSems0_V :
    (ownSems0 (V d (cV L) (jV L)) : sProp 𝕄)
      = iprop((semVal (V d (cV L) (jV L), SemLoc.dma cc1_scratch2.sem) 0 ∗ semVal (V d (cV L) (jV L), SemLoc.dma cc1_scoped0.sem) 0
          ∗ semVal (V d (cV L) (jV L), SemLoc.dma cc1_scoped1.sem) 0 ∗ semVal (V d (cV L) (jV L), SemLoc.dma cc1_scoped2.sem) 0
          ∗ semVal (V d (cV L) (jV L), SemLoc.dma cc1_scoped3.sem) 0 ∗ semVal (V d (cV L) (jV L), SemLoc.dma cc1_scoped4.sem) 0)
          ∗ bigSep (ownCells (V d (cV L) (jV L)) \ cellsOf (V d (cV L) (jV L))) fun g => semVal g 0) := by
  unfold SparseCore.Cfg.ownSems0
  rw [SparseCore.bigSep_sdiff_split' (cellsOf_sub d L), cellsOf, BI.bigSep_map]
  unfold mySems
  rw [SparseCore.bigSep_insert' (by decide), SparseCore.bigSep_insert' (by decide), SparseCore.bigSep_insert' (by decide),
    SparseCore.bigSep_insert' (by decide), SparseCore.bigSep_insert' (by decide), bigSep_singleton]
  rfl

/-- The two scratch buffers are among the tile's own: they, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

end Tile

/-! ## What the handshakes carry -/

/-- The read share of a SparseCore, and of one of its tiles. -/
def shareC (cn : ℕ) : PosShare TreeShare := if h : cn < 2 then pieceOf fullShare 2 (by decide) ⟨cn, h⟩ else fullShare
def shareT (cn sn : ℕ) : PosShare TreeShare := if h : sn < 16 then pieceOf (shareC cn) 16 (by decide) ⟨sn, h⟩ else fullShare

/-- The four blocks a tile writes, at whatever they hold. -/
def outGo (d : Dev nD) (cn sn : ℕ) : sProp 𝕄 :=
  bigSep Finset.univ fun j : Fin 4 => iprop(∃ f, oLoc d ↦[chunkSet cn sn j.val]{fullShare} f)

theorem outGo_eq (d : Dev nD) (cn sn : ℕ) :
    (outGo d cn sn : sProp 𝕄) = iprop((∃ f, oLoc d ↦[chunkSet cn sn 0]{fullShare} f) ∗ (∃ f, oLoc d ↦[chunkSet cn sn 1]{fullShare} f)
      ∗ (∃ f, oLoc d ↦[chunkSet cn sn 2]{fullShare} f) ∗ ∃ f, oLoc d ↦[chunkSet cn sn 3]{fullShare} f) := by
  unfold outGo
  rw [show (Finset.univ : Finset (Fin 4)) = {0, 1, 2, 3} by decide, SparseCore.bigSep_insert' (by decide), SparseCore.bigSep_insert' (by decide),
    SparseCore.bigSep_insert' (by decide), bigSep_singleton]
  rfl

variable (tp : (d : Dev nD) → Buf (Elt F) (tLoc d)) (ix : (d : Dev nD) → Buf (Elt F) (iLoc d))

/-- What a tile is handed and hands back: a read share of the indices and of the padded table, its four blocks of the
    result. What a SparseCore is handed and hands back: the same for its sixteen tiles. -/
def forTile (d : Dev nD) (cn sn : ℕ) : sProp 𝕄 :=
  iprop((iLoc d ↦{shareT cn sn} ix d) ∗ (tLoc d ↦{shareT cn sn} tp d) ∗ outGo d cn sn)
def forCore (d : Dev nD) (cn : ℕ) : sProp 𝕄 :=
  iprop((iLoc d ↦{shareC cn} ix d) ∗ (tLoc d ↦{shareC cn} tp d) ∗ bigSep Finset.univ fun i : Fin 16 => outGo d cn i.val)

instance forTile_storable (d : Dev nD) (cn sn : ℕ) : BI.Storable (upEmb : UEmb _ 𝕄) (forTile tp ix d cn sn) := by
  unfold forTile outGo; infer_instance
instance forCore_storable (d : Dev nD) (cn : ℕ) : BI.Storable (upEmb : UEmb _ 𝕄) (forCore tp ix d cn) := by
  unfold forCore outGo; infer_instance

def P : (K (F := F)).Pay (nD := nD) (Val := Elt F) (Name := ℕ) (U := UU) where
  st := fun _ d c => forCore tp ix d c.val
  dn := fun _ d c => forCore tp ix d c.val
  go := fun _ d c i => forTile tp ix d c.val i.val
  td := fun _ d c i => forTile tp ix d c.val i.val
  x := fun _ _ => iprop(emp)

instance P_storable : (P (F := F) tp ix).IsStorable where
  st _ d c := by unfold P; infer_instance
  dn _ d c := by unfold P; infer_instance
  go _ _ _ _ := by unfold P; infer_instance
  td _ _ _ _ := by unfold P; infer_instance

/-! ## One tile's body -/

section Body

variable (d : Dev nD) (L : grid1.Coords)

theorem pts_iV (q : PosShare TreeShare) (f : Buf (Elt F) (iLoc d)) :
    ((iV).view.loc (V d (cV L) (jV L)) ↦{q} f : sProp 𝕄) = iLoc d ↦{q} f := by
  simp only [Memref.view_whole, View.set_whole]
theorem pts_tV (q : PosShare TreeShare) (f : Buf (Elt F) (tLoc d)) :
    ((tV).view.loc (V d (cV L) (jV L)) ↦{q} f : sProp 𝕄) = tLoc d ↦{q} f := by
  simp only [Memref.view_whole, View.set_whole]
theorem pts_oCh (r : Fin 4) (f : Buf (Elt F) (oLoc d)) :
    ((oCh L r).view.loc (V d (cV L) (jV L)) ↦[(oCh L r).view.set]{fullShare} f : sProp 𝕄)
      = oLoc d ↦[chunkSet (L 0).val (L 1).val r.val]{fullShare} f := by
  rw [set_oCh]
theorem pts_oCh0 (f : Buf (Elt F) (oLoc d)) :
    ((oCh0 L).view.loc (V d (cV L) (jV L)) ↦[(oCh0 L).view.set]{fullShare} f : sProp 𝕄)
      = oLoc d ↦[chunkSet (L 0).val (L 1).val 0]{fullShare} f := pts_oCh d L 0 f
theorem pts_oCh1 (f : Buf (Elt F) (oLoc d)) :
    ((oCh1 L).view.loc (V d (cV L) (jV L)) ↦[(oCh1 L).view.set]{fullShare} f : sProp 𝕄)
      = oLoc d ↦[chunkSet (L 0).val (L 1).val 1]{fullShare} f := pts_oCh d L 1 f
theorem pts_oCh2 (f : Buf (Elt F) (oLoc d)) :
    ((oCh2 L).view.loc (V d (cV L) (jV L)) ↦[(oCh2 L).view.set]{fullShare} f : sProp 𝕄)
      = oLoc d ↦[chunkSet (L 0).val (L 1).val 2]{fullShare} f := pts_oCh d L 2 f
theorem pts_oCh3 (f : Buf (Elt F) (oLoc d)) :
    ((oCh3 L).view.loc (V d (cV L) (jV L)) ↦[(oCh3 L).view.set]{fullShare} f : sProp 𝕄)
      = oLoc d ↦[chunkSet (L 0).val (L 1).val 3]{fullShare} f := pts_oCh d L 3 f
theorem pts_sI (f : Buf (Elt F) ((V d (cV L) (jV L)).loc cc1_scratch0)) :
    ((sI).view.loc (V d (cV L) (jV L)) ↦{fullShare} f : sProp 𝕄) = (V d (cV L) (jV L)).loc cc1_scratch0 ↦{fullShare} f := rfl
theorem pts_sR (f : Buf (Elt F) ((V d (cV L) (jV L)).loc cc1_scratch1)) :
    ((sR).view.loc (V d (cV L) (jV L)) ↦{fullShare} f : sProp 𝕄) = (V d (cV L) (jV L)).loc cc1_scratch1 ↦{fullShare} f := rfl

/-- Every index a tile's index scratch holds after its fetch names a row of the table: what each gather's stream asks
    of the 400 entries it reads, whatever the scratch held before. -/
theorem idx_inb (hix : ∀ j, (ix d j).toNat < 100000) (g : Buf (Elt F) ((sI).view.loc (V d (cV L) (jV L)))) (off : Fin 1 → ℕ)
    (inb : ∀ a, off a + S400.size a ≤ S1600.size a) (x : S400.Idx) :
    ((sI.slice (Rect.unit (s := S1600) off S400.size inb) (fun _ => rfl)).view.read (Elt F)
      ((sI).view.write (Elt F) g (ReadAs.same.apply ((iSl L).view.read (Elt F) (ix d))) Finset.univ) x).toNat < 100000 := by
  have e1 : (sI.slice (Rect.unit (s := S1600) off S400.size inb) (fun _ => rfl)).view.read (Elt F)
      ((sI).view.write (Elt F) g (ReadAs.same.apply ((iSl L).view.read (Elt F) (ix d))) Finset.univ) x
      = (sI).view.read (Elt F) ((sI).view.write (Elt F) g (ReadAs.same.apply ((iSl L).view.read (Elt F) (ix d))) Finset.univ)
          ((Rect.unit (s := S1600) off S400.size inb).emb x) := rfl
  rw [e1, View.read_write_of_mem _ _ (Finset.mem_univ _)]
  show ((iSl L).view.read (Elt F) (ix d) ((Rect.unit (s := S1600) off S400.size inb).emb x)).toNat < 100000
  rw [View.read_apply, cast_eq]
  exact hix _

/-- A wait recorded at the kernel's own index keeps the record within what the obligation allows. -/
theorem waits_ins {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

variable [FloatOps F]

set_option maxHeartbeats 1600000 in
theorem tile_body (hF : (K (F := F)).Facts) (hix : ∀ j, (ix d j).toNat < 100000) (q : PosShare TreeShare)
    (O : CellTallies nD τ sig (HIx 1)) (W : Waits sig (HIx 1)) (hO : ∀ g, O g none = 0) :
    iprop(levAts (K (F := F)).L (K (F := F)).lev ∗ emp
        ∗ ((iLoc d ↦{q} ix d) ∗ (tLoc d ↦{q} tp d) ∗ outGo d (L 0).val (L 1).val)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L iV (Memref.isWhole_whole _) tV (Memref.isWhole_whole _) oV (Memref.isWhole_whole _)
            sI (Memref.isWhole_whole _) sR (Memref.isWhole_whole _) cc1_scratch2 cc1_scoped0 cc1_scoped1 cc1_scoped2 cc1_scoped3 cc1_scoped4)
          fun _ => iprop(((iLoc d ↦{q} ix d) ∗ (tLoc d ↦{q} tp d) ∗ outGo d (L 0).val (L 1).val)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V, outGo_eq]
  iintro ⟨#Hlv, -, ⟨Hi, Ht, ⟨%f0, Ho0⟩, ⟨%f1, Ho1⟩, ⟨%f2, Ho2⟩, ⟨%f3, Ho3⟩⟩, ⟨⟨%fs0, Hs0⟩, ⟨%fs1, Hs1⟩, Hbufs⟩, ⟨⟨Hg, Hc0, Hc1, Hc2, Hc3, Hc4⟩, Hsems⟩, HO⟩
  ihave Hmw := ((K (F := F)).mayWaits_none (thr := V d (cV L) (jV L)) hO) $$ Hlv
  ihave Hi' := (Entails.of_eq (pts_iV (F := F) d L q _).symm) $$ Hi
  ihave Ht' := (Entails.of_eq (pts_tV (F := F) d L q _).symm) $$ Ht
  ihave Ho0' := (Entails.of_eq (pts_oCh0 (F := F) d L _).symm) $$ Ho0
  ihave Ho1' := (Entails.of_eq (pts_oCh1 (F := F) d L _).symm) $$ Ho1
  ihave Ho2' := (Entails.of_eq (pts_oCh2 (F := F) d L _).symm) $$ Ho2
  ihave Ho3' := (Entails.of_eq (pts_oCh3 (F := F) d L _).symm) $$ Ho3
  ihave Hs0' := (Entails.of_eq (pts_sI (F := F) d L _).symm) $$ Hs0
  ihave Hs1' := (Entails.of_eq (pts_sR (F := F) d L _).symm) $$ Hs1
  have hin := idx_inb (F := F) ix d L hix
  sl_unfold [cc1__sc_gather_body]
  sl_exec
  sl_step
  isplitl [Hi' Ht' Ho0' Ho1' Ho2' Ho3']
  · isplitl [Hi']; · iapply (Entails.of_eq (pts_iV (F := F) d L q _)); iexact Hi'
    isplitl [Ht']; · iapply (Entails.of_eq (pts_tV (F := F) d L q _)); iexact Ht'
    isplitl [Ho0']; · iexists _; iapply (Entails.of_eq (pts_oCh0 (F := F) d L _)); iexact Ho0'
    isplitl [Ho1']; · iexists _; iapply (Entails.of_eq (pts_oCh1 (F := F) d L _)); iexact Ho1'
    isplitl [Ho2']; · iexists _; iapply (Entails.of_eq (pts_oCh2 (F := F) d L _)); iexact Ho2'
    iexists _; iapply (Entails.of_eq (pts_oCh3 (F := F) d L _)); iexact Ho3'
  isplitl [Hs0' Hs1' Hbufs]
  · isplitl [Hs0']; · iexists _; iexact Hs0'
    isplitl [Hs1']; · iexists _; iexact Hs1'
    iexact Hbufs
  isplitl [Hg Hc0 Hc1 Hc2 Hc3 Hc4 Hsems]
  · isplitr [Hsems]
    · isplitl [Hg]; · iexact Hg
      isplitl [Hc0]; · iexact Hc0
      isplitl [Hc1]; · iexact Hc1
      isplitl [Hc2]; · iexact Hc2
      isplitl [Hc3]; · iexact Hc3
      iexact Hc4
    · iexact Hsems
  iexists _; isplitr
  swap
  · iexact HO
  · ipureintro
    exact waits_ins (waits_ins (waits_ins (waits_ins (waits_ins (waits_ins (waits_ins (waits_ins (waits_ins fun p hp => .inl hp))))))))

end Body

/-! ## Splitting an array's elements by a key, and a share into pieces -/

section Fibers

variable {ℓ : Loc nD τ sig}

theorem fibers_disjoint (I : Finset (Idx ℓ)) (n : ℕ) (ψ : Idx ℓ → ℕ) :
    ∀ t ∈ (Finset.univ : Finset (Fin n)), ∀ t' ∈ (Finset.univ : Finset (Fin n)), t ≠ t' →
      Disjoint (I.filter fun x => ψ x = t.val) (I.filter fun x => ψ x = t'.val) := fun t _ t' _ h =>
  Finset.disjoint_filter.mpr fun x _ h1 h2 => h (Fin.ext (h1.symm.trans h2))

theorem fibers_cover (I : Finset (Idx ℓ)) (n : ℕ) (ψ : Idx ℓ → ℕ) (hψ : ∀ x ∈ I, ψ x < n) :
    (Finset.univ : Finset (Fin n)).biUnion (fun t => I.filter fun x => ψ x = t.val) = I := by
  ext x
  simp only [Finset.mem_biUnion, Finset.mem_univ, true_and, Finset.mem_filter]
  exact ⟨fun ⟨_, hx, _⟩ => hx, fun hx => ⟨⟨ψ x, hψ x hx⟩, hx, rfl⟩⟩

/-- Elements held at one contents are held key by key. -/
theorem pointsTo_fibers (I : Finset (Idx ℓ)) (n : ℕ) (ψ : Idx ℓ → ℕ) (hψ : ∀ x ∈ I, ψ x < n) (q : PosShare TreeShare) (f : Buf (Elt F) ℓ) :
    (ℓ ↦[I]{q} f : sProp 𝕄) = bigSep Finset.univ fun t : Fin n => ℓ ↦[I.filter fun x => ψ x = t.val]{q} f :=
  (congrArg (fun J => (ℓ ↦[J]{q} f : sProp 𝕄)) (fibers_cover I n ψ hψ).symm).trans
    (pointsTo_biUnion Finset.univ (fun t : Fin n => I.filter fun x => ψ x = t.val) (fibers_disjoint I n ψ))

/-- Held key by key at whatever contents, they are held at some contents. -/
theorem pointsTo_fibers_join [Nonempty (Buf (Elt F) ℓ)] (I : Finset (Idx ℓ)) (n : ℕ) (ψ : Idx ℓ → ℕ) (hψ : ∀ x ∈ I, ψ x < n) (q : PosShare TreeShare) :
    (bigSep Finset.univ fun t : Fin n => iprop(∃ f : Buf (Elt F) ℓ, ℓ ↦[I.filter fun x => ψ x = t.val]{q} f))
      ⊢ (iprop(∃ f : Buf (Elt F) ℓ, ℓ ↦[I]{q} f) : sProp 𝕄) := by
  refine (bigSep_exists_pi Finset.univ (fun (t : Fin n) (f : Buf (Elt F) ℓ) => (ℓ ↦[I.filter fun x => ψ x = t.val]{q} f : sProp 𝕄))).trans ?_
  iintro ⟨%fs, H⟩
  ihave H' := (pointsTo_biUnion_join Finset.univ (fun t : Fin n => I.filter fun x => ψ x = t.val) fs (Classical.choice inferInstance)
    (fibers_disjoint I n ψ)) $$ H
  icases H' with ⟨%g, -, Hg⟩
  rw [fibers_cover I n ψ hψ]
  iexists g; iexact Hg

/-- A SparseCore's read share is its sixteen tiles', and the whole is the two SparseCores'. -/
theorem share_tiles (cn : ℕ) (f : Buf (Elt F) ℓ) :
    (ℓ ↦{shareC cn} f : sProp 𝕄) = bigSep Finset.univ fun i : Fin 16 => ℓ ↦{shareT cn i.val} f := by
  rw [pointsTo_piecesOf Finset.univ f (o := 16) (by decide) (shareC cn)]
  exact bigSep_congr fun i _ => by rw [shareT, dif_pos i.isLt]
theorem share_cores (f : Buf (Elt F) ℓ) :
    (ℓ ↦{fullShare} f : sProp 𝕄) = bigSep Finset.univ fun c : Fin 2 => ℓ ↦{shareC c.val} f := by
  rw [pointsTo_piecesOf Finset.univ f (o := 2) (by decide) fullShare]
  exact bigSep_congr fun c _ => by rw [shareC, dif_pos c.isLt]

end Fibers

/-! ## The launch theorem's obligations -/

section Obligations

variable [FloatOps F]

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ⟨⟩
      = SparseCore.onTile hcore1 hsub1 (fun c s => cc1__sc_gather_body (coordsV c s)
          iV (Memref.isWhole_whole _) tV (Memref.isWhole_whole _) oV (Memref.isWhole_whole _)
          sI (Memref.isWhole_whole _) sR (Memref.isWhole_whole _) cc1_scratch2 cc1_scoped0 cc1_scoped1 cc1_scoped2 cc1_scoped3 cc1_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task obligation of the gather kernel: every tile runs the body at its place. -/
theorem tileObl (hix : ∀ d j, (ix d j).toNat < 100000) : (K (F := F)).TileObl (D (F := F)) 𝒱 (P tp ix) v₀ 0 := by
  intro d c i O W hO _ _
  simp only [show (P tp ix).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body tp ix d (coordsV ⟨_, hc.1⟩ ⟨_, hc.2⟩) facts (hix d) _ O W hO).trans (wp_mono frame _ _ fun _ => obl_post)

/-! ## How a SparseCore's operands split among its tiles, and the call's among the SparseCores -/

omit [FloatOps F] in
theorem forCore_eq (d : Dev nD) (cn : ℕ) :
    (forCore tp ix d cn : sProp 𝕄) = bigSep Finset.univ fun i : Fin 16 => forTile tp ix d cn i.val := by
  unfold forCore forTile
  rw [bigSep_sep', bigSep_sep', ← share_tiles, ← share_tiles]

omit [FloatOps F] in
theorem vecSplit : (K (F := F)).VecSplit' (P tp ix) 0 := by
  intro d c
  show forCore tp ix d c.val ⊢ |={Set.univ}=> iprop((bigSep (Finset.univ : Finset (Fin 16)) fun i => forTile tp ix d c.val i.val)
      ∗ ((bigSep (Finset.univ : Finset (Fin 16)) fun i => forTile tp ix d c.val i.val) -∗ forCore tp ix d c.val))
  rw [← forCore_eq]
  iintro H; imodintro
  isplitl [H]; · iexact H
  iintro H; iexact H

omit [FloatOps F] in
theorem ks_lt (x : S51200x128.Idx) : ks x < 16 := by
  have h : (x 0).val < 51200 := (x 0).isLt
  unfold ks; omega

omit [FloatOps F] in
theorem ex_intro_pt {ℓ : Loc nD τ sig} (I : Finset (Idx ℓ)) (f : Buf (Elt F) ℓ) :
    (ℓ ↦[I]{fullShare} f : sProp 𝕄) ⊢ iprop(∃ f, ℓ ↦[I]{fullShare} f) := by
  iintro H; iexists f; iexact H

omit [FloatOps F] in
/-- The result held whole is its 128 blocks, each at that contents. -/
theorem out_split (d : Dev nD) (f : Buf (Elt F) (oLoc d)) :
    (oLoc d ↦{fullShare} f : sProp 𝕄) ⊢ bigSep Finset.univ fun c : Fin 2 => bigSep Finset.univ fun i : Fin 16 => outGo d c.val i.val := by
  rw [pointsTo_fibers (ℓ := oLoc d) Finset.univ 2 kc (fun x _ => Nat.mod_lt _ (by decide)) fullShare f]
  refine bigSep_mono fun c _ => ?_
  show (oLoc d ↦[coreSet c.val]{fullShare} f : sProp 𝕄) ⊢ _
  rw [pointsTo_fibers (ℓ := oLoc d) (coreSet c.val) 16 ks (fun x _ => ks_lt x) fullShare f]
  refine bigSep_mono fun i _ => ?_
  show (oLoc d ↦[tileSet c.val i.val]{fullShare} f : sProp 𝕄) ⊢ _
  rw [pointsTo_fibers (ℓ := oLoc d) (tileSet c.val i.val) 4 kj (fun x _ => Nat.mod_lt _ (by decide)) fullShare f]
  unfold outGo
  exact bigSep_mono fun j _ => ex_intro_pt (ℓ := oLoc d) (chunkSet c.val i.val j.val) f

omit [FloatOps F] in
/-- The 128 blocks, each at whatever it holds, are the result at some contents. -/
theorem out_join [∀ e, Nonempty (Elt F e)] (d : Dev nD) :
    (bigSep Finset.univ fun c : Fin 2 => bigSep Finset.univ fun i : Fin 16 => outGo d c.val i.val) ⊢ (iprop(∃ f, oLoc d ↦{fullShare} f) : sProp 𝕄) := by
  haveI : Nonempty (Buf (Elt F) (oLoc d)) := ⟨fun _ => Classical.choice inferInstance⟩
  have h1 : ∀ c i : ℕ, (outGo d c i : sProp 𝕄) ⊢ iprop(∃ f, oLoc d ↦[tileSet c i]{fullShare} f) := fun c i =>
    pointsTo_fibers_join (ℓ := oLoc d) (tileSet c i) 4 kj (fun x _ => Nat.mod_lt _ (by decide)) fullShare
  have h2 : ∀ c : ℕ, (bigSep Finset.univ fun i : Fin 16 => iprop(∃ f, oLoc d ↦[tileSet c i.val]{fullShare} f))
      ⊢ (iprop(∃ f, oLoc d ↦[coreSet c]{fullShare} f) : sProp 𝕄) := fun c =>
    pointsTo_fibers_join (ℓ := oLoc d) (coreSet c) 16 ks (fun x _ => ks_lt x) fullShare
  have h3 : (bigSep Finset.univ fun c : Fin 2 => iprop(∃ f, oLoc d ↦[coreSet c.val]{fullShare} f))
      ⊢ (iprop(∃ f, oLoc d ↦{fullShare} f) : sProp 𝕄) :=
    pointsTo_fibers_join (ℓ := oLoc d) Finset.univ 2 kc (fun x _ => Nat.mod_lt _ (by decide)) fullShare
  exact (bigSep_mono fun c _ => (bigSep_mono fun i _ => h1 c.val i.val).trans (h2 c.val)).trans h3

omit [FloatOps F] in
theorem st_cores (d : Dev nD) :
    (bigSep Finset.univ fun c : Fin ((K (F := F)).nCore 0) => (P tp ix).st 0 d c)
      = iprop((iLoc d ↦{fullShare} ix d) ∗ (tLoc d ↦{fullShare} tp d) ∗ bigSep Finset.univ fun c : Fin 2 => bigSep Finset.univ fun i : Fin 16 => outGo d c.val i.val) := by
  show (bigSep (Finset.univ : Finset (Fin 2)) fun c => forCore tp ix d c.val) = _
  unfold forCore
  rw [bigSep_sep', bigSep_sep', ← share_cores, ← share_cores]

omit [FloatOps F] in
/-- What the call takes for the two SparseCores: the indices, the padded table and the result, whole. -/
theorem st0_join (d : Dev nD) :
    iprop((iLoc d ↦{fullShare} ix d) ∗ (tLoc d ↦{fullShare} tp d) ∗ ∃ f, oLoc d ↦{fullShare} f)
      ⊢ |={Set.univ}=> bigSep Finset.univ fun c : Fin ((K (F := F)).nCore 0) => (P tp ix).st 0 d c := by
  rw [st_cores]
  iintro ⟨Hi, Ht, %f, Ho⟩
  imodintro
  isplitl [Hi]; · iexact Hi
  isplitl [Ht]; · iexact Ht
  iapply (out_split d f); iexact Ho

omit [FloatOps F] in
/-- What the call hands back. -/
theorem dn0_split [∀ e, Nonempty (Elt F e)] (d : Dev nD) :
    (bigSep Finset.univ fun c : Fin ((K (F := F)).nCore 0) => (P tp ix).dn 0 d c)
      ⊢ |={Set.univ}=> iprop((iLoc d ↦{fullShare} ix d) ∗ (tLoc d ↦{fullShare} tp d) ∗ ∃ f, oLoc d ↦{fullShare} f) := by
  rw [show (bigSep Finset.univ fun c : Fin ((K (F := F)).nCore 0) => (P tp ix).dn 0 d c)
    = bigSep Finset.univ fun c : Fin ((K (F := F)).nCore 0) => (P tp ix).st 0 d c from rfl, st_cores]
  iintro ⟨Hi, Ht, Ho⟩
  imodintro
  isplitl [Hi]; · iexact Hi
  isplitl [Ht]; · iexact Ht
  iapply (out_join d); iexact Ho

end Obligations

end Cert.Proof.KB

end
-- ==== Proof.KBScTile2.lean ====
/-
  The gather kernel's task obligation with the VALUE of the result: after the call, row r of the result is the row of the
  padded table that index r names.
-/
import proofs.«204407_g76768245448983_cont_9to1_m_970_19_alg».proof.Proof.KBScTile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The gathered rows -/

theorem size_S51200 : ∀ a : Fin S51200.rank, 51200 = S51200.size a := by decide
theorem size0_S100000x128 : ∀ a : Fin S100000x128.rank, a.val = 0 → 100000 = S100000x128.size a := by decide
theorem size1_S100000x128 : ∀ a : Fin S100000x128.rank, ¬ a.val = 0 → S51200x128.size 1 = S100000x128.size a := by decide

/-- Position r of the index array. -/
def idx1 (r : Fin 51200) : S51200.Idx := fun a => r.cast (size_S51200 a)

variable (tp : (d : Dev nD) → Buf (Elt F) (tLoc d)) (ix : (d : Dev nD) → Buf (Elt F) (iLoc d))

/-- The element of the padded table that element x of the result is a copy of: in the row that index x 0 names (read
    modulo the table's height, which is no restriction where every index names a row), at x's own column. -/
def srcIdx (d : Dev nD) (x : S51200x128.Idx) : S100000x128.Idx := fun a =>
  if h : a.val = 0 then (⟨(ix d (idx1 (x 0))).toNat % 100000, Nat.mod_lt _ (by decide)⟩ : Fin 100000).cast (size0_S100000x128 a h)
  else (x 1).cast (size1_S100000x128 a h)

/-- The result of the gather: row r is the row of the padded table that index r names. -/
def gath (d : Dev nD) : Buf (Elt F) (oLoc d) := fun x => tp d (srcIdx ix d x)

theorem srcIdx_val0 (d : Dev nD) (x : S51200x128.Idx) (a : Fin S100000x128.rank) (h : a.val = 0) :
    (srcIdx ix d x a).val = (ix d (idx1 (x 0))).toNat % 100000 := by
  unfold srcIdx; rw [dif_pos h]; rfl
theorem srcIdx_val1 (d : Dev nD) (x : S51200x128.Idx) (a : Fin S100000x128.rank) (h : ¬ a.val = 0) :
    (srcIdx ix d x a).val = (x 1).val := by
  unfold srcIdx; rw [dif_neg h]; rfl

/-! ## What a block of the result holds after its trip -/

section Value

variable (d : Dev nD) (L : grid1.Coords)

/-- Reading under a write of the whole shape gives the payload, whatever was written before. -/
theorem read_writes_whole {κ : Kind} {sp : Space} {s : Shape} {e : EltTy} (v : View sig κ sp s e) (f : v.ty.Contents (Elt F))
    (w : s.Idx → Elt F e) (Lr : List (View.Piece (Elt F) s e)) (y : s.Idx) :
    v.read (Elt F) (v.writes (Elt F) f (⟨Rect.whole s, w⟩ :: Lr)) y = w y := by
  have h := View.read_writes_cons_emb v f (Rect.whole s) w Lr y
  rwa [Rect.emb_whole_apply] at h

/-- Entry u of a trip's offset list, after the fetch: the index at the tile's base plus the trip's offset plus u. -/
theorem list_read (g : Buf (Elt F) ((sI).view.loc (V d (cV L) (jV L)))) (off : Fin 1 → ℕ)
    (inb : ∀ a, off a + S400.size a ≤ S1600.size a) (u : S400.Idx) :
    (sI.slice (Rect.unit (s := S1600) off S400.size inb) (fun _ => rfl)).view.read (Elt F)
      ((sI).view.write (Elt F) g (ReadAs.same.apply ((iSl L).view.read (Elt F) (ix d))) Finset.univ) u
      = ix d ((iSl L).view.emb ((Rect.unit (s := S1600) off S400.size inb).emb u)) := by
  have e1 : (sI.slice (Rect.unit (s := S1600) off S400.size inb) (fun _ => rfl)).view.read (Elt F)
      ((sI).view.write (Elt F) g (ReadAs.same.apply ((iSl L).view.read (Elt F) (ix d))) Finset.univ) u
      = (sI).view.read (Elt F) ((sI).view.write (Elt F) g (ReadAs.same.apply ((iSl L).view.read (Elt F) (ix d))) Finset.univ)
          ((Rect.unit (s := S1600) off S400.size inb).emb u) := rfl
  rw [e1, View.read_write_of_mem _ _ (Finset.mem_univ _)]
  show (iSl L).view.read (Elt F) (ix d) ((Rect.unit (s := S1600) off S400.size inb).emb u) = _
  rw [View.read_apply, cast_eq]

/-- The position a rank-one index names is its coordinate. -/
theorem rm1 (k : Fin S400.numel) : ((S400.rowMajor.symm k) 0).val = k.val := by
  have h := Shape.rowMajor_val_one (d := ![400]) (S400.rowMajor.symm k)
  rw [← h]
  exact congrArg Fin.val (S400.rowMajor.apply_symm_apply k)

end Value

section Value2

variable (d : Dev nD) (L : grid1.Coords)

theorem hnS : S400.numel = S400x128.size (gathers_S100000x128_S400x128).axis' := by decide

theorem chunk_val (hix : ∀ j, (ix d j).toNat < 100000) (r : Fin 4) (off : Fin 1 → ℕ) (inb : ∀ a, off a + S400.size a ≤ S1600.size a)
    (hoff : off 0 = 400 * r.val)
    (f : Buf (Elt F) (oLoc d)) (fs0 : Buf (Elt F) ((sI).view.loc (V d (cV L) (jV L)))) (fs1 : Buf (Elt F) ((sR).view.loc (V d (cV L) (jV L))))
    (Lr : List (View.Piece (Elt F) S400x128 .f32))
    (hin : ∀ x, ((sI.slice (Rect.unit (s := S1600) off S400.size inb) (fun _ => rfl)).view.read (Elt F)
      ((sI).view.write (Elt F) fs0 (ReadAs.same.apply ((iSl L).view.read (Elt F) (ix d))) Finset.univ) x).toNat
        < S100000x128.size (gathers_S100000x128_S400x128).axis) :
    ∀ i ∈ (oCh L r).view.set,
      (oCh L r).view.writes (Elt F) f [⟨Rect.whole S400x128, ReadAs.same.apply ((sR).view.read (Elt F) ((sR).view.writes (Elt F) fs1
        (⟨Rect.whole S400x128, SparseCore.gatherPayload gathers_S100000x128_S400x128
            ((tV.slice (Rect.unit (s := S100000x128) ![0, 0] S100000x128.size inb_S100000x128_S100000x128_0_0) (fun _ => rfl)).view.read (Elt F) (tp d))
            (SparseCore.rows ((sI.slice (Rect.unit (s := S1600) off S400.size inb) (fun _ => rfl)).view.read (Elt F)
              ((sI).view.write (Elt F) fs0 (ReadAs.same.apply ((iSl L).view.read (Elt F) (ix d))) Finset.univ)) hnS hin)⟩ :: Lr)))⟩] i
        = gath tp ix d i := by
  intro i hi
  obtain ⟨y, -, rfl⟩ := Finset.mem_map.mp hi
  have e1 : ∀ (g : Buf (Elt F) (oLoc d)), g ((oCh L r).view.emb y) = (oCh L r).view.read (Elt F) g y := fun g => by
    rw [View.read_apply, cast_eq]
  refine (e1 _).trans ?_
  rw [read_writes_whole]
  show (sR).view.read (Elt F) ((sR).view.writes (Elt F) fs1 (_ :: Lr)) y = _
  rw [read_writes_whole]
  unfold SparseCore.gatherPayload gath
  rw [View.read_apply, cast_eq]
  congr 1
  funext a
  apply Fin.ext
  show ((Rect.unit (s := S100000x128) ![0, 0] S100000x128.size inb_S100000x128_S100000x128_0_0).emb _ a : ℕ) = _
  rw [Rect.emb_apply]
  simp only [Rect.off_unit, Rect.stride_unit, Nat.one_mul]
  by_cases ha : a.val = 0
  · have haa : a = (gathers_S100000x128_S400x128).axis := Fin.ext ha
    rw [srcIdx_val0 _ _ _ _ ha, haa, Shape.Gathers.idx_axis]
    show _ + BitVec.toNat ((sI.slice (Rect.unit (s := S1600) off S400.size inb) (fun _ => rfl)).view.read (Elt F)
      ((sI).view.write (Elt F) fs0 (ReadAs.same.apply ((iSl L).view.read (Elt F) (ix d))) Finset.univ)
      (S400.rowMajor.symm ((y (gathers_S100000x128_S400x128).axis').cast hnS.symm))) = _
    rw [list_read]
    have hA : (iSl L).view.emb ((Rect.unit (s := S1600) off S400.size inb).emb (S400.rowMajor.symm ((y (gathers_S100000x128_S400x128).axis').cast hnS.symm)))
        = idx1 (((oCh L r).view.emb y) 0) := by
      refine funext fun (b : Fin 1) => ?_
      have hb : b = 0 := Subsingleton.elim _ _
      subst hb
      apply Fin.ext
      show ((Rect.unit (s := S51200) (k1_off1 L) S1600.size (k1_off1_inb L)).emb ((Rect.unit (s := S1600) off S400.size inb).emb _) 0 : ℕ)
        = ((Rect.unit (s := S51200x128) (k1_off2 L (BitVec.ofNat 32 (400 * r.val))) S400x128.size (k1_off2_inb L r)).emb y 0 : ℕ)
      rw [Rect.emb_apply, Rect.emb_apply, Rect.emb_apply]
      simp only [Rect.off_unit, Rect.stride_unit, Nat.one_mul]
      have h20 : k1_off2 L (BitVec.ofNat 32 (400 * r.val)) 0 = 3200 * (L 1).val + 1600 * (L 0).val + 400 * r.val := by
        rw [k1_off2_eq]; rfl
      rw [k1_off1_eq, h20, hoff, rm1]
      show (3200 * (L 1).val + 1600 * (L 0).val) + (400 * r.val + (y 0).val) = (3200 * (L 1).val + 1600 * (L 0).val + 400 * r.val) + (y 0).val
      omega
    rw [hA, Nat.mod_eq_of_lt (hix _)]
    exact Nat.zero_add _
  · rw [srcIdx_val1 _ _ _ _ ha, Shape.Gathers.idx_of_ne _ _ _ a ha]
    have ha1 : a.val = 1 := by have := a.isLt; change a.val < 2 at this; omega
    obtain ⟨av, hav⟩ := a
    simp only at ha1
    subst ha1
    show 0 + (y 1).val = ((Rect.unit (s := S51200x128) (k1_off2 L (BitVec.ofNat 32 (400 * r.val))) S400x128.size (k1_off2_inb L r)).emb y 1 : ℕ)
    have h21 : k1_off2 L (BitVec.ofNat 32 (400 * r.val)) 1 = 0 := by rw [k1_off2_eq]; rfl
    rw [Rect.emb_apply, Rect.off_unit, Rect.stride_unit, h21]
    omega

end Value2

/-! ## The payloads with the value -/

/-- The four blocks a tile has written: each at the gathered rows. -/
def outDone (d : Dev nD) (cn sn : ℕ) : sProp 𝕄 :=
  bigSep Finset.univ fun j : Fin 4 => oLoc d ↦[chunkSet cn sn j.val]{fullShare} gath tp ix d

theorem outDone_eq (d : Dev nD) (cn sn : ℕ) :
    (outDone tp ix d cn sn : sProp 𝕄) = iprop((oLoc d ↦[chunkSet cn sn 0]{fullShare} gath tp ix d) ∗ (oLoc d ↦[chunkSet cn sn 1]{fullShare} gath tp ix d)
      ∗ (oLoc d ↦[chunkSet cn sn 2]{fullShare} gath tp ix d) ∗ oLoc d ↦[chunkSet cn sn 3]{fullShare} gath tp ix d) := by
  unfold outDone
  rw [show (Finset.univ : Finset (Fin 4)) = {0, 1, 2, 3} by decide, SparseCore.bigSep_insert' (by decide), SparseCore.bigSep_insert' (by decide),
    SparseCore.bigSep_insert' (by decide), bigSep_singleton]
  rfl

def forTileD (d : Dev nD) (cn sn : ℕ) : sProp 𝕄 :=
  iprop((iLoc d ↦{shareT cn sn} ix d) ∗ (tLoc d ↦{shareT cn sn} tp d) ∗ outDone tp ix d cn sn)
def forCoreD (d : Dev nD) (cn : ℕ) : sProp 𝕄 :=
  iprop((iLoc d ↦{shareC cn} ix d) ∗ (tLoc d ↦{shareC cn} tp d) ∗ bigSep Finset.univ fun i : Fin 16 => outDone tp ix d cn i.val)

instance forTileD_storable (d : Dev nD) (cn sn : ℕ) : BI.Storable (upEmb : UEmb _ 𝕄) (forTileD tp ix d cn sn) := by
  unfold forTileD outDone; infer_instance
instance forCoreD_storable (d : Dev nD) (cn : ℕ) : BI.Storable (upEmb : UEmb _ 𝕄) (forCoreD tp ix d cn) := by
  unfold forCoreD outDone; infer_instance

/-- The call's payloads, the result named on the way back. -/
def P2 : (K (F := F)).Pay (nD := nD) (Val := Elt F) (Name := ℕ) (U := UU) where
  st := fun _ d c => forCore tp ix d c.val
  dn := fun _ d c => forCoreD tp ix d c.val
  go := fun _ d c i => forTile tp ix d c.val i.val
  td := fun _ d c i => forTileD tp ix d c.val i.val
  x := fun _ _ => iprop(emp)

instance P2_storable : (P2 (F := F) tp ix).IsStorable where
  st _ d c := by unfold P2; infer_instance
  dn _ d c := by unfold P2; infer_instance
  go _ _ _ _ := by unfold P2; infer_instance
  td _ _ _ _ := by unfold P2; infer_instance

section Body2

variable (d : Dev nD) (L : grid1.Coords)
variable [FloatOps F]

set_option maxHeartbeats 1600000 in
theorem tile_body2 (hF : (K (F := F)).Facts) (hix : ∀ j, (ix d j).toNat < 100000) (q : PosShare TreeShare)
    (O : CellTallies nD τ sig (HIx 1)) (W : Waits sig (HIx 1)) (hO : ∀ g, O g none = 0) :
    iprop(levAts (K (F := F)).L (K (F := F)).lev ∗ emp
        ∗ ((iLoc d ↦{q} ix d) ∗ (tLoc d ↦{q} tp d) ∗ outGo d (L 0).val (L 1).val)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L iV (Memref.isWhole_whole _) tV (Memref.isWhole_whole _) oV (Memref.isWhole_whole _)
            sI (Memref.isWhole_whole _) sR (Memref.isWhole_whole _) cc1_scratch2 cc1_scoped0 cc1_scoped1 cc1_scoped2 cc1_scoped3 cc1_scoped4)
          fun _ => iprop(((iLoc d ↦{q} ix d) ∗ (tLoc d ↦{q} tp d) ∗ outDone tp ix d (L 0).val (L 1).val)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V, outGo_eq, outDone_eq]
  iintro ⟨#Hlv, -, ⟨Hi, Ht, ⟨%f0, Ho0⟩, ⟨%f1, Ho1⟩, ⟨%f2, Ho2⟩, ⟨%f3, Ho3⟩⟩, ⟨⟨%fs0, Hs0⟩, ⟨%fs1, Hs1⟩, Hbufs⟩, ⟨⟨Hg, Hc0, Hc1, Hc2, Hc3, Hc4⟩, Hsems⟩, HO⟩
  ihave Hmw := ((K (F := F)).mayWaits_none (thr := V d (cV L) (jV L)) hO) $$ Hlv
  ihave Hi' := (Entails.of_eq (pts_iV (F := F) d L q _).symm) $$ Hi
  ihave Ht' := (Entails.of_eq (pts_tV (F := F) d L q _).symm) $$ Ht
  ihave Ho0' := (Entails.of_eq (pts_oCh0 (F := F) d L _).symm) $$ Ho0
  ihave Ho1' := (Entails.of_eq (pts_oCh1 (F := F) d L _).symm) $$ Ho1
  ihave Ho2' := (Entails.of_eq (pts_oCh2 (F := F) d L _).symm) $$ Ho2
  ihave Ho3' := (Entails.of_eq (pts_oCh3 (F := F) d L _).symm) $$ Ho3
  ihave Hs0' := (Entails.of_eq (pts_sI (F := F) d L _).symm) $$ Hs0
  ihave Hs1' := (Entails.of_eq (pts_sR (F := F) d L _).symm) $$ Hs1
  have hin := idx_inb (F := F) ix d L hix
  sl_unfold [cc1__sc_gather_body]
  sl_exec
  sl_step
  sl_unfold_run_names
  ihave Ho0'' := (Entails.of_eq (pointsTo_congr (chunk_val tp ix d L hix 0 ![0] inb_S1600_S400_0 rfl _ _ _ _ _))) $$ Ho0'
  ihave Ho1'' := (Entails.of_eq (pointsTo_congr (chunk_val tp ix d L hix 1 ![400] inb_S1600_S400_400 rfl _ _ _ _ _))) $$ Ho1'
  ihave Ho2'' := (Entails.of_eq (pointsTo_congr (chunk_val tp ix d L hix 2 ![800] inb_S1600_S400_800 rfl _ _ _ _ _))) $$ Ho2'
  ihave Ho3'' := (Entails.of_eq (pointsTo_congr (chunk_val tp ix d L hix 3 ![1200] inb_S1600_S400_1200 rfl _ _ _ _ _))) $$ Ho3'
  isplitl [Hi' Ht' Ho0'' Ho1'' Ho2'' Ho3'']
  · isplitl [Hi']; · iapply (Entails.of_eq (pts_iV (F := F) d L q _)); iexact Hi'
    isplitl [Ht']; · iapply (Entails.of_eq (pts_tV (F := F) d L q _)); iexact Ht'
    isplitl [Ho0'']; · iapply (Entails.of_eq (pts_oCh0 (F := F) d L _)); iexact Ho0''
    isplitl [Ho1'']; · iapply (Entails.of_eq (pts_oCh1 (F := F) d L _)); iexact Ho1''
    isplitl [Ho2'']; · iapply (Entails.of_eq (pts_oCh2 (F := F) d L _)); iexact Ho2''
    iapply (Entails.of_eq (pts_oCh3 (F := F) d L _)); iexact Ho3''
  isplitl [Hs0' Hs1' Hbufs]
  · isplitl [Hs0']; · iexists _; iexact Hs0'
    isplitl [Hs1']; · iexists _; iexact Hs1'
    iexact Hbufs
  isplitl [Hg Hc0 Hc1 Hc2 Hc3 Hc4 Hsems]
  · isplitr [Hsems]
    · isplitl [Hg]; · iexact Hg
      isplitl [Hc0]; · iexact Hc0
      isplitl [Hc1]; · iexact Hc1
      isplitl [Hc2]; · iexact Hc2
      isplitl [Hc3]; · iexact Hc3
      iexact Hc4
    · iexact Hsems
  iexists _; isplitr
  swap
  · iexact HO
  · ipureintro
    exact waits_ins (waits_ins (waits_ins (waits_ins (waits_ins (waits_ins (waits_ins (waits_ins (waits_ins fun p hp => .inl hp))))))))

end Body2

/-! ## The launch theorem's obligations, with the value -/

section Obligations2

variable [FloatOps F]

/-- The task obligation of the gather kernel, each tile's four blocks left at the gathered rows. -/
theorem tileObl2 (hix : ∀ d j, (ix d j).toNat < 100000) : (K (F := F)).TileObl (D (F := F)) 𝒱 (P2 tp ix) v₀ 0 := by
  intro d c i O W hO _ _
  simp only [show (P2 tp ix).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body2 tp ix d (coordsV ⟨_, hc.1⟩ ⟨_, hc.2⟩) facts (hix d) _ O W hO).trans (wp_mono frame _ _ fun _ => obl_post)

omit [FloatOps F] in
theorem forCoreD_eq (d : Dev nD) (cn : ℕ) :
    (forCoreD tp ix d cn : sProp 𝕄) = bigSep Finset.univ fun i : Fin 16 => forTileD tp ix d cn i.val := by
  unfold forCoreD forTileD
  rw [bigSep_sep', bigSep_sep', ← share_tiles, ← share_tiles]

omit [FloatOps F] in
theorem vecSplit2 : (K (F := F)).VecSplit' (P2 tp ix) 0 := by
  intro d c
  show forCore tp ix d c.val ⊢ |={Set.univ}=> iprop((bigSep (Finset.univ : Finset (Fin 16)) fun i => forTile tp ix d c.val i.val)
      ∗ ((bigSep (Finset.univ : Finset (Fin 16)) fun i => forTileD tp ix d c.val i.val) -∗ forCoreD tp ix d c.val))
  rw [← forCore_eq, ← forCoreD_eq]
  iintro H; imodintro
  isplitl [H]; · iexact H
  iintro H; iexact H

omit [FloatOps F] in
/-- What the call takes for the two SparseCores: the indices, the padded table and the result, whole. -/
theorem st0_join2 (d : Dev nD) :
    iprop((iLoc d ↦{fullShare} ix d) ∗ (tLoc d ↦{fullShare} tp d) ∗ ∃ f, oLoc d ↦{fullShare} f)
      ⊢ |={Set.univ}=> bigSep Finset.univ fun c : Fin ((K (F := F)).nCore 0) => (P2 tp ix).st 0 d c :=
  st0_join tp ix d

omit [FloatOps F] in
/-- The result at the gathered rows is its 128 blocks at them. -/
theorem out_done_eq (d : Dev nD) :
    (oLoc d ↦{fullShare} gath tp ix d : sProp 𝕄)
      = bigSep Finset.univ fun c : Fin 2 => bigSep Finset.univ fun i : Fin 16 => outDone tp ix d c.val i.val := by
  rw [pointsTo_fibers (ℓ := oLoc d) Finset.univ 2 kc (fun x _ => Nat.mod_lt _ (by decide)) fullShare (gath tp ix d)]
  refine bigSep_congr fun c _ => ?_
  show (oLoc d ↦[coreSet c.val]{fullShare} gath tp ix d : sProp 𝕄) = _
  rw [pointsTo_fibers (ℓ := oLoc d) (coreSet c.val) 16 ks (fun x _ => ks_lt x) fullShare (gath tp ix d)]
  refine bigSep_congr fun i _ => ?_
  show (oLoc d ↦[tileSet c.val i.val]{fullShare} gath tp ix d : sProp 𝕄) = _
  rw [pointsTo_fibers (ℓ := oLoc d) (tileSet c.val i.val) 4 kj (fun x _ => Nat.mod_lt _ (by decide)) fullShare (gath tp ix d)]
  rfl

omit [FloatOps F] in
theorem dn_cores2 (d : Dev nD) :
    (bigSep Finset.univ fun c : Fin ((K (F := F)).nCore 0) => (P2 tp ix).dn 0 d c)
      = iprop((iLoc d ↦{fullShare} ix d) ∗ (tLoc d ↦{fullShare} tp d) ∗ oLoc d ↦{fullShare} gath tp ix d) := by
  show (bigSep (Finset.univ : Finset (Fin 2)) fun c => forCoreD tp ix d c.val) = _
  unfold forCoreD
  rw [bigSep_sep', bigSep_sep', ← share_cores, ← share_cores, ← out_done_eq]

omit [FloatOps F] in
/-- What the call hands back: the indices and the padded table as they were, the result at the gathered rows. -/
theorem dn0_split2 (d : Dev nD) :
    (bigSep Finset.univ fun c : Fin ((K (F := F)).nCore 0) => (P2 tp ix).dn 0 d c)
      ⊢ |={Set.univ}=> iprop((iLoc d ↦{fullShare} ix d) ∗ (tLoc d ↦{fullShare} tp d) ∗ oLoc d ↦{fullShare} gath tp ix d) := by
  rw [dn_cores2]
  iintro H; imodintro; iexact H

end Obligations2

end Cert.Proof.KB

end
-- ==== Proof.KBTcPad.lean ====
/-
  The first TensorCore region of the idealized program: the padding kernel. Over a grid of 25 points it reads a
  block of 4000 rows of the table (100 columns) and writes the block of 4000 rows of the padded table (128
  columns): the first 100 columns the rows read, the last 28 zero. Here: what the body leaves in the output
  block, the body's triple, the pipeline's proof data at given entry contents, owed tallies and recorded
  bound, and the body obligation at every point.
-/
import proofs.«204407_g76768245448983_cont_9to1_m_970_19_alg».proof.Proof.KBSetup
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type}

local notation "𝕄" => MT nD τ sig Ix (Elt F) Name U Lvl

/-! ## The entry contents, the tallies and the bound: parameters -/

section Pad

variable (Vt : (c : Dev nD) → (b : Ref sig .tc) → Buf (Elt F) ((c : Thread nD τ).loc b))
  (O : Dev nD → CellTallies nD τ sig Ix) (B : Dev nD → Set (SemLoc sig × Ix))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (Vt c (Pipeline.arrRef spec0 w))

/-- The input window's current staging buffer holds its block at every point, for any proof data whose array is
    the entry contents and whose body leaves the block in place: the window is fetched at every point, uncut and
    never idle. -/
theorem before0_0_of {c : Dev nD} (dat : Dat τ (Elt F) Ix Name U Lvl cfg0 c) (hA : dat.A 0 = Vt c (Pipeline.arrRef spec0 0))
    (hafter : ∀ t, dat.after 0 t = iblk0 Vt c 0 t) (t : Fin cfg0.N) (d) : dat.before 0 t d = iblk0 Vt c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole input block. -/
abbrev rI0 : Rect S4000x100 := Rect.unit (s := S4000x100) ![0, 0] S4000x100.size inb_S4000x100_S4000x100_0_0
/-- The first 100 columns of the output block, -/
abbrev rL0 : Rect S4000x128 := Rect.unit (s := S4000x128) ![0, 0] S4000x100.size inb_S4000x128_S4000x100_0_0
/-- and its last 28. -/
abbrev rR0 : Rect S4000x128 := Rect.unit (s := S4000x128) ![0, 100] S4000x28.size inb_S4000x128_S4000x28_0_100

/-! ## What the body leaves in the output block -/

/-- The output block after the body, from the input block: its two stores as pieces, last first — zeros in the
    last 28 columns, the input block in the first 100. -/
def out0_1 (x0 : Vec F S4000x100 .f32) : Vec F S4000x128 .f32 :=
  View.canon [⟨rR0, k0_pay1 (F := F)⟩, ⟨rL0, View.ld x0 rI0⟩]

/-- The two stores cover the block: a column is below 100 or not. -/
theorem cover0_1 (p0 : Vec F S4000x28 .f32) (p1 : Vec F S4000x100 .f32) (y : S4000x128.Idx) :
    ∃ pc ∈ ([⟨rR0, p0⟩, ⟨rL0, p1⟩] : List (View.Piece (Elt F) S4000x128 .f32)), y ∈ pc.1.set :=
  View.cover_of_tiledBy [⟨rR0, p0⟩, ⟨rL0, p1⟩] ![4000, 4] (by sl_kernel_rfl) y

/-! ## The body's triple -/

variable [Preorder Lvl]

set_option maxHeartbeats 1000000 in
/-- The body on whole staging memrefs, the input's at contents `x0` and the output's at anything, runs to the
    continuation holding the input's as it was and the output's at `out0_1 x0`. -/
theorem sound_kernel0 (c : Dev nD) (E : Set Name) (i : grid0.Coords) (arg0 : Memref sig .tc .vmem S4000x100 .f32) (harg0 : arg0.IsWhole)
    (arg1 : Memref sig .tc .vmem S4000x128 .f32) (harg1 : arg1.IsWhole) (x0 : Vec F S4000x100 .f32) (Kk : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ Kk ⟨⟩))
      ⊢ wp frame (wpE (defs₀ (F := F)) Variants.none c none) E (cc0__tc_pad_body i arg0 harg0 arg1 harg1) Kk := by
  simp only [cc0__tc_pad_body_eq_skeleton]; unfold cc0__tc_pad_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _ _)

/-! ## The pipeline's proof data -/

/-- The proof data of the padding pipeline on core `c`: the arrays as the region finds them; after the body at
    point `t` the input's buffer at its block and the output's at `out0_1` of it; the invariant the core's
    scoped buffers that are no staging buffer of this pipeline, each at some contents, untouched; the tallies owed
    and the recorded bound those given, the same at every point; full shares. -/
def dat0 (c : Dev nD) : Dat τ (Elt F) Ix Name U Lvl cfg0 c where
  A w := Vt c (Pipeline.arrRef spec0 w)
  after w t := match w with
    | ⟨0, _⟩ => iblk0 Vt c 0 t
    | ⟨1, _⟩ => out0_1 (iblk0 Vt c 0 t)
  Φ _ := Pipeline.scopedRest spec0 c
  q _ := fullShare
  owed _ := O c
  recorded _ := B c

local notation "𝔡₀" => dat0 (Ix := Ix) (Name := Name) (U := U) (Lvl := Lvl) Vt O B

theorem A_eq0 (c : Dev nD) (w : Fin cfg0.W) : (𝔡₀ c).A w = Vt c (Pipeline.arrRef spec0 w) := by
  dsimp only [dat0]

theorem after0_0 (c : Dev nD) (t : Fin cfg0.N) : (𝔡₀ c).after 0 t = iblk0 Vt c 0 t := by dsimp only [dat0]
theorem after0_1 (c : Dev nD) (t : Fin cfg0.N) : (𝔡₀ c).after 1 t = out0_1 (iblk0 Vt c 0 t) := by dsimp only [dat0]

theorem before0_0 (c : Dev nD) (t : Fin cfg0.N) (d) : (𝔡₀ c).before 0 t d = iblk0 Vt c 0 t :=
  before0_0_of Vt (𝔡₀ c) (A_eq0 Vt O B c 0) (after0_0 Vt O B c) t d

/-! ## The body obligation -/

variable (ι : Ix)

/-- What the body is called with at point `t`, the windows one by one, -/
def bodyPre0 (c : Dev nD) (t : Fin cfg0.N) : sProp 𝕄 :=
  iprop((𝔡₀ c).Φ t.castSucc ∗ (𝔡₀ c).owesAt ι t.castSucc
    ∗ (∃ d, owns (c : Thread nD τ) (st0_0 t) fullShare ((𝔡₀ c).before 0 t d))
    ∗ (∃ d, owns (c : Thread nD τ) (st0_1 t) fullShare ((𝔡₀ c).before 1 t d)))

/-- and what it returns. -/
def bodyPost0 (c : Dev nD) (t : Fin cfg0.N) : sProp 𝕄 :=
  iprop((𝔡₀ c).Φ t.succ ∗ (𝔡₀ c).owesAt ι t.succ
    ∗ owns (c : Thread nD τ) (st0_0 t) fullShare ((𝔡₀ c).after 0 t)
    ∗ owns (c : Thread nD τ) (st0_1 t) fullShare ((𝔡₀ c).after 1 t))

/-- The body at any point: the input's memref holds its block, so the body's triple applies; the invariant and the
    core's owed tallies pass through unread. -/
theorem sound_body0 (c : Dev nD) (t : Fin cfg0.N) :
    (bodyPre0 (Name := Name) (U := U) (Lvl := Lvl) Vt O B ι c t : sProp 𝕄) ⊢ wp frame (wpE (defs₀ (F := F)) Variants.none c none) Set.univ (bodyAt0 t) (fun _ => bodyPost0 (Name := Name) (U := U) (Lvl := Lvl) Vt O B ι c t) := by
  unfold bodyPre0 bodyPost0 bodyAt0
  simp only [before0_0]
  rw [show (𝔡₀ c).Φ t.succ = (𝔡₀ c).Φ t.castSucc from rfl,
    show (𝔡₀ c).owesAt ι t.succ = (𝔡₀ c).owesAt ι t.castSucc from rfl,
    after0_0, after0_1]
  iintro ⟨HΦ, Ho, ⟨%d0, H0⟩, ⟨%d1, H1⟩⟩
  iapply (sound_kernel0 c Set.univ _ _ _ _ _ (iblk0 Vt c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (𝔡₀ c) (defs₀ (F := F)) Variants.none ι Set.univ := fun t => by
  rw [bigSep_W0, bigSep_W0]
  exact sound_body0 (Name := Name) (U := U) (Lvl := Lvl) Vt O B ι c t

end Pad

end Cert.Proof.KB

end
-- ==== Proof.KBTcGruRuns.lean ====
/-
  The second TensorCore region of the idealized program: the recurrent kernel. Over a grid of 50 points it reads
  one step's block of the embedded sequence and the packed weights, carries a scratch buffer of 1024 rows by 256
  columns from point to point (zeroed in its right half at the first point; at every point its left half is set to
  the step's block and its right half to the new state), and stores the output block at the last point only.
  Here: the body's triple in each of the three cases of its two conditionals, what the scratch and the output
  block hold after each point, the pipeline's proof data at given entry contents, owed tallies and recorded
  bound — the carried scratch in the invariant —, and the body obligation at every point.
-/
import proofs.«204407_g76768245448983_cont_9to1_m_970_19_alg».proof.Proof.KBSetup
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type}

local notation "𝕄" => MT nD τ sig Ix (Elt F) Name U Lvl

/-! ## The body's branch conditions -/

/-- The condition of the body's first conditional (the scratch's right half is zeroed), from the grid coordinates. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val = 0 :=
  (by decide +kernel : ∀ t : Fin grid2.N, cond2_0 (grid2.coords t) ↔ t.val = 0)

/-- The condition of the second conditional (the output block is stored). -/
abbrev cond2_1 (i : grid2.Coords) : Prop := k2_cond2 i = 1#1
/-- It holds at the last point only — decided over the grid. -/
theorem hcond2_1 : ∀ t : Fin cfg2.N, cond2_1 (grid2.coords t) ↔ t.val = 49 :=
  (by decide +kernel : ∀ t : Fin grid2.N, cond2_1 (grid2.coords t) ↔ t.val = 49)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
/-- Where the output block is not stored the configuration calls its window idle, -/
theorem idleAt2_5 : ∀ t : Fin cfg2.N, ¬cond2_1 (grid2.coords t) → cfg2.idle 5 (grid2.coords t) = true := by decide +kernel
/-- and the pipeline does not write it back there; -/
theorem noFlush2_5 : ∀ t : Fin cfg2.N, ¬cond2_1 (grid2.coords t) → (cfg2.win 5).flush t = false := by decide +kernel
/-- where it is stored the window is live. -/
theorem liveAt2_5 : ∀ t : Fin cfg2.N, cond2_1 (grid2.coords t) → cfg2.idle 5 (grid2.coords t) = false := by decide +kernel

/-! ## The memrefs the body is called with -/

abbrev ms2_0 (t : Fin cfg2.N) : Memref sig .tc .vmem S1x1024x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x3 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x3 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x3 .f32 := win2_5.stage (cfg2.slots t 5)
abbrev hs2_5 (t : Fin cfg2.N) : (ms2_5 t).IsWhole := hstage2_5 ((cfg2.slots t 5).cast nbuf2_5)
/-- The scratch operand: a whole scoped buffer of the kernel's own. -/
abbrev scM2 : Memref sig .tc .vmem S1024x256 .f32 := Memref.whole cc2_scratch0
/-- The scratch as a view: what it holds is stated through it. -/
abbrev VS2 : View sig .tc .vmem S1024x256 .f32 := scM2.view
/-- One staging buffer of the output window, through which its contents are stated. -/
abbrev VO2_5 : View sig .tc .vmem S1024x3 .f32 := (Memref.whole cc2_stg5_0 : Memref sig .tc .vmem S1024x3 .f32).view

/-! ## The body's triple, case by case: the stores' pieces are the witness the run finds -/

section Runs

variable [Preorder Lvl]

set_option maxHeartbeats 4000000 in
/-- FIRST POINT (the first conditional taken, the second not). On whole memrefs — the inputs' at their contents, the
    output's at contents handed back untouched, the scratch at anything — the body runs to the continuation holding the
    inputs' and the output's as they were and the scratch with the pieces `LS` written, last first. -/
noncomputable def kernelRun2_A (c : Dev nD) (i : grid2.Coords) (arg1 : Memref sig .tc .vmem S1x1024x128 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S1024x3 .f32) (harg6 : arg6.IsWhole) (arg7 : Memref sig .tc .vmem S1024x256 .f32) (harg7 : arg7.IsWhole) (hc0 : cond2_0 i) (hc1 : ¬cond2_1 i)
    (x0 : Vec F S1x1024x128 .f32) (x1 : Vec F S256x512 .f32) (x2 : Vec F S1x512 .f32) (x3 : Vec F S128x3 .f32) (x4 : Vec F S1x3 .f32) :
    { LS : List (View.Piece (Elt F) S1024x256 .f32) //
      ∀ (xi5 : Vec F S1024x3 .f32) (E : Set Name) (Kk : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS)) -∗ Kk ⟨⟩))
          ⊢ wp frame (wpE (defs₀ (F := F)) Variants.none c none) E (cc2__tc_gru_body i arg1 harg1 arg2 harg2 arg3 harg3 arg4 harg4 arg5 harg5 arg6 harg6 arg7 harg7) Kk } := by
  refine ⟨?_, fun xi5 E Kk => ?run⟩
  case run =>
    simp only [cc2__tc_gru_body_eq_skeleton]; unfold cc2__tc_gru_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS

set_option maxHeartbeats 4000000 in
/-- A MIDDLE POINT (neither conditional taken): as at the first, the scratch entered at the contents `xs` the point
    before left. -/
noncomputable def kernelRun2_B (c : Dev nD) (i : grid2.Coords) (arg1 : Memref sig .tc .vmem S1x1024x128 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S1024x3 .f32) (harg6 : arg6.IsWhole) (arg7 : Memref sig .tc .vmem S1024x256 .f32) (harg7 : arg7.IsWhole) (hc0 : ¬cond2_0 i) (hc1 : ¬cond2_1 i)
    (x0 : Vec F S1x1024x128 .f32) (x1 : Vec F S256x512 .f32) (x2 : Vec F S1x512 .f32) (x3 : Vec F S128x3 .f32) (x4 : Vec F S1x3 .f32) (xs : Vec F S1024x256 .f32) :
    { LS : List (View.Piece (Elt F) S1024x256 .f32) //
      ∀ (xi5 : Vec F S1024x3 .f32) (E : Set Name) (Kk : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS)) -∗ Kk ⟨⟩))
          ⊢ wp frame (wpE (defs₀ (F := F)) Variants.none c none) E (cc2__tc_gru_body i arg1 harg1 arg2 harg2 arg3 harg3 arg4 harg4 arg5 harg5 arg6 harg6 arg7 harg7) Kk } := by
  refine ⟨?_, fun xi5 E Kk => ?run⟩
  case run =>
    simp only [cc2__tc_gru_body_eq_skeleton]; unfold cc2__tc_gru_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4
    obtain rfl := harg6.eq_unread hf5; obtain rfl := harg7.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS

set_option maxHeartbeats 4000000 in
/-- THE LAST POINT (the second conditional taken): the output's memref at anything, left with the pieces `L5` written. -/
noncomputable def kernelRun2_C (c : Dev nD) (i : grid2.Coords) (arg1 : Memref sig .tc .vmem S1x1024x128 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S1024x3 .f32) (harg6 : arg6.IsWhole) (arg7 : Memref sig .tc .vmem S1024x256 .f32) (harg7 : arg7.IsWhole) (hc0 : ¬cond2_0 i) (hc1 : cond2_1 i)
    (x0 : Vec F S1x1024x128 .f32) (x1 : Vec F S256x512 .f32) (x2 : Vec F S1x512 .f32) (x3 : Vec F S128x3 .f32) (x4 : Vec F S1x3 .f32) (xs : Vec F S1024x256 .f32) :
    Σ' (L5 : List (View.Piece (Elt F) S1024x3 .f32)), { LS : List (View.Piece (Elt F) S1024x256 .f32) //
      ∀ (E : Set Name) (Kk : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS)) -∗ Kk ⟨⟩))
          ⊢ wp frame (wpE (defs₀ (F := F)) Variants.none c none) E (cc2__tc_gru_body i arg1 harg1 arg2 harg2 arg3 harg3 arg4 harg4 arg5 harg5 arg6 harg6 arg7 harg7) Kk } := by
  refine ⟨?_, ?_, fun E Kk => ?run⟩
  case run =>
    simp only [cc2__tc_gru_body_eq_skeleton]; unfold cc2__tc_gru_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS

end Runs

end Cert.Proof.KB

end
-- ==== Proof.KBTcGru.lean ====
/-
  The second TensorCore region of the idealized program, continued: what the carried scratch and the output block
  hold after each point (from the body's triples, case by case), the pipeline's proof data at given entry contents,
  owed tallies and recorded bound — the carried scratch in the invariant —, and the body obligation at every point.
-/
import proofs.«204407_g76768245448983_cont_9to1_m_970_19_alg».proof.Proof.KBTcGruRuns

-- membership in a rectangle of full extents recurses once per coordinate of the long axes
set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type}

local notation "𝕄" => MT nD τ sig Ix (Elt F) Name U Lvl

section Gru

variable (Vt : (c : Dev nD) → (b : Ref sig .tc) → Buf (Elt F) ((c : Thread nD τ).loc b))
  (O : Dev nD → CellTallies nD τ sig Ix) (B : Dev nD → Set (SemLoc sig × Ix))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (Vt c (Pipeline.arrRef spec2 w))

/-- Input window 0's current staging buffer holds its block at every point, fetched there or not, for any proof data whose
    array is the entry contents and whose body leaves the block in place. -/
theorem before2_0_of {c : Dev nD} (dat : Dat τ (Elt F) Ix Name U Lvl cfg2 c) (hA : dat.A 0 = Vt c (Pipeline.arrRef spec2 0))
    (hafter : ∀ t, dat.after 0 t = iblk2 Vt c 0 t) (t : Fin cfg2.N) (d) : dat.before 0 t d = iblk2 Vt c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data whose
    array is the entry contents and whose body leaves the block in place. -/
theorem before2_1_of {c : Dev nD} (dat : Dat τ (Elt F) Ix Name U Lvl cfg2 c) (hA : dat.A 1 = Vt c (Pipeline.arrRef spec2 1))
    (hafter : ∀ t, dat.after 1 t = iblk2 Vt c 1 t) (t : Fin cfg2.N) (d) : dat.before 1 t d = iblk2 Vt c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data whose
    array is the entry contents and whose body leaves the block in place. -/
theorem before2_2_of {c : Dev nD} (dat : Dat τ (Elt F) Ix Name U Lvl cfg2 c) (hA : dat.A 2 = Vt c (Pipeline.arrRef spec2 2))
    (hafter : ∀ t, dat.after 2 t = iblk2 Vt c 2 t) (t : Fin cfg2.N) (d) : dat.before 2 t d = iblk2 Vt c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data whose
    array is the entry contents and whose body leaves the block in place. -/
theorem before2_3_of {c : Dev nD} (dat : Dat τ (Elt F) Ix Name U Lvl cfg2 c) (hA : dat.A 3 = Vt c (Pipeline.arrRef spec2 3))
    (hafter : ∀ t, dat.after 3 t = iblk2 Vt c 3 t) (t : Fin cfg2.N) (d) : dat.before 3 t d = iblk2 Vt c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data whose
    array is the entry contents and whose body leaves the block in place. -/
theorem before2_4_of {c : Dev nD} (dat : Dat τ (Elt F) Ix Name U Lvl cfg2 c) (hA : dat.A 4 = Vt c (Pipeline.arrRef spec2 4))
    (hafter : ∀ t, dat.after 4 t = iblk2 Vt c 4 t) (t : Fin cfg2.N) (d) : dat.before 4 t d = iblk2 Vt c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

variable [Preorder Lvl]

/-! ## What the scratch and the output block hold, case by case -/

/-- The scratch's pieces in this case tile it in halves of 1024 rows by 128 columns, so they cover it. -/
theorem scover2_A (c : Dev nD) (i : grid2.Coords) (arg1 : Memref sig .tc .vmem S1x1024x128 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S1024x3 .f32) (harg6 : arg6.IsWhole) (arg7 : Memref sig .tc .vmem S1024x256 .f32) (harg7 : arg7.IsWhole) (hc0 : cond2_0 i) (hc1 : ¬cond2_1 i)
    (x0 : Vec F S1x1024x128 .f32) (x1 : Vec F S256x512 .f32) (x2 : Vec F S1x512 .f32) (x3 : Vec F S128x3 .f32) (x4 : Vec F S1x3 .f32) (y : S1024x256.Idx) :
    ∃ pc ∈ (kernelRun2_A (Ix := Ix) (Name := Name) (U := U) (Lvl := Lvl) c i arg1 harg1 arg2 harg2 arg3 harg3 arg4 harg4 arg5 harg5 arg6 harg6 arg7 harg7 hc0 hc1 x0 x1 x2 x3 x4).1, y ∈ pc.1.set :=
  View.cover_of_tiledL (kernelRun2_A (Ix := Ix) (Name := Name) (U := U) (Lvl := Lvl) c i arg1 harg1 arg2 harg2 arg3 harg3 arg4 harg4 arg5 harg5 arg6 harg6 arg7 harg7 hc0 hc1 x0 x1 x2 x3 x4).1 S1024x128.size (by sl_kernel_rfl) y

/-- What this case leaves in the scratch: its pieces read back. -/
def sout2_A (c : Dev nD) (i : grid2.Coords) (arg1 : Memref sig .tc .vmem S1x1024x128 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S1024x3 .f32) (harg6 : arg6.IsWhole) (arg7 : Memref sig .tc .vmem S1024x256 .f32) (harg7 : arg7.IsWhole) (hc0 : cond2_0 i) (hc1 : ¬cond2_1 i)
    (x0 : Vec F S1x1024x128 .f32) (x1 : Vec F S256x512 .f32) (x2 : Vec F S1x512 .f32) (x3 : Vec F S128x3 .f32) (x4 : Vec F S1x3 .f32) : Vec F S1024x256 .f32 :=
  VS2.read (Elt F) (VS2.writes (Elt F) VS2.junk (kernelRun2_A (Ix := Ix) (Name := Name) (U := U) (Lvl := Lvl) c i arg1 harg1 arg2 harg2 arg3 harg3 arg4 harg4 arg5 harg5 arg6 harg6 arg7 harg7 hc0 hc1 x0 x1 x2 x3 x4).1)

/-- The scratch's pieces in this case tile it in halves of 1024 rows by 128 columns, so they cover it. -/
theorem scover2_B (c : Dev nD) (i : grid2.Coords) (arg1 : Memref sig .tc .vmem S1x1024x128 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S1024x3 .f32) (harg6 : arg6.IsWhole) (arg7 : Memref sig .tc .vmem S1024x256 .f32) (harg7 : arg7.IsWhole) (hc0 : ¬cond2_0 i) (hc1 : ¬cond2_1 i)
    (x0 : Vec F S1x1024x128 .f32) (x1 : Vec F S256x512 .f32) (x2 : Vec F S1x512 .f32) (x3 : Vec F S128x3 .f32) (x4 : Vec F S1x3 .f32) (xs : Vec F S1024x256 .f32) (y : S1024x256.Idx) :
    ∃ pc ∈ (kernelRun2_B (Ix := Ix) (Name := Name) (U := U) (Lvl := Lvl) c i arg1 harg1 arg2 harg2 arg3 harg3 arg4 harg4 arg5 harg5 arg6 harg6 arg7 harg7 hc0 hc1 x0 x1 x2 x3 x4 xs).1, y ∈ pc.1.set :=
  View.cover_of_tiledL (kernelRun2_B (Ix := Ix) (Name := Name) (U := U) (Lvl := Lvl) c i arg1 harg1 arg2 harg2 arg3 harg3 arg4 harg4 arg5 harg5 arg6 harg6 arg7 harg7 hc0 hc1 x0 x1 x2 x3 x4 xs).1 S1024x128.size (by sl_kernel_rfl) y

/-- What this case leaves in the scratch: its pieces read back. -/
def sout2_B (c : Dev nD) (i : grid2.Coords) (arg1 : Memref sig .tc .vmem S1x1024x128 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S1024x3 .f32) (harg6 : arg6.IsWhole) (arg7 : Memref sig .tc .vmem S1024x256 .f32) (harg7 : arg7.IsWhole) (hc0 : ¬cond2_0 i) (hc1 : ¬cond2_1 i)
    (x0 : Vec F S1x1024x128 .f32) (x1 : Vec F S256x512 .f32) (x2 : Vec F S1x512 .f32) (x3 : Vec F S128x3 .f32) (x4 : Vec F S1x3 .f32) (xs : Vec F S1024x256 .f32) : Vec F S1024x256 .f32 :=
  VS2.read (Elt F) (VS2.writes (Elt F) VS2.junk (kernelRun2_B (Ix := Ix) (Name := Name) (U := U) (Lvl := Lvl) c i arg1 harg1 arg2 harg2 arg3 harg3 arg4 harg4 arg5 harg5 arg6 harg6 arg7 harg7 hc0 hc1 x0 x1 x2 x3 x4 xs).1)

/-- The scratch's pieces in this case tile it in halves of 1024 rows by 128 columns, so they cover it. -/
theorem scover2_C (c : Dev nD) (i : grid2.Coords) (arg1 : Memref sig .tc .vmem S1x1024x128 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S1024x3 .f32) (harg6 : arg6.IsWhole) (arg7 : Memref sig .tc .vmem S1024x256 .f32) (harg7 : arg7.IsWhole) (hc0 : ¬cond2_0 i) (hc1 : cond2_1 i)
    (x0 : Vec F S1x1024x128 .f32) (x1 : Vec F S256x512 .f32) (x2 : Vec F S1x512 .f32) (x3 : Vec F S128x3 .f32) (x4 : Vec F S1x3 .f32) (xs : Vec F S1024x256 .f32) (y : S1024x256.Idx) :
    ∃ pc ∈ (kernelRun2_C (Ix := Ix) (Name := Name) (U := U) (Lvl := Lvl) c i arg1 harg1 arg2 harg2 arg3 harg3 arg4 harg4 arg5 harg5 arg6 harg6 arg7 harg7 hc0 hc1 x0 x1 x2 x3 x4 xs).2.1, y ∈ pc.1.set :=
  View.cover_of_tiledL (kernelRun2_C (Ix := Ix) (Name := Name) (U := U) (Lvl := Lvl) c i arg1 harg1 arg2 harg2 arg3 harg3 arg4 harg4 arg5 harg5 arg6 harg6 arg7 harg7 hc0 hc1 x0 x1 x2 x3 x4 xs).2.1 S1024x128.size (by sl_kernel_rfl) y

/-- What this case leaves in the scratch: its pieces read back. -/
def sout2_C (c : Dev nD) (i : grid2.Coords) (arg1 : Memref sig .tc .vmem S1x1024x128 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S1024x3 .f32) (harg6 : arg6.IsWhole) (arg7 : Memref sig .tc .vmem S1024x256 .f32) (harg7 : arg7.IsWhole) (hc0 : ¬cond2_0 i) (hc1 : cond2_1 i)
    (x0 : Vec F S1x1024x128 .f32) (x1 : Vec F S256x512 .f32) (x2 : Vec F S1x512 .f32) (x3 : Vec F S128x3 .f32) (x4 : Vec F S1x3 .f32) (xs : Vec F S1024x256 .f32) : Vec F S1024x256 .f32 :=
  VS2.read (Elt F) (VS2.writes (Elt F) VS2.junk (kernelRun2_C (Ix := Ix) (Name := Name) (U := U) (Lvl := Lvl) c i arg1 harg1 arg2 harg2 arg3 harg3 arg4 harg4 arg5 harg5 arg6 harg6 arg7 harg7 hc0 hc1 x0 x1 x2 x3 x4 xs).2.1)

/-- The output block's pieces at the last point: one store of the whole block. -/
theorem cover2_C (c : Dev nD) (i : grid2.Coords) (arg1 : Memref sig .tc .vmem S1x1024x128 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S1024x3 .f32) (harg6 : arg6.IsWhole) (arg7 : Memref sig .tc .vmem S1024x256 .f32) (harg7 : arg7.IsWhole) (hc0 : ¬cond2_0 i) (hc1 : cond2_1 i)
    (x0 : Vec F S1x1024x128 .f32) (x1 : Vec F S256x512 .f32) (x2 : Vec F S1x512 .f32) (x3 : Vec F S128x3 .f32) (x4 : Vec F S1x3 .f32) (xs : Vec F S1024x256 .f32) (y : S1024x3.Idx) :
    ∃ pc ∈ (kernelRun2_C (Ix := Ix) (Name := Name) (U := U) (Lvl := Lvl) c i arg1 harg1 arg2 harg2 arg3 harg3 arg4 harg4 arg5 harg5 arg6 harg6 arg7 harg7 hc0 hc1 x0 x1 x2 x3 x4 xs).1, y ∈ pc.1.set :=
  View.cover_of_tiledL (kernelRun2_C (Ix := Ix) (Name := Name) (U := U) (Lvl := Lvl) c i arg1 harg1 arg2 harg2 arg3 harg3 arg4 harg4 arg5 harg5 arg6 harg6 arg7 harg7 hc0 hc1 x0 x1 x2 x3 x4 xs).1 S1024x3.size (by sl_kernel_rfl) y

/-- What the last point leaves in the output block: its pieces read back. -/
def out2_C (c : Dev nD) (i : grid2.Coords) (arg1 : Memref sig .tc .vmem S1x1024x128 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S1024x3 .f32) (harg6 : arg6.IsWhole) (arg7 : Memref sig .tc .vmem S1024x256 .f32) (harg7 : arg7.IsWhole) (hc0 : ¬cond2_0 i) (hc1 : cond2_1 i)
    (x0 : Vec F S1x1024x128 .f32) (x1 : Vec F S256x512 .f32) (x2 : Vec F S1x512 .f32) (x3 : Vec F S128x3 .f32) (x4 : Vec F S1x3 .f32) (xs : Vec F S1024x256 .f32) : Vec F S1024x3 .f32 :=
  VO2_5.read (Elt F) (VO2_5.writes (Elt F) VO2_5.junk (kernelRun2_C (Ix := Ix) (Name := Name) (U := U) (Lvl := Lvl) c i arg1 harg1 arg2 harg2 arg3 harg3 arg4 harg4 arg5 harg5 arg6 harg6 arg7 harg7 hc0 hc1 x0 x1 x2 x3 x4 xs).1)

/-! ## What they hold after each point -/

/-- What the output's staging buffer and the carried scratch hold after the body at position `n` (a pair: the output
    block, then the scratch): the case of the point, run at the point's memrefs and input blocks, the scratch entered
    at what this leaves at `n - 1`. The output block is stored at the last point only; elsewhere its component is
    not consulted (the window is idle there and not written back). -/
def outsAt2 (c : Dev nD) : (n : ℕ) → n < cfg2.N → Vec F S1024x3 .f32 × Vec F S1024x256 .f32
  | 0, hn => ((VO2_5.read (Elt F) VO2_5.junk), sout2_A (Ix := Ix) (Name := Name) (U := U) (Lvl := Lvl) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr rfl) (fun h => absurd ((hcond2_1 ⟨0, hn⟩).mp h) (by simp)) (iblk2 Vt c 0 ⟨0, hn⟩) (iblk2 Vt c 1 ⟨0, hn⟩) (iblk2 Vt c 2 ⟨0, hn⟩) (iblk2 Vt c 3 ⟨0, hn⟩) (iblk2 Vt c 4 ⟨0, hn⟩))
  | n + 1, hn =>
    if h1 : n + 1 = 49 then
      (out2_C (Ix := Ix) (Name := Name) (U := U) (Lvl := Lvl) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => absurd ((hcond2_0 ⟨n + 1, hn⟩).mp h) (Nat.succ_ne_zero n)) ((hcond2_1 ⟨n + 1, hn⟩).mpr h1) (iblk2 Vt c 0 ⟨n + 1, hn⟩) (iblk2 Vt c 1 ⟨n + 1, hn⟩) (iblk2 Vt c 2 ⟨n + 1, hn⟩) (iblk2 Vt c 3 ⟨n + 1, hn⟩) (iblk2 Vt c 4 ⟨n + 1, hn⟩) (outsAt2 c n (Nat.lt_of_succ_lt hn)).2,
       sout2_C (Ix := Ix) (Name := Name) (U := U) (Lvl := Lvl) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => absurd ((hcond2_0 ⟨n + 1, hn⟩).mp h) (Nat.succ_ne_zero n)) ((hcond2_1 ⟨n + 1, hn⟩).mpr h1) (iblk2 Vt c 0 ⟨n + 1, hn⟩) (iblk2 Vt c 1 ⟨n + 1, hn⟩) (iblk2 Vt c 2 ⟨n + 1, hn⟩) (iblk2 Vt c 3 ⟨n + 1, hn⟩) (iblk2 Vt c 4 ⟨n + 1, hn⟩) (outsAt2 c n (Nat.lt_of_succ_lt hn)).2)
    else
      ((VO2_5.read (Elt F) VO2_5.junk), sout2_B (Ix := Ix) (Name := Name) (U := U) (Lvl := Lvl) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => absurd ((hcond2_0 ⟨n + 1, hn⟩).mp h) (Nat.succ_ne_zero n)) (fun h => h1 ((hcond2_1 ⟨n + 1, hn⟩).mp h)) (iblk2 Vt c 0 ⟨n + 1, hn⟩) (iblk2 Vt c 1 ⟨n + 1, hn⟩) (iblk2 Vt c 2 ⟨n + 1, hn⟩) (iblk2 Vt c 3 ⟨n + 1, hn⟩) (iblk2 Vt c 4 ⟨n + 1, hn⟩) (outsAt2 c n (Nat.lt_of_succ_lt hn)).2)

local notation "𝔬" => outsAt2 (Ix := Ix) (Name := Name) (U := U) (Lvl := Lvl) Vt

/-- At the first point. -/
theorem outsAt2_A (c : Dev nD) (t : Fin cfg2.N) (h0 : t.val = 0) (h1 : ¬t.val = 49) :
    𝔬 c t.val t.isLt = ((VO2_5.read (Elt F) VO2_5.junk), sout2_A (Ix := Ix) (Name := Name) (U := U) (Lvl := Lvl) c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 Vt c 0 t) (iblk2 Vt c 1 t) (iblk2 Vt c 2 t) (iblk2 Vt c 3 t) (iblk2 Vt c 4 t)) := by
  obtain ⟨n, hn⟩ := t
  cases n with
  | zero => exact rfl
  | succ n => exact absurd h0 (Nat.succ_ne_zero n)

/-- At a middle point: over what the point before left. -/
theorem outsAt2_B (c : Dev nD) (t : Fin cfg2.N) (h0 : ¬t.val = 0) (h1 : ¬t.val = 49) :
    𝔬 c t.val t.isLt = ((VO2_5.read (Elt F) VO2_5.junk), sout2_B (Ix := Ix) (Name := Name) (U := U) (Lvl := Lvl) c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 Vt c 0 t) (iblk2 Vt c 1 t) (iblk2 Vt c 2 t) (iblk2 Vt c 3 t) (iblk2 Vt c 4 t) (𝔬 c (t.val - 1) (Nat.lt_of_le_of_lt (Nat.sub_le _ _) t.isLt)).2) := by
  obtain ⟨n, hn⟩ := t
  cases n with
  | zero => exact absurd rfl h0
  | succ n => exact (dif_neg h1).trans rfl

/-- At the last point: over what the point before left. -/
theorem outsAt2_C (c : Dev nD) (t : Fin cfg2.N) (h0 : ¬t.val = 0) (h1 : t.val = 49) :
    𝔬 c t.val t.isLt = (out2_C (Ix := Ix) (Name := Name) (U := U) (Lvl := Lvl) c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 Vt c 0 t) (iblk2 Vt c 1 t) (iblk2 Vt c 2 t) (iblk2 Vt c 3 t) (iblk2 Vt c 4 t) (𝔬 c (t.val - 1) (Nat.lt_of_le_of_lt (Nat.sub_le _ _) t.isLt)).2,
      sout2_C (Ix := Ix) (Name := Name) (U := U) (Lvl := Lvl) c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 Vt c 0 t) (iblk2 Vt c 1 t) (iblk2 Vt c 2 t) (iblk2 Vt c 3 t) (iblk2 Vt c 4 t) (𝔬 c (t.val - 1) (Nat.lt_of_le_of_lt (Nat.sub_le _ _) t.isLt)).2) := by
  obtain ⟨n, hn⟩ := t
  cases n with
  | zero => exact absurd rfl h0
  | succ n => exact (dif_pos h1).trans rfl

/-! ## The invariant: the carried scratch -/

/-- The region invariant before position `n`: before the first point the core's scoped buffers that are no staging
    buffer of this pipeline, each at some contents; afterwards the same with the carried scratch at what the point
    before left in it. -/
def PhiS2 (c : Dev nD) : (n : ℕ) → n ≤ cfg2.N → sProp 𝕄
  | 0, _ => Pipeline.scopedRest spec2 c
  | n + 1, hn => iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM2 fullShare ((𝔬 c n hn).2))

local notation "𝔓" => PhiS2 (Ix := Ix) (Name := Name) (U := U) (Lvl := Lvl) Vt

theorem PhiS2_zero (c : Dev nD) (n : ℕ) (h : n ≤ cfg2.N) (hz : n = 0) : 𝔓 c n h = Pipeline.scopedRest spec2 c := by
  subst hz; rfl

theorem PhiS2_succ (c : Dev nD) (n : ℕ) (hn : n < cfg2.N) :
    𝔓 c (n + 1) hn = iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM2 fullShare ((𝔬 c n hn).2)) := rfl

theorem PhiS2_pos (c : Dev nD) (n : ℕ) (h : n ≤ cfg2.N) (hz : n ≠ 0) :
    𝔓 c n h = iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM2 fullShare ((𝔬 c (n - 1) (by omega)).2)) := by
  cases n with
  | zero => exact absurd rfl hz
  | succ n => rfl

/-- The scoped rest with the scratch as a memref owned at some contents. -/
theorem PhiA2_eq (c : Dev nD) :
    (Pipeline.scopedRest spec2 c : sProp 𝕄) = iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM2 fullShare d)) := by
  rw [scopedRest2_eq]; simp only [scM2, owns_whole]; try rfl

/-! ## The pipeline's proof data -/

/-- The proof data of the recurrent pipeline on core `c`: the arrays as the region finds them; after the body at
    point `t` each input's buffer at its block and the output's at `outsAt2`'s first component; the invariant
    `PhiS2`; the tallies owed and the recorded bound those given, the same at every point; full shares. -/
def dat2 (c : Dev nD) : Dat τ (Elt F) Ix Name U Lvl cfg2 c where
  A w := Vt c (Pipeline.arrRef spec2 w)
  after w t := match w with
    | ⟨0, _⟩ => iblk2 Vt c 0 t
    | ⟨1, _⟩ => iblk2 Vt c 1 t
    | ⟨2, _⟩ => iblk2 Vt c 2 t
    | ⟨3, _⟩ => iblk2 Vt c 3 t
    | ⟨4, _⟩ => iblk2 Vt c 4 t
    | ⟨5, _⟩ => (𝔬 c t.val t.isLt).1
  Φ t := 𝔓 c t.val (Nat.le_of_lt_succ t.isLt)
  q _ := fullShare
  owed _ := O c
  recorded _ := B c

local notation "𝔡₂" => dat2 (Ix := Ix) (Name := Name) (U := U) (Lvl := Lvl) Vt O B

theorem A_eq2 (c : Dev nD) (w : Fin cfg2.W) : (𝔡₂ c).A w = Vt c (Pipeline.arrRef spec2 w) := by
  dsimp only [dat2]

theorem PhiS2_castSucc (c : Dev nD) (t : Fin cfg2.N) :
    (𝔡₂ c).Φ t.castSucc = 𝔓 c t.val (Nat.le_of_lt t.isLt) := by
  dsimp only [dat2]; simp only [Fin.coe_castSucc]

theorem after2_0 (c : Dev nD) (t : Fin cfg2.N) : (𝔡₂ c).after 0 t = iblk2 Vt c 0 t := by dsimp only [dat2]
theorem after2_1 (c : Dev nD) (t : Fin cfg2.N) : (𝔡₂ c).after 1 t = iblk2 Vt c 1 t := by dsimp only [dat2]
theorem after2_2 (c : Dev nD) (t : Fin cfg2.N) : (𝔡₂ c).after 2 t = iblk2 Vt c 2 t := by dsimp only [dat2]
theorem after2_3 (c : Dev nD) (t : Fin cfg2.N) : (𝔡₂ c).after 3 t = iblk2 Vt c 3 t := by dsimp only [dat2]
theorem after2_4 (c : Dev nD) (t : Fin cfg2.N) : (𝔡₂ c).after 4 t = iblk2 Vt c 4 t := by dsimp only [dat2]
theorem after2_5 (c : Dev nD) (t : Fin cfg2.N) : (𝔡₂ c).after 5 t = (𝔬 c t.val t.isLt).1 := by dsimp only [dat2]

theorem before2_0 (c : Dev nD) (t : Fin cfg2.N) (d) : (𝔡₂ c).before 0 t d = iblk2 Vt c 0 t :=
  before2_0_of Vt (𝔡₂ c) (A_eq2 Vt O B c 0) (after2_0 Vt O B c) t d
theorem before2_1 (c : Dev nD) (t : Fin cfg2.N) (d) : (𝔡₂ c).before 1 t d = iblk2 Vt c 1 t :=
  before2_1_of Vt (𝔡₂ c) (A_eq2 Vt O B c 1) (after2_1 Vt O B c) t d
theorem before2_2 (c : Dev nD) (t : Fin cfg2.N) (d) : (𝔡₂ c).before 2 t d = iblk2 Vt c 2 t :=
  before2_2_of Vt (𝔡₂ c) (A_eq2 Vt O B c 2) (after2_2 Vt O B c) t d
theorem before2_3 (c : Dev nD) (t : Fin cfg2.N) (d) : (𝔡₂ c).before 3 t d = iblk2 Vt c 3 t :=
  before2_3_of Vt (𝔡₂ c) (A_eq2 Vt O B c 3) (after2_3 Vt O B c) t d
theorem before2_4 (c : Dev nD) (t : Fin cfg2.N) (d) : (𝔡₂ c).before 4 t d = iblk2 Vt c 4 t :=
  before2_4_of Vt (𝔡₂ c) (A_eq2 Vt O B c 4) (after2_4 Vt O B c) t d

/-! ## The body obligation -/

variable (ι : Ix)

/-- What the body is called with at point `t`, the windows one by one, -/
def bodyPre2 (c : Dev nD) (t : Fin cfg2.N) : sProp 𝕄 :=
  iprop((𝔡₂ c).Φ t.castSucc ∗ (𝔡₂ c).owesAt ι t.castSucc
    ∗ (∃ d, owns (c : Thread nD τ) (ms2_0 t) fullShare ((𝔡₂ c).before 0 t d))
    ∗ (∃ d, owns (c : Thread nD τ) (ms2_1 t) fullShare ((𝔡₂ c).before 1 t d))
    ∗ (∃ d, owns (c : Thread nD τ) (ms2_2 t) fullShare ((𝔡₂ c).before 2 t d))
    ∗ (∃ d, owns (c : Thread nD τ) (ms2_3 t) fullShare ((𝔡₂ c).before 3 t d))
    ∗ (∃ d, owns (c : Thread nD τ) (ms2_4 t) fullShare ((𝔡₂ c).before 4 t d))
    ∗ (∃ d, owns (c : Thread nD τ) (ms2_5 t) fullShare ((𝔡₂ c).before 5 t d)))

/-- and what it returns. -/
def bodyPost2 (c : Dev nD) (t : Fin cfg2.N) : sProp 𝕄 :=
  iprop((𝔡₂ c).Φ t.succ ∗ (𝔡₂ c).owesAt ι t.succ
    ∗ (𝔡₂ c).leavesExact 0 t
    ∗ (𝔡₂ c).leavesExact 1 t
    ∗ (𝔡₂ c).leavesExact 2 t
    ∗ (𝔡₂ c).leavesExact 3 t
    ∗ (𝔡₂ c).leavesExact 4 t
    ∗ (𝔡₂ c).leavesExact 5 t)

set_option maxHeartbeats 4800000 in
/-- The body at any point: the inputs' memrefs hold their blocks; the closed forms say which case the point is in; the
    invariant hands the body the carried scratch at what the point before left (at anything at the first point) and
    takes it back at this point's contents; the output's memref is handed back untouched except at the last point,
    where it is left at its pieces; the other scoped buffers and the core's owed tallies pass through unread. -/
theorem sound_body2 (c : Dev nD) (t : Fin cfg2.N) :
    (bodyPre2 (Ix := Ix) (Name := Name) (U := U) (Lvl := Lvl) Vt O B ι c t : sProp 𝕄) ⊢ wp frame (wpE (defs₀ (F := F)) Variants.none c none) Set.univ (bodyAt2 t) (fun _ => bodyPost2 (Ix := Ix) (Name := Name) (U := U) (Lvl := Lvl) Vt O B ι c t) := by
  unfold bodyPre2 bodyPost2 bodyAt2
  simp only [before2_0, before2_1, before2_2, before2_3, before2_4]
  rw [show (𝔡₂ c).owesAt ι t.succ = (𝔡₂ c).owesAt ι t.castSucc from rfl]
  rw [show (𝔡₂ c).Φ t.succ = 𝔓 c (t.val + 1) t.isLt from rfl, PhiS2_succ]
  have hN : t.val < 50 := lt_of_lt_of_eq t.isLt (show cfg2.N = 50 from N_2)
  rw [show (𝔡₂ c).leavesExact 0 t = owns (c : Thread nD τ) (ms2_0 t) fullShare ((𝔡₂ c).after 0 t) from by
    unfold Dat.leavesExact; rw [liveAt2_0 t], after2_0]
  rw [show (𝔡₂ c).leavesExact 1 t = owns (c : Thread nD τ) (ms2_1 t) fullShare ((𝔡₂ c).after 1 t) from by
    unfold Dat.leavesExact; rw [liveAt2_1 t], after2_1]
  rw [show (𝔡₂ c).leavesExact 2 t = owns (c : Thread nD τ) (ms2_2 t) fullShare ((𝔡₂ c).after 2 t) from by
    unfold Dat.leavesExact; rw [liveAt2_2 t], after2_2]
  rw [show (𝔡₂ c).leavesExact 3 t = owns (c : Thread nD τ) (ms2_3 t) fullShare ((𝔡₂ c).after 3 t) from by
    unfold Dat.leavesExact; rw [liveAt2_3 t], after2_3]
  rw [show (𝔡₂ c).leavesExact 4 t = owns (c : Thread nD τ) (ms2_4 t) fullShare ((𝔡₂ c).after 4 t) from by
    unfold Dat.leavesExact; rw [liveAt2_4 t], after2_4]
  by_cases hz : t.val = 0
  · have h1 : ¬t.val = 49 := by omega
    have hc0 : cond2_0 (grid2.coords t) := (hcond2_0 t).mpr hz
    have hc1 : ¬cond2_1 (grid2.coords t) := fun h => h1 ((hcond2_1 t).mp h)
    rw [Dat.leavesExact_idle (𝔡₂ c) 5 t (idleAt2_5 t hc1) (noFlush2_5 t hc1)]
    rw [outsAt2_A Vt c t hz h1]
    unfold sout2_A; (try dsimp only)
    rw [PhiS2_castSucc Vt O B c t, PhiS2_zero Vt c _ _ hz, PhiA2_eq]
    iintro ⟨⟨Ha, Hb, Hc, Hd, HS⟩, Ho, ⟨%d0, H0⟩, ⟨%d1, H1⟩, ⟨%d2, H2⟩, ⟨%d3, H3⟩, ⟨%d4, H4⟩, ⟨%d5, H5⟩⟩
    iapply ((kernelRun2_A (Ix := Ix) (Name := Name) (U := U) (Lvl := Lvl) c (grid2.coords t) _ _ _ _ _ _ _ _ _ _ _ _ _ _ hc0 hc1 (iblk2 Vt c 0 t) (iblk2 Vt c 1 t) (iblk2 Vt c 2 t) (iblk2 Vt c 3 t) (iblk2 Vt c 4 t)).2 _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, ⟨%es, HS⟩⟩
    isplitl [Ha Hb Hc Hd HS]
    ·
      isplitl [Ha]; · iexact Ha
      isplitl [Hb]; · iexact Hb
      isplitl [Hc]; · iexact Hc
      isplitl [Hd]; · iexact Hd
      unfold owns; iexists _; isplitr
      swap; · iexact HS
      ipureintro; exact View.read_writes_of_cover _ _ _ _ _ (scover2_A (Ix := Ix) (Name := Name) (U := U) (Lvl := Lvl) c _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val = 49
    · have hc0 : ¬cond2_0 (grid2.coords t) := fun h => hz ((hcond2_0 t).mp h)
      have hc1 : cond2_1 (grid2.coords t) := (hcond2_1 t).mpr h1
      rw [show (𝔡₂ c).leavesExact 5 t = owns (c : Thread nD τ) (ms2_5 t) fullShare ((𝔡₂ c).after 5 t) from by
        unfold Dat.leavesExact; rw [liveAt2_5 t hc1], after2_5]
      rw [outsAt2_C Vt c t hz h1]
      unfold out2_C sout2_C; (try dsimp only)
      rw [PhiS2_castSucc Vt O B c t, PhiS2_pos Vt c _ _ hz]
      iintro ⟨⟨Ha, Hb, Hc, Hd, HS⟩, Ho, ⟨%d0, H0⟩, ⟨%d1, H1⟩, ⟨%d2, H2⟩, ⟨%d3, H3⟩, ⟨%d4, H4⟩, ⟨%d5, H5⟩⟩
      iapply ((kernelRun2_C (Ix := Ix) (Name := Name) (U := U) (Lvl := Lvl) c (grid2.coords t) _ _ _ _ _ _ _ _ _ _ _ _ _ _ hc0 hc1 (iblk2 Vt c 0 t) (iblk2 Vt c 1 t) (iblk2 Vt c 2 t) (iblk2 Vt c 3 t) (iblk2 Vt c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [Ha Hb Hc Hd HS]
      ·
        isplitl [Ha]; · iexact Ha
        isplitl [Hb]; · iexact Hb
        isplitl [Hc]; · iexact Hc
        isplitl [Hd]; · iexact Hd
        unfold owns; iexists _; isplitr
        swap; · iexact HS
        ipureintro; exact View.read_writes_of_cover _ _ _ _ _ (scover2_C (Ix := Ix) (Name := Name) (U := U) (Lvl := Lvl) c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C (Ix := Ix) (Name := Name) (U := U) (Lvl := Lvl) c _ _ _ _ _ _ _ _ _ _ _ _ _ _ _ _ _ _ _ _ _ _ _)
    · have hc0 : ¬cond2_0 (grid2.coords t) := fun h => hz ((hcond2_0 t).mp h)
      have hc1 : ¬cond2_1 (grid2.coords t) := fun h => h1 ((hcond2_1 t).mp h)
      rw [Dat.leavesExact_idle (𝔡₂ c) 5 t (idleAt2_5 t hc1) (noFlush2_5 t hc1)]
      rw [outsAt2_B Vt c t hz h1]
      unfold sout2_B; (try dsimp only)
      rw [PhiS2_castSucc Vt O B c t, PhiS2_pos Vt c _ _ hz]
      iintro ⟨⟨Ha, Hb, Hc, Hd, HS⟩, Ho, ⟨%d0, H0⟩, ⟨%d1, H1⟩, ⟨%d2, H2⟩, ⟨%d3, H3⟩, ⟨%d4, H4⟩, ⟨%d5, H5⟩⟩
      iapply ((kernelRun2_B (Ix := Ix) (Name := Name) (U := U) (Lvl := Lvl) c (grid2.coords t) _ _ _ _ _ _ _ _ _ _ _ _ _ _ hc0 hc1 (iblk2 Vt c 0 t) (iblk2 Vt c 1 t) (iblk2 Vt c 2 t) (iblk2 Vt c 3 t) (iblk2 Vt c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [Ha Hb Hc Hd HS]
      ·
        isplitl [Ha]; · iexact Ha
        isplitl [Hb]; · iexact Hb
        isplitl [Hc]; · iexact Hc
        isplitl [Hd]; · iexact Hd
        unfold owns; iexists _; isplitr
        swap; · iexact HS
        ipureintro; exact View.read_writes_of_cover _ _ _ _ _ (scover2_B (Ix := Ix) (Name := Name) (U := U) (Lvl := Lvl) c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (𝔡₂ c) (defs₀ (F := F)) Variants.none ι Set.univ := fun t => by
  rw [bigSep_W2, bigSep_W2]
  exact sound_body2 (Ix := Ix) (Name := Name) (U := U) (Lvl := Lvl) Vt O B ι c t

/-- The scoped buffers that are no staging buffer of the pipeline are the invariant before the first point. -/
theorem hin2 (c : Dev nD) : (Pipeline.scopedRest spec2 c : sProp 𝕄) ⊢ (𝔡₂ c).Φ 0 := by
  rw [show (𝔡₂ c).Φ 0 = 𝔓 c 0 (Nat.zero_le _) from rfl, PhiS2_zero Vt c 0 _ rfl]
  try exact Idealize.SL.BI.Entails.refl _

/-- After the last point the invariant gives them back: the carried scratch's named contents are forgotten. -/
theorem hout2 (c : Dev nD) : (𝔡₂ c).Φ (Fin.last cfg2.N) ⊢ (Pipeline.scopedRest spec2 c : sProp 𝕄) := by
  rw [show (𝔡₂ c).Φ (Fin.last cfg2.N) = 𝔓 c (Fin.last cfg2.N).val (Nat.le_of_lt_succ (Fin.last cfg2.N).isLt) from rfl,
    PhiS2_pos Vt c _ _ (by rw [Fin.val_last]; have : cfg2.N = 50 := N_2; omega), PhiA2_eq]
  iintro ⟨Ha, Hb, Hc, Hd, HS⟩
  isplitl [Ha]; · iexact Ha
  isplitl [Hb]; · iexact Hb
  isplitl [Hc]; · iexact Hc
  isplitl [Hd]; · iexact Hd
  iexists _; iexact HS

end Gru

end Cert.Proof.KB

end
-- ==== Proof.KBTcRegions.lean ====
/-
  The two TensorCore regions of the idealized program assembled: the proof data of both pipelines as one family,
  the body obligations, and each region as a segment of the main thread's program — entered from every unscoped
  buffer of the core held at a valuation beside the core's owed tallies, left with those buffers at the valuation
  updated at the region's arrays: the inputs unchanged, the output array at what the pipeline's write-backs leave.
-/
import proofs.«204407_g76768245448983_cont_9to1_m_970_19_alg».proof.Proof.KBTcPad
import proofs.«204407_g76768245448983_cont_9to1_m_970_19_alg».proof.Proof.KBTcGru

-- membership in a rectangle of full extents recurses once per coordinate of the long axes
set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type}

local notation "𝕄" => MT nD τ sig Ix (Elt F) Name U Lvl

section Regions

/-- A valuation of the core's buffers read at the TensorCore's references: the entry contents the proof data take. -/
abbrev Vof (W : Dev nD → Valuation τ sig (Elt F)) : (c : Dev nD) → (b : Ref sig .tc) → Buf (Elt F) ((c : Thread nD τ).loc b) :=
  fun c b => W c b

variable (V0 V1 : (c : Dev nD) → (b : Ref sig .tc) → Buf (Elt F) ((c : Thread nD τ).loc b))
  (O : (p : Fin 2) → Dev nD → CellTallies nD τ sig Ix) (B : (p : Fin 2) → Dev nD → Set (SemLoc sig × Ix))

variable [Preorder Lvl]

/-- Both pipelines' proof data, each at its region's entry contents, owed tallies and recorded bound: a literal
    match on the pipeline, so that the pinned configuration at a numeral reduces to the printed one. -/
def pdats : (p : Fin 2) → (c : Dev nD) → Dat τ (Elt F) Ix Name U Lvl (Pipeline.pin (pcfgs (F := F)) adm p) c
  | ⟨0, _⟩ => fun c => dat0 V0 (O 0) (B 0) c
  | ⟨1, _⟩ => fun c => dat2 V1 (O 1) (B 1) c

variable (ι : Ix) (L : GSem nD τ sig → Finset Ix) (lv : GSem nD τ sig → Ix → Lvl)

set_option backward.isDefEq.respectTransparency.types false in
/-- The padding kernel's body obligation, on every core. -/
theorem body0 (c : Dev nD) : Pipeline.BodyObligationLoose (pdats (Ix := Ix) (Name := Name) (U := U) (Lvl := Lvl) V0 V1 O B 0 c) defs₀ 𝒱₀ ι Set.univ :=
  (body_obligation0 V0 (O 0) (B 0) ι c).loose

set_option backward.isDefEq.respectTransparency.types false in
/-- The recurrent kernel's body obligation, on every core. -/
theorem body2 (c : Dev nD) : Pipeline.BodyObligationLoose (pdats (Ix := Ix) (Name := Name) (U := U) (Lvl := Lvl) V0 V1 O B 1 c) defs₀ 𝒱₀ ι Set.univ :=
  (body_obligation2 V1 (O 1) (B 1) ι c).loose

/-! ## The buffer contents at the regions' boundaries -/

variable (Wa0 Wa1 : Dev nD → Valuation τ sig (Elt F))

local notation "𝔭" => pdats (Ix := Ix) (Name := Name) (U := U) (Lvl := Lvl) (Vof Wa0) (Vof Wa1) O B

/-- At region 0's exit: its arrays at what the pipeline leaves (the table as entered, the padded table's write-backs
    folded), every other buffer as entered. -/
def Wout0 (c : Dev nD) : Valuation τ sig (Elt F) :=
  Pipeline.withArrays spec0 c (Wa0 c) fun w => (dat0 (Ix := Ix) (Name := Name) (U := U) (Lvl := Lvl) (Vof Wa0) (O 0) (B 0) c).arrAt w cfg0.N

local notation "𝔴₀" => Wout0 (Ix := Ix) (Name := Name) (U := U) (Lvl := Lvl) O B Wa0

theorem Wout0_arr (c : Dev nD) (w : Fin cfg0.W) :
    𝔴₀ c (Proc.devRef .tc (Pipeline.arrRef spec0 w)) = (dat0 (Ix := Ix) (Name := Name) (U := U) (Lvl := Lvl) (Vof Wa0) (O 0) (B 0) c).arrAt w cfg0.N := by
  unfold Wout0; exact Pipeline.withArrays_arr spec0 launch0.win.arr_inj c _ _ w
theorem Wout0_of_ne (c : Dev nD) (b : Ref sig .tc) (hb : ∀ w, Pipeline.arrRef spec0 w ≠ b) :
    𝔴₀ c (Proc.devRef .tc b) = Wa0 c (Proc.devRef .tc b) := by
  unfold Wout0; exact Pipeline.withArrays_of_ne spec0 c _ _ b hb
/-- At region 0's exit each of its arrays holds what the pipeline leaves, and every other buffer what it held at entry. -/
theorem hF0 (c : Dev nD) (w : Fin cfg0.W) : (dat0 (Ix := Ix) (Name := Name) (U := U) (Lvl := Lvl) (Vof Wa0) (O 0) (B 0) c).arrAt w cfg0.N = Vof 𝔴₀ c (Pipeline.arrRef spec0 w) :=
  (Wout0_arr O B Wa0 c w).symm
theorem hrest0 (c : Dev nD) : ∀ b, b ∉ Finset.univ.image (Pipeline.arrRef spec0) → Vof 𝔴₀ c b = Vof Wa0 c b :=
  fun b hb => Wout0_of_ne O B Wa0 c b fun w e => hb (Finset.mem_image.mpr ⟨w, Finset.mem_univ _, e⟩)

/-! ## Region 0 as a segment -/

set_option backward.isDefEq.respectTransparency.types false in
/-- REGION 0 as a segment: entered from every unscoped buffer at `Wa0` beside the core's owed tallies (its recorded
    pairs within the bound and the pipeline's own), left at `Wout0` beside the same. Its arrays split out of the
    unscoped buffers and put back at the exit contents; the invariant the scoped buffers that are no staging buffer
    of the pipeline; no semaphore of the kernel's own; the wait evidence supplied. -/
def seg0 (hw : ∀ c, (levAts L lv : sProp 𝕄) ⊢ Pipeline.cellsWaits (Pipeline.pin (pcfgs (F := F)) adm) 𝔭 ι 0 c) :
    Pipeline.RegionSeg (pcfgs (F := F)) adm 𝔭 ι defs₀ 𝒱₀ L lv 0 where
  win := launch0.win.to₀
  block_pos := launch0.block_pos
  stage_whole := launch0.stage_whole
  K := PEmpty
  osem k := k.elim
  ho := Pipeline.OwnSemFacts.none _
  hbody c := body0 (Vof Wa0) (Vof Wa1) O B ι c
  hwaits := hw
  pre c := iprop(StableHlo.held (c : Thread nD τ) (Pipeline.ucRefs τ sig) (Wa0 c) ∗ Pipeline.owesWithin c (O 0 c) (B 0 c ∪ cfg0.waitPairs ι))
  post c := iprop(StableHlo.held (c : Thread nD τ) (Pipeline.ucRefs τ sig) (𝔴₀ c) ∗ Pipeline.owesWithin c (O 0 c) (B 0 c ∪ cfg0.waitPairs ι))
  X _ := iprop(emp)
  Y _ := iprop(emp)
  Z c := Pipeline.unscopedRest (Ix := Ix) (Name := Name) (U := U) (Lvl := Lvl) spec0 c (Vof Wa0 c)
  hentry c := by
    rw [Pipeline.ownSems0_none]
    have hsplit := Pipeline.arrays_of_unscopedBufs (p := 0) (pcfgs (F := F)) adm 𝔭 launch0.win launch0.arr_whole c
      ((𝔭 0 c).share_full fun _ => rfl) (Vof Wa0 c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iexact HO
    isplitr; · iempintro
    iexact Hrest
  hin c := by
    rw [show (𝔭 0 c).Φ 0 = Pipeline.scopedRest spec0 c from rfl]
    iintro ⟨-, -, Hr⟩
    iexact Hr
  hout c := by
    rw [Pipeline.ownSems0_none, show (𝔭 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := Ix) (Name := Name) (U := U) (Lvl := Lvl)
      launch0.win launch0.arr_whole c 𝔭 ((𝔭 0 c).share_full fun _ => rfl)
      (Vof Wa0 c) (Vof 𝔴₀ c) ((𝔭 0 c).arrAt · cfg0.N) (hF0 O B Wa0 c) (hrest0 O B Wa0 c)
    rw [Pipeline.unscopedBufs_held] at hjoin
    iintro ⟨Ha, HO, -, Hrest⟩
    imodintro
    isplitl [Ha Hrest]
    · iapply hjoin; isplitl [Ha] <;> iassumption
    iexact HO

/-- At region 1's exit: its arrays at what the pipeline leaves (the five inputs as entered, the output array's one
    write-back folded), every other buffer as entered. -/
def Wout1 (c : Dev nD) : Valuation τ sig (Elt F) :=
  Pipeline.withArrays spec2 c (Wa1 c) fun w => (dat2 (Ix := Ix) (Name := Name) (U := U) (Lvl := Lvl) (Vof Wa1) (O 1) (B 1) c).arrAt w cfg2.N

local notation "𝔴₁" => Wout1 (Ix := Ix) (Name := Name) (U := U) (Lvl := Lvl) O B Wa1

theorem Wout1_arr (c : Dev nD) (w : Fin cfg2.W) :
    𝔴₁ c (Proc.devRef .tc (Pipeline.arrRef spec2 w)) = (dat2 (Ix := Ix) (Name := Name) (U := U) (Lvl := Lvl) (Vof Wa1) (O 1) (B 1) c).arrAt w cfg2.N := by
  unfold Wout1; exact Pipeline.withArrays_arr spec2 launch2.win.arr_inj c _ _ w
theorem Wout1_of_ne (c : Dev nD) (b : Ref sig .tc) (hb : ∀ w, Pipeline.arrRef spec2 w ≠ b) :
    𝔴₁ c (Proc.devRef .tc b) = Wa1 c (Proc.devRef .tc b) := by
  unfold Wout1; exact Pipeline.withArrays_of_ne spec2 c _ _ b hb
theorem hF1 (c : Dev nD) (w : Fin cfg2.W) : (dat2 (Ix := Ix) (Name := Name) (U := U) (Lvl := Lvl) (Vof Wa1) (O 1) (B 1) c).arrAt w cfg2.N = Vof 𝔴₁ c (Pipeline.arrRef spec2 w) :=
  (Wout1_arr O B Wa1 c w).symm
theorem hrest1 (c : Dev nD) : ∀ b, b ∉ Finset.univ.image (Pipeline.arrRef spec2) → Vof 𝔴₁ c b = Vof Wa1 c b :=
  fun b hb => Wout1_of_ne O B Wa1 c b fun w e => hb (Finset.mem_image.mpr ⟨w, Finset.mem_univ _, e⟩)

/-! ## Region 1 as a segment -/

set_option backward.isDefEq.respectTransparency.types false in
/-- REGION 1 as a segment: entered from every unscoped buffer at `Wa1` beside the core's owed tallies, left at
    `Wout1` beside the same. The invariant starts as the scoped buffers that are no staging buffer of the pipeline
    (the scratch among them, at anything) and gives them back after the last point; no semaphore of the kernel's
    own; the wait evidence supplied. -/
def seg1 (hw : ∀ c, (levAts L lv : sProp 𝕄) ⊢ Pipeline.cellsWaits (Pipeline.pin (pcfgs (F := F)) adm) 𝔭 ι 1 c) :
    Pipeline.RegionSeg (pcfgs (F := F)) adm 𝔭 ι defs₀ 𝒱₀ L lv 1 where
  win := launch2.win.to₀
  block_pos := launch2.block_pos
  stage_whole := launch2.stage_whole
  K := PEmpty
  osem k := k.elim
  ho := Pipeline.OwnSemFacts.none _
  hbody c := body2 (Vof Wa0) (Vof Wa1) O B ι c
  hwaits := hw
  pre c := iprop(StableHlo.held (c : Thread nD τ) (Pipeline.ucRefs τ sig) (Wa1 c) ∗ Pipeline.owesWithin c (O 1 c) (B 1 c ∪ cfg2.waitPairs ι))
  post c := iprop(StableHlo.held (c : Thread nD τ) (Pipeline.ucRefs τ sig) (𝔴₁ c) ∗ Pipeline.owesWithin c (O 1 c) (B 1 c ∪ cfg2.waitPairs ι))
  X _ := iprop(emp)
  Y _ := iprop(emp)
  Z c := Pipeline.unscopedRest (Ix := Ix) (Name := Name) (U := U) (Lvl := Lvl) spec2 c (Vof Wa1 c)
  hentry c := by
    rw [Pipeline.ownSems0_none]
    have hsplit := Pipeline.arrays_of_unscopedBufs (p := 1) (pcfgs (F := F)) adm 𝔭 launch2.win launch2.arr_whole c
      ((𝔭 1 c).share_full fun _ => rfl) (Vof Wa1 c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iexact HO
    isplitr; · iempintro
    iexact Hrest
  hin c := by
    rw [show (𝔭 1 c).Φ 0 = (dat2 (Ix := Ix) (Name := Name) (U := U) (Lvl := Lvl) (Vof Wa1) (O 1) (B 1) c).Φ 0 from rfl]
    iintro ⟨-, -, Hr⟩
    iapply (hin2 (Vof Wa1) (O 1) (B 1) c)
    iexact Hr
  hout c := by
    rw [Pipeline.ownSems0_none, show (𝔭 1 c).Φ (Fin.last _) = (dat2 (Ix := Ix) (Name := Name) (U := U) (Lvl := Lvl) (Vof Wa1) (O 1) (B 1) c).Φ (Fin.last cfg2.N) from rfl]
    iintro H
    isplitr; · iempintro
    isplitr; · iempintro
    iapply (hout2 (Vof Wa1) (O 1) (B 1) c)
    iexact H
  hexit c := by
    have hjoin := Pipeline.unscopedBufs_of_arrays (p := 1) (pcfgs (F := F)) adm (Ix := Ix) (Name := Name) (U := U) (Lvl := Lvl)
      launch2.win launch2.arr_whole c 𝔭 ((𝔭 1 c).share_full fun _ => rfl)
      (Vof Wa1 c) (Vof 𝔴₁ c) ((𝔭 1 c).arrAt · cfg2.N) (hF1 O B Wa1 c) (hrest1 O B Wa1 c)
    rw [Pipeline.unscopedBufs_held] at hjoin
    iintro ⟨Ha, HO, -, Hrest⟩
    imodintro
    isplitl [Ha Hrest]
    · iapply hjoin; isplitl [Ha] <;> iassumption
    iexact HO

end Regions

end Cert.Proof.KB

end
-- ==== Proof.KBHostA.lean ====
/-
  What the two host operations before the gather compute: the sentence indices, an array [1024, 50], transposed to
  [50, 1024] and flattened to [51200]. Entry t * 1024 + b of the flat array is the index of batch row b at step t.
  No other buffer is written.
-/
import proofs.«204407_g76768245448983_cont_9to1_m_970_19_alg».proof.Proof.KBMain
import Idealize.ShloMosaic.Lib.ValueLayout
import Idealize.ShloMosaic.Lib.Pipeline.Value
import Idealize.ShloMosaic.Lib.KernelVsHost
import Idealize.ShloMosaic.Lib.IdealHost

noncomputable section

namespace Cert.Proof.KB

open Cert.Kernel Cert.Kernel.Gen
open Idealize.ShloMosaic Idealize.ShloMosaic.ValueIdx
open Idealize.SL.Sem

variable {F : FTy → Type} [FloatOps F]

/-- The references the first stretch of host operations writes. -/
abbrev opsA_W : List (Ref sig .tc) := [main_v1, main_v2]

theorem opsA_writes :
    (opsA (F := F)).Forall fun op => op.writes ⊆ (opsA_W.map (Proc.devRef (τ := τ) .tc)).toFinset := by
  simp only [opsA, List.Forall]
  refine ⟨?_, ?_⟩ <;>
    (simp only [StableHlo.unary_writes, StableHlo.reshape_writes, Finset.singleton_subset_iff, List.mem_toFinset]
     exact List.mem_map_of_mem (by decide))

/-- A buffer other than the transposed and the flattened indices keeps its contents. -/
theorem opsA_frame (V : Valuation τ sig (Elt F)) (r : Ref sig .tc) (h : r ∉ opsA_W) :
    StableHlo.after (opsA (F := F)) V (Proc.devRef .tc r) = V (Proc.devRef .tc r) :=
  StableHlo.after_of_writes_sub opsA V opsA_writes h

theorem opsA_arg0 (V : Valuation τ sig (Elt F)) :
    StableHlo.after (opsA (F := F)) V (Proc.devRef .tc main_arg0) = V (Proc.devRef .tc main_arg0) := opsA_frame V _ (by decide)
theorem opsA_arg1 (V : Valuation τ sig (Elt F)) :
    StableHlo.after (opsA (F := F)) V (Proc.devRef .tc main_arg1) = V (Proc.devRef .tc main_arg1) := opsA_frame V _ (by decide)
theorem opsA_arg2 (V : Valuation τ sig (Elt F)) :
    StableHlo.after (opsA (F := F)) V (Proc.devRef .tc main_arg2) = V (Proc.devRef .tc main_arg2) := opsA_frame V _ (by decide)
theorem opsA_arg3 (V : Valuation τ sig (Elt F)) :
    StableHlo.after (opsA (F := F)) V (Proc.devRef .tc main_arg3) = V (Proc.devRef .tc main_arg3) := opsA_frame V _ (by decide)
theorem opsA_arg4 (V : Valuation τ sig (Elt F)) :
    StableHlo.after (opsA (F := F)) V (Proc.devRef .tc main_arg4) = V (Proc.devRef .tc main_arg4) := opsA_frame V _ (by decide)
theorem opsA_arg5 (V : Valuation τ sig (Elt F)) :
    StableHlo.after (opsA (F := F)) V (Proc.devRef .tc main_arg5) = V (Proc.devRef .tc main_arg5) := opsA_frame V _ (by decide)
theorem opsA_arg6 (V : Valuation τ sig (Elt F)) :
    StableHlo.after (opsA (F := F)) V (Proc.devRef .tc main_arg6) = V (Proc.devRef .tc main_arg6) := opsA_frame V _ (by decide)
theorem opsA_arg7 (V : Valuation τ sig (Elt F)) :
    StableHlo.after (opsA (F := F)) V (Proc.devRef .tc main_arg7) = V (Proc.devRef .tc main_arg7) := opsA_frame V _ (by decide)
theorem opsA_v0 (V : Valuation τ sig (Elt F)) :
    StableHlo.after (opsA (F := F)) V (Proc.devRef .tc main_v0) = V (Proc.devRef .tc main_v0) := opsA_frame V _ (by decide)

/-- The flattened indices as one term over the sentence array. -/
theorem idx_term (V : Valuation τ sig (Elt F)) :
    StableHlo.after (opsA (F := F)) V (Proc.devRef .tc main_v2)
      = (fun i => shapeCast S51200 (transpose S50x1024 [1, 0] (V (Proc.devRef .tc main_arg1)) transposes_S1024x50_S50x1024_1_0)
          shapeCasts_S50x1024_S51200 i) := by
  simp only [opsA]
  after_results
  rfl

/-- Entry t * 1024 + b of the flattened indices is the sentence array at (b, t). -/
theorem idx_apply (V : Valuation τ sig (Elt F)) (t : Fin 50) (b : Fin 1024) :
    StableHlo.after (opsA (F := F)) V (Proc.devRef .tc main_v2) (ix1 ⟨t.val * 1024 + b.val, by omega⟩)
      = V (Proc.devRef .tc main_arg1) (ix2 b t) := by
  rw [idx_term]
  show shapeCast S51200 _ _ _ = _
  rw [shapeCast_apply _ _ _ (ix2 t b) (by rw [Shape.rowMajor_val_two, Shape.rowMajor_val_one]; rfl)]
  exact transpose_ix2_apply _ _ t b

end Cert.Proof.KB

end
-- ==== Proof.KBHostB.lean ====
/-
  What the host operations between the gather and the recurrence leave alone, and three of the arrays they write, index by
  index: the gathered rows [51200, 128] viewed as [50, 1024, 128] (entry (t, b, k) is row t * 1024 + b, lane k); the output
  layer's weights [3, 100] transposed and padded with zero rows to [128, 3]; the output layer's bias [3] viewed as [1, 3].
-/
import proofs.«204407_g76768245448983_cont_9to1_m_970_19_alg».proof.Proof.KBMain
import Idealize.ShloMosaic.Lib.ValueLayout
import Idealize.ShloMosaic.Lib.Pipeline.Value
import Idealize.ShloMosaic.Lib.KernelVsHost
import Idealize.ShloMosaic.Lib.IdealHost

noncomputable section

namespace Cert.Proof.KB

open Cert.Kernel Cert.Kernel.Gen
open Idealize.ShloMosaic Idealize.ShloMosaic.ValueIdx
open Idealize.SL.Sem

variable {F : FTy → Type} [FloatOps F]

/-- The references the second stretch of host operations writes. -/
abbrev opsB_W : List (Ref sig .tc) :=
  [main_v4, main_v5, main_v6, main_c, main_call0_v0, main_v7, main_v8, main_v9, main_c_0, main_call1_v0, main_v10, main_cst, main_v11, main_v12, main_v13, main_v14, main_v15, main_v16, main_v17, main_v18, main_v19, main_v20, main_v21, main_v22, main_v23, main_v24, main_v25, main_v26, main_v27, main_c_1, main_call2_v0, main_v28, main_v29, main_c_2, main_call3_v0, main_v30, main_v31, main_v32, main_v33, main_v34, main_v35, main_v36, main_v37, main_v38, main_v39, main_v40, main_v41, main_v42, main_v43, main_v44, main_v45, main_v46, main_v47, main_c_3, main_call4_v0, main_v48, main_v49]

theorem opsB_writes :
    (opsB (F := F)).Forall fun op => op.writes ⊆ (opsB_W.map (Proc.devRef (τ := τ) .tc)).toFinset := by
  simp only [opsB, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.reshape_writes,
       StableHlo.nary_writes, Finset.singleton_subset_iff, List.mem_toFinset]
     exact List.mem_map_of_mem (by decide))

/-- A buffer none of these operations writes keeps its contents. -/
theorem opsB_frame (V : Valuation τ sig (Elt F)) (r : Ref sig .tc) (h : r ∉ opsB_W) :
    StableHlo.after (opsB (F := F)) V (Proc.devRef .tc r) = V (Proc.devRef .tc r) :=
  StableHlo.after_of_writes_sub opsB V opsB_writes h

theorem opsB_arg0 (V : Valuation τ sig (Elt F)) :
    StableHlo.after (opsB (F := F)) V (Proc.devRef .tc main_arg0) = V (Proc.devRef .tc main_arg0) := opsB_frame V _ (by decide)
theorem opsB_arg1 (V : Valuation τ sig (Elt F)) :
    StableHlo.after (opsB (F := F)) V (Proc.devRef .tc main_arg1) = V (Proc.devRef .tc main_arg1) := opsB_frame V _ (by decide)
theorem opsB_arg2 (V : Valuation τ sig (Elt F)) :
    StableHlo.after (opsB (F := F)) V (Proc.devRef .tc main_arg2) = V (Proc.devRef .tc main_arg2) := opsB_frame V _ (by decide)
theorem opsB_arg3 (V : Valuation τ sig (Elt F)) :
    StableHlo.after (opsB (F := F)) V (Proc.devRef .tc main_arg3) = V (Proc.devRef .tc main_arg3) := opsB_frame V _ (by decide)
theorem opsB_arg4 (V : Valuation τ sig (Elt F)) :
    StableHlo.after (opsB (F := F)) V (Proc.devRef .tc main_arg4) = V (Proc.devRef .tc main_arg4) := opsB_frame V _ (by decide)
theorem opsB_arg5 (V : Valuation τ sig (Elt F)) :
    StableHlo.after (opsB (F := F)) V (Proc.devRef .tc main_arg5) = V (Proc.devRef .tc main_arg5) := opsB_frame V _ (by decide)
theorem opsB_arg6 (V : Valuation τ sig (Elt F)) :
    StableHlo.after (opsB (F := F)) V (Proc.devRef .tc main_arg6) = V (Proc.devRef .tc main_arg6) := opsB_frame V _ (by decide)
theorem opsB_arg7 (V : Valuation τ sig (Elt F)) :
    StableHlo.after (opsB (F := F)) V (Proc.devRef .tc main_arg7) = V (Proc.devRef .tc main_arg7) := opsB_frame V _ (by decide)
theorem opsB_v0 (V : Valuation τ sig (Elt F)) :
    StableHlo.after (opsB (F := F)) V (Proc.devRef .tc main_v0) = V (Proc.devRef .tc main_v0) := opsB_frame V _ (by decide)
theorem opsB_v2 (V : Valuation τ sig (Elt F)) :
    StableHlo.after (opsB (F := F)) V (Proc.devRef .tc main_v2) = V (Proc.devRef .tc main_v2) := opsB_frame V _ (by decide)
theorem opsB_v3 (V : Valuation τ sig (Elt F)) :
    StableHlo.after (opsB (F := F)) V (Proc.devRef .tc main_v3) = V (Proc.devRef .tc main_v3) := opsB_frame V _ (by decide)

/-! ## The gathered rows, viewed by step and batch row -/

theorem emb_term (V : Valuation τ sig (Elt F)) :
    StableHlo.after (opsB (F := F)) V (Proc.devRef .tc main_v4)
      = (fun i => shapeCast S50x1024x128 (V (Proc.devRef .tc main_v3)) shapeCasts_S51200x128_S50x1024x128 i) := by
  simp only [opsB]
  after_results_simp
  rfl

/-- Entry (t, b, k) of the view is lane k of gathered row t * 1024 + b. -/
theorem emb_apply (V : Valuation τ sig (Elt F)) (t : Fin 50) (b : Fin 1024) (k : Fin 128) :
    StableHlo.after (opsB (F := F)) V (Proc.devRef .tc main_v4) (ix3 t b k)
      = V (Proc.devRef .tc main_v3) (ix2 ⟨t.val * 1024 + b.val, by omega⟩ k) := by
  rw [emb_term]
  show shapeCast S50x1024x128 _ _ _ = _
  refine shapeCast_apply (s := S51200x128) (t := S50x1024x128) _ _ _ _ ?_
  rw [Shape.rowMajor_val_two, Shape.rowMajor_val_three]
  rfl

/-! ## The output layer's weights and bias -/

/-- The value the padded rows hold: the integer zero converted. -/
abbrev padZero : FVec F S_ .f32 := sitofp .f32 (constantI S_ 32 0#32)

theorem wlin_term (V : Valuation τ sig (Elt F)) :
    StableHlo.after (opsB (F := F)) V (Proc.devRef .tc main_v48)
      = pad S128x3 ![0, 0] ![28, 0] ![0, 0]
          (transpose S100x3 [1, 0] (V (Proc.devRef .tc main_arg6)) transposes_S3x100_S100x3_1_0) (padZero (F := F))
          pads_S100x3_S128x3_0280_000 h_S_ := by
  simp only [opsB]
  after_results_simp
  rfl

/-- Row k < 100 of the padded weights is column k of the output layer's weights. -/
theorem wlin_apply (V : Valuation τ sig (Elt F)) (k : Fin 100) (c : Fin 3) :
    StableHlo.after (opsB (F := F)) V (Proc.devRef .tc main_v48) (ix2 ⟨k.val, by omega⟩ c)
      = V (Proc.devRef .tc main_arg6) (ix2 c k) := by
  rw [wlin_term]
  rw [pad_apply_of_inside _ _ _ _ _ _ _ _ (ix2 k c) (fun a => match a with
    | ⟨0, _⟩ => by show k.val = 0 + k.val * (0 + 1); omega
    | ⟨1, _⟩ => by show c.val = 0 + c.val * (0 + 1); omega)]
  exact transpose_ix2_apply _ _ k c

/-- Rows 100 to 127 of the padded weights hold the padding value. -/
theorem wlin_pad_any (V : Valuation τ sig (Elt F)) (k : Fin 28) (c : Fin 3) :
    StableHlo.after (opsB (F := F)) V (Proc.devRef .tc main_v48) (ix2 ⟨100 + k.val, by omega⟩ c)
      = padZero (F := F) (Shape.Idx.first h_S_) := by
  rw [wlin_term]
  exact pad_apply_of_not_inside _ _ _ _ _ _ _ _ (0 : Fin 2) (by
    show ¬(0 ≤ 100 + k.val ∧ (100 + k.val - 0) % (0 + 1) = 0 ∧ (100 + k.val - 0) / (0 + 1) < 100)
    omega)

/-- Over the extended reals the padding value is zero. -/
theorem padZero_ideal (i : S_.Idx) : padZero (F := Ideal) i = 0 := by
  show (((0#32 : BitVec 32).toInt : ℝ) : EReal) = 0
  rw [show (0#32 : BitVec 32).toInt = 0 from by decide, Int.cast_zero, EReal.coe_zero]

/-- Over the extended reals rows 100 to 127 of the padded weights are zero. -/
theorem wlin_pad (V : Valuation τ sig (Elt Ideal)) (k : Fin 28) (c : Fin 3) :
    StableHlo.after (opsB (F := Ideal)) V (Proc.devRef .tc main_v48) (ix2 ⟨100 + k.val, by omega⟩ c) = (0 : EReal) := by
  rw [wlin_pad_any, padZero_ideal]

theorem blin_term (V : Valuation τ sig (Elt F)) :
    StableHlo.after (opsB (F := F)) V (Proc.devRef .tc main_v49)
      = (fun i => shapeCast S1x3 (V (Proc.devRef .tc main_arg7)) shapeCasts_S3_S1x3 i) := by
  simp only [opsB]
  after_results_simp
  rfl

/-- The bias viewed as one row. -/
theorem blin_apply (V : Valuation τ sig (Elt F)) (c : Fin 3) :
    StableHlo.after (opsB (F := F)) V (Proc.devRef .tc main_v49) (ix2 (0 : Fin 1) c)
      = V (Proc.devRef .tc main_arg7) (ix1 c) := by
  rw [blin_term]
  show shapeCast S1x3 _ _ _ = _
  exact shapeCast_a_1a_apply _ _ 0 c

end Cert.Proof.KB

end
-- ==== Proof.KBHostRange.lean ====
/-
  Every entry of the flattened, transposed sentence indices is an entry of the sentence array: a bound on all entries
  of the array is a bound on all entries of the flat one.
-/
import proofs.«204407_g76768245448983_cont_9to1_m_970_19_alg».proof.Proof.KBHostA

noncomputable section

namespace Cert.Proof.KB

open Cert.Kernel Cert.Kernel.Gen
open Idealize.ShloMosaic Idealize.ShloMosaic.ValueIdx
open Idealize.SL.Sem

variable {F : FTy → Type} [FloatOps F]

/-- Each entry of the flat indices is the sentence array at some index: a transpose and a reshape only move entries. -/
theorem idx_mem (V : Valuation τ sig (Elt F)) (j : S51200.Idx) :
    ∃ i : S1024x50.Idx, StableHlo.after (opsA (F := F)) V (Proc.devRef .tc main_v2) j = V (Proc.devRef .tc main_arg1) i := by
  rw [idx_term]
  exact ⟨_, rfl⟩

/-- A bound on every sentence index bounds every entry of the flat indices. -/
theorem idx_range (V : Valuation τ sig (Elt F)) (h : ∀ i, BitVec.toNat (V (Proc.devRef .tc main_arg1) i) < 100000)
    (j : S51200.Idx) : BitVec.toNat (StableHlo.after (opsA (F := F)) V (Proc.devRef .tc main_v2) j) < 100000 := by
  obtain ⟨i, hi⟩ := idx_mem V j
  rw [hi]
  exact h i

end Cert.Proof.KB

end
-- ==== Proof.KBFinal.lean ====
/-
  The idealized kernel program's run with every piece named: the two TensorCore regions' proof data at the contents they
  are entered from, the SparseCore call's handshake payloads at the padded table and the flattened indices, and the
  contents of every unscoped buffer from the launch memory to the end — so that the run's post states each argument
  array unchanged and the result array as one function of the launch memory.
-/
import proofs.«204407_g76768245448983_cont_9to1_m_970_19_alg».proof.Proof.KBLaunch
import proofs.«204407_g76768245448983_cont_9to1_m_970_19_alg».proof.Proof.KBScTile2
import proofs.«204407_g76768245448983_cont_9to1_m_970_19_alg».proof.Proof.KBTcRegions
import proofs.«204407_g76768245448983_cont_9to1_m_970_19_alg».proof.Proof.KBHostA
import proofs.«204407_g76768245448983_cont_9to1_m_970_19_alg».proof.Proof.KBHostB
import proofs.«204407_g76768245448983_cont_9to1_m_970_19_alg».proof.Proof.KBHostRange

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Inst

variable (m : (ℓ : Loc nD τ sig) → Buf (Elt F) ℓ) (ρ : Dev nD → PrngReg)

/-- What the TensorCore owes before call `p`, and the bound on its recorded pairs there. -/
abbrev Op : (p : Fin 2) → Dev nD → CellTallies nD τ sig (HIx 1) := fun p d => (K (F := F)).Otc d p.val
abbrev Bp : (p : Fin 2) → Dev nD → Set (SemLoc sig × HIx 1) := fun p d => BB (F := F) p.val d

/-- The contents the first region leaves: the launch contents with the padded table written. -/
def Wr1 (d : Dev nD) : Valuation τ sig (Elt F) :=
  Wout0 (Ix := HIx 1) (Name := ℕ) (U := UU) (Lvl := ℕ) (Op (F := F)) (Bp (F := F)) (W0 m) d
/-- The padded table and the flattened indices as the SparseCore call finds them. -/
def tpv (d : Dev nD) : Buf (Elt F) (tLoc d) := W2 (Wr1 m) d v0'
def ixv (d : Dev nD) : Buf (Elt F) (iLoc d) := W2 (Wr1 m) d v2'
/-- The gathered rows. -/
def gv (d : Dev nD) : Buf (Elt F) (oLoc d) := gath (tpv m) (ixv m) d
/-- The contents the second region is entered from, and those it leaves. -/
def Wr4 (d : Dev nD) : Valuation τ sig (Elt F) := W4 (Wr1 m) (gv m) d
def Wr5 (d : Dev nD) : Valuation τ sig (Elt F) :=
  Wout1 (Ix := HIx 1) (Name := ℕ) (U := UU) (Lvl := ℕ) (Op (F := F)) (Bp (F := F)) (Wr4 m) d

/-- Both regions' proof data. -/
abbrev pd : (p : Fin 2) → (c : Dev nD) → Pipeline.Dat τ (Elt F) (HIx 1) ℕ UU ℕ (Pipeline.pin (pcfgs (F := F)) adm p) c :=
  pdats (Ix := HIx 1) (Name := ℕ) (U := UU) (Lvl := ℕ) (Vof (W0 m)) (Vof (Wr4 m)) (Op (F := F)) (Bp (F := F))

/-- The TensorCore may wait on a region's staging cells at the kernel's own index whatever start signals it owes. -/
theorem hw (p : Fin 2) (c : Dev nD) :
    (levAts (K (F := F)).L (K (F := F)).lev : sProp 𝕄) ⊢ Pipeline.cellsWaits (Pipeline.pin (pcfgs (F := F)) adm) (pd m) (none : HIx 1) p c :=
  Pipeline.cellsWaits_intro (Pipeline.pin (pcfgs (F := F)) adm) (pd m) (none : HIx 1) p c fun w s t => by
    have h : ((pd m) p c).owed t = (K (F := F)).Otc c p.val := by
      match p with
      | ⟨0, _⟩ => rfl
      | ⟨1, _⟩ => rfl
    rw [h]
    exact (K (F := F)).mayWait_none _ (Otc_none c p.val)

def R0 : Pipeline.RegionSeg (pcfgs (F := F)) adm (pd m) (none : HIx 1) defs₀ 𝒱₀ (K (F := F)).L (K (F := F)).lev 0 :=
  seg0 (Ix := HIx 1) (Name := ℕ) (U := UU) (Lvl := ℕ) (Op (F := F)) (Bp (F := F)) (none : HIx 1) (K (F := F)).L (K (F := F)).lev (W0 m) (Wr4 m) (hw m 0)
def R1 : Pipeline.RegionSeg (pcfgs (F := F)) adm (pd m) (none : HIx 1) defs₀ 𝒱₀ (K (F := F)).L (K (F := F)).lev 1 :=
  seg1 (Ix := HIx 1) (Name := ℕ) (U := UU) (Lvl := ℕ) (Op (F := F)) (Bp (F := F)) (none : HIx 1) (K (F := F)).L (K (F := F)).lev (W0 m) (Wr4 m) (hw m 1)

omit [FloatOps F] in
theorem waitPairs_none (cfg : Pipeline.Cfg sig Λ₀) : ∀ x ∈ cfg.waitPairs (none : HIx 1), x.2 = none := by
  rintro x ⟨w, s, rfl⟩; rfl

/-- The program's run: every unscoped buffer ends at the last contents. -/
theorem run_named [∀ e, Nonempty (Elt F e)] (hix : ∀ d j, (ixv m d j).toNat < 100000) :
    θ_run (Cert.Kernel.defs (F := F)) (Cert.Kernel.threads (F := F)) ⟨m, fun _ => 0, ρ⟩ (QC (F := F) (Wr5 m)) :=
  run_main m ρ (P2 (tpv m) (ixv m)) (pd m) (R0 m) (R1 m) (Wr1 m) (Wr5 m) (gv m)
    (cfg0.waitPairs (none : HIx 1)) (cfg2.waitPairs (none : HIx 1)) (waitPairs_none cfg0) (waitPairs_none cfg2)
    (fun _ => rfl) (fun _ => rfl) (fun _ => rfl) (fun _ => rfl)
    (fun d => st0_join2 (tpv m) (ixv m) d) (fun d => dn0_split2 (tpv m) (ixv m) d)
    (fun _ _ => rfl) rfl (tileObl2 (tpv m) (ixv m) hix) (SparseCore.Cfg.VecSplit.of_plain (vecSplit2 (tpv m) (ixv m)))

end Inst

/-! ## The argument arrays end unchanged -/

section Keep

variable (m : (ℓ : Loc nD τ sig) → Buf (Elt F) ℓ)

/-- A buffer neither region writes, no host operation writes and the SparseCore call does not write keeps the contents the
    first region left. -/
theorem Wr5_keep (c : Dev nD) (b : Ref sig .tc) (h2 : ∀ w, Pipeline.arrRef spec2 w ≠ b) (hB : b ∉ opsB_W)
    (h3 : (Proc.devRef .tc b : DevRef τ sig) ≠ v3') (hA : b ∉ opsA_W) :
    Wr5 m c (Proc.devRef .tc b) = Wr1 m c (Proc.devRef .tc b) := by
  unfold Wr5
  rw [Wout1_of_ne _ _ _ c b h2]
  unfold Wr4 W4
  rw [opsB_frame _ b hB]
  unfold W3
  rw [Function.update_of_ne h3]
  unfold W2
  exact opsA_frame _ b hA

/-- An argument array other than the table. -/
theorem Wr5_arg (c : Dev nD) (b : Ref sig .tc) (h0 : ∀ w, Pipeline.arrRef spec0 w ≠ b) (h2 : ∀ w, Pipeline.arrRef spec2 w ≠ b) (hB : b ∉ opsB_W)
    (h3 : (Proc.devRef .tc b : DevRef τ sig) ≠ v3') (hA : b ∉ opsA_W) :
    Wr5 m c (Proc.devRef .tc b) = m ((c.tc : Thread nD τ).loc b) := by
  rw [Wr5_keep m c b h2 hB h3 hA]
  unfold Wr1
  rw [Wout0_of_ne _ _ _ c b h0]
  rfl

/-- The table: the first region's input window, which the pipeline leaves as it found it. -/
theorem Wr5_arg0 (c : Dev nD) : Wr5 m c (Proc.devRef .tc main_arg0) = m ((c.tc : Thread nD τ).loc main_arg0) := by
  rw [Wr5_keep m c main_arg0 (by decide) (by decide) (by decide) (by decide)]
  unfold Wr1
  refine (Wout0_arr (Ix := HIx 1) (Name := ℕ) (U := UU) (Lvl := ℕ) (Op (F := F)) (Bp (F := F)) (W0 m) c 0).trans ?_
  exact Pipeline.Dat.arrAt_in _ 0 rfl _

/-- The indices the SparseCore call reads are the argument's, re-laid: each names a row when the argument's do. -/
theorem hix_of_range (h : ∀ (d : Dev nD) i, BitVec.toNat (m ((d.tc : Thread nD τ).loc main_arg1) i) < 100000) (d : Dev nD) (j : S51200.Idx) :
    BitVec.toNat (ixv m d j) < 100000 := by
  unfold ixv W2
  refine idx_range (Wr1 m d) (fun i => ?_) j
  have e : Wr1 m d (Proc.devRef .tc main_arg1) = m ((d.tc : Thread nD τ).loc main_arg1) := by
    unfold Wr1
    rw [Wout0_of_ne _ _ _ d main_arg1 (by decide)]
    rfl
  rw [e]; exact h d i

end Keep

/-! ## The run with the result named and the arguments unchanged -/

section Strong

variable (m : (ℓ : Loc nD τ sig) → Buf (Elt F) ℓ) (ρ : Dev nD → PrngReg)

/-- The result array's last contents on device `c`. -/
def resultOf (c : Dev nD) : Buf (Elt F) ((c.tc : Thread nD τ).loc main_v50) := Wr5 m c (Proc.devRef .tc main_v50)

theorem run_strong [∀ e, Nonempty (Elt F e)] (h : ∀ (d : Dev nD) i, BitVec.toNat (m ((d.tc : Thread nD τ).loc main_arg1) i) < 100000) :
    θ_run (Cert.Kernel.defs (F := F)) (Cert.Kernel.threads (F := F)) ⟨m, fun _ => 0, ρ⟩ (fun r => ∀ c : Dev nD,
      r.2.mem ((c.tc : Thread nD τ).loc main_v50) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (Cert.Kernel.defs (F := F)) _ _).mono (fun r hr c =>
    ⟨hr c (Proc.devRef .tc main_v50) (by decide),
     (hr c (Proc.devRef .tc main_arg0) (by decide)).trans (Wr5_arg0 m c),
     (hr c (Proc.devRef .tc main_arg1) (by decide)).trans (Wr5_arg m c main_arg1 (by decide) (by decide) (by decide) (by decide) (by decide)),
     (hr c (Proc.devRef .tc main_arg2) (by decide)).trans (Wr5_arg m c main_arg2 (by decide) (by decide) (by decide) (by decide) (by decide)),
     (hr c (Proc.devRef .tc main_arg3) (by decide)).trans (Wr5_arg m c main_arg3 (by decide) (by decide) (by decide) (by decide) (by decide)),
     (hr c (Proc.devRef .tc main_arg4) (by decide)).trans (Wr5_arg m c main_arg4 (by decide) (by decide) (by decide) (by decide) (by decide)),
     (hr c (Proc.devRef .tc main_arg5) (by decide)).trans (Wr5_arg m c main_arg5 (by decide) (by decide) (by decide) (by decide) (by decide)),
     (hr c (Proc.devRef .tc main_arg6) (by decide)).trans (Wr5_arg m c main_arg6 (by decide) (by decide) (by decide) (by decide) (by decide)),
     (hr c (Proc.devRef .tc main_arg7) (by decide)).trans (Wr5_arg m c main_arg7 (by decide) (by decide) (by decide) (by decide) (by decide))⟩)
    (run_named m ρ (hix_of_range m h))

end Strong

end Cert.Proof.KB

end
-- ==== Proof.RefFrame.lean ====
/-
  The idealized reference's frame: it runs to the end, faults nowhere and leaves its eight argument arrays as it
  found them. This is the reference's run (each result at its operations' composed term, the arguments unchanged)
  with the statement about the result dropped.
-/
import proofs.«204407_g76768245448983_cont_9to1_m_970_19_alg».proof.Defs
import proofs.«204407_g76768245448983_cont_9to1_m_970_19_alg».proof.Proof.Gen.ReferenceIdeal
import proofs.«204407_g76768245448983_cont_9to1_m_970_19_alg».proof.Proof.Gen.Pre_input_domain
import proofs.«204407_g76768245448983_cont_9to1_m_970_19_alg».proof.Proof.Gen.ReferenceIdeal.Run

noncomputable section

namespace Cert.Proof.Ref

open Idealize.ShloMosaic Idealize.SL.Sem

/-- The reference terminates without a fault and its arguments end unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.Ref

end
-- ==== Proof.Spec.lean ====
/-
  The specification: the result as ONE function of the eight argument arrays over the extended reals, index by
  index, over literal shapes. An embedding lookup feeds a gated recurrent unit run for 50 steps from the zero
  state, and a linear layer reads the last state:

    x t b k = table (sentences b t) k
    gi = x · W_ihᵀ + b_ih,   gh = h · W_hhᵀ + b_hh            (300 wide: three gates of 100)
    r = logistic (gi_r + gh_r),  z = logistic (gi_z + gh_z),  n = tanh (gi_n + r * gh_n)
    h' = (1 - z) * n + z * h,   h₀ = 0
    out b c = Σ_j h₅₀ b j * W_lin c j + b_lin c

  This module imports no program. It also proves that every state of the recurrence is a real number: the
  logistic function and the hyperbolic tangent take every extended real to a real.
-/
import Idealize.ShloMosaic.PureOps.Ideal
import Idealize.ShloMosaic.Lib.ValueIdx

noncomputable section

namespace Cert.Proof.Spec

open Idealize.ShloMosaic Idealize.ShloMosaic.ValueIdx

/-- The table row a 32-bit word names: the word read signed, clamped into the table's 100000 rows. -/
def row (w : BitVec 32) : Fin 100000 := ⟨min w.toInt.toNat 99999, by omega⟩

/-- The position in the sentence at step `t`, clamped into the 50 positions. -/
def pos (t : ℕ) : Fin 50 := ⟨min t 49, by omega⟩

theorem pos_of_lt {t : ℕ} (h : t < 50) : pos t = ⟨t, h⟩ := Fin.ext (by show min t 49 = t; omega)

/-- The three gates' positions in the 300-wide gate axis. -/
def gateR (j : Fin 100) : Fin 300 := ⟨j.val, by omega⟩
def gateZ (j : Fin 100) : Fin 300 := ⟨100 + j.val, by omega⟩
def gateN (j : Fin 100) : Fin 300 := ⟨200 + j.val, by omega⟩

/-! ## One step of the recurrence, on one batch row -/

section Cell

variable (Wih Whh : (⟨2, ![300, 100]⟩ : Shape).Idx → EReal) (bih bhh : (⟨1, ![300]⟩ : Shape).Idx → EReal)

/-- The input's gate pre-activation: `x · W_ihᵀ + b_ih` at gate position `g`. -/
def gi (x : Fin 100 → EReal) (g : Fin 300) : EReal := (∑ k : Fin 100, x k * Wih (ix2 g k)) + bih (ix1 g)

/-- The state's gate pre-activation: `h · W_hhᵀ + b_hh` at gate position `g`. -/
def gh (h : Fin 100 → EReal) (g : Fin 300) : EReal := (∑ k : Fin 100, h k * Whh (ix2 g k)) + bhh (ix1 g)

/-- The reset gate. -/
def reset (x h : Fin 100 → EReal) (j : Fin 100) : EReal :=
  Ideal.logistic (gi Wih bih x (gateR j) + gh Whh bhh h (gateR j))

/-- The update gate. -/
def update (x h : Fin 100 → EReal) (j : Fin 100) : EReal :=
  Ideal.logistic (gi Wih bih x (gateZ j) + gh Whh bhh h (gateZ j))

/-- The candidate state. -/
def cand (x h : Fin 100 → EReal) (j : Fin 100) : EReal :=
  Ideal.tanh (gi Wih bih x (gateN j) + reset Wih Whh bih bhh x h j * gh Whh bhh h (gateN j))

/-- The next state: `(1 - z) * n + z * h`. -/
def cell (x h : Fin 100 → EReal) (j : Fin 100) : EReal :=
  (1 - update Wih Whh bih bhh x h j) * cand Wih Whh bih bhh x h j + update Wih Whh bih bhh x h j * h j

end Cell

/-! ## The whole function -/

section Whole

variable (table : (⟨2, ![100000, 100]⟩ : Shape).Idx → EReal) (sent : (⟨2, ![1024, 50]⟩ : Shape).Idx → BitVec 32)
  (Wih Whh : (⟨2, ![300, 100]⟩ : Shape).Idx → EReal) (bih bhh : (⟨1, ![300]⟩ : Shape).Idx → EReal)
  (Wlin : (⟨2, ![3, 100]⟩ : Shape).Idx → EReal) (blin : (⟨1, ![3]⟩ : Shape).Idx → EReal)

/-- The embedded token of batch row `b` at step `t`: the table's row the sentence names there. -/
def emb (t : ℕ) (b : Fin 1024) (k : Fin 100) : EReal := table (ix2 (row (sent (ix2 b (pos t)))) k)

/-- The state after `t` steps, from the zero state. -/
def hid : ℕ → Fin 1024 → Fin 100 → EReal
  | 0 => fun _ _ => 0
  | t + 1 => fun b => cell Wih Whh bih bhh (emb table sent t b) (hid t b)

theorem hid_zero (b : Fin 1024) (j : Fin 100) : hid table sent Wih Whh bih bhh 0 b j = 0 := rfl

theorem hid_succ (t : ℕ) (b : Fin 1024) :
    hid table sent Wih Whh bih bhh (t + 1) b
      = cell Wih Whh bih bhh (emb table sent t b) (hid table sent Wih Whh bih bhh t b) := rfl

/-- THE RESULT: the linear layer of the state after 50 steps. -/
def G : (⟨2, ![1024, 3]⟩ : Shape).Idx → EReal := fun i =>
  (∑ j : Fin 100, hid table sent Wih Whh bih bhh 50 (i 0) j * Wlin (ix2 (i 1) j)) + blin (ix1 (i 1))

theorem G_apply (b : Fin 1024) (c : Fin 3) :
    G table sent Wih Whh bih bhh Wlin blin (ix2 b c)
      = (∑ j : Fin 100, hid table sent Wih Whh bih bhh 50 b j * Wlin (ix2 c j)) + blin (ix1 c) := rfl

end Whole

/-! ## Every state is a real number -/

/-- The logistic function of any extended real is a real number. -/
theorem logistic_real (x : EReal) : ∃ r : ℝ, Ideal.logistic x = (r : EReal) := by
  induction x using EReal.rec with
  | bot => exact ⟨0, by rw [Ideal.logistic_bot]; rfl⟩
  | coe r => exact ⟨_, Ideal.logistic_coe r⟩
  | top => exact ⟨1, by rw [Ideal.logistic_top]; rfl⟩

/-- The hyperbolic tangent of any extended real is a real number. -/
theorem tanh_real (x : EReal) : ∃ r : ℝ, Ideal.tanh x = (r : EReal) := by
  induction x using EReal.rec with
  | bot => exact ⟨-1, by rw [Ideal.tanh_bot]; rfl⟩
  | coe r => exact ⟨_, Ideal.tanh_coe r⟩
  | top => exact ⟨1, by rw [Ideal.tanh_top]; rfl⟩

section Real

variable (Wih Whh : (⟨2, ![300, 100]⟩ : Shape).Idx → EReal) (bih bhh : (⟨1, ![300]⟩ : Shape).Idx → EReal)

/-- From a real state at `j`, the next state at `j` is real. -/
theorem cell_real (x h : Fin 100 → EReal) (j : Fin 100) (hj : ∃ r : ℝ, h j = (r : EReal)) :
    ∃ r : ℝ, cell Wih Whh bih bhh x h j = (r : EReal) := by
  obtain ⟨hr, hhr⟩ := hj
  obtain ⟨z, hz⟩ := logistic_real (gi Wih bih x (gateZ j) + gh Whh bhh h (gateZ j))
  obtain ⟨n, hn⟩ := tanh_real (gi Wih bih x (gateN j) + reset Wih Whh bih bhh x h j * gh Whh bhh h (gateN j))
  refine ⟨(1 - z) * n + z * hr, ?_⟩
  unfold cell
  rw [show update Wih Whh bih bhh x h j = (z : EReal) from hz, show cand Wih Whh bih bhh x h j = (n : EReal) from hn, hhr]
  rw [← EReal.coe_one, ← EReal.coe_sub, ← EReal.coe_mul, ← EReal.coe_mul, ← EReal.coe_add]

variable (table : (⟨2, ![100000, 100]⟩ : Shape).Idx → EReal) (sent : (⟨2, ![1024, 50]⟩ : Shape).Idx → BitVec 32)

/-- Every state of the recurrence is real. -/
theorem hid_real : ∀ (t : ℕ) (b : Fin 1024) (j : Fin 100), ∃ r : ℝ, hid table sent Wih Whh bih bhh t b j = (r : EReal)
  | 0, _, _ => ⟨0, rfl⟩
  | t + 1, b, j => cell_real Wih Whh bih bhh _ _ j (hid_real t b j)

end Real

end Cert.Proof.Spec

end
-- ==== Proof.RefStep.lean ====
/-
  One trip of the reference's loop, read at an index. The generated run gives the carried state after a trip as one
  composed term of the carried buffers (`step_main_v3_6`): two matrix products with transposed weights plus broadcast
  biases (300 wide), cut in three column bands of 100, the logistic function spelt `1 / (1 + exp (-x))`, the
  hyperbolic tangent, and `(1 - z) * n + z * h`. Read at row `b`, lane `j`, this is the specification's `cell` of
  the embedded token at the trip's position and of the state's row `b`.
-/
import proofs.«204407_g76768245448983_cont_9to1_m_970_19_alg».proof.Proof.Gen.ReferenceIdeal.Run
import proofs.«204407_g76768245448983_cont_9to1_m_970_19_alg».proof.Proof.Spec
import Idealize.ShloMosaic.Lib.ValueLayout
import Idealize.ShloMosaic.Lib.StackMember
import Idealize.ShloMosaic.Lib.IdealHost
import Idealize.ShloMosaic.Lib.DynamicIndex

noncomputable section

namespace Cert.Proof.RefStep

open Cert.ReferenceIdeal Cert.ReferenceIdeal.Gen Cert.ReferenceIdeal.Value
open Idealize.ShloMosaic Idealize.ShloMosaic.ValueIdx Idealize.ShloMosaic.TcCoe
open Cert.Proof.Spec

/-! ## The layout operations of a trip, each read at an index -/

/-- The product with a 100 × 300 matrix at `(b, g)`: the sum over the contracted coordinate. -/
theorem dot300_apply (A : FVec Ideal S1024x100 .f32) (B : FVec Ideal S100x300 .f32) (b : Fin 1024) (g : Fin 300) :
    Host.dotGeneral dot_S1024x100_S100x300_S1024x300_1_0_0_1_n_n none A B (ix2 b g) = ∑ k : Fin 100, A (ix2 b k) * B (ix2 k g) :=
  StackMember.dotGeneral_plain_apply (m := 1024) (n := 300) none A B b g

/-- A 300-vector broadcast over the 1024 rows reads its entry `g` at `(b, g)`. -/
theorem bias300_apply (B : FVec Ideal S300 .f32) (b : Fin 1024) (g : Fin 300) :
    broadcastInDim S1024x300 ![0, 1] bcast_S1x300_S1024x300_0_1 (broadcastInDim S1x300 ![1] bcast_S300_S1x300_1 B) (ix2 b g)
      = B (ix1 g) := by
  rw [broadcastInDim_apply _ _ _ (ix2 b g) (ix2 (0 : Fin 1) g) (fun a => by match a with | ⟨0, _⟩ => rfl | ⟨1, _⟩ => rfl)]
  exact broadcastInDim_apply _ _ _ _ (ix1 g) (fun a => by match a with | ⟨0, _⟩ => rfl)

/-- The constant one, broadcast, is the extended real one everywhere. -/
theorem one_apply (i : S1024x100.Idx) :
    broadcastInDim S1024x100 ![] bcast_S_S1024x100 (constant (F := Ideal) S_ .f32 0x3F800000#32) i = 1 := by
  rw [broadcastInDim_scalar_apply, constant_apply, Ideal.ofBits_one_f32]

/-- The three column bands of a 300-wide array at `(b, j)`: the gates' positions. -/
theorem bandR_apply (X : FVec Ideal S1024x300 .f32) (b : Fin 1024) (j : Fin 100) :
    extractStridedSlice S1024x100 ![0, 0] X slices_S1024x300_S1024x100_0_0 (ix2 b j) = X (ix2 b (gateR j)) :=
  slice2_axis1_apply 0 X _ b j (gateR j) (Nat.zero_add _).symm

theorem bandZ_apply (X : FVec Ideal S1024x300 .f32) (b : Fin 1024) (j : Fin 100) :
    extractStridedSlice S1024x100 ![0, 100] X slices_S1024x300_S1024x100_0_100 (ix2 b j) = X (ix2 b (gateZ j)) :=
  slice2_axis1_apply 100 X _ b j (gateZ j) rfl

theorem bandN_apply (X : FVec Ideal S1024x300 .f32) (b : Fin 1024) (j : Fin 100) :
    extractStridedSlice S1024x100 ![0, 200] X slices_S1024x300_S1024x100_0_200 (ix2 b j) = X (ix2 b (gateN j)) :=
  slice2_axis1_apply 200 X _ b j (gateN j) rfl

/-- The loop's counter before trip `t` is the word `t`. -/
theorem iv_eq (t : ℕ) : Scf.iv 0#32 1#32 t = BitVec.ofNat 32 t := by
  simp [Scf.iv]

/-- The trip's slab of the sequence-major embeddings: at a counter holding `t < 50`, the dynamic slice of one
    position, its unit axis dropped, reads position `t`. -/
theorem slab_apply (X0 : FVec Ideal S50x1024x100 .f32) (ctr : IVec S_ 32) (t : ℕ) (ht : t < 50)
    (hctr : ctr = fun _ => Scf.iv 0#32 1#32 t) (b : Fin 1024) (k : Fin 100) :
    shapeCast S1024x100 (Host.dynamicSlice S1x1024x100 X0
        (fun a => (((![ctr, constantI S_ 32 0#32, constantI S_ 32 0#32] : Fin 3 → (⟨S_, .i32⟩ : BufTy).Contents (Elt Ideal))) a
          (Shape.Idx.first h_S_)).toInt) sliceFits_S50x1024x100_S1x1024x100) shapeCasts_S1x1024x100_S1024x100 (ix2 b k)
      = X0 (ix3 ⟨t, ht⟩ b k) := by
  rw [shapeCast_1ab_ab_apply]
  unfold Host.dynamicSlice
  have ht' : (BitVec.ofNat 32 t).toInt = (t : Int) := toInt_ofNat_of_lt (by omega)
  refine extractStridedSlice_apply _ _ _ _ (ix3 ⟨t, ht⟩ b k) (fun a => ?_)
  match a with
  | ⟨0, _⟩ =>
    show t = (min (max ((ctr (Shape.Idx.first h_S_)).toInt) 0) ((50 - 1 : ℕ) : Int)).toNat + 0
    rw [hctr, iv_eq, ht']
    omega
  | ⟨1, _⟩ =>
    show b.val = (min (max ((0#32 : BitVec 32).toInt) 0) ((1024 - 1024 : ℕ) : Int)).toNat + b.val
    simp
  | ⟨2, _⟩ =>
    show k.val = (min (max ((0#32 : BitVec 32).toInt) 0) ((100 - 100 : ℕ) : Int)).toNat + k.val
    simp

/-! ## The two pre-activations -/

variable (V0 : Valuation τ sig (Elt Ideal))

/-- The input's pre-activation of a trip at `(b, g)`. -/
theorem gi_apply (t : ℕ) (ht : t < 50) (hctr : V0 (Proc.devRef .tc main_v3_5) = fun _ => Scf.iv 0#32 1#32 t)
    (b : Fin 1024) (g : Fin 300) :
    res_main_while0b_call2_v4 V0 (ix2 b g)
      = gi (V0 (Proc.devRef .tc main_v3_1)) (V0 (Proc.devRef .tc main_v3_2))
          (fun k => V0 (Proc.devRef .tc main_v3_0) (ix3 ⟨t, ht⟩ b k)) g := by
  unfold res_main_while0b_call2_v4 gi
  rw [addf_apply, dot300_apply, bias300_apply]
  refine congrArg (· + _) (Finset.sum_congr rfl fun k _ => ?_)
  exact congrArg₂ (· * ·) (slab_apply _ _ t ht hctr b k) (transpose_ix2_apply _ _ k g)

/-- The state's pre-activation of a trip at `(b, g)`. -/
theorem gh_apply (b : Fin 1024) (g : Fin 300) :
    res_main_while0b_call2_v9 V0 (ix2 b g)
      = gh (V0 (Proc.devRef .tc main_v3_3)) (V0 (Proc.devRef .tc main_v3_4))
          (fun k => V0 (Proc.devRef .tc main_v3_6) (ix2 b k)) g := by
  unfold res_main_while0b_call2_v9 gh
  rw [addf_apply, dot300_apply, bias300_apply]
  refine congrArg (· + _) (Finset.sum_congr rfl fun k _ => ?_)
  exact congrArg₂ (fun x y : EReal => x * y) rfl (transpose_ix2_apply _ _ k g)

/-! ## The trip -/

/-- The host's exponential, hyperbolic tangent and negation at an index, at the extended reals. -/
theorem hostExp_apply {s : Shape} {φ : FTy} (a : FVec Ideal s φ) (i : s.Idx) : Host.exp a i = Ideal.exp (a i) := rfl
theorem hostTanh_apply {s : Shape} {φ : FTy} (a : FVec Ideal s φ) (i : s.Idx) : Host.tanh a i = Ideal.tanh (a i) := rfl
theorem hostNegf_apply {s : Shape} {φ : FTy} (a : FVec Ideal s φ) (i : s.Idx) : Host.negf a i = -(a i) := rfl

/-- ONE TRIP AT AN INDEX: the carried state after a trip whose counter holds `t < 50`, at row `b` and lane `j`, is the
    specification's next state of the embedded token at position `t` and the state's row `b`. -/
theorem step_apply (t : ℕ) (ht : t < 50) (hctr : V0 (Proc.devRef .tc main_v3_5) = fun _ => Scf.iv 0#32 1#32 t)
    (b : Fin 1024) (j : Fin 100) :
    step_main_v3_6 V0 (ix2 b j)
      = cell (V0 (Proc.devRef .tc main_v3_1)) (V0 (Proc.devRef .tc main_v3_3)) (V0 (Proc.devRef .tc main_v3_2))
          (V0 (Proc.devRef .tc main_v3_4)) (fun k => V0 (Proc.devRef .tc main_v3_0) (ix3 ⟨t, ht⟩ b k))
          (fun k => V0 (Proc.devRef .tc main_v3_6) (ix2 b k)) j := by
  unfold step_main_v3_6 res_main_while0b_call2_v29
  simp only [id_eq, addf_apply, mulf_apply, subf_apply, hostDivf_apply, hostExp_apply, hostTanh_apply, hostNegf_apply,
    bandR_apply, bandZ_apply, bandN_apply]
  rw [one_apply (ix2 b j)]
  rw [gi_apply V0 t ht hctr b (gateR j), gi_apply V0 t ht hctr b (gateZ j), gi_apply V0 t ht hctr b (gateN j),
    gh_apply V0 b (gateR j), gh_apply V0 b (gateZ j), gh_apply V0 b (gateN j)]
  rfl

end Cert.Proof.RefStep

end
-- ==== Proof.RefTake.lean ====
/-
  The reference's embedding lookup, read at an index. `jnp.take` normalises an index the way Python does (a
  negative index counts from the end: `i + 100000`), gathers the row at the index clamped into the table, and
  fills with a not-a-number every position whose index is out of `[0, 99999]`. For an index that IS a row of the
  table — the precondition's range — all three steps are the identity: the result at `(b, t, k)` is the table's entry
  `k` of the row the sentence names at `(b, t)`.
-/
import proofs.«204407_g76768245448983_cont_9to1_m_970_19_alg».proof.Proof.Gen.ReferenceIdeal.Run
import proofs.«204407_g76768245448983_cont_9to1_m_970_19_alg».proof.Proof.Spec
import Idealize.ShloMosaic.Lib.ValueLayout
import Idealize.ShloMosaic.Lib.ReduceAll

noncomputable section

namespace Cert.Proof.RefTake

open Cert.ReferenceIdeal Cert.ReferenceIdeal.Gen
open Idealize.ShloMosaic Idealize.ShloMosaic.ValueIdx
open Cert.Proof.Spec

/-! ## The lookup's term -/

/-- The start indices the gather reads: the sentences with Python's negative indices wrapped, a unit axis added. -/
def wrapped (sent : IVec S1024x50 32) : IVec S1024x50x1 32 :=
  broadcastInDim S1024x50x1 ![0, 1] bcast_S1024x50_S1024x50x1_0_1
    (select (cmpi .slt sent (broadcastInDim S1024x50 ![] bcast_S_S1024x50 (constantI S_ 32 0#32)))
      (addi sent (broadcastInDim S1024x50 ![] bcast_S_S1024x50 (constantI S_ 32 100000#32))) sent)

/-- Which positions hold an index inside the table: both comparisons, reduced by `and` over the unit axis. -/
def inRange (sent : IVec S1024x50 32) : IVec S1024x50 1 :=
  Host.reduce IntOp.andi
    (andi (cmpi .sge (wrapped sent) (broadcastInDim S1024x50x1 ![] bcast_S_S1024x50x1 (constantI S_ 32 0#32)))
      (cmpi .sle (wrapped sent) (broadcastInDim S1024x50x1 ![0, 1, 2] bcast_S1x1x1_S1024x50x1_0_1_2
        (broadcastInDim S1x1x1 ![2] bcast_S1_S1x1x1_2 (constantI S1 32 99999#32)))))
    (constantI S_ 1 1#1) reducesTo_S1024x50x1_S1024x50_d2 h_S_

/-- The whole lookup: the gathered rows where the index is in range, the fill value elsewhere. -/
def take (table : FVec Ideal S100000x100 .f32) (sent : IVec S1024x50 32) : FVec Ideal S1024x50x100 .f32 :=
  select (broadcastInDim S1024x50x100 ![0, 1] bcast_S1024x50_S1024x50x100_0_1 (inRange sent))
    (Host.gather gather_S100000x100_S1024x50x1_S1024x50x100_2_0_n_n_0_2_1100 table (wrapped sent))
    (broadcastInDim S1024x50x100 ![] bcast_S_S1024x50x100 (constant S_ .f32 0x7FC00000#32))

/-- The lookup's dimension numbers. -/
abbrev gd : GatherDims S100000x100 S1024x50x1 S1024x50x100 := gather_S100000x100_S1024x50x1_S1024x50x100_2_0_n_n_0_2_1100

/-! ## Read at an index, for indices that are rows of the table -/

/-- A word that reads signed as a row of the table names that row: the clamp is the identity. -/
theorem row_of_range {w : BitVec 32} (h0 : 0 ≤ w.toInt) (h1 : w.toInt ≤ 99999) : (row w).val = w.toNat := by
  have hc := BitVec.toInt_eq_toNat_cond w
  show min w.toInt.toNat 99999 = w.toNat
  split at hc <;> omega

variable (sent : IVec S1024x50 32) (hs : ∀ i, 0 ≤ (sent i).toInt ∧ (sent i).toInt ≤ 99999)

include hs

/-- An index in range is not negative: the wrap leaves it. -/
theorem wrapped_apply (b : Fin 1024) (t : Fin 50) (u : Fin 1) : wrapped sent (ix3 b t u) = sent (ix2 b t) := by
  unfold wrapped
  rw [broadcastInDim_apply _ _ _ (ix3 b t u) (ix2 b t) (fun a => by match a with | ⟨0, _⟩ => rfl | ⟨1, _⟩ => rfl)]
  rw [select_apply]
  have hne : ¬ cmpi .slt sent (broadcastInDim S1024x50 ![] bcast_S_S1024x50 (constantI S_ 32 0#32)) (ix2 b t) = 1#1 := by
    intro h
    have := IntOp.cmpi_slt.1 h
    have h0 := (hs (ix2 b t)).1
    have hz : (broadcastInDim S1024x50 ![] bcast_S_S1024x50 (constantI S_ 32 0#32) (ix2 b t)).toInt = 0 := rfl
    omega
  rw [eq_zero_of_ne_one hne, select_zero]

/-- Every position's index is in range. -/
theorem inRange_apply (b : Fin 1024) (t : Fin 50) : inRange sent (ix2 b t) = 1#1 := by
  unfold inRange Host.reduce
  have key : ∀ (l : List (Fin S1024x50x1.numel)) (x : S1024x50x1.Idx → BitVec 1), (∀ i, x i = 1#1) →
      l.foldl (fun r n => IntOp.andi r (x (S1024x50x1.rowMajor.symm n))) 1#1 = 1#1 := by
    intro l x hx
    induction l with
    | nil => rfl
    | cons a l ih => rw [List.foldl_cons, hx, show IntOp.andi 1#1 1#1 = 1#1 from by decide]; exact ih
  refine key _ _ (fun i => ?_)
  obtain ⟨b', t', u', rfl⟩ : ∃ (b' : Fin 1024) (t' : Fin 50) (u' : Fin 1), i = ix3 b' t' u' := ⟨i 0, i 1, i 2, eq_ix3 i⟩
  show IntOp.andi (IntOp.cmpi .sge (wrapped sent (ix3 b' t' u')) _) (IntOp.cmpi .sle (wrapped sent (ix3 b' t' u')) _) = 1#1
  rw [wrapped_apply sent hs]
  refine IntOp.andi_eq_one.2 ⟨IntOp.cmpi_sge.2 ?_, IntOp.cmpi_sle.2 ?_⟩
  · exact (hs (ix2 b' t')).1
  · exact (hs (ix2 b' t')).2

omit hs in
/-- The gather at `(b, t, k)`: the table's entry `k` of the row its start index names, read signed and clamped. -/
theorem gather_apply (table : FVec Ideal S100000x100 .f32) (idx : IVec S1024x50x1 32) (b : Fin 1024) (t : Fin 50) (k : Fin 100) :
    Host.gather gather_S100000x100_S1024x50x1_S1024x50x100_2_0_n_n_0_2_1100 table idx (ix3 b t k)
      = table (ix2 (row (idx (ix3 b t (0 : Fin 1)))) k) := by
  unfold Host.gather
  refine congrArg table (funext fun a => Fin.ext ?_)
  match a with
  | ⟨0, h0⟩ =>
    show gd.start (ix3 b t k) idx ⟨0, h0⟩ + gd.batchCoord (ix3 b t k) ⟨0, h0⟩ + gd.offCoord (ix3 b t k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin S100000x100.rank) ∈ gd.startIndexMap from List.mem_singleton.mpr rfl)]
    have hsi : gd.siIdx (ix3 b t k) ⟨List.idxOf (⟨0, h0⟩ : Fin S100000x100.rank) gd.startIndexMap,
        List.idxOf_lt_length_iff.2 (List.mem_singleton.mpr rfl)⟩ = ix3 b t (0 : Fin 1) := by
      funext a'; refine Fin.ext ?_
      match a' with
      | ⟨0, _⟩ => rfl
      | ⟨1, _⟩ => rfl
      | ⟨2, _⟩ => rfl
    rw [hsi]
    rfl
  | ⟨1, h1⟩ =>
    show gd.start (ix3 b t k) idx ⟨1, h1⟩ + gd.batchCoord (ix3 b t k) ⟨1, h1⟩ + gd.offCoord (ix3 b t k) ⟨1, h1⟩ = k.val
    rw [GatherDims.batchCoord_eq_zero _ _ _ List.not_mem_nil]
    unfold GatherDims.start
    rw [dif_neg (show (⟨1, h1⟩ : Fin S100000x100.rank) ∉ gd.startIndexMap from
      (by decide : (⟨1, by decide⟩ : Fin S100000x100.rank) ∉ gd.startIndexMap))]
    unfold GatherDims.offCoord
    rw [dif_pos (show (⟨1, h1⟩ : Fin S100000x100.rank) ∈ gd.sKept from
      (by decide : (⟨1, by decide⟩ : Fin S100000x100.rank) ∈ gd.sKept))]
    simp only [Nat.zero_add]
    rfl

/-- THE LOOKUP AT AN INDEX: the table's entry `k` of the row the sentence names at `(b, t)`. -/
theorem take_apply (table : FVec Ideal S100000x100 .f32) (b : Fin 1024) (t : Fin 50) (k : Fin 100) :
    take table sent (ix3 b t k) = table (ix2 (row (sent (ix2 b t))) k) := by
  unfold take
  rw [select_apply]
  rw [broadcastInDim_apply _ _ _ (ix3 b t k) (ix2 b t) (fun a => by match a with | ⟨0, _⟩ => rfl | ⟨1, _⟩ => rfl)]
  rw [inRange_apply sent hs, select_one, gather_apply, wrapped_apply sent hs]

end Cert.Proof.RefTake

end
-- ==== Proof.RefIsSpec.lean ====
/-
  The reference is the specification. The generated run states the reference's result as the linear layer of the
  loop's one-trip step iterated 50 times on the loop's entry. Here: what the carried buffers hold at the entry (the
  embedding lookup transposed to sequence-major, the weights, the counter zero, the state zero), what they hold
  after `k` trips (the weights and the embeddings unchanged, the counter `k`, the state the specification's `hid k`),
  and the linear layer at an index. Together: the reference's result is `Spec.G` of the eight arguments, for
  sentences that name rows of the table.
-/
import proofs.«204407_g76768245448983_cont_9to1_m_970_19_alg».proof.Proof.RefStep
import proofs.«204407_g76768245448983_cont_9to1_m_970_19_alg».proof.Proof.RefTake

noncomputable section

namespace Cert.Proof.RefIsSpec

open Cert.ReferenceIdeal Cert.ReferenceIdeal.Gen Cert.ReferenceIdeal.Value
open Idealize.ShloMosaic Idealize.ShloMosaic.ValueIdx Idealize.ShloMosaic.TcCoe Idealize.ShloMosaic.Tactic
open Idealize.SL.Sem
open Idealize.ShloMosaic.StableHlo
open Cert.Proof.Spec

variable (m : (ℓ : Loc nD τ sig) → Buf (Elt Ideal) ℓ) (c : Dev nD)

/-! ## The arguments, as arrays over the literal shapes -/

abbrev A0 : FVec Ideal S100000x100 .f32 := m ((c.tc : Thread nD τ).loc main_arg0)
abbrev A1 : IVec S1024x50 32 := m ((c.tc : Thread nD τ).loc main_arg1)
abbrev A2 : FVec Ideal S300x100 .f32 := m ((c.tc : Thread nD τ).loc main_arg2)
abbrev A3 : FVec Ideal S300x100 .f32 := m ((c.tc : Thread nD τ).loc main_arg3)
abbrev A4 : FVec Ideal S300 .f32 := m ((c.tc : Thread nD τ).loc main_arg4)
abbrev A5 : FVec Ideal S300 .f32 := m ((c.tc : Thread nD τ).loc main_arg5)
abbrev A6 : FVec Ideal S3x100 .f32 := m ((c.tc : Thread nD τ).loc main_arg6)
abbrev A7 : FVec Ideal S3 .f32 := m ((c.tc : Thread nD τ).loc main_arg7)

/-! ## The loop's entry -/

set_option maxRecDepth 100000 in
set_option maxHeartbeats 4000000 in
/-- The embeddings at the entry: the lookup, transposed to sequence-major. -/
theorem entry_x : entryContents (preI (F := Ideal)) m c (Proc.devRef .tc main_v3_0)
    = id (transpose S50x1024x100 [1, 0, 2] (RefTake.take (A0 m c) (A1 m c)) transposes_S1024x50x100_S50x1024x100_1_0_2) := by
  simp only [entryContents, afterL_cons, afterL_nil]
  after_results
  rfl

set_option maxRecDepth 100000 in
set_option maxHeartbeats 4000000 in
theorem entry_wih : entryContents (preI (F := Ideal)) m c (Proc.devRef .tc main_v3_1) = id (A2 m c) := by
  simp only [entryContents, afterL_cons, afterL_nil]
  after_results

set_option maxRecDepth 100000 in
set_option maxHeartbeats 4000000 in
theorem entry_bih : entryContents (preI (F := Ideal)) m c (Proc.devRef .tc main_v3_2) = id (A4 m c) := by
  simp only [entryContents, afterL_cons, afterL_nil]
  after_results

set_option maxRecDepth 100000 in
set_option maxHeartbeats 4000000 in
theorem entry_whh : entryContents (preI (F := Ideal)) m c (Proc.devRef .tc main_v3_3) = id (A3 m c) := by
  simp only [entryContents, afterL_cons, afterL_nil]
  after_results

set_option maxRecDepth 100000 in
set_option maxHeartbeats 4000000 in
theorem entry_bhh : entryContents (preI (F := Ideal)) m c (Proc.devRef .tc main_v3_4) = id (A5 m c) := by
  simp only [entryContents, afterL_cons, afterL_nil]
  after_results

set_option maxRecDepth 100000 in
set_option maxHeartbeats 4000000 in
/-- The state at the entry: zero. -/
theorem entry_h : entryContents (preI (F := Ideal)) m c (Proc.devRef .tc main_v3_6)
    = id (broadcastInDim S1024x100 ![] bcast_S_S1024x100 (constant (F := Ideal) S_ .f32 0x00000000#32)) := by
  simp only [entryContents, afterL_cons, afterL_nil]
  after_results

/-! ## After `k` trips -/

/-- The buffers after `k` trips from the entry. -/
abbrev St (k : ℕ) : Valuation τ sig (Elt Ideal) := STEP^[k] (entryContents (preI (F := Ideal)) m c)

theorem St_succ (k : ℕ) : St m c (k + 1) = STEP (St m c k) := Function.iterate_succ_apply' _ _ _

theorem St_x : ∀ k, St m c k (Proc.devRef .tc main_v3_0) = entryContents (preI (F := Ideal)) m c (Proc.devRef .tc main_v3_0)
  | 0 => rfl
  | k + 1 => by rw [St_succ, STEP_main_v3_0]; exact St_x k

theorem St_wih : ∀ k, St m c k (Proc.devRef .tc main_v3_1) = A2 m c
  | 0 => entry_wih m c
  | k + 1 => by rw [St_succ, STEP_main_v3_1]; exact St_wih k

theorem St_bih : ∀ k, St m c k (Proc.devRef .tc main_v3_2) = A4 m c
  | 0 => entry_bih m c
  | k + 1 => by rw [St_succ, STEP_main_v3_2]; exact St_bih k

theorem St_whh : ∀ k, St m c k (Proc.devRef .tc main_v3_3) = A3 m c
  | 0 => entry_whh m c
  | k + 1 => by rw [St_succ, STEP_main_v3_3]; exact St_whh k

theorem St_bhh : ∀ k, St m c k (Proc.devRef .tc main_v3_4) = A5 m c
  | 0 => entry_bhh m c
  | k + 1 => by rw [St_succ, STEP_main_v3_4]; exact St_bhh k

/-- The counter after `k` trips is the word `k`. -/
theorem St_ctr : ∀ k, St m c k (Proc.devRef .tc main_v3_5) = fun _ => Scf.iv 0#32 1#32 k
  | 0 => by rw [show St m c 0 = entryContents (preI (F := Ideal)) m c from rfl, ctr_entry, Scf.iv_zero]
  | k + 1 => by
    rw [St_succ, STEP_main_v3_5]
    unfold step_main_v3_5
    rw [St_ctr k, Scf.iv_succ]
    rfl

/-- A stack with its first two axes exchanged (permutation `[1, 0, 2]`) reads, at `(j, i, k)`, the operand at `(i, j, k)`. -/
theorem transpose_ix3_102_apply {α : Type} {n0 n1 n2 : ℕ} (x : (⟨3, ![n0, n1, n2]⟩ : Shape).Idx → α)
    (h : (⟨3, ![n0, n1, n2]⟩ : Shape).Transposes [1, 0, 2] ⟨3, ![n1, n0, n2]⟩) (j : Fin n1) (i : Fin n0) (k : Fin n2) :
    transpose ⟨3, ![n1, n0, n2]⟩ [1, 0, 2] x h (ix3 j i k) = x (ix3 i j k) := by
  refine transpose_apply [1, 0, 2] x h (ix3 j i k) (ix3 i j k) (fun a => ?_)
  match a with
  | ⟨0, _⟩ => rfl
  | ⟨1, _⟩ => rfl
  | ⟨2, _⟩ => rfl

/-- A sequence-major array read at `(t, b, k)` is the batch-major one at `(b, t, k)`. -/
theorem seqMajor_apply (X : FVec Ideal S1024x50x100 .f32) (t : Fin 50) (b : Fin 1024) (k : Fin 100) :
    transpose S50x1024x100 [1, 0, 2] X transposes_S1024x50x100_S50x1024x100_1_0_2 (ix3 t b k) = X (ix3 b t k) :=
  transpose_ix3_102_apply X _ t b k

section Range

variable (hs : ∀ i, 0 ≤ (A1 m c i).toInt ∧ (A1 m c i).toInt ≤ 99999)

include hs

omit hs in
set_option maxRecDepth 100000 in
/-- The embeddings after `k` trips: the lookup, sequence-major. -/
theorem St_x' (k : ℕ) : St m c k (Proc.devRef .tc main_v3_0)
    = transpose S50x1024x100 [1, 0, 2] (RefTake.take (A0 m c) (A1 m c)) transposes_S1024x50x100_S50x1024x100_1_0_2 :=
  (St_x m c k).trans (entry_x m c)

set_option maxRecDepth 100000 in
/-- The embedded token the trip at counter `k < 50` reads, at row `b`. -/
theorem St_emb (k : ℕ) (hk : k < 50) (b : Fin 1024) :
    (fun kk : Fin 100 => St m c k (Proc.devRef .tc main_v3_0) (ix3 ⟨k, hk⟩ b kk)) = emb (A0 m c) (A1 m c) k b := by
  funext kk
  rw [St_x' m c k, seqMajor_apply, RefTake.take_apply (A1 m c) hs]
  unfold emb
  rw [pos_of_lt hk]

/-- THE STATE AFTER `k` TRIPS is the specification's. -/
theorem St_h : ∀ k, k ≤ 50 → St m c k (Proc.devRef .tc main_v3_6)
      = fun i => hid (A0 m c) (A1 m c) (A2 m c) (A3 m c) (A4 m c) (A5 m c) k (i 0) (i 1)
  | 0, _ => by
    rw [show St m c 0 = entryContents (preI (F := Ideal)) m c from rfl, entry_h]
    funext i
    show broadcastInDim S1024x100 ![] bcast_S_S1024x100 (constant (F := Ideal) S_ .f32 0x00000000#32) i = 0
    rw [broadcastInDim_scalar_apply, constant_apply, Ideal.ofBits_zero_f32]
  | k + 1, hk => by
    have hk' : k < 50 := by omega
    rw [St_succ, STEP_main_v3_6]
    funext i
    obtain ⟨b, j, rfl⟩ : ∃ (b : Fin 1024) (j : Fin 100), i = ix2 b j := ⟨i 0, i 1, eq_ix2 i⟩
    rw [RefStep.step_apply (St m c k) k hk' (St_ctr m c k) b j, St_wih, St_bih, St_whh, St_bhh]
    have hh : (fun kk : Fin 100 => St m c k (Proc.devRef .tc main_v3_6) (ix2 b kk))
        = hid (A0 m c) (A1 m c) (A2 m c) (A3 m c) (A4 m c) (A5 m c) k b := by
      funext kk
      rw [St_h k (by omega)]
      rfl
    exact congrArg₂ (fun x h => cell (A2 m c) (A3 m c) (A4 m c) (A5 m c) x h j) (St_emb m c hs k hk' b) hh

end Range

/-! ## The linear layer -/

/-- The product with a 100 × 3 matrix at `(b, o)`. -/
theorem dot3_apply (A : FVec Ideal S1024x100 .f32) (B : FVec Ideal S100x3 .f32) (b : Fin 1024) (o : Fin 3) :
    Host.dotGeneral dot_S1024x100_S100x3_S1024x3_1_0_0_1_n_n none A B (ix2 b o) = ∑ k : Fin 100, A (ix2 b k) * B (ix2 k o) :=
  StackMember.dotGeneral_plain_apply (m := 1024) (n := 3) none A B b o

/-- A 3-vector broadcast over the 1024 rows reads its entry `o` at `(b, o)`. -/
theorem bias3_apply (B : FVec Ideal S3 .f32) (b : Fin 1024) (o : Fin 3) :
    broadcastInDim S1024x3 ![0, 1] bcast_S1x3_S1024x3_0_1 (broadcastInDim S1x3 ![1] bcast_S3_S1x3_1 B) (ix2 b o) = B (ix1 o) := by
  rw [broadcastInDim_apply _ _ _ (ix2 b o) (ix2 (0 : Fin 1) o) (fun a => by match a with | ⟨0, _⟩ => rfl | ⟨1, _⟩ => rfl)]
  exact broadcastInDim_apply _ _ _ _ (ix1 o) (fun a => by match a with | ⟨0, _⟩ => rfl)

/-- The reference's last operations at `(b, o)`. -/
theorem out_apply (V0 : Valuation τ sig (Elt Ideal)) (H : FVec Ideal S1024x100 .f32) (W : FVec Ideal S3x100 .f32)
    (B : FVec Ideal S3 .f32) (hH : V0 (Proc.devRef .tc main_v3_6) = H) (hW : V0 (Proc.devRef .tc main_arg6) = W)
    (hB : V0 (Proc.devRef .tc main_arg7) = B) (b : Fin 1024) (o : Fin 3) :
    out_main_v8 V0 (ix2 b o) = (∑ j : Fin 100, H (ix2 b j) * W (ix2 o j)) + B (ix1 o) := by
  unfold out_main_v8
  rw [hH, hW, hB, addf_apply, dot3_apply, bias3_apply]
  refine congrArg (· + _) (Finset.sum_congr rfl fun k _ => ?_)
  exact congrArg₂ (fun x y : EReal => x * y) rfl (transpose_ix2_apply _ _ k o)

/-! ## The reference is the specification -/

/-- THE REFERENCE'S RESULT, as the generated run states it, is `Spec.G` of the eight arguments — for sentences that
    name rows of the table. -/
theorem ref_eq_G (hs : ∀ i, 0 ≤ (A1 m c i).toInt ∧ (A1 m c i).toInt ≤ 99999) :
    out_main_v8 (STEP^[50] (entryContents (preI (F := Ideal)) m c))
      = G (A0 m c) (A1 m c) (A2 m c) (A3 m c) (A4 m c) (A5 m c) (A6 m c) (A7 m c) := by
  funext i
  obtain ⟨b, o, rfl⟩ : ∃ (b : Fin 1024) (o : Fin 3), i = ix2 b o := ⟨i 0, i 1, eq_ix2 i⟩
  have h6 : (STEP^[50] (entryContents (preI (F := Ideal)) m c)) (Proc.devRef .tc main_arg6) = A6 m c := iter_main_arg6 m c 50
  have h7 : (STEP^[50] (entryContents (preI (F := Ideal)) m c)) (Proc.devRef .tc main_arg7) = A7 m c := iter_main_arg7 m c 50
  rw [out_apply _ _ _ _ (St_h m c hs 50 (le_refl _)) h6 h7 b o, G_apply]
  rfl

/-! ## The reference's run, with the result named -/

/-- Every weakly fair execution of the reference terminates with its result at `Spec.G` of its arguments and its
    arguments unchanged — for sentences that name rows of the table. -/
theorem run_G (ρ : Dev nD → PrngReg) (hs : ∀ c i, 0 ≤ (A1 m c i).toInt ∧ (A1 m c i).toInt ≤ 99999) :
    θ_run (defs (F := Ideal)) (onTc (τ := τ) (main (F := Ideal))) ⟨m, fun _ => 0, ρ⟩ fun r => ∀ c : Dev nD,
      r.2.mem ((c.tc : Thread nD τ).loc main_v8) = G (A0 m c) (A1 m c) (A2 m c) (A3 m c) (A4 m c) (A5 m c) (A6 m c) (A7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (ref_eq_G m c (hs c)), (h c).2⟩)
    (Cert.ReferenceIdeal.Value.run (F := Ideal) m ρ)

end Cert.Proof.RefIsSpec

end
-- ==== Proof.KITcPadValue.lean ====
/-
  The value of the first TensorCore region. At point t of its 25 the padding pipeline writes back rows
  4000t … 4000t + 3999 of the padded table: in columns 0 … 99 the table's rows as the region found them, in
  columns 100 … 127 zero. Each block written back is therefore the block of ONE function of the table, the blocks
  tile the output array, and after the last point the array is that function: at a column below 100 the
  table's entry, at a column from 100 on zero.
-/
import proofs.«204407_g76768245448983_cont_9to1_m_970_19_alg».proof.Proof.KITcPad
import Idealize.ShloMosaic.Lib.Pipeline.Value
import Idealize.ShloMosaic.Lib.ValueIdx

set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open Idealize.SL.Sem
open Idealize.ShloMosaic.Pipeline (Dat Cfg Window)

variable {F : FTy → Type} [FloatOps F]
variable {Ix : Type} [DecidableEq Ix] {Name : Type} [DecidableEq Name] {U : Type} [URA U] {Lvl : Type}

/-! ## The padded table as one function of the table -/

/-- What the pad columns hold: the value of the zero word. -/
abbrev padWord : Elt F .f32 := (Scalar.ofBits .f32 0x00000000#32 : F .f32)

/-- The padded table: at a column below 100 the table's entry, zero from column 100 on. -/
def padG (a : S100000x100.Idx → Elt F .f32) : S100000x128.Idx → Elt F .f32 :=
  fun i => if h : (i 1).val < 100 then a (ValueIdx.ix2 (i 0) ⟨(i 1).val, h⟩) else padWord

theorem padG_of_lt (a : S100000x100.Idx → Elt F .f32) (i : S100000x128.Idx) (h : (i 1).val < 100) :
    padG a i = a (ValueIdx.ix2 (i 0) ⟨(i 1).val, h⟩) := dif_pos h

theorem padG_of_not_lt (a : S100000x100.Idx → Elt F .f32) (i : S100000x128.Idx) (h : ¬(i 1).val < 100) :
    padG a i = padWord := dif_neg h

/-! ## One output block, index by index -/

/-- The same function on a block: of the 4000 rows read, the columns below 100; zero from column 100 on. -/
def padB (x0 : Vec F S4000x100 .f32) : Vec F S4000x128 .f32 :=
  fun y => if h : (y 1).val < 100 then x0 (ValueIdx.ix2 (y 0) ⟨(y 1).val, h⟩) else padWord

/-- The two stores' pieces are the pieces of that function: the zeros sit at columns 100 + k, the rows read at
    the columns they were read from. -/
theorem out0_1_eq (x0 : Vec F S4000x100 .f32) : out0_1 x0 = padB x0 := by
  funext y
  unfold out0_1
  refine View.canon_apply_of_pieces (padB x0) _ ?_ y (cover0_1 _ _ y)
  intro p hp x
  simp only [List.mem_cons, List.mem_singleton, List.not_mem_nil, or_false] at hp
  rcases hp with rfl | rfl
  · -- the zeros: column 100 + k is not below 100
    have hc : ¬((rR0.emb x) 1).val < 100 := by
      rw [Rect.emb_apply]
      show ¬(100 + 1 * (x 1).val < 100)
      omega
    show k0_pay1 (F := F) x = padB x0 (rR0.emb x)
    unfold padB
    rw [dif_neg hc]
    rfl
  · -- the rows read: column k of the block is column k of the rows
    have hx1 : (x 1).val < 100 := (x 1).isLt
    have hc : ((rL0.emb x) 1).val < 100 := by
      rw [Rect.emb_apply]
      show 0 + 1 * (x 1).val < 100
      omega
    show View.ld x0 rI0 x = padB x0 (rL0.emb x)
    unfold padB
    rw [dif_pos hc]
    show x0 (rI0.emb x) = _
    congr 1
    funext a
    apply Fin.ext
    match a with
    | ⟨0, _⟩ => rw [Rect.emb_apply, Rect.emb_apply]; rfl
    | ⟨1, _⟩ => rw [Rect.emb_apply, Rect.emb_apply]; rfl

theorem padB_of_lt (x0 : Vec F S4000x100 .f32) (y : S4000x128.Idx) (h : (y 1).val < 100) :
    padB x0 y = x0 (ValueIdx.ix2 (y 0) ⟨(y 1).val, h⟩) := dif_pos h

theorem padB_of_not_lt (x0 : Vec F S4000x100 .f32) (y : S4000x128.Idx) (h : ¬(y 1).val < 100) :
    padB x0 y = padWord := dif_neg h

/-- A block of the padded rows is the block of the padded table, when the rows are the table's rows from row
    4000n on and the block sits at rows 4000n on, columns 0 on. -/
theorem padB_eq_padG (a : S100000x100.Idx → Elt F .f32) (x0 : Vec F S4000x100 .f32) (n : Nat)
    (hx0 : ∀ (x : S4000x100.Idx) (k : S100000x100.Idx), (k 0).val = 4000 * n + (x 0).val → (k 1).val = (x 1).val → x0 x = a k)
    (y : S4000x128.Idx) (i : S100000x128.Idx) (hi0 : (i 0).val = 4000 * n + (y 0).val) (hi1 : (i 1).val = (y 1).val) :
    padB x0 y = padG a i := by
  by_cases h : (y 1).val < 100
  · have h' : (i 1).val < 100 := by omega
    rw [padB_of_lt x0 y h, padG_of_lt a i h']
    exact hx0 _ _ hi0 hi1
  · have h' : ¬(i 1).val < 100 := by omega
    rw [padB_of_not_lt x0 y h, padG_of_not_lt a i h']

/-! ## The printed index maps, decided over the grid -/

/-- Both windows' block index at point t is (t, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Every block row of the output array is some point's. -/
theorem idx_onto0 : ∀ q : Fin 25, ∃ t : Fin cfg0.N, win0_1.index t = ![q.val, 0] :=
  (by decide +kernel : ∀ q : Fin 25, ∃ t : Fin grid0.N, win0_1.index t = ![q.val, 0])

section PadValue

variable (Vt : (c : Dev nD) → (b : Ref sig .tc) → Buf (Elt F) ((c : Thread nD τ).loc b))
  (O : Dev nD → CellTallies nD τ sig Ix) (B : Dev nD → Set (SemLoc sig × Ix))

local notation "𝔡₀" => dat0 (Ix := Ix) (Name := Name) (U := U) (Lvl := Lvl) Vt O B

/-! ## The blocks read and written back -/

/-- The input window's block at point t is rows 4000t … 4000t + 3999 of the table as the region finds it. -/
theorem iblk0_0_apply (c : Dev nD) (t : Fin cfg0.N) (x : S4000x100.Idx) (k : S100000x100.Idx)
    (hk0 : (k 0).val = 4000 * t.val + (x 0).val) (hk1 : (k 1).val = (x 1).val) :
    (iblk0 Vt c 0 t : Vec F S4000x100 .f32) x = (Vt c main_arg0 : S100000x100.Idx → Elt F .f32) k := by
  obtain ⟨e0, e1, -, -⟩ := idx_facts0 t
  show (Vt c main_arg0 : S100000x100.Idx → Elt F .f32) (((cfg0.win 0).blk t).view.emb x) = _
  have hk : ((cfg0.win 0).blk t).view.emb x = k := by
    funext a; apply Fin.ext
    match a with
    | ⟨0, _⟩ => show win0_0.index t (0 : Fin 2) * 4000 + 1 * (x 0).val = (k 0).val; rw [e0, hk0]; omega
    | ⟨1, _⟩ => show win0_0.index t (1 : Fin 2) * 100 + 1 * (x 1).val = (k 1).val; rw [e1, hk1]; omega
  rw [hk]

/-- After the body at point t the output's staging buffer holds the padded rows of the input's block. -/
theorem after0_1_eq (c : Dev nD) (t : Fin cfg0.N) : (𝔡₀ c).after 1 t = out0_1 (iblk0 Vt c 0 t) := by dsimp only [dat0]

/-- What point t writes back is block t of the padded table. -/
theorem flushed0_1_eq (c : Dev nD) (t : Fin cfg0.N) :
    (𝔡₀ c).flushed 1 t = ((cfg0.win 1).blk t).view.read (Elt F) (padG (Vt c main_arg0)) := by
  show (cfg0.win 1).cut (grid0.coords t) ((𝔡₀ c).after 1 t) = _
  rw [after0_1_eq]
  obtain ⟨-, -, e2, e3⟩ := idx_facts0 t
  funext j
  refine (congrFun (out0_1_eq (iblk0 Vt c 0 t)) _).trans ?_
  show padB (iblk0 Vt c 0 t) j = padG (Vt c main_arg0) (((cfg0.win 1).blk t).view.emb j)
  refine padB_eq_padG (Vt c main_arg0) (iblk0 Vt c 0 t) t.val (fun x k h0 h1 => iblk0_0_apply Vt c t x k h0 h1) _ _ ?_ ?_
  · show win0_1.index t (0 : Fin 2) * 4000 + 1 * (j 0).val = 4000 * t.val + (j 0).val
    rw [e2]; omega
  · show win0_1.index t (1 : Fin 2) * 128 + 1 * (j 1).val = (j 1).val
    rw [e3]; omega

/-! ## The blocks tile the output array -/

/-- An index of the array is in point t's block iff each coordinate is in the block's range on its axis. -/
theorem mem_blk0_1 (t : Fin cfg0.N) (i : S100000x128.Idx) :
    i ∈ ((cfg0.win 1).blk t).view.set ↔ ∀ a : Fin 2, win0_1.index t a * S4000x128.size a ≤ (i a).val ∧ (i a).val < win0_1.index t a * S4000x128.size a + S4000x128.size a := by
  show i ∈ ((View.whole main_v0).slice (win0_1.rect t)).set ↔ _
  rw [View.set_slice_whole, Rect.mem_set_unit]
  exact Iff.rfl

/-- Row r is in the block of point r / 4000. -/
theorem cover0_arr (i : S100000x128.Idx) :
    ∃ t : Fin cfg0.N, (cfg0.win 1).flush t = true ∧ i ∈ ((cfg0.win 1).blk t).view.set := by
  have hi0 : (i 0).val < 100000 := (i 0).isLt
  have hi1 : (i 1).val < 128 := (i 1).isLt
  obtain ⟨t, ht⟩ := idx_onto0 ⟨(i 0).val / 4000, by omega⟩
  have q0 : win0_1.index t (0 : Fin 2) = (i 0).val / 4000 := congrFun ht 0
  have q1 : win0_1.index t (1 : Fin 2) = 0 := congrFun ht 1
  refine ⟨t, flush0_1 t, ?_⟩
  rw [mem_blk0_1]
  intro a
  match a with
  | ⟨0, _⟩ => show win0_1.index t (0 : Fin 2) * 4000 ≤ (i 0).val ∧ (i 0).val < win0_1.index t (0 : Fin 2) * 4000 + 4000; omega
  | ⟨1, _⟩ => show win0_1.index t (1 : Fin 2) * 128 ≤ (i 1).val ∧ (i 1).val < win0_1.index t (1 : Fin 2) * 128 + 128; omega

/-! ## The output array after the last point -/

/-- The output array ends holding the padded table. -/
theorem final0_1 (c : Dev nD) : (𝔡₀ c).arrAt 1 cfg0.N = padG (Vt c main_arg0) :=
  (𝔡₀ c).arrAt_eq_of_cover 1 (padG (Vt c main_arg0)) (fun t _ => flushed0_1_eq Vt O B c t) cover0_arr

/-- Read at a column below 100, it is the table's entry as the region found it; -/
theorem pad_apply (c : Dev nD) (r : Fin 100000) (k : Fin 100) :
    (𝔡₀ c).arrAt 1 cfg0.N (ValueIdx.ix2 r ⟨k.val, by omega⟩) = Vt c main_arg0 (ValueIdx.ix2 r k) := by
  rw [final0_1]
  exact padG_of_lt _ _ k.isLt

/-- at a column from 100 on, zero. -/
theorem pad_zero (c : Dev nD) (r : Fin 100000) (k : Fin 28) :
    (𝔡₀ c).arrAt 1 cfg0.N (ValueIdx.ix2 r ⟨100 + k.val, by omega⟩) = padWord := by
  rw [final0_1]
  exact padG_of_not_lt _ _ (by show ¬(100 + k.val < 100); omega)

end PadValue

end Cert.Proof.KI

end
-- ==== Proof.LibHostIdx.lean ====
/-
  Layout operations of the host read at an index, for the re-laying of a gated recurrent unit's weights: a side-by-side
  concatenation of four equal pieces, a stacking of two pieces, a vector of four equal pieces, and the chains
  reshape / transpose / pad / slice / reshape that cut one gate's block out of a [300, 100] weight matrix, or one gate's row
  out of a [300] bias, padded to 128 lanes. Every lemma is for any element type.
-/
import Idealize.ShloMosaic.Lib.ValueLayout
import Idealize.ShloMosaic.Lib.Pipeline.Value
import Idealize.ShloMosaic.Lib.KernelVsHost

noncomputable section

namespace Cert.Proof.HostIdx

open Idealize.ShloMosaic Idealize.ShloMosaic.ValueIdx

variable {α : Type}

/-! ## Concatenations -/

section Concat

variable {m n N : ℕ}

/-- Piece `q` of four [m, n] pieces set side by side: column `q * n + c` of the whole is column `c` of the piece. -/
theorem concatenate4_cols_apply (x0 x1 x2 x3 : (⟨2, ![m, n]⟩ : Shape).Idx → α)
    (h : Shape.Concatenates [(⟨2, ![m, n]⟩ : Shape), ⟨2, ![m, n]⟩, ⟨2, ![m, n]⟩, ⟨2, ![m, n]⟩] ⟨2, ![m, N]⟩ 1)
    (q : ℕ) (hq : q < 4) (xq : (⟨2, ![m, n]⟩ : Shape).Idx → α)
    (hx : ([⟨_, x0⟩, ⟨_, x1⟩, ⟨_, x2⟩, ⟨_, x3⟩] : List ((s : Shape) × (s.Idx → α)))[q]'(by simpa using hq) = ⟨_, xq⟩)
    (r : Fin m) (c : Fin n) (col : Fin N) (hcol : col.val = q * n + c.val) :
    concatenate ⟨2, ![m, N]⟩ 1 [⟨_, x0⟩, ⟨_, x1⟩, ⟨_, x2⟩, ⟨_, x3⟩] h (ix2 r col) = xq (ix2 r c) := by
  refine concatenate_apply_piece (t := ⟨2, ![m, N]⟩) (1 : Fin 2) [⟨_, x0⟩, ⟨_, x1⟩, ⟨_, x2⟩, ⟨_, x3⟩] h _ q
    (by simpa using hq) _ xq hx rfl (q * n) ?_ (ix2 r c) ?_ ?_
  · have : q = 0 ∨ q = 1 ∨ q = 2 ∨ q = 3 := by omega
    rcases this with rfl | rfl | rfl | rfl <;> simp <;> ring
  · intro b hb
    match b with
    | ⟨0, _⟩ => rfl
    | ⟨1, _⟩ => exact absurd rfl hb
  · show q * n + c.val = col.val
    omega

/-- Piece `q` of four [n] pieces set end to end: entry `q * n + c` of the whole is entry `c` of the piece. -/
theorem concatenate4_vec_apply (x0 x1 x2 x3 : (⟨1, ![n]⟩ : Shape).Idx → α)
    (h : Shape.Concatenates [(⟨1, ![n]⟩ : Shape), ⟨1, ![n]⟩, ⟨1, ![n]⟩, ⟨1, ![n]⟩] ⟨1, ![N]⟩ 0)
    (q : ℕ) (hq : q < 4) (xq : (⟨1, ![n]⟩ : Shape).Idx → α)
    (hx : ([⟨_, x0⟩, ⟨_, x1⟩, ⟨_, x2⟩, ⟨_, x3⟩] : List ((s : Shape) × (s.Idx → α)))[q]'(by simpa using hq) = ⟨_, xq⟩)
    (c : Fin n) (col : Fin N) (hcol : col.val = q * n + c.val) :
    concatenate ⟨1, ![N]⟩ 0 [⟨_, x0⟩, ⟨_, x1⟩, ⟨_, x2⟩, ⟨_, x3⟩] h (ix1 col) = xq (ix1 c) := by
  refine concatenate_apply_piece (t := ⟨1, ![N]⟩) (0 : Fin 1) [⟨_, x0⟩, ⟨_, x1⟩, ⟨_, x2⟩, ⟨_, x3⟩] h _ q
    (by simpa using hq) _ xq hx rfl (q * n) ?_ (ix1 c) ?_ ?_
  · have : q = 0 ∨ q = 1 ∨ q = 2 ∨ q = 3 := by omega
    rcases this with rfl | rfl | rfl | rfl <;> simp <;> ring
  · intro b hb
    match b with
    | ⟨0, _⟩ => exact absurd rfl hb
  · show q * n + c.val = col.val
    omega

variable {m₁ m₂ M : ℕ}

/-- Two pieces stacked: a row of the first piece. -/
theorem concatenate2_rows_apply_top (x₁ : (⟨2, ![m₁, n]⟩ : Shape).Idx → α) (x₂ : (⟨2, ![m₂, n]⟩ : Shape).Idx → α)
    (h : Shape.Concatenates [(⟨2, ![m₁, n]⟩ : Shape), ⟨2, ![m₂, n]⟩] ⟨2, ![M, n]⟩ 0)
    (r : Fin m₁) (c : Fin n) (row : Fin M) (hrow : row.val = r.val) :
    concatenate ⟨2, ![M, n]⟩ 0 [⟨_, x₁⟩, ⟨_, x₂⟩] h (ix2 row c) = x₁ (ix2 r c) :=
  concatenate_pair_apply_left (t := ⟨2, ![M, n]⟩) (0 : Fin 2) x₁ x₂ h _ rfl (ix2 r c) fun b =>
    match b with
    | ⟨0, _⟩ => hrow.symm
    | ⟨1, _⟩ => rfl

/-- Two pieces stacked: a row of the second piece. -/
theorem concatenate2_rows_apply_bot (x₁ : (⟨2, ![m₁, n]⟩ : Shape).Idx → α) (x₂ : (⟨2, ![m₂, n]⟩ : Shape).Idx → α)
    (h : Shape.Concatenates [(⟨2, ![m₁, n]⟩ : Shape), ⟨2, ![m₂, n]⟩] ⟨2, ![M, n]⟩ 0)
    (r : Fin m₂) (c : Fin n) (row : Fin M) (hrow : row.val = m₁ + r.val) :
    concatenate ⟨2, ![M, n]⟩ 0 [⟨_, x₁⟩, ⟨_, x₂⟩] h (ix2 row c) = x₂ (ix2 r c) :=
  concatenate_pair_apply_right (t := ⟨2, ![M, n]⟩) (0 : Fin 2) x₁ x₂ h _ rfl rfl (ix2 r c)
    (fun b hb => match b with
      | ⟨0, _⟩ => absurd rfl hb
      | ⟨1, _⟩ => rfl)
    (by show r.val + m₁ = row.val; omega)

end Concat

/-! ## One gate's block of a weight matrix -/

section Gate

abbrev W300 : Shape := ⟨2, ![300, 100]⟩
abbrev W3 : Shape := ⟨3, ![3, 100, 100]⟩
abbrev P3 : Shape := ⟨3, ![3, 128, 128]⟩
abbrev P1 : Shape := ⟨3, ![1, 128, 128]⟩
abbrev P : Shape := ⟨2, ![128, 128]⟩
abbrev Sc : Shape := ⟨0, ![]⟩

/-- Gate `g`'s block of a [300, 100] weight matrix: viewed [3, 100, 100], each matrix transposed, padded with `z` to
    [3, 128, 128], matrix `g` cut out. -/
def gateBlock (W : W300.Idx → α) (z : Sc.Idx → α) (g : ℕ) (h1 : W300.ShapeCasts W3) (h2 : W3.Transposes [0, 2, 1] W3)
    (h3 : W3.Pads (![0, 0, 0] : Fin 3 → ℕ) ![0, 28, 28] ![0, 0, 0] P3) (h4 : 0 < Sc.numel)
    (h5 : P3.Slices ![g, 0, 0] P1) (h6 : P1.ShapeCasts P) : P.Idx → α :=
  shapeCast P (extractStridedSlice P1 ![g, 0, 0]
    (pad P3 ![0, 0, 0] ![0, 28, 28] ![0, 0, 0] (transpose W3 [0, 2, 1] (shapeCast W3 W h1) h2) z h3 h4) h5) h6

variable (W : W300.Idx → α) (z : Sc.Idx → α) (g : ℕ) (hg : g < 3) (h1 : W300.ShapeCasts W3)
  (h2 : W3.Transposes [0, 2, 1] W3) (h3 : W3.Pads (![0, 0, 0] : Fin 3 → ℕ) ![0, 28, 28] ![0, 0, 0] P3) (h4 : 0 < Sc.numel)
  (h5 : P3.Slices ![g, 0, 0] P1) (h6 : P1.ShapeCasts P)

include hg in
/-- Entry (k, j) of gate `g`'s block, both below 100, is the weight matrix at (g * 100 + j, k). -/
theorem gateBlock_apply (k j : Fin 100) :
    gateBlock W z g h1 h2 h3 h4 h5 h6 (ix2 ⟨k.val, by omega⟩ ⟨j.val, by omega⟩) = W (ix2 ⟨g * 100 + j.val, by omega⟩ k) := by
  unfold gateBlock
  rw [shapeCast_1ab_ab_apply]
  rw [extractStridedSlice_apply _ _ h5 _ (ix3 ⟨g, hg⟩ ⟨k.val, by omega⟩ ⟨j.val, by omega⟩) (fun a => match a with
    | ⟨0, _⟩ => by show g = g + 0; omega
    | ⟨1, _⟩ => by show k.val = 0 + k.val; omega
    | ⟨2, _⟩ => by show j.val = 0 + j.val; omega)]
  rw [pad_apply_of_inside _ _ _ _ _ h3 h4 _ (ix3 ⟨g, hg⟩ k j) (fun a => match a with
    | ⟨0, _⟩ => by show g = 0 + g * (0 + 1); omega
    | ⟨1, _⟩ => by show k.val = 0 + k.val * (0 + 1); omega
    | ⟨2, _⟩ => by show j.val = 0 + j.val * (0 + 1); omega)]
  rw [transpose_ix3_021_apply]
  refine shapeCast_apply (s := W300) (t := W3) _ _ _ _ ?_
  rw [Shape.rowMajor_val_two, Shape.rowMajor_val_three]
  rfl

include hg in
/-- Rows 100 to 127 of gate `g`'s block hold the padding value. -/
theorem gateBlock_pad_row (k : Fin 28) (c : Fin 128) :
    gateBlock W z g h1 h2 h3 h4 h5 h6 (ix2 ⟨100 + k.val, by omega⟩ c) = z (Shape.Idx.first h4) := by
  unfold gateBlock
  rw [shapeCast_1ab_ab_apply]
  rw [extractStridedSlice_apply _ _ h5 _ (ix3 ⟨g, hg⟩ ⟨100 + k.val, by omega⟩ c) (fun a => match a with
    | ⟨0, _⟩ => by show g = g + 0; omega
    | ⟨1, _⟩ => by show 100 + k.val = 0 + (100 + k.val); omega
    | ⟨2, _⟩ => by show c.val = 0 + c.val; omega)]
  exact pad_apply_of_not_inside _ _ _ _ _ h3 h4 _ (1 : Fin 3) (by
    show ¬(0 ≤ 100 + k.val ∧ (100 + k.val - 0) % (0 + 1) = 0 ∧ (100 + k.val - 0) / (0 + 1) < 100)
    omega)

end Gate

/-! ## One gate's row of a bias -/

section Bias

abbrev B300 : Shape := ⟨1, ![300]⟩
abbrev B3 : Shape := ⟨2, ![3, 100]⟩
abbrev Q3 : Shape := ⟨2, ![3, 128]⟩
abbrev Q1 : Shape := ⟨2, ![1, 128]⟩
abbrev Q : Shape := ⟨1, ![128]⟩

/-- Gate `g`'s row of a [300] bias: viewed [3, 100], padded with `z` to [3, 128], row `g` cut out. -/
def gateRow (b : B300.Idx → α) (z : Sc.Idx → α) (g : ℕ) (h1 : B300.ShapeCasts B3)
    (h3 : B3.Pads (![0, 0] : Fin 2 → ℕ) ![0, 28] ![0, 0] Q3) (h4 : 0 < Sc.numel)
    (h5 : Q3.Slices ![g, 0] Q1) (h6 : Q1.ShapeCasts Q) : Q.Idx → α :=
  shapeCast Q (extractStridedSlice Q1 ![g, 0] (pad Q3 ![0, 0] ![0, 28] ![0, 0] (shapeCast B3 b h1) z h3 h4) h5) h6

variable (b : B300.Idx → α) (z : Sc.Idx → α) (g : ℕ) (hg : g < 3) (h1 : B300.ShapeCasts B3)
  (h3 : B3.Pads (![0, 0] : Fin 2 → ℕ) ![0, 28] ![0, 0] Q3) (h4 : 0 < Sc.numel)
  (h5 : Q3.Slices ![g, 0] Q1) (h6 : Q1.ShapeCasts Q)

include hg in
/-- Entry j below 100 of gate `g`'s row is the bias at g * 100 + j. -/
theorem gateRow_apply (j : Fin 100) :
    gateRow b z g h1 h3 h4 h5 h6 (ix1 ⟨j.val, by omega⟩) = b (ix1 ⟨g * 100 + j.val, by omega⟩) := by
  unfold gateRow
  rw [shapeCast_1a_a_apply]
  rw [extractStridedSlice_apply _ _ h5 _ (ix2 ⟨g, hg⟩ ⟨j.val, by omega⟩) (fun a => match a with
    | ⟨0, _⟩ => by show g = g + 0; omega
    | ⟨1, _⟩ => by show j.val = 0 + j.val; omega)]
  rw [pad_apply_of_inside _ _ _ _ _ h3 h4 _ (ix2 ⟨g, hg⟩ j) (fun a => match a with
    | ⟨0, _⟩ => by show g = 0 + g * (0 + 1); omega
    | ⟨1, _⟩ => by show j.val = 0 + j.val * (0 + 1); omega)]
  refine shapeCast_apply (s := B300) (t := B3) _ _ _ _ ?_
  rw [Shape.rowMajor_val_one, Shape.rowMajor_val_two]
  rfl

end Bias

end Cert.Proof.HostIdx

end
-- ==== Proof.KIHostWc.lean ====
/-
  The packed weight matrix the host builds for the recurrence, [256, 512], as one term over the two [300, 100] weight
  matrices, and its entries block by block:

      rows   0..127 : [ Wi_r  Wi_z  Wi_n  0    ]      each block [128, 128]: the gate's [100, 100] block transposed,
      rows 128..255 : [ Wh_r  Wh_z  0     Wh_n ]      padded with the padding value on rows and columns 100..127.
-/
import proofs.«204407_g76768245448983_cont_9to1_m_970_19_alg».proof.Proof.KIHostB
import proofs.«204407_g76768245448983_cont_9to1_m_970_19_alg».proof.Proof.LibHostIdx

noncomputable section

namespace Cert.Proof.KI

open Cert.KernelIdeal Cert.KernelIdeal.Gen
open Idealize.ShloMosaic Idealize.ShloMosaic.ValueIdx
open Idealize.SL.Sem
open Cert.Proof.HostIdx

variable {F : FTy → Type} [FloatOps F]

/-- The all-zero block: the constant of word 0 broadcast. -/
abbrev zeroBlock : FVec F S128x128 .f32 :=
  broadcastInDim S128x128 ![] bcast_S_S128x128 (constant (F := F) S_ .f32 0x00000000#32)

/-- Gate `g`'s padded block of a [300, 100] weight matrix, at the program's shape facts. -/
abbrev blk (W : S300x100.Idx → F .f32) (g : ℕ) (h5 : S3x128x128.Slices ![g, 0, 0] S1x128x128) : S128x128.Idx → F .f32 :=
  gateBlock W (padZero (F := F)) g shapeCasts_S300x100_S3x100x100 transposes_S3x100x100_S3x100x100_0_2_1
    pads_S3x100x100_S3x128x128_000_0280_0280 h_S_ h5 shapeCasts_S1x128x128_S128x128

/-- The upper half: the input weights' three blocks and a zero block. -/
def wcTop (Wih : S300x100.Idx → F .f32) : S128x512.Idx → F .f32 :=
  concatenate S128x512 1
    [⟨S128x128, blk Wih 0 slices_S3x128x128_S1x128x128_0_0_0⟩, ⟨S128x128, blk Wih 1 slices_S3x128x128_S1x128x128_1_0_0⟩,
     ⟨S128x128, blk Wih 2 slices_S3x128x128_S1x128x128_2_0_0⟩, ⟨S128x128, zeroBlock⟩]
    concatenates_S128x128_S128x128_S128x128_S128x128_S128x512_d1

/-- The lower half: the state weights' first two blocks, a zero block, and the third block. -/
def wcBot (Whh : S300x100.Idx → F .f32) : S128x512.Idx → F .f32 :=
  concatenate S128x512 1
    [⟨S128x128, blk Whh 0 slices_S3x128x128_S1x128x128_0_0_0⟩, ⟨S128x128, blk Whh 1 slices_S3x128x128_S1x128x128_1_0_0⟩,
     ⟨S128x128, zeroBlock⟩, ⟨S128x128, blk Whh 2 slices_S3x128x128_S1x128x128_2_0_0⟩]
    concatenates_S128x128_S128x128_S128x128_S128x128_S128x512_d1

/-- The packed matrix: the two halves stacked. -/
def wcTerm (Wih Whh : S300x100.Idx → F .f32) : S256x512.Idx → F .f32 :=
  concatenate S256x512 0 [⟨S128x512, wcTop Wih⟩, ⟨S128x512, wcBot Whh⟩] concatenates_S128x512_S128x512_S256x512_d0

-- The fold is unrolled and each operation's result decided at the literal references by computation; the layout
-- operations themselves are kept folded meanwhile (the equation never looks inside them).
attribute [local irreducible] pad concatenate transpose shapeCast extractStridedSlice broadcastInDim in
set_option maxRecDepth 8192 in
set_option maxHeartbeats 2000000 in
/-- What the host operations leave in the packed matrix's buffer. -/
theorem wc_term (V : Valuation τ sig (Elt F)) :
    StableHlo.after (opsB (F := F)) V (Proc.devRef .tc main_v26)
      = wcTerm (V (Proc.devRef .tc main_arg2)) (V (Proc.devRef .tc main_arg3)) := by
  simp only [opsB, StableHlo.after_cons, StableHlo.after_nil]
  rfl

/-! ## The packed matrix block by block -/

section Blocks

variable (Wih Whh : S300x100.Idx → F .f32)

/-- Rows 0 to 127 of the packed matrix are the upper half. -/
theorem wcTerm_top (k : Fin 128) (c : Fin 512) :
    wcTerm Wih Whh (ix2 ⟨k.val, by omega⟩ c) = wcTop Wih (ix2 k c) := by
  unfold wcTerm
  exact concatenate2_rows_apply_top _ _ _ k c _ rfl

/-- Rows 128 to 255 of the packed matrix are the lower half. -/
theorem wcTerm_bot (k : Fin 128) (c : Fin 512) :
    wcTerm Wih Whh (ix2 ⟨128 + k.val, by omega⟩ c) = wcBot Whh (ix2 k c) := by
  unfold wcTerm
  exact concatenate2_rows_apply_bot _ _ _ k c _ rfl

theorem wcTop_0 (k c : Fin 128) :
    wcTop Wih (ix2 k ⟨c.val, by omega⟩) = blk Wih 0 slices_S3x128x128_S1x128x128_0_0_0 (ix2 k c) := by
  unfold wcTop
  exact concatenate4_cols_apply _ _ _ _ _ 0 (by omega) _ rfl k c _ (by show c.val = 0 * 128 + c.val; omega)
theorem wcTop_1 (k c : Fin 128) :
    wcTop Wih (ix2 k ⟨128 + c.val, by omega⟩) = blk Wih 1 slices_S3x128x128_S1x128x128_1_0_0 (ix2 k c) := by
  unfold wcTop
  exact concatenate4_cols_apply _ _ _ _ _ 1 (by omega) _ rfl k c _ (by show 128 + c.val = 1 * 128 + c.val; omega)
theorem wcTop_2 (k c : Fin 128) :
    wcTop Wih (ix2 k ⟨256 + c.val, by omega⟩) = blk Wih 2 slices_S3x128x128_S1x128x128_2_0_0 (ix2 k c) := by
  unfold wcTop
  exact concatenate4_cols_apply _ _ _ _ _ 2 (by omega) _ rfl k c _ (by show 256 + c.val = 2 * 128 + c.val; omega)
theorem wcTop_3 (k c : Fin 128) :
    wcTop Wih (ix2 k ⟨384 + c.val, by omega⟩) = zeroBlock (F := F) (ix2 k c) := by
  unfold wcTop
  exact concatenate4_cols_apply _ _ _ _ _ 3 (by omega) _ rfl k c _ (by show 384 + c.val = 3 * 128 + c.val; omega)

theorem wcBot_0 (k c : Fin 128) :
    wcBot Whh (ix2 k ⟨c.val, by omega⟩) = blk Whh 0 slices_S3x128x128_S1x128x128_0_0_0 (ix2 k c) := by
  unfold wcBot
  exact concatenate4_cols_apply _ _ _ _ _ 0 (by omega) _ rfl k c _ (by show c.val = 0 * 128 + c.val; omega)
theorem wcBot_1 (k c : Fin 128) :
    wcBot Whh (ix2 k ⟨128 + c.val, by omega⟩) = blk Whh 1 slices_S3x128x128_S1x128x128_1_0_0 (ix2 k c) := by
  unfold wcBot
  exact concatenate4_cols_apply _ _ _ _ _ 1 (by omega) _ rfl k c _ (by show 128 + c.val = 1 * 128 + c.val; omega)
theorem wcBot_2 (k c : Fin 128) :
    wcBot Whh (ix2 k ⟨256 + c.val, by omega⟩) = zeroBlock (F := F) (ix2 k c) := by
  unfold wcBot
  exact concatenate4_cols_apply _ _ _ _ _ 2 (by omega) _ rfl k c _ (by show 256 + c.val = 2 * 128 + c.val; omega)
theorem wcBot_3 (k c : Fin 128) :
    wcBot Whh (ix2 k ⟨384 + c.val, by omega⟩) = blk Whh 2 slices_S3x128x128_S1x128x128_2_0_0 (ix2 k c) := by
  unfold wcBot
  exact concatenate4_cols_apply _ _ _ _ _ 3 (by omega) _ rfl k c _ (by show 384 + c.val = 3 * 128 + c.val; omega)

/-- The zero block reads the constant's word everywhere. -/
theorem zeroBlock_apply (i : S128x128.Idx) : zeroBlock (F := F) i = FloatOps.ofBits .f32 0x00000000#32 := rfl

/-- Gate `g`'s block at (k, j), both below 100. -/
theorem blk_apply (W : S300x100.Idx → F .f32) (g : ℕ) (hg : g < 3) (h5 : S3x128x128.Slices ![g, 0, 0] S1x128x128)
    (k j : Fin 100) : blk W g h5 (ix2 ⟨k.val, by omega⟩ ⟨j.val, by omega⟩) = W (ix2 ⟨g * 100 + j.val, by omega⟩ k) :=
  gateBlock_apply W _ g hg _ _ _ _ h5 _ k j

/-- Gate `g`'s block on a padded row. -/
theorem blk_pad_row (W : S300x100.Idx → F .f32) (g : ℕ) (hg : g < 3) (h5 : S3x128x128.Slices ![g, 0, 0] S1x128x128)
    (k : Fin 28) (c : Fin 128) : blk W g h5 (ix2 ⟨100 + k.val, by omega⟩ c) = padZero (F := F) (Shape.Idx.first h_S_) :=
  gateBlock_pad_row W _ g hg _ _ _ _ h5 _ k c

/-- Input rows, reset-gate columns. -/
theorem wc_x_r (k j : Fin 100) :
    wcTerm Wih Whh (ix2 ⟨k.val, by omega⟩ ⟨j.val, by omega⟩) = Wih (ix2 ⟨j.val, by omega⟩ k) :=
  (wcTerm_top Wih Whh ⟨k.val, by omega⟩ _).trans <| (wcTop_0 Wih _ ⟨j.val, by omega⟩).trans <|
    (blk_apply Wih 0 (by omega) _ k j).trans (congrArg (fun a => Wih (ix2 a k)) (Fin.ext (by show 0 * 100 + j.val = j.val; omega)))

/-- Input rows, update-gate columns. -/
theorem wc_x_z (k j : Fin 100) :
    wcTerm Wih Whh (ix2 ⟨k.val, by omega⟩ ⟨128 + j.val, by omega⟩) = Wih (ix2 ⟨100 + j.val, by omega⟩ k) :=
  (wcTerm_top Wih Whh ⟨k.val, by omega⟩ _).trans <| (wcTop_1 Wih _ ⟨j.val, by omega⟩).trans <|
    (blk_apply Wih 1 (by omega) _ k j).trans (congrArg (fun a => Wih (ix2 a k)) (Fin.ext (by show 1 * 100 + j.val = 100 + j.val; omega)))

/-- Input rows, candidate columns. -/
theorem wc_x_n (k j : Fin 100) :
    wcTerm Wih Whh (ix2 ⟨k.val, by omega⟩ ⟨256 + j.val, by omega⟩) = Wih (ix2 ⟨200 + j.val, by omega⟩ k) :=
  (wcTerm_top Wih Whh ⟨k.val, by omega⟩ _).trans <| (wcTop_2 Wih _ ⟨j.val, by omega⟩).trans <|
    (blk_apply Wih 2 (by omega) _ k j).trans (congrArg (fun a => Wih (ix2 a k)) (Fin.ext (by show 2 * 100 + j.val = 200 + j.val; omega)))

/-- Input rows, the columns of the state's candidate term: the zero block. -/
theorem wc_x_0 (k j : Fin 100) :
    wcTerm Wih Whh (ix2 ⟨k.val, by omega⟩ ⟨384 + j.val, by omega⟩) = FloatOps.ofBits .f32 0x00000000#32 :=
  (wcTerm_top Wih Whh ⟨k.val, by omega⟩ _).trans <| (wcTop_3 Wih _ ⟨j.val, by omega⟩).trans (zeroBlock_apply _)

/-- State rows, reset-gate columns. -/
theorem wc_h_r (k j : Fin 100) :
    wcTerm Wih Whh (ix2 ⟨128 + k.val, by omega⟩ ⟨j.val, by omega⟩) = Whh (ix2 ⟨j.val, by omega⟩ k) :=
  (wcTerm_bot Wih Whh ⟨k.val, by omega⟩ _).trans <| (wcBot_0 Whh _ ⟨j.val, by omega⟩).trans <|
    (blk_apply Whh 0 (by omega) _ k j).trans (congrArg (fun a => Whh (ix2 a k)) (Fin.ext (by show 0 * 100 + j.val = j.val; omega)))

/-- State rows, update-gate columns. -/
theorem wc_h_z (k j : Fin 100) :
    wcTerm Wih Whh (ix2 ⟨128 + k.val, by omega⟩ ⟨128 + j.val, by omega⟩) = Whh (ix2 ⟨100 + j.val, by omega⟩ k) :=
  (wcTerm_bot Wih Whh ⟨k.val, by omega⟩ _).trans <| (wcBot_1 Whh _ ⟨j.val, by omega⟩).trans <|
    (blk_apply Whh 1 (by omega) _ k j).trans (congrArg (fun a => Whh (ix2 a k)) (Fin.ext (by show 1 * 100 + j.val = 100 + j.val; omega)))

/-- State rows, the columns of the input's candidate term: the zero block. -/
theorem wc_h_0 (k j : Fin 100) :
    wcTerm Wih Whh (ix2 ⟨128 + k.val, by omega⟩ ⟨256 + j.val, by omega⟩) = FloatOps.ofBits .f32 0x00000000#32 :=
  (wcTerm_bot Wih Whh ⟨k.val, by omega⟩ _).trans <| (wcBot_2 Whh _ ⟨j.val, by omega⟩).trans (zeroBlock_apply _)

/-- State rows, candidate columns. -/
theorem wc_h_n (k j : Fin 100) :
    wcTerm Wih Whh (ix2 ⟨128 + k.val, by omega⟩ ⟨384 + j.val, by omega⟩) = Whh (ix2 ⟨200 + j.val, by omega⟩ k) :=
  (wcTerm_bot Wih Whh ⟨k.val, by omega⟩ _).trans <| (wcBot_3 Whh _ ⟨j.val, by omega⟩).trans <|
    (blk_apply Whh 2 (by omega) _ k j).trans (congrArg (fun a => Whh (ix2 a k)) (Fin.ext (by show 2 * 100 + j.val = 200 + j.val; omega)))

end Blocks

/-! ## The padded rows, over the extended reals -/

section Pads

variable (Wih Whh : S300x100.Idx → EReal)

theorem zeroBlock_ideal (i : S128x128.Idx) : zeroBlock (F := Ideal) i = (0 : EReal) := Ideal.ofBits_zero_f32

/-- A padded row of the upper half is zero in every column. -/
theorem wcTop_pad (k : Fin 28) (c : Fin 512) : wcTop (F := Ideal) Wih (ix2 ⟨100 + k.val, by omega⟩ c) = (0 : EReal) := by
  by_cases h0 : c.val < 128
  · exact (wcTop_0 (F := Ideal) Wih _ ⟨c.val, h0⟩).trans ((blk_pad_row (F := Ideal) Wih 0 (by omega) _ k _).trans (padZero_ideal _))
  by_cases h1 : c.val < 256
  · obtain ⟨c', hc⟩ : ∃ c' : Fin 128, c = ⟨128 + c'.val, by omega⟩ :=
      ⟨⟨c.val - 128, by omega⟩, Fin.ext (by show c.val = 128 + (c.val - 128); omega)⟩
    rw [hc]
    exact (wcTop_1 (F := Ideal) Wih _ c').trans ((blk_pad_row (F := Ideal) Wih 1 (by omega) _ k _).trans (padZero_ideal _))
  by_cases h2 : c.val < 384
  · obtain ⟨c', hc⟩ : ∃ c' : Fin 128, c = ⟨256 + c'.val, by omega⟩ :=
      ⟨⟨c.val - 256, by omega⟩, Fin.ext (by show c.val = 256 + (c.val - 256); omega)⟩
    rw [hc]
    exact (wcTop_2 (F := Ideal) Wih _ c').trans ((blk_pad_row (F := Ideal) Wih 2 (by omega) _ k _).trans (padZero_ideal _))
  · obtain ⟨c', hc⟩ : ∃ c' : Fin 128, c = ⟨384 + c'.val, by omega⟩ :=
      ⟨⟨c.val - 384, by have := c.isLt; omega⟩, Fin.ext (by show c.val = 384 + (c.val - 384); omega)⟩
    rw [hc]
    exact (wcTop_3 (F := Ideal) Wih _ c').trans (zeroBlock_ideal _)

/-- A padded row of the lower half is zero in every column. -/
theorem wcBot_pad (k : Fin 28) (c : Fin 512) : wcBot (F := Ideal) Whh (ix2 ⟨100 + k.val, by omega⟩ c) = (0 : EReal) := by
  by_cases h0 : c.val < 128
  · exact (wcBot_0 (F := Ideal) Whh _ ⟨c.val, h0⟩).trans ((blk_pad_row (F := Ideal) Whh 0 (by omega) _ k _).trans (padZero_ideal _))
  by_cases h1 : c.val < 256
  · obtain ⟨c', hc⟩ : ∃ c' : Fin 128, c = ⟨128 + c'.val, by omega⟩ :=
      ⟨⟨c.val - 128, by omega⟩, Fin.ext (by show c.val = 128 + (c.val - 128); omega)⟩
    rw [hc]
    exact (wcBot_1 (F := Ideal) Whh _ c').trans ((blk_pad_row (F := Ideal) Whh 1 (by omega) _ k _).trans (padZero_ideal _))
  by_cases h2 : c.val < 384
  · obtain ⟨c', hc⟩ : ∃ c' : Fin 128, c = ⟨256 + c'.val, by omega⟩ :=
      ⟨⟨c.val - 256, by omega⟩, Fin.ext (by show c.val = 256 + (c.val - 256); omega)⟩
    rw [hc]
    exact (wcBot_2 (F := Ideal) Whh _ c').trans (zeroBlock_ideal _)
  · obtain ⟨c', hc⟩ : ∃ c' : Fin 128, c = ⟨384 + c'.val, by omega⟩ :=
      ⟨⟨c.val - 384, by have := c.isLt; omega⟩, Fin.ext (by show c.val = 384 + (c.val - 384); omega)⟩
    rw [hc]
    exact (wcBot_3 (F := Ideal) Whh _ c').trans ((blk_pad_row (F := Ideal) Whh 2 (by omega) _ k _).trans (padZero_ideal _))

/-- Rows 100 to 127 of the packed matrix are zero. -/
theorem wc_xpad (k : Fin 28) (c : Fin 512) : wcTerm (F := Ideal) Wih Whh (ix2 ⟨100 + k.val, by omega⟩ c) = (0 : EReal) :=
  (wcTerm_top (F := Ideal) Wih Whh ⟨100 + k.val, by omega⟩ c).trans (wcTop_pad Wih k c)

/-- Rows 228 to 255 of the packed matrix are zero. -/
theorem wc_hpad (k : Fin 28) (c : Fin 512) : wcTerm (F := Ideal) Wih Whh (ix2 ⟨228 + k.val, by omega⟩ c) = (0 : EReal) := by
  have e : (⟨228 + k.val, by omega⟩ : Fin 256) = ⟨128 + (⟨100 + k.val, by omega⟩ : Fin 128).val, by omega⟩ :=
    Fin.ext (by show 228 + k.val = 128 + (100 + k.val); omega)
  rw [e]
  exact (wcTerm_bot (F := Ideal) Wih Whh ⟨100 + k.val, by omega⟩ c).trans (wcBot_pad Whh k c)

end Pads

end Cert.Proof.KI

end
-- ==== Proof.KIHostBc.lean ====
/-
  The packed bias row the host builds for the recurrence, [1, 512], as one term over the two [300] biases, and its entries:
  [ bi_r + bh_r | bi_z + bh_z | bi_n | bh_n ], each piece 128 wide (100 entries and 28 of padding).
-/
import proofs.«204407_g76768245448983_cont_9to1_m_970_19_alg».proof.Proof.KIHostB
import proofs.«204407_g76768245448983_cont_9to1_m_970_19_alg».proof.Proof.LibHostIdx

noncomputable section

namespace Cert.Proof.KI

open Cert.KernelIdeal Cert.KernelIdeal.Gen
open Idealize.ShloMosaic Idealize.ShloMosaic.ValueIdx
open Idealize.SL.Sem
open Cert.Proof.HostIdx

variable {F : FTy → Type} [FloatOps F]

/-- Gate `g`'s padded row of a [300] bias, at the program's shape facts. -/
abbrev brow (b : S300.Idx → F .f32) (g : ℕ) (h5 : S3x128.Slices ![g, 0] S1x128) : S128.Idx → F .f32 :=
  gateRow b (padZero (F := F)) g shapeCasts_S300_S3x100 pads_S3x100_S3x128_000_0280 h_S_ h5 shapeCasts_S1x128_S128

/-- The packed bias as a vector of 512: the reset and update gates' two biases added, then the candidate's two apart. -/
def bcVec (bih bhh : S300.Idx → F .f32) : S512.Idx → F .f32 :=
  concatenate S512 0
    [⟨S128, addf (brow bih 0 slices_S3x128_S1x128_0_0) (brow bhh 0 slices_S3x128_S1x128_0_0)⟩,
     ⟨S128, addf (brow bih 1 slices_S3x128_S1x128_1_0) (brow bhh 1 slices_S3x128_S1x128_1_0)⟩,
     ⟨S128, brow bih 2 slices_S3x128_S1x128_2_0⟩, ⟨S128, brow bhh 2 slices_S3x128_S1x128_2_0⟩]
    concatenates_S128_S128_S128_S128_S512_d0

/-- The packed bias as one row. -/
def bcTerm (bih bhh : S300.Idx → F .f32) : S1x512.Idx → F .f32 :=
  fun i => shapeCast S1x512 (bcVec bih bhh) shapeCasts_S512_S1x512 i

attribute [local irreducible] pad concatenate transpose shapeCast extractStridedSlice broadcastInDim addf in
set_option maxRecDepth 8192 in
set_option maxHeartbeats 2000000 in
/-- What the host operations leave in the packed bias's buffer. -/
theorem bc_term (V : Valuation τ sig (Elt F)) :
    StableHlo.after (opsB (F := F)) V (Proc.devRef .tc main_v46)
      = bcTerm (V (Proc.devRef .tc main_arg4)) (V (Proc.devRef .tc main_arg5)) := by
  simp only [opsB, StableHlo.after_cons, StableHlo.after_nil]
  rfl

section Entries

variable (bih bhh : S300.Idx → F .f32)

theorem bcTerm_apply (c : Fin 512) : bcTerm bih bhh (ix2 (0 : Fin 1) c) = bcVec bih bhh (ix1 c) :=
  shapeCast_a_1a_apply _ _ 0 c

theorem bcVec_0 (c : Fin 128) :
    bcVec bih bhh (ix1 ⟨c.val, by omega⟩)
      = addf (brow bih 0 slices_S3x128_S1x128_0_0) (brow bhh 0 slices_S3x128_S1x128_0_0) (ix1 c) := by
  unfold bcVec
  exact concatenate4_vec_apply _ _ _ _ _ 0 (by omega) _ rfl c _ (by show c.val = 0 * 128 + c.val; omega)
theorem bcVec_1 (c : Fin 128) :
    bcVec bih bhh (ix1 ⟨128 + c.val, by omega⟩)
      = addf (brow bih 1 slices_S3x128_S1x128_1_0) (brow bhh 1 slices_S3x128_S1x128_1_0) (ix1 c) := by
  unfold bcVec
  exact concatenate4_vec_apply _ _ _ _ _ 1 (by omega) _ rfl c _ (by show 128 + c.val = 1 * 128 + c.val; omega)
theorem bcVec_2 (c : Fin 128) :
    bcVec bih bhh (ix1 ⟨256 + c.val, by omega⟩) = brow bih 2 slices_S3x128_S1x128_2_0 (ix1 c) := by
  unfold bcVec
  exact concatenate4_vec_apply _ _ _ _ _ 2 (by omega) _ rfl c _ (by show 256 + c.val = 2 * 128 + c.val; omega)
theorem bcVec_3 (c : Fin 128) :
    bcVec bih bhh (ix1 ⟨384 + c.val, by omega⟩) = brow bhh 2 slices_S3x128_S1x128_2_0 (ix1 c) := by
  unfold bcVec
  exact concatenate4_vec_apply _ _ _ _ _ 3 (by omega) _ rfl c _ (by show 384 + c.val = 3 * 128 + c.val; omega)

/-- Gate `g`'s row at j below 100. -/
theorem brow_apply (b : S300.Idx → F .f32) (g : ℕ) (hg : g < 3) (h5 : S3x128.Slices ![g, 0] S1x128) (j : Fin 100) :
    brow b g h5 (ix1 ⟨j.val, by omega⟩) = b (ix1 ⟨g * 100 + j.val, by omega⟩) :=
  gateRow_apply b _ g hg _ _ _ h5 _ j

/-- The candidate's input bias. -/
theorem bc_b_n (j : Fin 100) :
    bcTerm bih bhh (ix2 (0 : Fin 1) ⟨256 + j.val, by omega⟩) = bih (ix1 ⟨200 + j.val, by omega⟩) :=
  (bcTerm_apply bih bhh _).trans <| (bcVec_2 bih bhh ⟨j.val, by omega⟩).trans <|
    (brow_apply bih 2 (by omega) _ j).trans (congrArg (fun a => bih (ix1 a)) (Fin.ext (by show 2 * 100 + j.val = 200 + j.val; omega)))

/-- The candidate's state bias. -/
theorem bc_b_h (j : Fin 100) :
    bcTerm bih bhh (ix2 (0 : Fin 1) ⟨384 + j.val, by omega⟩) = bhh (ix1 ⟨200 + j.val, by omega⟩) :=
  (bcTerm_apply bih bhh _).trans <| (bcVec_3 bih bhh ⟨j.val, by omega⟩).trans <|
    (brow_apply bhh 2 (by omega) _ j).trans (congrArg (fun a => bhh (ix1 a)) (Fin.ext (by show 2 * 100 + j.val = 200 + j.val; omega)))

end Entries

section Sums

variable (bih bhh : S300.Idx → EReal)

/-- The reset gate's two biases, added. -/
theorem bc_b_r (j : Fin 100) :
    bcTerm (F := Ideal) bih bhh (ix2 (0 : Fin 1) ⟨j.val, by omega⟩)
      = bih (ix1 ⟨j.val, by omega⟩) + bhh (ix1 ⟨j.val, by omega⟩) := by
  refine (bcTerm_apply (F := Ideal) bih bhh _).trans ((bcVec_0 (F := Ideal) bih bhh ⟨j.val, by omega⟩).trans ?_)
  rw [addf_apply]
  have e : (⟨0 * 100 + j.val, by omega⟩ : Fin 300) = ⟨j.val, by omega⟩ := Fin.ext (by show 0 * 100 + j.val = j.val; omega)
  exact congrArg₂ (· + ·) ((brow_apply (F := Ideal) bih 0 (by omega) _ j).trans (congrArg (fun a => bih (ix1 a)) e))
    ((brow_apply (F := Ideal) bhh 0 (by omega) _ j).trans (congrArg (fun a => bhh (ix1 a)) e))

/-- The update gate's two biases, added. -/
theorem bc_b_z (j : Fin 100) :
    bcTerm (F := Ideal) bih bhh (ix2 (0 : Fin 1) ⟨128 + j.val, by omega⟩)
      = bih (ix1 ⟨100 + j.val, by omega⟩) + bhh (ix1 ⟨100 + j.val, by omega⟩) := by
  refine (bcTerm_apply (F := Ideal) bih bhh _).trans ((bcVec_1 (F := Ideal) bih bhh ⟨j.val, by omega⟩).trans ?_)
  rw [addf_apply]
  have e : (⟨1 * 100 + j.val, by omega⟩ : Fin 300) = ⟨100 + j.val, by omega⟩ := Fin.ext (by show 1 * 100 + j.val = 100 + j.val; omega)
  exact congrArg₂ (· + ·) ((brow_apply (F := Ideal) bih 1 (by omega) _ j).trans (congrArg (fun a => bih (ix1 a)) e))
    ((brow_apply (F := Ideal) bhh 1 (by omega) _ j).trans (congrArg (fun a => bhh (ix1 a)) e))

end Sums

end Cert.Proof.KI

end
-- ==== Proof.StepLaw.lean ====
/-
  The law that joins the two arrangements of one step of the recurrence.

  The fused arrangement works on 128-wide padded lanes: the row `xh = [x padded to 128 | h padded to 128]` (256 wide)
  meets ONE weight matrix `wc` (256 × 512) made of the transposed gate blocks, zero-padded,

      wc = [[Wi_r Wi_z Wi_n 0   ],
            [Wh_r Wh_z 0    Wh_n]]          bc = [bi_r + bh_r | bi_z + bh_z | bi_n | bh_n]

  and then   s = xh · wc + bc,  r = logistic s[0:128],  z = logistic s[128:256],
             n = tanh (s[256:384] + r * s[384:512]),     h' = n + z * (h - n).

  On the first 100 lanes this is the step of the specification, `(1 - z) * n + z * h` with the gates' two
  pre-activations added separately. What is used: addition of extended reals is commutative and associative,
  `x * 0 = 0` for every extended real (so the padded rows and the zero blocks contribute nothing, whatever the
  padded lanes hold), a sum over 256 splits as 100 + 28 + 100 + 28, and, for the last line, the identity
  `n + z * (h - n) = (1 - z) * n + z * h` on REAL numbers: `z` and `n` are values of the logistic function and of
  the hyperbolic tangent, hence real, and `h` is real by hypothesis (every state of the recurrence is).
  This module imports no program.
-/
import proofs.«204407_g76768245448983_cont_9to1_m_970_19_alg».proof.Proof.Spec

noncomputable section

namespace Cert.Proof.StepLaw

open Idealize.ShloMosaic Idealize.ShloMosaic.ValueIdx Cert.Proof.Spec

/-! ## Sums over padded lanes -/

/-- A sum over 128 lanes is the sum over the first 100 and over the 28 padded ones. -/
theorem sum128 (f : Fin 128 → EReal) :
    ∑ i, f i = (∑ k : Fin 100, f ⟨k.val, by omega⟩) + ∑ k : Fin 28, f ⟨100 + k.val, by omega⟩ :=
  Fin.sum_univ_add (a := 100) (b := 28) f

/-- A sum over 256 lanes is the sum over its two halves. -/
theorem sum256 (f : Fin 256 → EReal) :
    ∑ i, f i = (∑ k : Fin 128, f ⟨k.val, by omega⟩) + ∑ k : Fin 128, f ⟨128 + k.val, by omega⟩ :=
  Fin.sum_univ_add (a := 128) (b := 128) f

/-- A sum over 256 lanes whose padded lanes (100–127 and 228–255) contribute nothing. -/
theorem sum256_padded (f : Fin 256 → EReal)
    (h1 : ∀ k : Fin 28, f ⟨100 + k.val, by omega⟩ = 0) (h2 : ∀ k : Fin 28, f ⟨228 + k.val, by omega⟩ = 0) :
    ∑ i, f i = (∑ k : Fin 100, f ⟨k.val, by omega⟩) + ∑ k : Fin 100, f ⟨128 + k.val, by omega⟩ := by
  rw [sum256, sum128, sum128]
  have e1 : ∑ k : Fin 28, f ⟨(⟨100 + k.val, by omega⟩ : Fin 128).val, by omega⟩ = 0 :=
    Finset.sum_eq_zero fun k _ => h1 k
  have e2 : ∑ k : Fin 28, f ⟨128 + (⟨100 + k.val, by omega⟩ : Fin 128).val, by omega⟩ = 0 :=
    Finset.sum_eq_zero fun k _ => by
      have := h2 k
      have e : (⟨128 + (⟨100 + k.val, by omega⟩ : Fin 128).val, by omega⟩ : Fin 256) = ⟨228 + k.val, by omega⟩ :=
        Fin.ext (by show 128 + (100 + k.val) = 228 + k.val; omega)
      rw [e]; exact this
  rw [e1, e2, add_zero, add_zero]

/-! ## The packed weights, by their entries -/

/-- What the fused arrangement's weight matrix `wc` (256 × 512) and bias `bc` (512) hold, entry by entry, on the
    columns of the first 100 lanes of each 128-wide block: the transposed gate blocks, zero on the padded rows and
    on the two zero blocks. -/
structure Packed (Wih Whh : (⟨2, ![300, 100]⟩ : Shape).Idx → EReal) (bih bhh : (⟨1, ![300]⟩ : Shape).Idx → EReal)
    (wc : Fin 256 → Fin 512 → EReal) (bc : Fin 512 → EReal) : Prop where
  x_r : ∀ k j : Fin 100, wc ⟨k.val, by omega⟩ ⟨j.val, by omega⟩ = Wih (ix2 (gateR j) k)
  x_z : ∀ k j : Fin 100, wc ⟨k.val, by omega⟩ ⟨128 + j.val, by omega⟩ = Wih (ix2 (gateZ j) k)
  x_n : ∀ k j : Fin 100, wc ⟨k.val, by omega⟩ ⟨256 + j.val, by omega⟩ = Wih (ix2 (gateN j) k)
  x_0 : ∀ k j : Fin 100, wc ⟨k.val, by omega⟩ ⟨384 + j.val, by omega⟩ = 0
  h_r : ∀ k j : Fin 100, wc ⟨128 + k.val, by omega⟩ ⟨j.val, by omega⟩ = Whh (ix2 (gateR j) k)
  h_z : ∀ k j : Fin 100, wc ⟨128 + k.val, by omega⟩ ⟨128 + j.val, by omega⟩ = Whh (ix2 (gateZ j) k)
  h_0 : ∀ k j : Fin 100, wc ⟨128 + k.val, by omega⟩ ⟨256 + j.val, by omega⟩ = 0
  h_n : ∀ k j : Fin 100, wc ⟨128 + k.val, by omega⟩ ⟨384 + j.val, by omega⟩ = Whh (ix2 (gateN j) k)
  xpad : ∀ (k : Fin 28) (c : Fin 512), wc ⟨100 + k.val, by omega⟩ c = 0
  hpad : ∀ (k : Fin 28) (c : Fin 512), wc ⟨228 + k.val, by omega⟩ c = 0
  b_r : ∀ j : Fin 100, bc ⟨j.val, by omega⟩ = bih (ix1 (gateR j)) + bhh (ix1 (gateR j))
  b_z : ∀ j : Fin 100, bc ⟨128 + j.val, by omega⟩ = bih (ix1 (gateZ j)) + bhh (ix1 (gateZ j))
  b_n : ∀ j : Fin 100, bc ⟨256 + j.val, by omega⟩ = bih (ix1 (gateN j))
  b_h : ∀ j : Fin 100, bc ⟨384 + j.val, by omega⟩ = bhh (ix1 (gateN j))

/-! ## The fused step -/

/-- The fused pre-activation: `xh · wc + bc` at column `c`. -/
def pre (xh : Fin 256 → EReal) (wc : Fin 256 → Fin 512 → EReal) (bc : Fin 512 → EReal) (c : Fin 512) : EReal :=
  (∑ i : Fin 256, xh i * wc i c) + bc c

/-- The fused step at lane `j` of the first 100: `n + z * (h - n)`, the state `h` read from the row's second half. -/
def fused (xh : Fin 256 → EReal) (wc : Fin 256 → Fin 512 → EReal) (bc : Fin 512 → EReal) (j : Fin 100) : EReal :=
  Ideal.tanh (pre xh wc bc ⟨256 + j.val, by omega⟩
      + Ideal.logistic (pre xh wc bc ⟨j.val, by omega⟩) * pre xh wc bc ⟨384 + j.val, by omega⟩)
    + Ideal.logistic (pre xh wc bc ⟨128 + j.val, by omega⟩)
      * (xh ⟨128 + j.val, by omega⟩
          - Ideal.tanh (pre xh wc bc ⟨256 + j.val, by omega⟩
              + Ideal.logistic (pre xh wc bc ⟨j.val, by omega⟩) * pre xh wc bc ⟨384 + j.val, by omega⟩))

section Law

variable {Wih Whh : (⟨2, ![300, 100]⟩ : Shape).Idx → EReal} {bih bhh : (⟨1, ![300]⟩ : Shape).Idx → EReal}
  {wc : Fin 256 → Fin 512 → EReal} {bc : Fin 512 → EReal}

/-- The row's product with a column of `wc`: the padded rows drop out. -/
theorem dot_split (P : Packed Wih Whh bih bhh wc bc) (xh : Fin 256 → EReal) (c : Fin 512) :
    ∑ i : Fin 256, xh i * wc i c
      = (∑ k : Fin 100, xh ⟨k.val, by omega⟩ * wc ⟨k.val, by omega⟩ c)
        + ∑ k : Fin 100, xh ⟨128 + k.val, by omega⟩ * wc ⟨128 + k.val, by omega⟩ c :=
  sum256_padded (fun i => xh i * wc i c) (fun k => by show xh _ * wc _ c = 0; rw [P.xpad k c, mul_zero])
    (fun k => by show xh _ * wc _ c = 0; rw [P.hpad k c, mul_zero])

variable (P : Packed Wih Whh bih bhh wc bc) (xh : Fin 256 → EReal) (x h : Fin 100 → EReal)
  (hx : ∀ k : Fin 100, xh ⟨k.val, by omega⟩ = x k) (hh : ∀ k : Fin 100, xh ⟨128 + k.val, by omega⟩ = h k)

include P hx hh

/-- Column `j` of the first block: the reset gate's two pre-activations, added. -/
theorem pre_r (j : Fin 100) : pre xh wc bc ⟨j.val, by omega⟩ = gi Wih bih x (gateR j) + gh Whh bhh h (gateR j) := by
  unfold pre gi gh
  rw [dot_split P, P.b_r j]
  simp only [hx, hh, P.x_r, P.h_r]
  exact add_add_add_comm _ _ _ _

/-- Column `j` of the second block: the update gate's two pre-activations, added. -/
theorem pre_z (j : Fin 100) : pre xh wc bc ⟨128 + j.val, by omega⟩ = gi Wih bih x (gateZ j) + gh Whh bhh h (gateZ j) := by
  unfold pre gi gh
  rw [dot_split P, P.b_z j]
  simp only [hx, hh, P.x_z, P.h_z]
  exact add_add_add_comm _ _ _ _

/-- Column `j` of the third block: the candidate's input pre-activation alone (the state meets a zero block). -/
theorem pre_n (j : Fin 100) : pre xh wc bc ⟨256 + j.val, by omega⟩ = gi Wih bih x (gateN j) := by
  unfold pre gi
  rw [dot_split P, P.b_n j]
  simp only [hx, hh, P.x_n, P.h_0, mul_zero, Finset.sum_const_zero, add_zero]

/-- Column `j` of the fourth block: the candidate's state pre-activation alone (the input meets a zero block). -/
theorem pre_h (j : Fin 100) : pre xh wc bc ⟨384 + j.val, by omega⟩ = gh Whh bhh h (gateN j) := by
  unfold pre gh
  rw [dot_split P, P.b_h j]
  simp only [hx, hh, P.x_0, P.h_n, mul_zero, Finset.sum_const_zero, zero_add]

/-- THE LAW: on a lane of the first 100 whose state is a real number, the fused step is the specification's. -/
theorem fused_eq_cell (j : Fin 100) (hj : ∃ r : ℝ, h j = (r : EReal)) :
    fused xh wc bc j = cell Wih Whh bih bhh x h j := by
  obtain ⟨hr, hhr⟩ := hj
  obtain ⟨z, hz⟩ := logistic_real (gi Wih bih x (gateZ j) + gh Whh bhh h (gateZ j))
  obtain ⟨n, hn⟩ := tanh_real (gi Wih bih x (gateN j) + reset Wih Whh bih bhh x h j * gh Whh bhh h (gateN j))
  unfold fused cell
  rw [pre_r P xh x h hx hh j, pre_z P xh x h hx hh j, pre_n P xh x h hx hh j, pre_h P xh x h hx hh j, hh j]
  rw [show update Wih Whh bih bhh x h j = (z : EReal) from hz, show cand Wih Whh bih bhh x h j = (n : EReal) from hn]
  rw [show Ideal.logistic (gi Wih bih x (gateZ j) + gh Whh bhh h (gateZ j)) = (z : EReal) from hz,
    show Ideal.tanh (gi Wih bih x (gateN j)
      + Ideal.logistic (gi Wih bih x (gateR j) + gh Whh bhh h (gateR j)) * gh Whh bhh h (gateN j)) = (n : EReal) from hn, hhr]
  rw [← EReal.coe_sub, ← EReal.coe_mul, ← EReal.coe_add, ← EReal.coe_one, ← EReal.coe_sub, ← EReal.coe_mul, ← EReal.coe_mul,
    ← EReal.coe_add]
  exact congrArg _ (by ring)

end Law

/-! ## The linear layer over padded lanes -/

/-- The last state's 128 padded lanes against a weight matrix whose padded rows are zero: the sum over the first 100
    lanes. -/
theorem out_split (hp : Fin 128 → EReal) (wl : Fin 128 → EReal) (hpad : ∀ k : Fin 28, wl ⟨100 + k.val, by omega⟩ = 0) :
    ∑ i : Fin 128, hp i * wl i = ∑ k : Fin 100, hp ⟨k.val, by omega⟩ * wl ⟨k.val, by omega⟩ := by
  rw [sum128 fun i => hp i * wl i]
  have e : ∑ k : Fin 28, hp ⟨100 + k.val, by omega⟩ * wl ⟨100 + k.val, by omega⟩ = 0 :=
    Finset.sum_eq_zero fun k _ => by rw [hpad k, mul_zero]
  rw [e, add_zero]

end Cert.Proof.StepLaw

end
-- ==== Proof.KIHostPacked.lean ====
/-
  The packed weights and bias the host operations build are the packing the fused step's law asks for: over the
  extended reals, entry by entry, the transposed gate blocks of the two weight matrices, zero on the padded rows and
  on the two zero blocks, and the gates' biases (the reset and update gates' two biases added).
-/
import proofs.«204407_g76768245448983_cont_9to1_m_970_19_alg».proof.Proof.KIHostWc
import proofs.«204407_g76768245448983_cont_9to1_m_970_19_alg».proof.Proof.KIHostBc
import proofs.«204407_g76768245448983_cont_9to1_m_970_19_alg».proof.Proof.StepLaw

noncomputable section

namespace Cert.Proof.KI

open Cert.KernelIdeal Cert.KernelIdeal.Gen
open Idealize.ShloMosaic Idealize.ShloMosaic.ValueIdx
open Idealize.SL.Sem
open Cert.Proof.Spec

/-- The buffers the host operations leave for the recurrence hold the packed weights and bias of the two weight matrices
    and the two biases the program was given. -/
theorem packed (V : Valuation τ sig (Elt Ideal)) :
    StepLaw.Packed (V (Proc.devRef .tc main_arg2)) (V (Proc.devRef .tc main_arg3))
      (V (Proc.devRef .tc main_arg4)) (V (Proc.devRef .tc main_arg5))
      (fun (k : Fin 256) (c : Fin 512) => StableHlo.after (opsB (F := Ideal)) V (Proc.devRef .tc main_v26) (ix2 k c))
      (fun (c : Fin 512) => StableHlo.after (opsB (F := Ideal)) V (Proc.devRef .tc main_v46) (ix2 (0 : Fin 1) c)) where
  x_r k j := (congrFun (wc_term V) _).trans (wc_x_r _ _ k j)
  x_z k j := (congrFun (wc_term V) _).trans (wc_x_z _ _ k j)
  x_n k j := (congrFun (wc_term V) _).trans (wc_x_n _ _ k j)
  x_0 k j := (congrFun (wc_term V) _).trans ((wc_x_0 _ _ k j).trans Ideal.ofBits_zero_f32)
  h_r k j := (congrFun (wc_term V) _).trans (wc_h_r _ _ k j)
  h_z k j := (congrFun (wc_term V) _).trans (wc_h_z _ _ k j)
  h_0 k j := (congrFun (wc_term V) _).trans ((wc_h_0 _ _ k j).trans Ideal.ofBits_zero_f32)
  h_n k j := (congrFun (wc_term V) _).trans (wc_h_n _ _ k j)
  xpad k c := (congrFun (wc_term V) _).trans (wc_xpad _ _ k c)
  hpad k c := (congrFun (wc_term V) _).trans (wc_hpad _ _ k c)
  b_r j := (congrFun (bc_term V) _).trans (bc_b_r _ _ j)
  b_z j := (congrFun (bc_term V) _).trans (bc_b_z _ _ j)
  b_n j := (congrFun (bc_term V) _).trans (bc_b_n _ _ j)
  b_h j := (congrFun (bc_term V) _).trans (bc_b_h _ _ j)

end Cert.Proof.KI

end
-- ==== Proof.KernelSpec.lean ====
/-
  The kernel's side of the recurrence as one function: the fused step on all 128 padded lanes of a batch row, iterated
  from the zero state over the row [x_t | h_t] (256 wide) against the packed matrix and bias, then the padded linear
  layer. On the first 100 lanes it is the specification's recurrence, whatever the 28 padded lanes hold: the packed
  matrix has zero rows there, and a product with zero vanishes on the extended reals.
-/
import proofs.«204407_g76768245448983_cont_9to1_m_970_19_alg».proof.Proof.StepLaw

noncomputable section

namespace Cert.Proof.KernelSpec

open Idealize.ShloMosaic Idealize.ShloMosaic.ValueIdx Cert.Proof.Spec Cert.Proof.StepLaw

/-- The fused step `n + z * (h - n)` at any of the 128 lanes. -/
def fused128 (xh : Fin 256 → EReal) (wc : Fin 256 → Fin 512 → EReal) (bc : Fin 512 → EReal) (j : Fin 128) : EReal :=
  Ideal.tanh (pre xh wc bc ⟨256 + j.val, by omega⟩
      + Ideal.logistic (pre xh wc bc ⟨j.val, by omega⟩) * pre xh wc bc ⟨384 + j.val, by omega⟩)
    + Ideal.logistic (pre xh wc bc ⟨128 + j.val, by omega⟩)
      * (xh ⟨128 + j.val, by omega⟩
          - Ideal.tanh (pre xh wc bc ⟨256 + j.val, by omega⟩
              + Ideal.logistic (pre xh wc bc ⟨j.val, by omega⟩) * pre xh wc bc ⟨384 + j.val, by omega⟩))

theorem fused128_lt (xh : Fin 256 → EReal) (wc : Fin 256 → Fin 512 → EReal) (bc : Fin 512 → EReal) (j : Fin 100) :
    fused128 xh wc bc ⟨j.val, by omega⟩ = fused xh wc bc j := rfl

/-- The row the product reads: the step's input on lanes 0–127, the state on lanes 128–255. -/
def xhOf (x h : Fin 128 → EReal) : Fin 256 → EReal := fun i =>
  if hi : i.val < 128 then x ⟨i.val, hi⟩ else h ⟨i.val - 128, by omega⟩

theorem xhOf_lo (x h : Fin 128 → EReal) (k : Fin 128) : xhOf x h ⟨k.val, by omega⟩ = x k := by
  unfold xhOf; rw [dif_pos k.isLt]
theorem xhOf_hi (x h : Fin 128 → EReal) (k : Fin 128) : xhOf x h ⟨128 + k.val, by omega⟩ = h k := by
  unfold xhOf; rw [dif_neg (by show ¬ 128 + k.val < 128; omega)]; exact congrArg h (Fin.ext (by show 128 + k.val - 128 = k.val; omega))

section Rec

variable (emb : Fin 50 → Fin 1024 → Fin 128 → EReal) (wc : Fin 256 → Fin 512 → EReal) (bc : Fin 512 → EReal)

/-- The state after `t` steps on all 128 lanes, from the zero state. -/
def khid : ℕ → Fin 1024 → Fin 128 → EReal
  | 0 => fun _ _ => 0
  | t + 1 => fun b j => fused128 (xhOf (emb (pos t) b) (khid t b)) wc bc j

/-- The padded linear layer of the state after 50 steps. -/
def kout (wl : Fin 128 → Fin 3 → EReal) (bl : Fin 3 → EReal) (b : Fin 1024) (c : Fin 3) : EReal :=
  (∑ k : Fin 128, khid emb wc bc 50 b k * wl k c) + bl c

end Rec

section Join

variable {table : (⟨2, ![100000, 100]⟩ : Shape).Idx → EReal} {sent : (⟨2, ![1024, 50]⟩ : Shape).Idx → BitVec 32}
  {Wih Whh : (⟨2, ![300, 100]⟩ : Shape).Idx → EReal} {bih bhh : (⟨1, ![300]⟩ : Shape).Idx → EReal}
  {Wlin : (⟨2, ![3, 100]⟩ : Shape).Idx → EReal} {blin : (⟨1, ![3]⟩ : Shape).Idx → EReal}
  {emb : Fin 50 → Fin 1024 → Fin 128 → EReal} {wc : Fin 256 → Fin 512 → EReal} {bc : Fin 512 → EReal}

/-- On the first 100 lanes the kernel's state is the specification's, step by step. -/
theorem khid_eq_hid (P : Packed Wih Whh bih bhh wc bc)
    (hemb : ∀ (t : ℕ) (b : Fin 1024) (k : Fin 100), emb (pos t) b ⟨k.val, by omega⟩ = Spec.emb table sent t b k) :
    ∀ (t : ℕ) (b : Fin 1024) (j : Fin 100), khid emb wc bc t b ⟨j.val, by omega⟩ = hid table sent Wih Whh bih bhh t b j
  | 0, _, _ => rfl
  | t + 1, b, j => by
    show fused128 (xhOf (emb (pos t) b) (khid emb wc bc t b)) wc bc ⟨j.val, by omega⟩ = _
    rw [fused128_lt, hid_succ]
    exact fused_eq_cell P _ (Spec.emb table sent t b) (hid table sent Wih Whh bih bhh t b)
      (fun k => (xhOf_lo _ _ ⟨k.val, by omega⟩).trans (hemb t b k))
      (fun k => (xhOf_hi _ _ ⟨k.val, by omega⟩).trans (khid_eq_hid P hemb t b k)) j (hid_real Wih Whh bih bhh table sent t b j)

/-- The kernel's function is the specification. -/
theorem kout_eq_G (P : Packed Wih Whh bih bhh wc bc)
    (hemb : ∀ (t : ℕ) (b : Fin 1024) (k : Fin 100), emb (pos t) b ⟨k.val, by omega⟩ = Spec.emb table sent t b k)
    {wl : Fin 128 → Fin 3 → EReal} {bl : Fin 3 → EReal}
    (hwl : ∀ (k : Fin 100) (c : Fin 3), wl ⟨k.val, by omega⟩ c = Wlin (ix2 c k))
    (hwlpad : ∀ (k : Fin 28) (c : Fin 3), wl ⟨100 + k.val, by omega⟩ c = 0)
    (hbl : ∀ c : Fin 3, bl c = blin (ix1 c)) (b : Fin 1024) (c : Fin 3) :
    kout emb wc bc wl bl b c = G table sent Wih Whh bih bhh Wlin blin (ix2 b c) := by
  rw [G_apply]
  unfold kout
  rw [out_split (khid emb wc bc 50 b) (fun k => wl k c) (fun k => hwlpad k c), hbl]
  refine congrArg (· + blin (ix1 c)) (Finset.sum_congr rfl fun j _ => ?_)
  rw [khid_eq_hid P hemb 50 b j, hwl]

end Join

end Cert.Proof.KernelSpec

end
-- ==== Proof.KIValue.lean ====
/-
  The idealized kernel program's result is the specification. The result array is what the recurrent region's
  pipeline leaves in its output window; that is the padded recurrence `kout` of the arrays the region is entered
  from (taken here as a hypothesis about that region alone); and those arrays, traced back through the host
  operations, the gather and the padding region to the launch memory, are: the packed weights and bias of the four
  gate arrays; the output layer's weights transposed and zero-padded, its bias; and, at step `t`, row `b`, lane
  `k < 100`, the table's entry `k` of the row the sentence names at `(b, t)` — gathered row `t * 1024 + b` of the
  padded table at the flattened, transposed indices. So the padded recurrence is the specification's.
-/
import proofs.«204407_g76768245448983_cont_9to1_m_970_19_alg».proof.Proof.KIFinal
import proofs.«204407_g76768245448983_cont_9to1_m_970_19_alg».proof.Proof.KITcPadValue
import proofs.«204407_g76768245448983_cont_9to1_m_970_19_alg».proof.Proof.KIHostPacked
import proofs.«204407_g76768245448983_cont_9to1_m_970_19_alg».proof.Proof.KernelSpec

noncomputable section

namespace Cert.Proof.KI

open Cert.KernelIdeal Cert.KernelIdeal.Gen
open Idealize.ShloMosaic Idealize.ShloMosaic.ValueIdx
open Idealize.ShloMosaic.SparseCore.Cfg (HIx)
open Idealize.SL.Sem
open Cert.Proof.Spec

variable (m : (ℓ : Loc nD τ sig) → Buf (Elt Ideal) ℓ)

/-! ## The contents the second host stretch starts from -/

/-- After the padding region, the first host stretch and the gather. -/
abbrev V3 (c : Dev nD) : Valuation τ sig (Elt Ideal) := W3 (Wr1 m) (gv m) c

/-- The recurrent region is entered from the second host stretch's results over those contents. -/
theorem Wr4_eq (c : Dev nD) : Wr4 m c = StableHlo.after (opsB (F := Ideal)) (V3 m c) := rfl

/-- A buffer the gather, the first host stretch and the padding region do not write holds its launch contents. -/
theorem V3_arg (c : Dev nD) (b : Ref sig .tc) (h3 : (Proc.devRef .tc b : DevRef τ sig) ≠ v3') (hA : b ∉ opsA_W)
    (h0 : ∀ w, Pipeline.arrRef spec0 w ≠ b) :
    V3 m c (Proc.devRef .tc b) = m ((c.tc : Thread nD τ).loc b) := by
  unfold V3 W3
  rw [Function.update_of_ne h3]
  unfold W2
  rw [opsA_frame _ b hA]
  unfold Wr1
  rw [Wout0_of_ne _ _ _ c b h0]
  rfl

/-! ## The gathered rows -/

/-- A word that reads signed as a row of the table names that row, read unsigned too. -/
theorem row_val {w : BitVec 32} (h0 : 0 ≤ w.toInt) (h1 : w.toInt ≤ 99999) : (row w).val = w.toNat ∧ w.toNat < 100000 := by
  have hc := BitVec.toInt_eq_toNat_cond w
  have hlt := w.isLt
  refine ⟨?_, ?_⟩
  · show min w.toInt.toNat 99999 = w.toNat
    split at hc <;> omega
  · split at hc <;> omega

/-- The padded table as the gather finds it, at a column below 100: the table's entry. -/
theorem tpv_apply (c : Dev nD) (r : Fin 100000) (k : Fin 100) :
    tpv m c (ix2 r ⟨k.val, by omega⟩) = m ((c.tc : Thread nD τ).loc main_arg0) (ix2 r k) := by
  unfold tpv W2
  rw [opsA_v0]
  unfold Wr1
  exact (congrFun (Wout0_arr (Ix := HIx 1) (Name := ℕ) (U := UU) (Lvl := ℕ) (Op (F := Ideal)) (Bp (F := Ideal)) (W0 m) c 1) _).trans
    (pad_apply (Ix := HIx 1) (Name := ℕ) (U := UU) (Lvl := ℕ) (Vof (W0 m)) (Op (F := Ideal) 0) (Bp (F := Ideal) 0) c r k)

/-- The flattened indices as the gather finds them: entry `t * 1024 + b` is the sentence array at `(b, t)`. -/
theorem ixv_apply (c : Dev nD) (t : Fin 50) (b : Fin 1024) :
    ixv m c (idx1 ⟨t.val * 1024 + b.val, by omega⟩) = m ((c.tc : Thread nD τ).loc main_arg1) (ix2 b t) := by
  unfold ixv W2
  rw [show idx1 ⟨t.val * 1024 + b.val, by omega⟩ = ix1 ⟨t.val * 1024 + b.val, by omega⟩ from
    funext fun a => match a with | ⟨0, _⟩ => rfl]
  rw [idx_apply]
  unfold Wr1
  rw [Wout0_of_ne _ _ _ c main_arg1 (by decide)]
  rfl

section Range

variable (hs : ∀ (c : Dev nD) i, 0 ≤ (m ((c.tc : Thread nD τ).loc main_arg1) i).toInt
    ∧ (m ((c.tc : Thread nD τ).loc main_arg1) i).toInt ≤ 99999)

include hs

/-- Gathered row `t * 1024 + b`, at a lane below 100: the table's entry of the row the sentence names at `(b, t)`. -/
theorem gv_apply (c : Dev nD) (t : Fin 50) (b : Fin 1024) (k : Fin 100) :
    gv m c (ix2 ⟨t.val * 1024 + b.val, by omega⟩ ⟨k.val, by omega⟩)
      = m ((c.tc : Thread nD τ).loc main_arg0) (ix2 (row (m ((c.tc : Thread nD τ).loc main_arg1) (ix2 b t))) k) := by
  obtain ⟨hr, hlt⟩ := row_val (hs c (ix2 b t)).1 (hs c (ix2 b t)).2
  unfold gv gath
  have hsrc : srcIdx (ixv m) c (ix2 ⟨t.val * 1024 + b.val, by omega⟩ ⟨k.val, by omega⟩)
      = ix2 (row (m ((c.tc : Thread nD τ).loc main_arg1) (ix2 b t))) ⟨k.val, by omega⟩ := by
    funext a
    refine Fin.ext ?_
    match a with
    | ⟨0, h0⟩ =>
      rw [srcIdx_val0 (ixv m) c _ ⟨0, h0⟩ rfl]
      show (ixv m c (idx1 ⟨t.val * 1024 + b.val, by omega⟩)).toNat % 100000 = (row _).val
      rw [ixv_apply, hr]
      exact Nat.mod_eq_of_lt hlt
    | ⟨1, h1⟩ =>
      rw [srcIdx_val1 (ixv m) c _ ⟨1, h1⟩ (fun h => Nat.one_ne_zero h)]
  rw [hsrc, tpv_apply]

/-! ## The kernel's result -/

/-- THE RESULT ARRAY IS THE SPECIFICATION of the launch memory's eight arguments, given what the recurrent region's
    pipeline leaves in its output window. -/
theorem result_eq (c : Dev nD)
    (gru_out : ∀ (b : Fin 1024) (c3 : Fin 3),
      (dat2 (Ix := HIx 1) (Name := ℕ) (U := UU) (Lvl := ℕ) (Vof (Wr4 m)) (Op (F := Ideal) 1) (Bp (F := Ideal) 1) c).arrAt 5 cfg2.N (ix2 b c3)
        = KernelSpec.kout (fun t b k => Wr4 m c (Proc.devRef .tc main_v4) (ix3 t b k))
            (fun k c' => Wr4 m c (Proc.devRef .tc main_v26) (ix2 k c'))
            (fun c' => Wr4 m c (Proc.devRef .tc main_v46) (ix2 (0 : Fin 1) c'))
            (fun k c' => Wr4 m c (Proc.devRef .tc main_v48) (ix2 k c'))
            (fun c' => Wr4 m c (Proc.devRef .tc main_v49) (ix2 (0 : Fin 1) c')) b c3) :
    resultOf (F := Ideal) m c
      = Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  funext i
  obtain ⟨b, c3, rfl⟩ : ∃ (b : Fin 1024) (c3 : Fin 3), i = ix2 b c3 := ⟨i 0, i 1, eq_ix2 i⟩
  have e1 : resultOf (F := Ideal) m c
      = (dat2 (Ix := HIx 1) (Name := ℕ) (U := UU) (Lvl := ℕ) (Vof (Wr4 m)) (Op (F := Ideal) 1) (Bp (F := Ideal) 1) c).arrAt 5 cfg2.N := by
    unfold resultOf Wr5
    exact Wout1_arr (Ix := HIx 1) (Name := ℕ) (U := UU) (Lvl := ℕ) (Op (F := Ideal)) (Bp (F := Ideal)) (Wr4 m) c 5
  rw [e1, gru_out b c3]
  have P : StepLaw.Packed (m ((c.tc : Thread nD τ).loc main_arg2)) (m ((c.tc : Thread nD τ).loc main_arg3))
      (m ((c.tc : Thread nD τ).loc main_arg4)) (m ((c.tc : Thread nD τ).loc main_arg5))
      (fun (k : Fin 256) (c' : Fin 512) => Wr4 m c (Proc.devRef .tc main_v26) (ix2 k c'))
      (fun (c' : Fin 512) => Wr4 m c (Proc.devRef .tc main_v46) (ix2 (0 : Fin 1) c')) := by
    have P0 := packed (V3 m c)
    rw [V3_arg m c main_arg2 (by decide) (by decide) (by decide), V3_arg m c main_arg3 (by decide) (by decide) (by decide),
      V3_arg m c main_arg4 (by decide) (by decide) (by decide), V3_arg m c main_arg5 (by decide) (by decide) (by decide)] at P0
    exact P0
  refine KernelSpec.kout_eq_G P ?_ ?_ ?_ ?_ b c3
  · -- the step's input: the embedded token
    intro t b' k
    show StableHlo.after (opsB (F := Ideal)) (V3 m c) (Proc.devRef .tc main_v4) (ix3 (pos t) b' ⟨k.val, by omega⟩) = _
    rw [emb_apply]
    show Function.update (W2 (Wr1 m) c) v3' (gv m c) v3' _ = _
    rw [Function.update_self]
    exact gv_apply m hs c (pos t) b' k
  · -- the output layer's weights
    intro k c'
    show StableHlo.after (opsB (F := Ideal)) (V3 m c) (Proc.devRef .tc main_v48) (ix2 ⟨k.val, by omega⟩ c') = _
    rw [wlin_apply, V3_arg m c main_arg6 (by decide) (by decide) (by decide)]
  · -- their padded rows
    intro k c'
    exact wlin_pad (V3 m c) k c'
  · -- the output layer's bias
    intro c'
    show StableHlo.after (opsB (F := Ideal)) (V3 m c) (Proc.devRef .tc main_v49) (ix2 (0 : Fin 1) c') = _
    rw [blin_apply, V3_arg m c main_arg7 (by decide) (by decide) (by decide)]

end Range

end Cert.Proof.KI

end
-- ==== Proof.KITcGruPay.lean ====
/-
  The recurrent kernel's payloads read at an index, at the ideal values: the row [x | h] against the packed matrix and
  bias is the pre-activation of the fused step, the gates' chain is the fused step, the closing product is the padded
  linear layer.
-/
import proofs.«204407_g76768245448983_cont_9to1_m_970_19_alg».proof.Proof.Gen.KernelIdeal.Skeleton
import proofs.«204407_g76768245448983_cont_9to1_m_970_19_alg».proof.Proof.KernelSpec
import Idealize.ShloMosaic.Lib.KernelVsHost
import Idealize.ShloMosaic.Lib.StackMember
import Idealize.ShloMosaic.Lib.Pipeline.Value
import Idealize.ShloMosaic.Lib.ValueIdx

noncomputable section

namespace Cert.Proof.KI

open Cert.KernelIdeal Cert.KernelIdeal.Gen
open Idealize.ShloMosaic Idealize.ShloMosaic.ValueIdx
open Cert.Proof.Spec Cert.Proof.StepLaw Cert.Proof.KernelSpec

/-! ## Rows, the matrix and the bias as functions of coordinates -/

/-- Row `b` of a 1024 × 256 array. -/
def rowOf (v : FVec Ideal S1024x256 .f32) (b : Fin 1024) : Fin 256 → EReal := fun i => v (ix2 b i)
/-- A 256 × 512 array by its coordinates. -/
def matOf (v : FVec Ideal S256x512 .f32) : Fin 256 → Fin 512 → EReal := fun k c => v (ix2 k c)
/-- A 1 × 512 array by its column. -/
def biasOf (v : FVec Ideal S1x512 .f32) : Fin 512 → EReal := fun c => v (ix2 0 c)

/-! ## The pointwise functions and a column slice at an index -/

theorem vtanh_apply {s : Shape} {φ : FTy} (x : FVec Ideal s φ) (i : s.Idx) : Idealize.ShloMosaic.tanh x i = Ideal.tanh (x i) := rfl
theorem vlogistic_apply {s : Shape} {φ : FTy} (x : FVec Ideal s φ) (i : s.Idx) : Idealize.ShloMosaic.logistic x i = Ideal.logistic (x i) := rfl

/-- A slice of columns `off …` of a matrix, read at `(b, j)`, is the matrix at `(b, off + j)`. -/
theorem slice2_apply {α : Type} {m n n' : ℕ} (off : ℕ) (x : (⟨2, ![m, n]⟩ : Shape).Idx → α)
    (h : (⟨2, ![m, n]⟩ : Shape).Slices ![0, off] ⟨2, ![m, n']⟩) (b : Fin m) (j : Fin n') (k : Fin n) (hk : k.val = off + j.val) :
    extractStridedSlice ⟨2, ![m, n']⟩ ![0, off] x h (ix2 b j) = x (ix2 b k) :=
  extractStridedSlice_apply _ x h _ _ (fun a => match a with
    | ⟨0, _⟩ => (Nat.zero_add _).symm
    | ⟨1, _⟩ => hk)

/-! ## The pre-activation -/

/-- The product of the row array with the packed matrix into a zero accumulator, plus the bias laid along the rows. -/
abbrev preAct (v8 : FVec Ideal S1024x256 .f32) (v9 : FVec Ideal S256x512 .f32) (v12 : FVec Ideal S1x512 .f32) : FVec Ideal S1024x512 .f32 :=
  addf (matmul dot_S1024x256_S256x512_S1024x512_1_0_0_1_n_n none v8 (shapeCast S256x512 v9 shapeCasts_S256x512_S256x512) (constant S1024x512 .f32 0x00000000#32))
    (broadcastTo S1024x512 (shapeCast S1x512 v12 shapeCasts_S1x512_S1x512) broadcasts_S1x512_S1024x512)

theorem preAct_apply (v8 : FVec Ideal S1024x256 .f32) (v9 : FVec Ideal S256x512 .f32) (v12 : FVec Ideal S1x512 .f32) (b : Fin 1024) (col : Fin 512) :
    preAct v8 v9 v12 (ix2 b col) = pre (rowOf v8 b) (matOf v9) (biasOf v12) col := by
  unfold preAct
  rw [addf_apply, shapeCast_self, shapeCast_self, matmul_zero_eq_dotGeneral]
  rw [show Host.dotGeneral dot_S1024x256_S256x512_S1024x512_1_0_0_1_n_n none v8 v9 (ix2 b col) = ∑ k : Fin 256, v8 (ix2 b k) * v9 (ix2 k col) from
    StackMember.dotGeneral_plain_apply (m := 1024) (n := 512) none v8 v9 b col]
  rw [broadcastTo_apply v12 broadcasts_S1x512_S1024x512 (ix2 b col) (ix2 0 col) (fun a => match a with
    | ⟨0, _⟩ => rfl
    | ⟨1, _⟩ => by show col.val = if (512 : ℕ) = 1 then 0 else col.val; rw [if_neg (by decide)])]
  rfl

/-! ## The gates -/

/-- The chain from the pre-activation `S` and the old state `v25` to the new state, read at `(b, j)`. -/
theorem gate_apply (S : FVec Ideal S1024x512 .f32) (v25 : FVec Ideal S1024x128 .f32) (b : Fin 1024) (j : Fin 128) :
    (addf (Idealize.ShloMosaic.tanh (addf (extractStridedSlice S1024x128 ![0, 256] S slices_S1024x512_o0_256_S1024x128)
        (mulf (extractStridedSlice S1024x128 ![0, 0] (Idealize.ShloMosaic.logistic (extractStridedSlice S1024x256 ![0, 0] S slices_S1024x512_o0_0_S1024x256)) slices_S1024x256_o0_0_S1024x128)
          (extractStridedSlice S1024x128 ![0, 384] S slices_S1024x512_o0_384_S1024x128))))
      (mulf (extractStridedSlice S1024x128 ![0, 128] (Idealize.ShloMosaic.logistic (extractStridedSlice S1024x256 ![0, 0] S slices_S1024x512_o0_0_S1024x256)) slices_S1024x256_o0_128_S1024x128)
        (subf v25 (Idealize.ShloMosaic.tanh (addf (extractStridedSlice S1024x128 ![0, 256] S slices_S1024x512_o0_256_S1024x128)
          (mulf (extractStridedSlice S1024x128 ![0, 0] (Idealize.ShloMosaic.logistic (extractStridedSlice S1024x256 ![0, 0] S slices_S1024x512_o0_0_S1024x256)) slices_S1024x256_o0_0_S1024x128)
            (extractStridedSlice S1024x128 ![0, 384] S slices_S1024x512_o0_384_S1024x128))))))) (ix2 b j)
    = Ideal.tanh (S (ix2 b ⟨256 + j.val, by omega⟩) + Ideal.logistic (S (ix2 b ⟨j.val, by omega⟩)) * S (ix2 b ⟨384 + j.val, by omega⟩))
      + Ideal.logistic (S (ix2 b ⟨128 + j.val, by omega⟩))
        * (v25 (ix2 b j) - Ideal.tanh (S (ix2 b ⟨256 + j.val, by omega⟩) + Ideal.logistic (S (ix2 b ⟨j.val, by omega⟩)) * S (ix2 b ⟨384 + j.val, by omega⟩))) := by
  have e256 := slice2_apply 256 S slices_S1024x512_o0_256_S1024x128 b j ⟨256 + j.val, by omega⟩ rfl
  have e384 := slice2_apply 384 S slices_S1024x512_o0_384_S1024x128 b j ⟨384 + j.val, by omega⟩ rfl
  have eL0 : extractStridedSlice S1024x128 ![0, 0] (Idealize.ShloMosaic.logistic (extractStridedSlice S1024x256 ![0, 0] S slices_S1024x512_o0_0_S1024x256)) slices_S1024x256_o0_0_S1024x128 (ix2 b j)
      = Ideal.logistic (S (ix2 b ⟨j.val, by omega⟩)) := by
    rw [slice2_apply 0 _ slices_S1024x256_o0_0_S1024x128 b j ⟨j.val, by omega⟩ (Nat.zero_add _).symm, vlogistic_apply,
      slice2_apply 0 S slices_S1024x512_o0_0_S1024x256 b ⟨j.val, by omega⟩ ⟨j.val, by omega⟩ (Nat.zero_add _).symm]
  have eL128 : extractStridedSlice S1024x128 ![0, 128] (Idealize.ShloMosaic.logistic (extractStridedSlice S1024x256 ![0, 0] S slices_S1024x512_o0_0_S1024x256)) slices_S1024x256_o0_128_S1024x128 (ix2 b j)
      = Ideal.logistic (S (ix2 b ⟨128 + j.val, by omega⟩)) := by
    rw [slice2_apply 128 _ slices_S1024x256_o0_128_S1024x128 b j ⟨128 + j.val, by omega⟩ rfl, vlogistic_apply,
      slice2_apply 0 S slices_S1024x512_o0_0_S1024x256 b ⟨128 + j.val, by omega⟩ ⟨128 + j.val, by omega⟩ (Nat.zero_add _).symm]
  simp only [addf_apply, mulf_apply, subf_apply, vtanh_apply]
  rw [e256, e384, eL0, eL128]

/-- The new state at `(b, j)` is the fused step of row `b`, when the old state read is the row's second half. -/
theorem k2_pay3_apply (v8 : FVec Ideal S1024x256 .f32) (v9 : FVec Ideal S256x512 .f32) (v12 : FVec Ideal S1x512 .f32) (v25 : FVec Ideal S1024x128 .f32)
    (b : Fin 1024) (j : Fin 128) (h25 : v25 (ix2 b j) = v8 (ix2 b ⟨128 + j.val, by omega⟩)) :
    k2_pay3 (F := Ideal) v8 v9 v12 v25 (ix2 b j) = fused128 (rowOf v8 b) (matOf v9) (biasOf v12) j := by
  refine (gate_apply (preAct v8 v9 v12) v25 b j).trans ?_
  rw [preAct_apply, preAct_apply, preAct_apply, preAct_apply, h25]
  rfl

theorem k2_pay4_apply (v8 : FVec Ideal S1024x256 .f32) (v9 : FVec Ideal S256x512 .f32) (v12 : FVec Ideal S1x512 .f32) (v25 : FVec Ideal S1024x128 .f32)
    (b : Fin 1024) (j : Fin 128) (h25 : v25 (ix2 b j) = v8 (ix2 b ⟨128 + j.val, by omega⟩)) :
    k2_pay4 (F := Ideal) v8 v9 v12 v25 (ix2 b j) = fused128 (rowOf v8 b) (matOf v9) (biasOf v12) j := by
  unfold k2_pay4
  rw [shapeCast_self]
  exact k2_pay3_apply v8 v9 v12 v25 b j h25

/-- The step's block, laid into the scratch's left half: the block at `(0, b, j)`. -/
theorem k2_pay2_apply (v3 : FVec Ideal S1x1024x128 .f32) (b : Fin 1024) (j : Fin 128) :
    k2_pay2 (F := Ideal) v3 (ix2 b j) = v3 (ix3 0 b j) := by
  unfold k2_pay2
  rw [shapeCast_self]
  exact shapeCast_apply v3 shapeCasts_S1x1024x128_S1024x128 (ix2 b j) (ix3 0 b j) (by
    rw [Shape.rowMajor_val_three, Shape.rowMajor_val_two]
    show (0 * 1024 + b.val) * 128 + j.val = b.val * 128 + j.val
    omega)

/-- The zero state. -/
theorem k2_pay1_apply (i : S1024x128.Idx) : k2_pay1 (F := Ideal) i = 0 := by
  unfold k2_pay1
  rw [shapeCast_self]
  show Ideal.ofBits .f32 0x00000000#32 = 0
  exact Ideal.ofBits_zero_f32

/-- The closing product: the padded linear layer of the new state. -/
theorem k2_pay5_apply (v8 : FVec Ideal S1024x256 .f32) (v9 : FVec Ideal S256x512 .f32) (v12 : FVec Ideal S1x512 .f32) (v25 : FVec Ideal S1024x128 .f32)
    (v35 : FVec Ideal S128x3 .f32) (v38 : FVec Ideal S1x3 .f32) (b : Fin 1024) (c : Fin 3) :
    k2_pay5 (F := Ideal) v8 v9 v12 v25 v35 v38 (ix2 b c) = (∑ k : Fin 128, k2_pay3 (F := Ideal) v8 v9 v12 v25 (ix2 b k) * v35 (ix2 k c)) + v38 (ix2 0 c) := by
  unfold k2_pay5
  rw [addf_apply, shapeCast_self, shapeCast_self, matmul_zero_eq_dotGeneral]
  rw [show Host.dotGeneral dot_S1024x128_S128x3_S1024x3_1_0_0_1_n_n none (k2_pay3 (F := Ideal) v8 v9 v12 v25) v35 (ix2 b c) = ∑ k : Fin 128, k2_pay3 (F := Ideal) v8 v9 v12 v25 (ix2 b k) * v35 (ix2 k c) from
    StackMember.dotGeneral_plain_apply (m := 1024) (n := 3) none (k2_pay3 (F := Ideal) v8 v9 v12 v25) v35 b c]
  rw [broadcastTo_apply v38 broadcasts_S1x3_S1024x3 (ix2 b c) (ix2 0 c) (fun a => match a with
    | ⟨0, _⟩ => rfl
    | ⟨1, _⟩ => by show c.val = if (3 : ℕ) = 1 then 0 else c.val; rw [if_neg (by decide)])]

end Cert.Proof.KI

end
-- ==== Proof.KITcGruValue.lean ====
/-
  The recurrent kernel's region, by value, at the ideal values: what the carried scratch holds after each point — the
  step's block on lanes 0–127 of every row, the state after that many fused steps on lanes 128–255 — by induction on
  the point, from the body's stores read at an index and the payload lemmas; and the output array after the region: the
  padded linear layer of the state after 50 steps.
-/
import proofs.«204407_g76768245448983_cont_9to1_m_970_19_alg».proof.Proof.KITcGru
import proofs.«204407_g76768245448983_cont_9to1_m_970_19_alg».proof.Proof.KITcGruPay

set_option maxRecDepth 16384

noncomputable section

namespace Cert.Proof.KI

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Spec Cert.Proof.StepLaw Cert.Proof.KernelSpec

variable {Ix : Type} [DecidableEq Ix] {Name : Type} [DecidableEq Name] {U : Type} [URA U] {Lvl : Type} [Preorder Lvl]

/-! ## The scratch's two halves and the whole rectangles, by coordinates -/

theorem hz2 : (![0, 0] : Fin 2 → ℕ) = fun _ => 0 := by funext a; fin_cases a <;> rfl
theorem hz3 : (![0, 0, 0] : Fin 3 → ℕ) = fun _ => 0 := by funext a; fin_cases a <;> rfl

/-- Lanes 0–127 of the scratch, -/
abbrev rSL : Rect S1024x256 := Rect.unit (s := S1024x256) ![0, 0] S1024x128.size inb_S1024x256_S1024x128_0_0
/-- lanes 128–255, -/
abbrev rSR : Rect S1024x256 := Rect.unit (s := S1024x256) ![0, 128] S1024x128.size inb_S1024x256_S1024x128_0_128
/-- and all of it. -/
abbrev rSW : Rect S1024x256 := Rect.unit (s := S1024x256) ![0, 0] S1024x256.size inb_S1024x256_S1024x256_0_0

theorem rSL_emb (b : Fin 1024) (k : Fin 128) : rSL.emb (ix2 b k) = ix2 b ⟨k.val, by omega⟩ :=
  funext fun a => Fin.ext (match a with
    | ⟨0, _⟩ => by show 0 + 1 * b.val = b.val; omega
    | ⟨1, _⟩ => by show 0 + 1 * k.val = k.val; omega)
theorem rSR_emb (b : Fin 1024) (j : Fin 128) : rSR.emb (ix2 b j) = ix2 b ⟨128 + j.val, by omega⟩ :=
  funext fun a => Fin.ext (match a with
    | ⟨0, _⟩ => by show 0 + 1 * b.val = b.val; omega
    | ⟨1, _⟩ => by show 128 + 1 * j.val = 128 + j.val; omega)
theorem rSW_idx (i : S1024x256.Idx) : rSW.toLoadRect.idx i = i :=
  funext fun a => Fin.ext (match a with
    | ⟨0, _⟩ => by show 0 + 1 * (i 0).val = (i 0).val; omega
    | ⟨1, _⟩ => by show 0 + 1 * (i 1).val = (i 1).val; omega)
theorem rSR_idx (b : Fin 1024) (j : Fin 128) : rSR.toLoadRect.idx (ix2 b j) = ix2 b ⟨128 + j.val, by omega⟩ := rSR_emb b j

theorem hi_not_mem_rSL (b : Fin 1024) (j : Fin 128) : (ix2 b ⟨128 + j.val, by omega⟩ : S1024x256.Idx) ∉ rSL.set := fun h => by
  have := (Rect.mem_set_unit.mp h) 1
  have h2 : (128 + j.val : ℕ) < 0 + 128 := this.2
  omega
theorem lo_not_mem_rSR (b : Fin 1024) (k : Fin 128) : (ix2 b ⟨k.val, by omega⟩ : S1024x256.Idx) ∉ rSR.set := fun h => by
  have := (Rect.mem_set_unit.mp h) 1
  have h2 : (128 : ℕ) ≤ k.val := this.1
  omega

/-! ## Pieces through the halves, read at an index -/

section Canon
variable (wR : rSR.shape.Idx → Elt Ideal .f32) (wL : rSL.shape.Idx → Elt Ideal .f32) (L : List (View.Piece (Elt Ideal) S1024x256 .f32))

theorem canon_R_hi (b : Fin 1024) (j : Fin 128) : View.canon (⟨rSR, wR⟩ :: L) (ix2 b ⟨128 + j.val, by omega⟩) = wR (ix2 b j) := by
  rw [← rSR_emb b j]; exact View.canon_cons_emb rSR wR L (ix2 b j)
theorem canon_R_lo (b : Fin 1024) (k : Fin 128) : View.canon (⟨rSR, wR⟩ :: L) (ix2 b ⟨k.val, by omega⟩) = View.canon L (ix2 b ⟨k.val, by omega⟩) :=
  View.canon_cons_of_not_mem _ _ (lo_not_mem_rSR b k)
theorem canon_L_lo (b : Fin 1024) (k : Fin 128) : View.canon (⟨rSL, wL⟩ :: L) (ix2 b ⟨k.val, by omega⟩) = wL (ix2 b k) := by
  rw [← rSL_emb b k]; exact View.canon_cons_emb rSL wL L (ix2 b k)
theorem canon_L_hi (b : Fin 1024) (j : Fin 128) : View.canon (⟨rSL, wL⟩ :: L) (ix2 b ⟨128 + j.val, by omega⟩) = View.canon L (ix2 b ⟨128 + j.val, by omega⟩) :=
  View.canon_cons_of_not_mem _ _ (hi_not_mem_rSL b j)

variable {κ : Kind} {sp : Space} (v : View sig κ sp S1024x256 .f32) (f : v.ty.Contents (Elt Ideal))

theorem read_writes_L_lo (b : Fin 1024) (k : Fin 128) : v.read (Elt Ideal) (v.writes (Elt Ideal) f (⟨rSL, wL⟩ :: L)) (ix2 b ⟨k.val, by omega⟩) = wL (ix2 b k) := by
  rw [← rSL_emb b k]; exact View.read_writes_cons_emb v f rSL wL L (ix2 b k)
theorem read_writes_L_hi (b : Fin 1024) (j : Fin 128) :
    v.read (Elt Ideal) (v.writes (Elt Ideal) f [⟨rSL, wL⟩]) (ix2 b ⟨128 + j.val, by omega⟩) = v.read (Elt Ideal) f (ix2 b ⟨128 + j.val, by omega⟩) :=
  View.read_writes_apply_of_forall_not_mem v f _ _ (fun p hp => by
    rw [List.mem_singleton] at hp; subst hp; exact hi_not_mem_rSL b j)

end Canon

/-- A row of 256 lanes given by its two halves is the row the fused step reads. -/
theorem rowOf_eq (v8 : FVec Ideal S1024x256 .f32) (b : Fin 1024) (x h : Fin 128 → EReal)
    (hlo : ∀ k : Fin 128, v8 (ix2 b ⟨k.val, by omega⟩) = x k) (hhi : ∀ j : Fin 128, v8 (ix2 b ⟨128 + j.val, by omega⟩) = h j) :
    rowOf v8 b = xhOf x h := by
  funext i
  unfold rowOf xhOf
  by_cases hi : i.val < 128
  · rw [dif_pos hi]; exact hlo ⟨i.val, hi⟩
  · rw [dif_neg hi]
    have e : i = ⟨128 + (⟨i.val - 128, by omega⟩ : Fin 128).val, by omega⟩ := Fin.ext (by show i.val = 128 + (i.val - 128); omega)
    exact (congrArg (fun i' => v8 (ix2 b i')) e).trans (hhi ⟨i.val - 128, by omega⟩)

/-! ## Loads of whole memrefs -/

/-- A load of a whole memref through the whole rectangle reads its contents. -/
theorem readAt_whole_unread {s : Shape} {off : Fin s.rank → ℕ} (hz : off = fun _ => 0) (inb : ∀ a, off a + s.size a ≤ s.size a)
    (m : Memref sig .tc .vmem s .f32) (hm : m.IsWhole) (x : Vec Ideal s .f32) :
    View.readAt (Elt Ideal) m.view (Rect.unit off s.size inb).toLoadRect (hm.unread x) = x := by
  rw [View.readAt_eq_ld, hm.read_unread, View.ld_unit_zero hz]

/-- The step's block as a row of 128 lanes, -/
def xrow (x0 : Vec Ideal S1x1024x128 .f32) (b : Fin 1024) : Fin 128 → EReal := fun k => x0 (ix3 0 b k)
/-- and lanes 128–255 of a row of the scratch. -/
def hrow (xs : Vec Ideal S1024x256 .f32) (b : Fin 1024) : Fin 128 → EReal := fun j => xs (ix2 b ⟨128 + j.val, by omega⟩)

/-! ## What each case leaves on lanes 128–255 of the scratch, and the last in the output block -/

section Steps

variable (c : Dev nD) (i : grid2.Coords) (arg1 : Memref sig .tc .vmem S1x1024x128 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S1024x3 .f32) (harg6 : arg6.IsWhole) (arg7 : Memref sig .tc .vmem S1024x256 .f32) (harg7 : arg7.IsWhole)
  (x0 : Vec Ideal S1x1024x128 .f32) (x1 : Vec Ideal S256x512 .f32) (x2 : Vec Ideal S1x512 .f32) (x3 : Vec Ideal S128x3 .f32) (x4 : Vec Ideal S1x3 .f32)

set_option maxHeartbeats 1000000 in
/-- A middle point: lanes 128–255 of row `b` after it are the fused step of [the step's block | the lanes before]. -/
theorem sout2_B_hi (hc0 : ¬cond2_0 i) (hc1 : ¬cond2_1 i) (xs : Vec Ideal S1024x256 .f32) (b : Fin 1024) (j : Fin 128) :
    sout2_B (F := Ideal) (Ix := Ix) (Name := Name) (U := U) (Lvl := Lvl) c i arg1 harg1 arg2 harg2 arg3 harg3 arg4 harg4 arg5 harg5 arg6 harg6 arg7 harg7 hc0 hc1 x0 x1 x2 x3 x4 xs (ix2 b ⟨128 + j.val, by omega⟩)
      = fused128 (xhOf (xrow x0 b) (hrow xs b)) (matOf x1) (biasOf x2) j := by
  unfold sout2_B
  rw [View.read_writes_junk_eq_canon]
  unfold kernelRun2_B
  dsimp only
  rw [canon_R_hi]
  unfold kernelRun2_B.sl.HS_1 kernelRun2_B.sl.v25
  rw [readAt_whole_unread hz3, readAt_whole_unread hz2, readAt_whole_unread hz2]
  refine (k2_pay4_apply _ _ _ _ b j ?_).trans ?_
  · rw [View.readAt_apply, rSR_idx, harg7.read_unread, View.readAt_apply, rSW_idx, read_writes_L_hi, harg7.read_unread]
  · refine congrArg (fun r => fused128 r (matOf x1) (biasOf x2) j) (rowOf_eq _ b _ _ (fun k => ?_) (fun j' => ?_))
    · rw [View.readAt_apply, rSW_idx, read_writes_L_lo, k2_pay2_apply]; rfl
    · rw [View.readAt_apply, rSW_idx, read_writes_L_hi, harg7.read_unread]; rfl

set_option maxHeartbeats 1000000 in
/-- The last point leaves the same on the scratch, -/
theorem sout2_C_hi (hc0 : ¬cond2_0 i) (hc1 : cond2_1 i) (xs : Vec Ideal S1024x256 .f32) (b : Fin 1024) (j : Fin 128) :
    sout2_C (F := Ideal) (Ix := Ix) (Name := Name) (U := U) (Lvl := Lvl) c i arg1 harg1 arg2 harg2 arg3 harg3 arg4 harg4 arg5 harg5 arg6 harg6 arg7 harg7 hc0 hc1 x0 x1 x2 x3 x4 xs (ix2 b ⟨128 + j.val, by omega⟩)
      = fused128 (xhOf (xrow x0 b) (hrow xs b)) (matOf x1) (biasOf x2) j := by
  unfold sout2_C
  rw [View.read_writes_junk_eq_canon]
  unfold kernelRun2_C
  dsimp only
  rw [canon_R_hi]
  unfold kernelRun2_C.sl.HS_1 kernelRun2_C.sl.v25
  rw [readAt_whole_unread hz3, readAt_whole_unread hz2, readAt_whole_unread hz2]
  refine (k2_pay4_apply _ _ _ _ b j ?_).trans ?_
  · rw [View.readAt_apply, rSR_idx, harg7.read_unread, View.readAt_apply, rSW_idx, read_writes_L_hi, harg7.read_unread]
  · refine congrArg (fun r => fused128 r (matOf x1) (biasOf x2) j) (rowOf_eq _ b _ _ (fun k => ?_) (fun j' => ?_))
    · rw [View.readAt_apply, rSW_idx, read_writes_L_lo, k2_pay2_apply]; rfl
    · rw [View.readAt_apply, rSW_idx, read_writes_L_hi, harg7.read_unread]; rfl

set_option maxHeartbeats 1000000 in
/-- and in the output block the padded linear layer of that state. -/
theorem out2_C_apply (hc0 : ¬cond2_0 i) (hc1 : cond2_1 i) (xs : Vec Ideal S1024x256 .f32) (b : Fin 1024) (o : Fin 3) :
    out2_C (F := Ideal) (Ix := Ix) (Name := Name) (U := U) (Lvl := Lvl) c i arg1 harg1 arg2 harg2 arg3 harg3 arg4 harg4 arg5 harg5 arg6 harg6 arg7 harg7 hc0 hc1 x0 x1 x2 x3 x4 xs (ix2 b o)
      = (∑ k : Fin 128, fused128 (xhOf (xrow x0 b) (hrow xs b)) (matOf x1) (biasOf x2) k * x3 (ix2 k o)) + x4 (ix2 0 o) := by
  unfold out2_C
  rw [View.read_writes_junk_eq_canon]
  unfold kernelRun2_C
  dsimp only
  rw [View.canon_unit_zero hz2]
  unfold kernelRun2_C.sl.HS_1 kernelRun2_C.sl.v25
  rw [readAt_whole_unread hz3, readAt_whole_unread hz2, readAt_whole_unread hz2, readAt_whole_unread hz2, readAt_whole_unread hz2]
  rw [k2_pay5_apply]
  refine congrArg (· + x4 (ix2 0 o)) (Finset.sum_congr rfl fun k _ => congrArg (· * x3 (ix2 k o)) ?_)
  refine (k2_pay3_apply _ _ _ _ b k ?_).trans ?_
  · rw [View.readAt_apply, rSR_idx, harg7.read_unread, View.readAt_apply, rSW_idx, read_writes_L_hi, harg7.read_unread]
  · refine congrArg (fun r => fused128 r (matOf x1) (biasOf x2) k) (rowOf_eq _ b _ _ (fun k' => ?_) (fun j' => ?_))
    · rw [View.readAt_apply, rSW_idx, read_writes_L_lo, k2_pay2_apply]; rfl
    · rw [View.readAt_apply, rSW_idx, read_writes_L_hi, harg7.read_unread]; rfl

set_option maxHeartbeats 1000000 in
/-- The first point: the lanes before are zeroed, whatever the scratch held. -/
theorem sout2_A_hi (hc0 : cond2_0 i) (hc1 : ¬cond2_1 i) (b : Fin 1024) (j : Fin 128) :
    sout2_A (F := Ideal) (Ix := Ix) (Name := Name) (U := U) (Lvl := Lvl) c i arg1 harg1 arg2 harg2 arg3 harg3 arg4 harg4 arg5 harg5 arg6 harg6 arg7 harg7 hc0 hc1 x0 x1 x2 x3 x4 (ix2 b ⟨128 + j.val, by omega⟩)
      = fused128 (xhOf (xrow x0 b) (fun _ => 0)) (matOf x1) (biasOf x2) j := by
  unfold sout2_A
  rw [View.read_writes_junk_eq_canon]
  unfold kernelRun2_A
  dsimp only
  rw [canon_R_hi]
  unfold kernelRun2_A.sl.v8 kernelRun2_A.sl.v25 kernelRun2_A.sl.HS_2
  rw [readAt_whole_unread hz3, readAt_whole_unread hz2, readAt_whole_unread hz2]
  rw [View.readCov_eq_canon', View.readCov_eq_canon']
  refine (k2_pay4_apply _ _ _ _ b j ?_).trans ?_
  · show View.canon _ (rSR.toLoadRect.idx (ix2 b j)) = View.canon _ (rSW.toLoadRect.idx (ix2 b ⟨128 + j.val, by omega⟩))
    rw [rSR_idx, rSW_idx]
  · refine congrArg (fun r => fused128 r (matOf x1) (biasOf x2) j) (rowOf_eq _ b _ _ (fun k => ?_) (fun j' => ?_))
    · show View.canon _ (rSW.toLoadRect.idx (ix2 b ⟨k.val, by omega⟩)) = _
      rw [rSW_idx, canon_L_lo, k2_pay2_apply]; rfl
    · show View.canon _ (rSW.toLoadRect.idx (ix2 b ⟨128 + j'.val, by omega⟩)) = _
      rw [rSW_idx, canon_L_hi, canon_R_hi, k2_pay1_apply]

end Steps

/-! ## The windows' blocks, read off the arrays -/

/-- The printed index maps, decided over the grid: the sequence's block moves with the point along axis 0; every other
    window's block is the whole array. -/
theorem idx2_all : ∀ t : Fin cfg2.N, win2_0.index t (0 : Fin 3) = t.val ∧ win2_0.index t (1 : Fin 3) = 0 ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

section Blocks

variable (Vt : (c : Dev nD) → (b : Ref sig .tc) → Buf (Elt Ideal) ((c : Thread nD τ).loc b)) (c : Dev nD) (t : Fin cfg2.N)

theorem t_lt (t : Fin cfg2.N) : t.val < 50 := lt_of_lt_of_eq t.isLt (show cfg2.N = 50 from N_2)

theorem iblk2_0_apply (b : Fin 1024) (k : Fin 128) :
    iblk2 Vt c 0 t (ix3 0 b k) = Vt c main_v4 (ix3 (⟨t.val, t_lt t⟩ : Fin 50) b k) := by
  show Vt c main_v4 (((cfg2.win 0).blk t).view.emb (ix3 0 b k)) = _
  obtain ⟨e0, e1, e2, -⟩ := idx2_all t
  refine congrArg (Vt c main_v4) (funext fun a => Fin.ext ?_)
  match a with
  | ⟨0, _⟩ => show win2_0.index t (0 : Fin 3) * 1 + 1 * 0 = t.val; omega
  | ⟨1, _⟩ => show win2_0.index t (1 : Fin 3) * 1024 + 1 * b.val = b.val; omega
  | ⟨2, _⟩ => show win2_0.index t (2 : Fin 3) * 128 + 1 * k.val = k.val; omega

theorem iblk2_1_apply (y : S256x512.Idx) : iblk2 Vt c 1 t y = Vt c main_v26 y := by
  show Vt c main_v26 (((cfg2.win 1).blk t).view.emb y) = _
  obtain ⟨-, -, -, e0, e1, -⟩ := idx2_all t
  refine congrArg (Vt c main_v26) (funext fun a => Fin.ext ?_)
  match a with
  | ⟨0, _⟩ => show win2_1.index t (0 : Fin 2) * 256 + 1 * (y 0).val = (y 0).val; omega
  | ⟨1, _⟩ => show win2_1.index t (1 : Fin 2) * 512 + 1 * (y 1).val = (y 1).val; omega

theorem iblk2_2_apply (y : S1x512.Idx) : iblk2 Vt c 2 t y = Vt c main_v46 y := by
  show Vt c main_v46 (((cfg2.win 2).blk t).view.emb y) = _
  obtain ⟨-, -, -, -, -, e0, e1, -⟩ := idx2_all t
  refine congrArg (Vt c main_v46) (funext fun a => Fin.ext ?_)
  match a with
  | ⟨0, _⟩ => show win2_2.index t (0 : Fin 2) * 1 + 1 * (y 0).val = (y 0).val; omega
  | ⟨1, _⟩ => show win2_2.index t (1 : Fin 2) * 512 + 1 * (y 1).val = (y 1).val; omega

theorem iblk2_3_apply (y : S128x3.Idx) : iblk2 Vt c 3 t y = Vt c main_v48 y := by
  show Vt c main_v48 (((cfg2.win 3).blk t).view.emb y) = _
  obtain ⟨-, -, -, -, -, -, -, e0, e1, -⟩ := idx2_all t
  refine congrArg (Vt c main_v48) (funext fun a => Fin.ext ?_)
  match a with
  | ⟨0, _⟩ => show win2_3.index t (0 : Fin 2) * 128 + 1 * (y 0).val = (y 0).val; omega
  | ⟨1, _⟩ => show win2_3.index t (1 : Fin 2) * 3 + 1 * (y 1).val = (y 1).val; omega

theorem iblk2_4_apply (y : S1x3.Idx) : iblk2 Vt c 4 t y = Vt c main_v49 y := by
  show Vt c main_v49 (((cfg2.win 4).blk t).view.emb y) = _
  obtain ⟨-, -, -, -, -, -, -, -, -, e0, e1, -⟩ := idx2_all t
  refine congrArg (Vt c main_v49) (funext fun a => Fin.ext ?_)
  match a with
  | ⟨0, _⟩ => show win2_4.index t (0 : Fin 2) * 1 + 1 * (y 0).val = (y 0).val; omega
  | ⟨1, _⟩ => show win2_4.index t (1 : Fin 2) * 3 + 1 * (y 1).val = (y 1).val; omega

end Blocks

/-! ## The invariant: lanes 128–255 of the scratch after point `n` hold the state after `n + 1` steps -/

section Inv

variable (V1 : (c : Dev nD) → (b : Ref sig .tc) → Buf (Elt Ideal) ((c : Thread nD τ).loc b)) (d : Dev nD)

/-- The embedded sequence, the packed matrix and bias, the padded linear layer's matrix and bias, as the region finds them. -/
def embV : Fin 50 → Fin 1024 → Fin 128 → EReal := fun t b k => V1 d main_v4 (ix3 t b k)
def wcV : Fin 256 → Fin 512 → EReal := fun k c => V1 d main_v26 (ix2 k c)
def bcV : Fin 512 → EReal := fun c => V1 d main_v46 (ix2 0 c)
def wlV : Fin 128 → Fin 3 → EReal := fun k c => V1 d main_v48 (ix2 k c)
def blV : Fin 3 → EReal := fun c => V1 d main_v49 (ix2 0 c)

theorem xrow_iblk (t : Fin cfg2.N) (b : Fin 1024) : xrow (iblk2 V1 d 0 t) b = embV V1 d (pos t.val) b := by
  funext k
  rw [pos_of_lt (t_lt t)]
  exact iblk2_0_apply V1 d t b k
theorem matOf_iblk (t : Fin cfg2.N) : matOf (iblk2 V1 d 1 t) = wcV V1 d := by
  funext k c; exact iblk2_1_apply V1 d t (ix2 k c)
theorem biasOf_iblk (t : Fin cfg2.N) : biasOf (iblk2 V1 d 2 t) = bcV V1 d := by
  funext c; exact iblk2_2_apply V1 d t (ix2 0 c)

/-- After point `n`, lanes 128–255 of row `b` of the scratch hold the state after `n + 1` fused steps. -/
theorem scr_hi : ∀ (n : ℕ) (hn : n < cfg2.N) (b : Fin 1024),
    hrow (outsAt2 (F := Ideal) (Ix := Ix) (Name := Name) (U := U) (Lvl := Lvl) V1 d n hn).2 b = khid (embV V1 d) (wcV V1 d) (bcV V1 d) (n + 1) b
  | 0, hn, b => by
    funext j
    unfold hrow
    rw [outsAt2_A V1 d ⟨0, hn⟩ rfl (by simp)]
    dsimp only
    rw [sout2_A_hi, xrow_iblk, matOf_iblk, biasOf_iblk]
    rfl
  | n + 1, hn, b => by
    have ih := scr_hi n (Nat.lt_of_succ_lt hn) b
    funext j
    unfold hrow
    by_cases h1 : n + 1 = 49
    · rw [outsAt2_C V1 d ⟨n + 1, hn⟩ (Nat.succ_ne_zero n) h1]
      dsimp only
      rw [sout2_C_hi, xrow_iblk, matOf_iblk, biasOf_iblk]
      rw [show hrow (outsAt2 (F := Ideal) (Ix := Ix) (Name := Name) (U := U) (Lvl := Lvl) V1 d (n + 1 - 1) _).2 b = khid (embV V1 d) (wcV V1 d) (bcV V1 d) (n + 1) b from ih]
      rfl
    · rw [outsAt2_B V1 d ⟨n + 1, hn⟩ (Nat.succ_ne_zero n) h1]
      dsimp only
      rw [sout2_B_hi, xrow_iblk, matOf_iblk, biasOf_iblk]
      rw [show hrow (outsAt2 (F := Ideal) (Ix := Ix) (Name := Name) (U := U) (Lvl := Lvl) V1 d (n + 1 - 1) _).2 b = khid (embV V1 d) (wcV V1 d) (bcV V1 d) (n + 1) b from ih]
      rfl

/-- After the last point the output block holds the padded linear layer of the state after 50 steps. -/
theorem out_last (h49 : 49 < cfg2.N) (b : Fin 1024) (o : Fin 3) :
    (outsAt2 (F := Ideal) (Ix := Ix) (Name := Name) (U := U) (Lvl := Lvl) V1 d 49 h49).1 (ix2 b o) = kout (embV V1 d) (wcV V1 d) (bcV V1 d) (wlV V1 d) (blV V1 d) b o := by
  rw [outsAt2_C V1 d ⟨49, h49⟩ (by simp) rfl]
  dsimp only
  rw [out2_C_apply, xrow_iblk, matOf_iblk, biasOf_iblk]
  rw [show hrow (outsAt2 (F := Ideal) (Ix := Ix) (Name := Name) (U := U) (Lvl := Lvl) V1 d (49 - 1) _).2 b = khid (embV V1 d) (wcV V1 d) (bcV V1 d) (48 + 1) b from scr_hi V1 d 48 _ b]
  unfold kout
  refine congrArg₂ (· + ·) (Finset.sum_congr rfl fun k _ => congrArg₂ (· * ·) rfl ?_) ?_
  · exact iblk2_3_apply V1 d ⟨49, h49⟩ (ix2 k o)
  · exact iblk2_4_apply V1 d ⟨49, h49⟩ (ix2 0 o)

end Inv

/-! ## The output array after the region -/

section Out

variable (V1 : (c : Dev nD) → (b : Ref sig .tc) → Buf (Elt Ideal) ((c : Thread nD τ).loc b))
  (O : Dev nD → CellTallies nD τ sig Ix) (B : Dev nD → Set (SemLoc sig × Ix)) (d : Dev nD)

/-- What the output array ends holding: the padded linear layer of the state after 50 steps, index by index. -/
def Gout : S1024x3.Idx → EReal := fun i =>
  kout (embV V1 d) (wcV V1 d) (bcV V1 d) (wlV V1 d) (blV V1 d) (i 0) (i 1)

/-- What the one write-back writes is the whole of it. -/
theorem flushed5_eq (t : Fin cfg2.N) (hf : (cfg2.win 5).flush t = true) :
    (dat2 (F := Ideal) (Ix := Ix) (Name := Name) (U := U) (Lvl := Lvl) V1 O B d).flushed 5 t = ((cfg2.win 5).blk t).view.read (Elt Ideal) (Gout V1 d) := by
  have ht : t.val = 49 := by have := (flush2_5 t).mp hf; have := t_lt t; omega
  obtain ⟨n, hn⟩ := t
  have hn49 : n = 49 := ht
  subst hn49
  show (cfg2.win 5).cut (grid2.coords ⟨49, hn⟩) ((dat2 (F := Ideal) (Ix := Ix) (Name := Name) (U := U) (Lvl := Lvl) V1 O B d).after 5 ⟨49, hn⟩) = _
  rw [after2_5]
  funext y
  obtain ⟨b, o, rfl⟩ : ∃ (b : Fin 1024) (o : Fin 3), y = ix2 b o := ⟨y 0, y 1, eq_ix2 y⟩
  show (outsAt2 (F := Ideal) (Ix := Ix) (Name := Name) (U := U) (Lvl := Lvl) V1 d 49 hn).1 (ix2 b o) = Gout V1 d (((cfg2.win 5).blk ⟨49, hn⟩).view.emb (ix2 b o))
  rw [out_last V1 d hn b o]
  obtain ⟨-, -, -, -, -, -, -, -, -, -, -, e0, e1⟩ := idx2_all ⟨49, hn⟩
  have he : ((cfg2.win 5).blk ⟨49, hn⟩).view.emb (ix2 b o) = ix2 b o := by
    funext a; apply Fin.ext
    match a with
    | ⟨0, _⟩ => show win2_5.index ⟨49, hn⟩ (0 : Fin 2) * 1024 + 1 * b.val = b.val; omega
    | ⟨1, _⟩ => show win2_5.index ⟨49, hn⟩ (1 : Fin 2) * 3 + 1 * o.val = o.val; omega
  rw [he]
  rfl

/-- Every index of the output array is in the last point's block. -/
theorem cover5 (i : S1024x3.Idx) : ∃ t : Fin cfg2.N, (cfg2.win 5).flush t = true ∧ i ∈ ((cfg2.win 5).blk t).view.set := by
  have h49 : 49 < cfg2.N := by rw [show cfg2.N = 50 from N_2]; omega
  refine ⟨⟨49, h49⟩, (flush2_5 _).mpr rfl, ?_⟩
  show i ∈ ((View.whole main_v50).slice (win2_5.rect ⟨49, h49⟩)).set
  rw [View.set_slice_whole, Rect.mem_set_unit]
  obtain ⟨-, -, -, -, -, -, -, -, -, -, -, e0, e1⟩ := idx2_all ⟨49, h49⟩
  intro a
  match a with
  | ⟨0, _⟩ => show win2_5.index ⟨49, h49⟩ (0 : Fin 2) * 1024 ≤ (i 0).val ∧ (i 0).val < win2_5.index ⟨49, h49⟩ (0 : Fin 2) * 1024 + 1024; have hi : (i 0).val < 1024 := (i 0).isLt; omega
  | ⟨1, _⟩ => show win2_5.index ⟨49, h49⟩ (1 : Fin 2) * 3 ≤ (i 1).val ∧ (i 1).val < win2_5.index ⟨49, h49⟩ (1 : Fin 2) * 3 + 3; have hi : (i 1).val < 3 := (i 1).isLt; omega

/-- THE OUTPUT ARRAY after the region. -/
theorem arrAt5_eq : (dat2 (F := Ideal) (Ix := Ix) (Name := Name) (U := U) (Lvl := Lvl) V1 O B d).arrAt 5 cfg2.N = Gout V1 d :=
  (dat2 (F := Ideal) (Ix := Ix) (Name := Name) (U := U) (Lvl := Lvl) V1 O B d).arrAt_eq_of_cover 5 (Gout V1 d) (fun t hf => flushed5_eq V1 O B d t hf) (cover5)

/-- At an index: the kernel's function of the region's entry contents. -/
theorem gru_out (b : Fin 1024) (o : Fin 3) :
    (dat2 (F := Ideal) (Ix := Ix) (Name := Name) (U := U) (Lvl := Lvl) V1 O B d).arrAt 5 cfg2.N (ix2 b o) = kout (embV V1 d) (wcV V1 d) (bcV V1 d) (wlV V1 d) (blV V1 d) b o := by
  rw [arrAt5_eq]; rfl

end Out

end Cert.Proof.KI

end
-- ==== Proof.PreRange.lean ====
/-
  The range of the integer input, read out of the precondition: every entry of the sentences array, read as a
  signed integer, lies in `[0, 99999]`, the rows of the table. The precondition is a conjunction of `all`s; its last
  conjunct is the `all` over the sentences of `0 ≤ s ∧ s ≤ 99999`, a reduction by `and` from `1` that is `1` only if
  every entry's two comparisons are. Generic in the float instance: the conjunct is about integers only.
-/
import proofs.«204407_g76768245448983_cont_9to1_m_970_19_alg».proof.Pre_input_domain
import proofs.«204407_g76768245448983_cont_9to1_m_970_19_alg».proof.Proof.Gen.Pre_input_domain
import Idealize.ShloMosaic.Lib.ReduceAll
import Idealize.ShloMosaic.Lib.ValueIdx

noncomputable section

namespace Cert.Proof.PreRange

open Idealize.ShloMosaic Cert.Pre_input_domain

/-- The rank-0 shape has one index. -/
instance : Subsingleton S_.Idx := ⟨fun a b => funext fun d => d.elim0⟩

variable [Cert.Pre_input_domain.Facts] {F : FTy → Type} [FloatOps F]

/-- Under the precondition every sentence entry, read signed, is a row of the table: `0 ≤ s ≤ 99999`. -/
theorem sent_range (a0 : FVec F S100000x100 .f32) (a1 : IVec S1024x50 32) (a2 a3 : FVec F S300x100 .f32)
    (a4 a5 : FVec F S300 .f32) (a6 : FVec F S3x100 .f32) (a7 : FVec F S3 .f32)
    (h : fn (F := F) a0 a1 a2 a3 a4 a5 a6 a7 = fun _ => 1#1) (i : S1024x50.Idx) :
    0 ≤ (a1 i).toInt ∧ (a1 i).toInt ≤ 99999 := by
  have h0 := congrFun h ValueIdx.ix0
  dsimp only [fn, fn_part1, fn_part2] at h0
  have h1 := (IntOp.andi_eq_one.1 h0).2
  have h2 := Host.reduce_andi_all _ _ _ _ _ h1 i
  obtain ⟨hge, hle⟩ := IntOp.andi_eq_one.1 h2
  have e1 := IntOp.cmpi_sge.1 hge
  have e2 := IntOp.cmpi_sle.1 hle
  exact ⟨e1, e2⟩

/-- The same as a bound on the entry read unsigned: it names one of the table's 100000 rows. -/
theorem sent_toNat_lt (a0 : FVec F S100000x100 .f32) (a1 : IVec S1024x50 32) (a2 a3 : FVec F S300x100 .f32)
    (a4 a5 : FVec F S300 .f32) (a6 : FVec F S3x100 .f32) (a7 : FVec F S3 .f32)
    (h : fn (F := F) a0 a1 a2 a3 a4 a5 a6 a7 = fun _ => 1#1) (i : S1024x50.Idx) :
    (a1 i).toNat < 100000 ∧ (a1 i).toInt = ((a1 i).toNat : Int) := by
  obtain ⟨h0, h1⟩ := sent_range a0 a1 a2 a3 a4 a5 a6 a7 h i
  have hc := BitVec.toInt_eq_toNat_cond (a1 i)
  have hlt := (a1 i).isLt
  constructor
  · split at hc <;> omega
  · split at hc <;> omega

end Cert.Proof.PreRange

end
-- ==== Proof.lean ====
/-
  The certificate's five claims for the embedding-lookup + gated-recurrent-unit kernel against its reference.

  The kernel's program pads the embedding table to 128 lanes in a first TensorCore region, re-lays the token indices on
  the host, gathers the padded rows on the SparseCores (32 tiles, each moving its 1600 rows in four chunks of 400),
  re-lays the recurrent weights into one [256, 512] matrix and the biases into one [1, 512] row on the host, and runs
  the 50 steps of the recurrence in a second TensorCore region that carries the state in a scratch buffer and writes the
  output layer at the last step. Its run is assembled from the two regions' body proofs, the tiles' task proof and the
  host stretches, with the contents of every buffer named from the launch memory to the end (Proof/KIFinal.lean for
  the extended-real instance, Proof/KBFinal.lean the same text at the word-level instance): each frame is that run with
  the result's value dropped. The reference's run is read back as the specification `Spec.G` (Proof/RefIsSpec.lean), the
  kernel's result is the same function (Proof/KIValue.lean: the padded lanes meet zero rows of the packed matrix, and
  n + z·(h − n) = (1 − z)·n + z·h on the real numbers the recurrence lives in), and the two runs end equal.
-/
import proofs.«204407_g76768245448983_cont_9to1_m_970_19_alg».proof.Defs
import proofs.«204407_g76768245448983_cont_9to1_m_970_19_alg».proof.Proof.Gen.Kernel
import proofs.«204407_g76768245448983_cont_9to1_m_970_19_alg».proof.Proof.Gen.Kernel.Skeleton
import proofs.«204407_g76768245448983_cont_9to1_m_970_19_alg».proof.Proof.Gen.Kernel.Launch
import proofs.«204407_g76768245448983_cont_9to1_m_970_19_alg».proof.Proof.Gen.Kernel.Regions
import proofs.«204407_g76768245448983_cont_9to1_m_970_19_alg».proof.Proof.Gen.Kernel.Points
import proofs.«204407_g76768245448983_cont_9to1_m_970_19_alg».proof.Proof.Gen.KernelIdeal
import proofs.«204407_g76768245448983_cont_9to1_m_970_19_alg».proof.Proof.Gen.KernelIdeal.Skeleton
import proofs.«204407_g76768245448983_cont_9to1_m_970_19_alg».proof.Proof.Gen.KernelIdeal.Launch
import proofs.«204407_g76768245448983_cont_9to1_m_970_19_alg».proof.Proof.Gen.KernelIdeal.Regions
import proofs.«204407_g76768245448983_cont_9to1_m_970_19_alg».proof.Proof.Gen.KernelIdeal.Points
import proofs.«204407_g76768245448983_cont_9to1_m_970_19_alg».proof.Proof.Gen.ReferenceIdeal
import proofs.«204407_g76768245448983_cont_9to1_m_970_19_alg».proof.Proof.Gen.Pre_input_domain
import proofs.«204407_g76768245448983_cont_9to1_m_970_19_alg».proof.Proof.KIFinal
import proofs.«204407_g76768245448983_cont_9to1_m_970_19_alg».proof.Proof.KBFinal
import proofs.«204407_g76768245448983_cont_9to1_m_970_19_alg».proof.Proof.RefFrame
import proofs.«204407_g76768245448983_cont_9to1_m_970_19_alg».proof.Proof.RefIsSpec
import proofs.«204407_g76768245448983_cont_9to1_m_970_19_alg».proof.Proof.KIValue
import proofs.«204407_g76768245448983_cont_9to1_m_970_19_alg».proof.Proof.KITcGruValue
import proofs.«204407_g76768245448983_cont_9to1_m_970_19_alg».proof.Proof.PreRange
import Idealize.ShloMosaic.Adequacy
import Idealize.ShloMosaic.Init

noncomputable section

namespace Cert.Proof

open Idealize.ShloMosaic Idealize.SL.Sem

/-- The word-level kernel runs to the end, nothing faulting, its arguments unchanged: its named run with the result's
    value dropped; the token indices name rows of the table by the precondition. -/
theorem frame_p : Cert.frame_Kernel := fun m ρ hpre =>
  (θ_run (Cert.Kernel.defs (F := Bits)) _ _).mono (fun _ h c => (h c).2)
    (Cert.Proof.KB.run_strong m ρ fun d i => (Cert.Proof.PreRange.sent_toNat_lt _ _ _ _ _ _ _ _ (hpre d) i).1)

/-- The same of the idealized kernel. -/
theorem frame_pi : Cert.frame_KernelIdeal := fun m ρ hpre =>
  (θ_run (Cert.KernelIdeal.defs (F := Ideal)) _ _).mono (fun _ h c => (h c).2)
    (Cert.Proof.KI.run_strong m ρ fun d i => (Cert.Proof.PreRange.sent_toNat_lt _ _ _ _ _ _ _ _ (hpre d) i).1)

/-- The ideal pass rewrote no operation: nothing to preserve. -/
theorem preserves : Cert.preserves_Kernel_KernelIdeal := trivial

/-- The idealized kernel and the idealized reference, run from memories agreeing on the arguments, end with equal results:
    the kernel's result array is the specification `Spec.G` of its arguments (the recurrence's state after 50 steps read
    through the padded output layer), the reference's run ends at `Spec.G` of its own, and the arguments agree. -/
theorem algebraic : Cert.algebraic_KernelIdeal_ReferenceIdeal := by
  intro m ρ m' ρ' hpre hagree
  have hs : ∀ (c : Dev Cert.KernelIdeal.nD) i,
      0 ≤ (m ((c.tc : Thread Cert.KernelIdeal.nD Cert.KernelIdeal.τ).loc Cert.KernelIdeal.main_arg1) i).toInt
        ∧ (m ((c.tc : Thread Cert.KernelIdeal.nD Cert.KernelIdeal.τ).loc Cert.KernelIdeal.main_arg1) i).toInt ≤ 99999 :=
    fun c i => Cert.Proof.PreRange.sent_range _ _ _ _ _ _ _ _ (hpre c) i
  refine ⟨fun c => Cert.Proof.KI.resultOf (F := Ideal) m c,
    Cert.Proof.KI.run_strong m ρ (fun d i => (Cert.Proof.PreRange.sent_toNat_lt _ _ _ _ _ _ _ _ (hpre d) i).1), ?_⟩
  have hs' : ∀ (c : Dev Cert.ReferenceIdeal.nD) i,
      0 ≤ (Cert.Proof.RefIsSpec.A1 m' c i).toInt ∧ (Cert.Proof.RefIsSpec.A1 m' c i).toInt ≤ 99999 := fun c i => by
    have h := hs c i
    rw [← (hagree c).2.1] at h
    exact h
  refine (θ_run (Cert.ReferenceIdeal.defs (F := Ideal)) _ _).mono (fun r h c => ⟨(h c).1.trans ?_, (h c).2⟩)
    (Cert.Proof.RefIsSpec.run_G m' ρ' hs')
  show _ = Cert.Proof.KI.resultOf (F := Ideal) m c
  rw [Cert.Proof.KI.result_eq m hs c (fun b o => Cert.Proof.KI.gru_out _ _ _ c b o)]
  unfold Cert.Proof.RefIsSpec.A0 Cert.Proof.RefIsSpec.A1 Cert.Proof.RefIsSpec.A2 Cert.Proof.RefIsSpec.A3
    Cert.Proof.RefIsSpec.A4 Cert.Proof.RefIsSpec.A5 Cert.Proof.RefIsSpec.A6 Cert.Proof.RefIsSpec.A7
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_input_domain.Gen.facts,
  frame_p, frame_pi, Cert.Proof.Ref.frame_ri, preserves, algebraic⟩

end Cert.Proof

end
